-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S256 .f32) (main_arg9 : FVec F S256 .f32) (main_arg10 : FVec F S256 .f32) (main_arg11 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S256 .f32) (main_arg6 : FVec F S256x64 .f32) (main_arg7 : FVec F S64 .f32) (main_arg8 : FVec F S256 .f32) (main_arg9 : FVec F S256 .f32) (main_arg10 : FVec F S256 .f32) (main_arg11 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x512 .f32) (main_arg1 : IVec S2x800000 32) (main_arg2 : FVec F S512x256 .f32) (main_arg3 : FVec F S256 .f32) (main_arg4 : FVec F S256x256 .f32) (main_arg5 : FVec F S256 .f32) (main_arg6 : FVec F S256x64 .f32) (main_arg7 : FVec F S64 .f32) (main_arg8 : FVec F S256 .f32) (main_arg9 : FVec F S256 .f32) (main_arg10 : FVec F S256 .f32) (main_arg11 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 257
  | .vmem => 31
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x256, .f32⟩
  | 5 => ⟨S256, .f32⟩
  | 6 => ⟨S256x64, .f32⟩
  | 7 => ⟨S64, .f32⟩
  | 8 => ⟨S256, .f32⟩
  | 9 => ⟨S256, .f32⟩
  | 10 => ⟨S256, .f32⟩
  | 11 => ⟨S256, .f32⟩
  | 12 => ⟨S1x800000, .i32⟩
  | 13 => ⟨S800000, .i32⟩
  | 14 => ⟨S1x800000, .i32⟩
  | 15 => ⟨S800000, .i32⟩
  | 16 => ⟨S50000x256, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x256, .f32⟩
  | 55 => ⟨S800000x1, .f32⟩
  | 56 => ⟨S800000x256, .f32⟩
  | 57 => ⟨S800000x256, .f32⟩
  | 58 => ⟨S_, .f32⟩
  | 59 => ⟨S50000x256, .f32⟩
  | 60 => ⟨S800000x1, .i32⟩
  | 61 => ⟨S50000x256, .f32⟩
  | 62 => ⟨S50000, .f32⟩
  | 63 => ⟨S50000x1, .f32⟩
  | 64 => ⟨S50000x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S256, .f32⟩
  | 72 => ⟨S_, .f32⟩
  | 73 => ⟨S256, .f32⟩
  | 74 => ⟨S256, .f32⟩
  | 75 => ⟨S_, .i32⟩
  | 76 => ⟨S_, .f32⟩
  | 77 => ⟨S256, .f32⟩
  | 78 => ⟨S1x256, .f32⟩
  | 79 => ⟨S_, .f32⟩
  | 80 => ⟨S1x256, .f32⟩
  | 81 => ⟨S1x256, .f32⟩
  | 82 => ⟨S50000x256, .f32⟩
  | 83 => ⟨S50000x256, .f32⟩
  | 84 => ⟨S50000x256, .f32⟩
  | 85 => ⟨S_, .f32⟩
  | 86 => ⟨S_, .f32⟩
  | 87 => ⟨S_, .f32⟩
  | 88 => ⟨S_, .f32⟩
  | 89 => ⟨S256, .f32⟩
  | 90 => ⟨S256, .f32⟩
  | 91 => ⟨S256, .f32⟩
  | 92 => ⟨S_, .f32⟩
  | 93 => ⟨S_, .i1⟩
  | 94 => ⟨S_, .f32⟩
  | 95 => ⟨S_, .f32⟩
  | 96 => ⟨S256, .f32⟩
  | 97 => ⟨S256, .f32⟩
  | 98 => ⟨S_, .f32⟩
  | 99 => ⟨S256, .f32⟩
  | 100 => ⟨S256, .f32⟩
  | 101 => ⟨S256, .f32⟩
  | 102 => ⟨S256, .f32⟩
  | 103 => ⟨S1x256, .f32⟩
  | 104 => ⟨S256, .f32⟩
  | 105 => ⟨S256, .f32⟩
  | 106 => ⟨S256, .f32⟩
  | 107 => ⟨S1x256, .f32⟩
  | 108 => ⟨S50000x256, .f32⟩
  | 109 => ⟨S50000x256, .f32⟩
  | 110 => ⟨S_, .f32⟩
  | 111 => ⟨S800000, .f32⟩
  | 112 => ⟨S_, .f32⟩
  | 113 => ⟨S50000, .f32⟩
  | 114 => ⟨S800000x1, .i32⟩
  | 115 => ⟨S50000, .f32⟩
  | 116 => ⟨S_, .f32⟩
  | 117 => ⟨S50000, .f32⟩
  | 118 => ⟨S50000, .f32⟩
  | 119 => ⟨S50000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x512, .f32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000, .f32⟩
  | 10 => ⟨S800000, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x256, .f32⟩
  | 20 => ⟨S800000x1, .f32⟩
  | 21 => ⟨S800000x256, .f32⟩
  | 22 => ⟨S800000x256, .f32⟩
  | 23 => ⟨S_, .f32⟩
  | 24 => ⟨S50000x256, .f32⟩
  | 25 => ⟨S800000x1, .i32⟩
  | 26 => ⟨S50000x256, .f32⟩
  | 27 => ⟨S50000, .f32⟩
  | 28 => ⟨S50000x1, .f32⟩
  | 29 => ⟨S50000x256, .f32⟩
  | 30 => ⟨S50000x256, .f32⟩
  | 31 => ⟨S50000x256, .f32⟩
  | 32 => ⟨S1x256, .f32⟩
  | 33 => ⟨S50000x256, .f32⟩
  | 34 => ⟨S50000x256, .f32⟩
  | 35 => ⟨S_, .f32⟩
  | 36 => ⟨S256, .f32⟩
  | 37 => ⟨S_, .f32⟩
  | 38 => ⟨S256, .f32⟩
  | 39 => ⟨S256, .f32⟩
  | 40 => ⟨S_, .i32⟩
  | 41 => ⟨S_, .f32⟩
  | 42 => ⟨S256, .f32⟩
  | 43 => ⟨S1x256, .f32⟩
  | 44 => ⟨S_, .f32⟩
  | 45 => ⟨S1x256, .f32⟩
  | 46 => ⟨S1x256, .f32⟩
  | 47 => ⟨S50000x256, .f32⟩
  | 48 => ⟨S50000x256, .f32⟩
  | 49 => ⟨S50000x256, .f32⟩
  | 50 => ⟨S_, .f32⟩
  | 51 => ⟨S_, .f32⟩
  | 52 => ⟨S_, .f32⟩
  | 53 => ⟨S_, .f32⟩
  | 54 => ⟨S256, .f32⟩
  | 55 => ⟨S256, .f32⟩
  | 56 => ⟨S256, .f32⟩
  | 57 => ⟨S_, .f32⟩
  | 58 => ⟨S_, .i1⟩
  | 59 => ⟨S_, .f32⟩
  | 60 => ⟨S_, .f32⟩
  | 61 => ⟨S256, .f32⟩
  | 62 => ⟨S256, .f32⟩
  | 63 => ⟨S_, .f32⟩
  | 64 => ⟨S256, .f32⟩
  | 65 => ⟨S256, .f32⟩
  | 66 => ⟨S256, .f32⟩
  | 67 => ⟨S256, .f32⟩
  | 68 => ⟨S1x256, .f32⟩
  | 69 => ⟨S256, .f32⟩
  | 70 => ⟨S256, .f32⟩
  | 71 => ⟨S256, .f32⟩
  | 72 => ⟨S1x256, .f32⟩
  | 73 => ⟨S50000x256, .f32⟩
  | 74 => ⟨S50000x64, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000, .f32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x1, .f32⟩
  | 114 => ⟨S800000x64, .f32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S50000, .f32⟩
  | 121 => ⟨S50000x1, .f32⟩
  | 122 => ⟨S50000x64, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x512, .f32⟩

abbrev hbmTy0_2 (i : Nat) : BufTy := match i % 128 with
  | 0 => ⟨S50000x64, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S1x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v51 : Ref sig .tc := ⟨.hbm, 97, rfl⟩
abbrev main_cst_11 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_12 : Ref sig .tc := ⟨.hbm, 110, rfl⟩
abbrev main_v63 : Ref sig .tc := ⟨.hbm, 111, rfl⟩
abbrev main_cst_13 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_14 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_c_15 : Ref sig .tc := ⟨.hbm, 120, rfl⟩
abbrev main_v70 : Ref sig .tc := ⟨.hbm, 121, rfl⟩
abbrev main_v71 : Ref sig .tc := ⟨.hbm, 122, rfl⟩
abbrev main_c_16 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_17 : Ref sig .tc := ⟨.hbm, 129, rfl⟩
abbrev main_v77 : Ref sig .tc := ⟨.hbm, 130, rfl⟩
abbrev main_v78 : Ref sig .tc := ⟨.hbm, 131, rfl⟩
abbrev main_c_18 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_19 : Ref sig .tc := ⟨.hbm, 139, rfl⟩
abbrev main_v85 : Ref sig .tc := ⟨.hbm, 140, rfl⟩
abbrev main_v86 : Ref sig .tc := ⟨.hbm, 141, rfl⟩
abbrev main_c_20 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_21 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_22 : Ref sig .tc := ⟨.hbm, 163, rfl⟩
abbrev main_v106 : Ref sig .tc := ⟨.hbm, 164, rfl⟩
abbrev main_cst_23 : Ref sig .tc := ⟨.hbm, 165, rfl⟩
abbrev main_v107 : Ref sig .tc := ⟨.hbm, 166, rfl⟩
abbrev main_v108 : Ref sig .tc := ⟨.hbm, 167, rfl⟩
abbrev main_c_24 : Ref sig .tc := ⟨.hbm, 168, rfl⟩
abbrev main_call1_cst : Ref sig .tc := ⟨.hbm, 169, rfl⟩
abbrev main_call1_v0 : Ref sig .tc := ⟨.hbm, 170, rfl⟩
abbrev main_call1_v1 : Ref sig .tc := ⟨.hbm, 171, rfl⟩
abbrev main_call1_cst_0 : Ref sig .tc := ⟨.hbm, 172, rfl⟩
abbrev main_call1_v2 : Ref sig .tc := ⟨.hbm, 173, rfl⟩
abbrev main_call1_v3 : Ref sig .tc := ⟨.hbm, 174, rfl⟩
abbrev main_call1_v4 : Ref sig .tc := ⟨.hbm, 175, rfl⟩
abbrev main_call1_v5 : Ref sig .tc := ⟨.hbm, 176, rfl⟩
abbrev main_call1_v6 : Ref sig .tc := ⟨.hbm, 177, rfl⟩
abbrev main_call1_v7 : Ref sig .tc := ⟨.hbm, 178, rfl⟩
abbrev main_call1_cst_1 : Ref sig .tc := ⟨.hbm, 179, rfl⟩
abbrev main_call1_v8 : Ref sig .tc := ⟨.hbm, 180, rfl⟩
abbrev main_call1_cst_2 : Ref sig .tc := ⟨.hbm, 181, rfl⟩
abbrev main_call1_v9 : Ref sig .tc := ⟨.hbm, 182, rfl⟩
abbrev main_call1_v10 : Ref sig .tc := ⟨.hbm, 183, rfl⟩
abbrev main_call1_v11 : Ref sig .tc := ⟨.hbm, 184, rfl⟩
abbrev main_call1_cst_3 : Ref sig .tc := ⟨.hbm, 185, rfl⟩
abbrev main_call1_v12 : Ref sig .tc := ⟨.hbm, 186, rfl⟩
abbrev main_call1_cst_4 : Ref sig .tc := ⟨.hbm, 187, rfl⟩
abbrev main_call1_call0_v0 : Ref sig .tc := ⟨.hbm, 188, rfl⟩
abbrev main_call1_call0_v1 : Ref sig .tc := ⟨.hbm, 189, rfl⟩
abbrev main_v109 : Ref sig .tc := ⟨.hbm, 190, rfl⟩
abbrev main_cst_25 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_cst_26 : Ref sig .tc := ⟨.hbm, 203, rfl⟩
abbrev main_v121 : Ref sig .tc := ⟨.hbm, 204, rfl⟩
abbrev main_cst_27 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_cst_28 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_c_29 : Ref sig .tc := ⟨.hbm, 213, rfl⟩
abbrev main_v128 : Ref sig .tc := ⟨.hbm, 214, rfl⟩
abbrev main_v129 : Ref sig .tc := ⟨.hbm, 215, rfl⟩
abbrev main_c_30 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_c_31 : Ref sig .tc := ⟨.hbm, 222, rfl⟩
abbrev main_v135 : Ref sig .tc := ⟨.hbm, 223, rfl⟩
abbrev main_v136 : Ref sig .tc := ⟨.hbm, 224, rfl⟩
abbrev main_c_32 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_c_33 : Ref sig .tc := ⟨.hbm, 232, rfl⟩
abbrev main_v143 : Ref sig .tc := ⟨.hbm, 233, rfl⟩
abbrev main_v144 : Ref sig .tc := ⟨.hbm, 234, rfl⟩
abbrev main_c_34 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_cst_35 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  dot_S2000x512_S512x256_S2000x256_1_0_0_1_n_n_wf : DotDims.WF S2000x512 S512x256 S2000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .f32 = 32 ∨ (Rect.block (s := S256x64) S256x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v105) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v114) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v118) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v119) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v119) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v120) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v163) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v164) S2000x64.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 287
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x256, .f32⟩
  | 5 => ⟨S256, .f32⟩
  | 6 => ⟨S256x64, .f32⟩
  | 7 => ⟨S64, .f32⟩
  | 8 => ⟨S256, .f32⟩
  | 9 => ⟨S256, .f32⟩
  | 10 => ⟨S256, .f32⟩
  | 11 => ⟨S256, .f32⟩
  | 12 => ⟨S1x800000, .i32⟩
  | 13 => ⟨S800000, .i32⟩
  | 14 => ⟨S1x800000, .i32⟩
  | 15 => ⟨S800000, .i32⟩
  | 16 => ⟨S50000x256, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x256, .f32⟩
  | 55 => ⟨S800000x1, .f32⟩
  | 56 => ⟨S800000x256, .f32⟩
  | 57 => ⟨S800000x256, .f32⟩
  | 58 => ⟨S_, .f32⟩
  | 59 => ⟨S50000x256, .f32⟩
  | 60 => ⟨S800000x1, .i32⟩
  | 61 => ⟨S50000x256, .f32⟩
  | 62 => ⟨S50000, .f32⟩
  | 63 => ⟨S50000x1, .f32⟩
  | 64 => ⟨S50000x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S256, .f32⟩
  | 72 => ⟨S_, .f32⟩
  | 73 => ⟨S256, .f32⟩
  | 74 => ⟨S256, .f32⟩
  | 75 => ⟨S_, .i32⟩
  | 76 => ⟨S_, .f32⟩
  | 77 => ⟨S256, .f32⟩
  | 78 => ⟨S1x256, .f32⟩
  | 79 => ⟨S_, .f32⟩
  | 80 => ⟨S1x256, .f32⟩
  | 81 => ⟨S1x256, .f32⟩
  | 82 => ⟨S50000x256, .f32⟩
  | 83 => ⟨S50000x256, .f32⟩
  | 84 => ⟨S50000x256, .f32⟩
  | 85 => ⟨S_, .f32⟩
  | 86 => ⟨S_, .f32⟩
  | 87 => ⟨S_, .f32⟩
  | 88 => ⟨S_, .f32⟩
  | 89 => ⟨S256, .f32⟩
  | 90 => ⟨S256, .f32⟩
  | 91 => ⟨S256, .f32⟩
  | 92 => ⟨S_, .f32⟩
  | 93 => ⟨S_, .i1⟩
  | 94 => ⟨S_, .f32⟩
  | 95 => ⟨S_, .f32⟩
  | 96 => ⟨S256, .f32⟩
  | 97 => ⟨S256, .f32⟩
  | 98 => ⟨S1x256, .f32⟩
  | 99 => ⟨S50000x256, .f32⟩
  | 100 => ⟨S50000x256, .f32⟩
  | 101 => ⟨S_, .f32⟩
  | 102 => ⟨S256, .f32⟩
  | 103 => ⟨S256, .f32⟩
  | 104 => ⟨S256, .f32⟩
  | 105 => ⟨S1x256, .f32⟩
  | 106 => ⟨S50000x256, .f32⟩
  | 107 => ⟨S50000x256, .f32⟩
  | 108 => ⟨S1x256, .f32⟩
  | 109 => ⟨S50000x256, .f32⟩
  | 110 => ⟨S50000x256, .f32⟩
  | 111 => ⟨S1x256, .f32⟩
  | 112 => ⟨S50000x256, .f32⟩
  | 113 => ⟨S50000x256, .f32⟩
  | 114 => ⟨S_, .f32⟩
  | 115 => ⟨S50000x256, .f32⟩
  | 116 => ⟨S50000x256, .f32⟩
  | 117 => ⟨S50000x256, .f32⟩
  | 118 => ⟨S_, .f32⟩
  | 119 => ⟨S800000, .f32⟩
  | 120 => ⟨S_, .f32⟩
  | 121 => ⟨S50000, .f32⟩
  | 122 => ⟨S800000x1, .i32⟩
  | 123 => ⟨S50000, .f32⟩
  | 124 => ⟨S_, .f32⟩
  | 125 => ⟨S50000, .f32⟩
  | 126 => ⟨S50000, .f32⟩
  | 127 => ⟨S50000, .f32⟩
  | _ => ⟨S50000x512, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x256, .f32⟩
  | 28 => ⟨S800000x1, .f32⟩
  | 29 => ⟨S800000x256, .f32⟩
  | 30 => ⟨S800000x256, .f32⟩
  | 31 => ⟨S_, .f32⟩
  | 32 => ⟨S50000x256, .f32⟩
  | 33 => ⟨S800000x1, .i32⟩
  | 34 => ⟨S50000x256, .f32⟩
  | 35 => ⟨S50000, .f32⟩
  | 36 => ⟨S50000x1, .f32⟩
  | 37 => ⟨S50000x256, .f32⟩
  | 38 => ⟨S50000x256, .f32⟩
  | 39 => ⟨S50000x256, .f32⟩
  | 40 => ⟨S1x256, .f32⟩
  | 41 => ⟨S50000x256, .f32⟩
  | 42 => ⟨S50000x256, .f32⟩
  | 43 => ⟨S_, .f32⟩
  | 44 => ⟨S256, .f32⟩
  | 45 => ⟨S_, .f32⟩
  | 46 => ⟨S256, .f32⟩
  | 47 => ⟨S256, .f32⟩
  | 48 => ⟨S_, .i32⟩
  | 49 => ⟨S_, .f32⟩
  | 50 => ⟨S256, .f32⟩
  | 51 => ⟨S1x256, .f32⟩
  | 52 => ⟨S_, .f32⟩
  | 53 => ⟨S1x256, .f32⟩
  | 54 => ⟨S1x256, .f32⟩
  | 55 => ⟨S50000x256, .f32⟩
  | 56 => ⟨S50000x256, .f32⟩
  | 57 => ⟨S50000x256, .f32⟩
  | 58 => ⟨S_, .f32⟩
  | 59 => ⟨S_, .f32⟩
  | 60 => ⟨S_, .f32⟩
  | 61 => ⟨S_, .f32⟩
  | 62 => ⟨S256, .f32⟩
  | 63 => ⟨S256, .f32⟩
  | 64 => ⟨S256, .f32⟩
  | 65 => ⟨S_, .f32⟩
  | 66 => ⟨S_, .i1⟩
  | 67 => ⟨S_, .f32⟩
  | 68 => ⟨S_, .f32⟩
  | 69 => ⟨S256, .f32⟩
  | 70 => ⟨S256, .f32⟩
  | 71 => ⟨S1x256, .f32⟩
  | 72 => ⟨S50000x256, .f32⟩
  | 73 => ⟨S50000x256, .f32⟩
  | 74 => ⟨S_, .f32⟩
  | 75 => ⟨S256, .f32⟩
  | 76 => ⟨S256, .f32⟩
  | 77 => ⟨S256, .f32⟩
  | 78 => ⟨S1x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S_, .f32⟩
  | 88 => ⟨S50000x256, .f32⟩
  | 89 => ⟨S50000x256, .f32⟩
  | 90 => ⟨S50000x64, .f32⟩
  | 91 => ⟨S_, .f32⟩
  | 92 => ⟨S800000, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000, .f32⟩
  | 119 => ⟨S800000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x512, .f32⟩

abbrev hbmTy0_2 (i : Nat) : BufTy := match i % 128 with
  | 0 => ⟨S800000x64, .f32⟩
  | 1 => ⟨S800000x1, .f32⟩
  | 2 => ⟨S800000x64, .f32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S50000, .f32⟩
  | 9 => ⟨S50000x1, .f32⟩
  | 10 => ⟨S50000x64, .f32⟩
  | 11 => ⟨S50000x64, .f32⟩
  | 12 => ⟨S50000x64, .f32⟩
  | 13 => ⟨S1x64, .f32⟩
  | 14 => ⟨S50000x64, .f32⟩
  | 15 => ⟨S50000x64, .f32⟩
  | 16 => ⟨S_, .f32⟩
  | 17 => ⟨S50000, .f32⟩
  | 18 => ⟨S_, .f32⟩
  | 19 => ⟨S50000, .f32⟩
  | 20 => ⟨S50000, .f32⟩
  | 21 => ⟨S50000x1, .f32⟩
  | 22 => ⟨S50000x64, .f32⟩
  | 23 => ⟨S50000x64, .f32⟩
  | 24 => ⟨S50000x64, .f32⟩
  | 25 => ⟨S_, .f32⟩
  | 26 => ⟨S50000, .f32⟩
  | 27 => ⟨S50000x1, .f32⟩
  | 28 => ⟨S50000x1, .f32⟩
  | 29 => ⟨S50000x64, .f32⟩
  | 30 => ⟨S50000x64, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_11 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_call1_cst : Ref sig .tc := ⟨.hbm, 114, rfl⟩
abbrev main_call1_v0 : Ref sig .tc := ⟨.hbm, 115, rfl⟩
abbrev main_v67 : Ref sig .tc := ⟨.hbm, 116, rfl⟩
abbrev main_v68 : Ref sig .tc := ⟨.hbm, 117, rfl⟩
abbrev main_cst_12 : Ref sig .tc := ⟨.hbm, 118, rfl⟩
abbrev main_v69 : Ref sig .tc := ⟨.hbm, 119, rfl⟩
abbrev main_cst_13 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_14 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_15 : Ref sig .tc := ⟨.hbm, 128, rfl⟩
abbrev main_v76 : Ref sig .tc := ⟨.hbm, 129, rfl⟩
abbrev main_v77 : Ref sig .tc := ⟨.hbm, 130, rfl⟩
abbrev main_c_16 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_17 : Ref sig .tc := ⟨.hbm, 137, rfl⟩
abbrev main_v83 : Ref sig .tc := ⟨.hbm, 138, rfl⟩
abbrev main_v84 : Ref sig .tc := ⟨.hbm, 139, rfl⟩
abbrev main_c_18 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_19 : Ref sig .tc := ⟨.hbm, 147, rfl⟩
abbrev main_v91 : Ref sig .tc := ⟨.hbm, 148, rfl⟩
abbrev main_v92 : Ref sig .tc := ⟨.hbm, 149, rfl⟩
abbrev main_c_20 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_21 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_22 : Ref sig .tc := ⟨.hbm, 171, rfl⟩
abbrev main_v112 : Ref sig .tc := ⟨.hbm, 172, rfl⟩
abbrev main_cst_23 : Ref sig .tc := ⟨.hbm, 173, rfl⟩
abbrev main_v113 : Ref sig .tc := ⟨.hbm, 174, rfl⟩
abbrev main_v114 : Ref sig .tc := ⟨.hbm, 175, rfl⟩
abbrev main_c_24 : Ref sig .tc := ⟨.hbm, 176, rfl⟩
abbrev main_call2_cst : Ref sig .tc := ⟨.hbm, 177, rfl⟩
abbrev main_call2_v0 : Ref sig .tc := ⟨.hbm, 178, rfl⟩
abbrev main_call2_v1 : Ref sig .tc := ⟨.hbm, 179, rfl⟩
abbrev main_call2_cst_0 : Ref sig .tc := ⟨.hbm, 180, rfl⟩
abbrev main_call2_v2 : Ref sig .tc := ⟨.hbm, 181, rfl⟩
abbrev main_call2_v3 : Ref sig .tc := ⟨.hbm, 182, rfl⟩
abbrev main_call2_v4 : Ref sig .tc := ⟨.hbm, 183, rfl⟩
abbrev main_call2_v5 : Ref sig .tc := ⟨.hbm, 184, rfl⟩
abbrev main_call2_v6 : Ref sig .tc := ⟨.hbm, 185, rfl⟩
abbrev main_call2_v7 : Ref sig .tc := ⟨.hbm, 186, rfl⟩
abbrev main_call2_cst_1 : Ref sig .tc := ⟨.hbm, 187, rfl⟩
abbrev main_call2_v8 : Ref sig .tc := ⟨.hbm, 188, rfl⟩
abbrev main_call2_cst_2 : Ref sig .tc := ⟨.hbm, 189, rfl⟩
abbrev main_call2_v9 : Ref sig .tc := ⟨.hbm, 190, rfl⟩
abbrev main_call2_v10 : Ref sig .tc := ⟨.hbm, 191, rfl⟩
abbrev main_call2_v11 : Ref sig .tc := ⟨.hbm, 192, rfl⟩
abbrev main_call2_cst_3 : Ref sig .tc := ⟨.hbm, 193, rfl⟩
abbrev main_call2_v12 : Ref sig .tc := ⟨.hbm, 194, rfl⟩
abbrev main_call2_cst_4 : Ref sig .tc := ⟨.hbm, 195, rfl⟩
abbrev main_call2_call0_v0 : Ref sig .tc := ⟨.hbm, 196, rfl⟩
abbrev main_call2_call0_v1 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_cst_25 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_call3_cst : Ref sig .tc := ⟨.hbm, 215, rfl⟩
abbrev main_call3_v0 : Ref sig .tc := ⟨.hbm, 216, rfl⟩
abbrev main_v131 : Ref sig .tc := ⟨.hbm, 217, rfl⟩
abbrev main_v132 : Ref sig .tc := ⟨.hbm, 218, rfl⟩
abbrev main_cst_26 : Ref sig .tc := ⟨.hbm, 219, rfl⟩
abbrev main_v133 : Ref sig .tc := ⟨.hbm, 220, rfl⟩
abbrev main_cst_27 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_cst_28 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_c_29 : Ref sig .tc := ⟨.hbm, 229, rfl⟩
abbrev main_v140 : Ref sig .tc := ⟨.hbm, 230, rfl⟩
abbrev main_v141 : Ref sig .tc := ⟨.hbm, 231, rfl⟩
abbrev main_c_30 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_c_31 : Ref sig .tc := ⟨.hbm, 238, rfl⟩
abbrev main_v147 : Ref sig .tc := ⟨.hbm, 239, rfl⟩
abbrev main_v148 : Ref sig .tc := ⟨.hbm, 240, rfl⟩
abbrev main_c_32 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_c_33 : Ref sig .tc := ⟨.hbm, 248, rfl⟩
abbrev main_v155 : Ref sig .tc := ⟨.hbm, 249, rfl⟩
abbrev main_v156 : Ref sig .tc := ⟨.hbm, 250, rfl⟩
abbrev main_c_34 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_cst_35 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_call4_cst : Ref sig .tc := ⟨.hbm, 272, rfl⟩
abbrev main_call4_v0 : Ref sig .tc := ⟨.hbm, 273, rfl⟩
abbrev main_call4_cst_0 : Ref sig .tc := ⟨.hbm, 274, rfl⟩
abbrev main_call4_v1 : Ref sig .tc := ⟨.hbm, 275, rfl⟩
abbrev main_call4_v2 : Ref sig .tc := ⟨.hbm, 276, rfl⟩
abbrev main_call4_v3 : Ref sig .tc := ⟨.hbm, 277, rfl⟩
abbrev main_call4_v4 : Ref sig .tc := ⟨.hbm, 278, rfl⟩
abbrev main_call4_v5 : Ref sig .tc := ⟨.hbm, 279, rfl⟩
abbrev main_call4_v6 : Ref sig .tc := ⟨.hbm, 280, rfl⟩
abbrev main_call4_cst_1 : Ref sig .tc := ⟨.hbm, 281, rfl⟩
abbrev main_call4_v7 : Ref sig .tc := ⟨.hbm, 282, rfl⟩
abbrev main_call4_v8 : Ref sig .tc := ⟨.hbm, 283, rfl⟩
abbrev main_call4_v9 : Ref sig .tc := ⟨.hbm, 284, rfl⟩
abbrev main_call4_v10 : Ref sig .tc := ⟨.hbm, 285, rfl⟩
abbrev main_v176 : Ref sig .tc := ⟨.hbm, 286, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  dot_S50000x512_S512x256_S50000x256_1_0_0_1_n_n_wf : DotDims.WF S50000x512 S512x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its RESULT named. Every weakly fair execution of the kernel's program, from any
  memory with zero counters, terminates without a fault; in every final state the twelve argument arrays are as
  launched and the result array holds what the last boundary of the program's fold holds for it: the buffer
  contents after the sixth region, reached from the launch memory through eight stretches of host operations
  and six regions (each region's arrays at what its write-backs leave, every other buffer as the region found it).
  The launch over the fourteen segments is the one the frame of this program uses; only the reading of the final
  state is stronger: besides the arguments, the result buffer is read against the last boundary's contents.
-/
import proofs.«118705_j84670985273387_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result array at the last boundary's contents and the arguments unchanged. -/
theorem run_named : θ_run defs (onTc (τ := τ) (main (F := F))) ⟨m, fun _ => 0, ρ⟩ (fun r => ∀ c : Dev nD,
      r.2.mem ((c.tc : Thread nD τ).loc main_v164) = W14 m ρ c (Proc.devRef .tc main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v164 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.RunNamed

end
-- ==== Proof.KernelHost.lean ====
/-
  The host arithmetic between the kernel's regions, as functions. One graph-convolution layer outside its matrix
  product is: the inverse square root of the in-degree plus one (a count scattered over the edges' targets), the
  edge coefficient (that value gathered at an edge's two ends, multiplied), the aggregate (the rows of the
  projected features gathered at the edges' sources, scaled by the coefficient, summed into their targets; plus
  the node's own row scaled by its squared inverse-root degree; plus the bias), and, before a fused batch norm, the
  column mean and column variance of that result and the per-feature scale and shift the fused kernel consumes.
  Each function below is the composition of the program's host operations that compute it, one `let` per
  operation; the theorems read the corresponding stretch of operations as these functions.
-/
import proofs.«118705_j84670985273387_1_alg».proof.Proof.Gen.KernelIdeal.Launch
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.ShloMosaic.StableHlo

variable {F : FTy → Type} [FloatOps F]

/-- Row 0 of the edge list (every edge's source node), as a vector. -/
def edgeRow0 (arg1 : (⟨S2x800000, .i32⟩ : BufTy).Contents (Elt F)) :
    (⟨S800000, .i32⟩ : BufTy).Contents (Elt F) :=
  let v0 : (⟨S1x800000, .i32⟩ : BufTy).Contents (Elt F) := ((extractStridedSlice S1x800000 ![0, 0] · slices_S2x800000_S1x800000_0_0) : (⟨S2x800000, .i32⟩ : BufTy).Contents (Elt F) → (⟨S1x800000, .i32⟩ : BufTy).Contents (Elt F)) arg1
  let v1 : (⟨S800000, .i32⟩ : BufTy).Contents (Elt F) := shapeCast S800000 v0 shapeCasts_S1x800000_S800000
  v1

/-- Row 1 of the edge list (every edge's target node), as a vector. -/
def edgeRow1 (arg1 : (⟨S2x800000, .i32⟩ : BufTy).Contents (Elt F)) :
    (⟨S800000, .i32⟩ : BufTy).Contents (Elt F) :=
  let v2 : (⟨S1x800000, .i32⟩ : BufTy).Contents (Elt F) := ((extractStridedSlice S1x800000 ![1, 0] · slices_S2x800000_S1x800000_1_0) : (⟨S2x800000, .i32⟩ : BufTy).Contents (Elt F) → (⟨S1x800000, .i32⟩ : BufTy).Contents (Elt F)) arg1
  let v3 : (⟨S800000, .i32⟩ : BufTy).Contents (Elt F) := shapeCast S800000 v2 shapeCasts_S1x800000_S800000
  v3

/-- The inverse square root of (in-degree + 1): ones scattered onto zeros at the edges' targets, plus one, then the reciprocal root. -/
def degInv (v3 : (⟨S800000, .i32⟩ : BufTy).Contents (Elt F)) :
    (⟨S50000, .f32⟩ : BufTy).Contents (Elt F) :=
  let cst_0 : (⟨S_, .f32⟩ : BufTy).Contents (Elt F) := constant S_ .f32 0x00000000#32
  let v6 : (⟨S50000, .f32⟩ : BufTy).Contents (Elt F) := (broadcastInDim S50000 ![] bcast_S_S50000 : (⟨S_, .f32⟩ : BufTy).Contents (Elt F) → (⟨S50000, .f32⟩ : BufTy).Contents (Elt F)) cst_0
  let v7 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v3
  let cst : (⟨S_, .f32⟩ : BufTy).Contents (Elt F) := constant S_ .f32 0x3F800000#32
  let v5 : (⟨S800000, .f32⟩ : BufTy).Contents (Elt F) := (broadcastInDim S800000 ![] bcast_S_S800000 : (⟨S_, .f32⟩ : BufTy).Contents (Elt F) → (⟨S800000, .f32⟩ : BufTy).Contents (Elt F)) cst
  let v8 : (⟨S50000, .f32⟩ : BufTy).Contents (Elt F) := ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) v6 v7 v5
  let cst_1 : (⟨S_, .f32⟩ : BufTy).Contents (Elt F) := constant S_ .f32 0x3F800000#32
  let v9 : (⟨S50000, .f32⟩ : BufTy).Contents (Elt F) := (broadcastInDim S50000 ![] bcast_S_S50000 : (⟨S_, .f32⟩ : BufTy).Contents (Elt F) → (⟨S50000, .f32⟩ : BufTy).Contents (Elt F)) cst_1
  let v10 : (⟨S50000, .f32⟩ : BufTy).Contents (Elt F) := (addf : (⟨S50000, .f32⟩ : BufTy).Contents (Elt F) → (⟨S50000, .f32⟩ : BufTy).Contents (Elt F) → (⟨S50000, .f32⟩ : BufTy).Contents (Elt F)) v8 v9
  let v11 : (⟨S50000, .f32⟩ : BufTy).Contents (Elt F) := (Host.rsqrt : (⟨S50000, .f32⟩ : BufTy).Contents (Elt F) → (⟨S50000, .f32⟩ : BufTy).Contents (Elt F)) v10
  v11

/-- An edge's coefficient: the node weight gathered at its source times the node weight gathered at its target (a negative index moved up by the node count first). -/
def edgeCoef (v11 : (⟨S50000, .f32⟩ : BufTy).Contents (Elt F)) (v1 : (⟨S800000, .i32⟩ : BufTy).Contents (Elt F)) (v3 : (⟨S800000, .i32⟩ : BufTy).Contents (Elt F)) :
    (⟨S800000, .f32⟩ : BufTy).Contents (Elt F) :=
  let c : (⟨S_, .i32⟩ : BufTy).Contents (Elt F) := constantI S_ 32 0#32
  let v12 : (⟨S800000, .i32⟩ : BufTy).Contents (Elt F) := (broadcastInDim S800000 ![] bcast_S_S800000 : (⟨S_, .i32⟩ : BufTy).Contents (Elt F) → (⟨S800000, .i32⟩ : BufTy).Contents (Elt F)) c
  let v13 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) v1 v12
  let c_2 : (⟨S_, .i32⟩ : BufTy).Contents (Elt F) := constantI S_ 32 50000#32
  let v14 : (⟨S800000, .i32⟩ : BufTy).Contents (Elt F) := (broadcastInDim S800000 ![] bcast_S_S800000 : (⟨S_, .i32⟩ : BufTy).Contents (Elt F) → (⟨S800000, .i32⟩ : BufTy).Contents (Elt F)) c_2
  let v15 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) v1 v14
  let v16 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v13 v15 v1
  let v17 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v16
  let v18 : (⟨S800000, .f32⟩ : BufTy).Contents (Elt F) := ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) v11 v17
  let c_3 : (⟨S_, .i32⟩ : BufTy).Contents (Elt F) := constantI S_ 32 0#32
  let v19 : (⟨S800000, .i32⟩ : BufTy).Contents (Elt F) := (broadcastInDim S800000 ![] bcast_S_S800000 : (⟨S_, .i32⟩ : BufTy).Contents (Elt F) → (⟨S800000, .i32⟩ : BufTy).Contents (Elt F)) c_3
  let v20 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) v3 v19
  let c_4 : (⟨S_, .i32⟩ : BufTy).Contents (Elt F) := constantI S_ 32 50000#32
  let v21 : (⟨S800000, .i32⟩ : BufTy).Contents (Elt F) := (broadcastInDim S800000 ![] bcast_S_S800000 : (⟨S_, .i32⟩ : BufTy).Contents (Elt F) → (⟨S800000, .i32⟩ : BufTy).Contents (Elt F)) c_4
  let v22 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) v3 v21
  let v23 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v20 v22 v3
  let v24 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v23
  let v25 : (⟨S800000, .f32⟩ : BufTy).Contents (Elt F) := ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) v11 v24
  let v26 : (⟨S800000, .f32⟩ : BufTy).Contents (Elt F) := (mulf : (⟨S800000, .f32⟩ : BufTy).Contents (Elt F) → (⟨S800000, .f32⟩ : BufTy).Contents (Elt F) → (⟨S800000, .f32⟩ : BufTy).Contents (Elt F)) v18 v25
  v26

/-- Width 256: the rows gathered at the edges' sources, scaled by the coefficient and summed into the targets; plus each node's own row scaled by its squared weight; plus the bias. -/
def aggBias256 (v4 : (⟨S50000x256, .f32⟩ : BufTy).Contents (Elt F)) (v1 : (⟨S800000, .i32⟩ : BufTy).Contents (Elt F)) (v3 : (⟨S800000, .i32⟩ : BufTy).Contents (Elt F)) (v11 : (⟨S50000, .f32⟩ : BufTy).Contents (Elt F)) (v26 : (⟨S800000, .f32⟩ : BufTy).Contents (Elt F)) (arg3 : (⟨S256, .f32⟩ : BufTy).Contents (Elt F)) :
    (⟨S50000x256, .f32⟩ : BufTy).Contents (Elt F) :=
  let cst_7 : (⟨S_, .f32⟩ : BufTy).Contents (Elt F) := constant S_ .f32 0x00000000#32
  let v37 : (⟨S50000x256, .f32⟩ : BufTy).Contents (Elt F) := (broadcastInDim S50000x256 ![] bcast_S_S50000x256 : (⟨S_, .f32⟩ : BufTy).Contents (Elt F) → (⟨S50000x256, .f32⟩ : BufTy).Contents (Elt F)) cst_7
  let v38 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v3
  let c_5 : (⟨S_, .i32⟩ : BufTy).Contents (Elt F) := constantI S_ 32 0#32
  let v27 : (⟨S800000, .i32⟩ : BufTy).Contents (Elt F) := (broadcastInDim S800000 ![] bcast_S_S800000 : (⟨S_, .i32⟩ : BufTy).Contents (Elt F) → (⟨S800000, .i32⟩ : BufTy).Contents (Elt F)) c_5
  let v28 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) v1 v27
  let c_6 : (⟨S_, .i32⟩ : BufTy).Contents (Elt F) := constantI S_ 32 50000#32
  let v29 : (⟨S800000, .i32⟩ : BufTy).Contents (Elt F) := (broadcastInDim S800000 ![] bcast_S_S800000 : (⟨S_, .i32⟩ : BufTy).Contents (Elt F) → (⟨S800000, .i32⟩ : BufTy).Contents (Elt F)) c_6
  let v30 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) v1 v29
  let v31 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v28 v30 v1
  let v32 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v31
  let v33 : (⟨S800000x256, .f32⟩ : BufTy).Contents (Elt F) := ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) v4 v32
  let v34 : (⟨S800000x1, .f32⟩ : BufTy).Contents (Elt F) := (broadcastInDim S800000x1 ![0] bcast_S800000_S800000x1_0 : (⟨S800000, .f32⟩ : BufTy).Contents (Elt F) → (⟨S800000x1, .f32⟩ : BufTy).Contents (Elt F)) v26
  let v35 : (⟨S800000x256, .f32⟩ : BufTy).Contents (Elt F) := (broadcastInDim S800000x256 ![0, 1] bcast_S800000x1_S800000x256_0_1 : (⟨S800000x1, .f32⟩ : BufTy).Contents (Elt F) → (⟨S800000x256, .f32⟩ : BufTy).Contents (Elt F)) v34
  let v36 : (⟨S800000x256, .f32⟩ : BufTy).Contents (Elt F) := (mulf : (⟨S800000x256, .f32⟩ : BufTy).Contents (Elt F) → (⟨S800000x256, .f32⟩ : BufTy).Contents (Elt F) → (⟨S800000x256, .f32⟩ : BufTy).Contents (Elt F)) v33 v35
  let v39 : (⟨S50000x256, .f32⟩ : BufTy).Contents (Elt F) := ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) v37 v38 v36
  let v40 : (⟨S50000, .f32⟩ : BufTy).Contents (Elt F) := (mulf : (⟨S50000, .f32⟩ : BufTy).Contents (Elt F) → (⟨S50000, .f32⟩ : BufTy).Contents (Elt F) → (⟨S50000, .f32⟩ : BufTy).Contents (Elt F)) v11 v11
  let v41 : (⟨S50000x1, .f32⟩ : BufTy).Contents (Elt F) := (broadcastInDim S50000x1 ![0] bcast_S50000_S50000x1_0 : (⟨S50000, .f32⟩ : BufTy).Contents (Elt F) → (⟨S50000x1, .f32⟩ : BufTy).Contents (Elt F)) v40
  let v42 : (⟨S50000x256, .f32⟩ : BufTy).Contents (Elt F) := (broadcastInDim S50000x256 ![0, 1] bcast_S50000x1_S50000x256_0_1 : (⟨S50000x1, .f32⟩ : BufTy).Contents (Elt F) → (⟨S50000x256, .f32⟩ : BufTy).Contents (Elt F)) v41
  let v43 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v4 v42
  let v44 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v39 v43
  let v45 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) arg3
  let v46 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v45
  let v47 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v44 v46
  v47

/-- The column means of a [50000,256] array: the column sums over 50000. -/
def colMean256 (v47 : (⟨S50000x256, .f32⟩ : BufTy).Contents (Elt F)) :
    (⟨S256, .f32⟩ : BufTy).Contents (Elt F) :=
  let cst_8 : (⟨S_, .f32⟩ : BufTy).Contents (Elt F) := constant S_ .f32 0x00000000#32
  let v48 : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) v47 cst_8
  let cst_9 : (⟨S_, .f32⟩ : BufTy).Contents (Elt F) := constant S_ .f32 0x47435000#32
  let v49 : (⟨S256, .f32⟩ : BufTy).Contents (Elt F) := (broadcastInDim S256 ![] bcast_S_S256 : (⟨S_, .f32⟩ : BufTy).Contents (Elt F) → (⟨S256, .f32⟩ : BufTy).Contents (Elt F)) cst_9
  let v50 : (⟨S256, .f32⟩ : BufTy).Contents (Elt F) := (Host.divf : (⟨S256, .f32⟩ : BufTy).Contents (Elt F) → (⟨S256, .f32⟩ : BufTy).Contents (Elt F) → (⟨S256, .f32⟩ : BufTy).Contents (Elt F)) v48 v49
  v50

/-- The column variances of a [50000,256] array with `ddof` correction `c_10`: the column sums of the squared deviations from the column means, over (50000 − ddof), where that count is positive. -/
def colVar256 (v47 : (⟨S50000x256, .f32⟩ : BufTy).Contents (Elt F)) (c_10 : (⟨S_, .i32⟩ : BufTy).Contents (Elt F)) :
    (⟨S256, .f32⟩ : BufTy).Contents (Elt F) :=
  let call0_cst_1 : (⟨S_, .f32⟩ : BufTy).Contents (Elt F) := constant S_ .f32 0x47435000#32
  let call0_v7 : (⟨S_, .f32⟩ : BufTy).Contents (Elt F) := (sitofp .f32) c_10
  let call0_v8 : (⟨S_, .f32⟩ : BufTy).Contents (Elt F) := subf call0_cst_1 call0_v7
  let call0_cst_3 : (⟨S_, .f32⟩ : BufTy).Contents (Elt F) := constant S_ .f32 0x00000000#32
  let call0_v12 : (⟨S_, .i1⟩ : BufTy).Contents (Elt F) := (cmpf .ogt) call0_v8 call0_cst_3
  let call0_cst : (⟨S_, .f32⟩ : BufTy).Contents (Elt F) := constant S_ .f32 0x00000000#32
  let call0_v0 : (⟨S256, .f32⟩ : BufTy).Contents (Elt F) := (fun x v => Host.reduceAdd x v reducesTo_S50000x256_S256_d0 h_S_) v47 call0_cst
  let call0_v1 : (⟨S1x256, .f32⟩ : BufTy).Contents (Elt F) := (broadcastInDim S1x256 ![1] bcast_S256_S1x256_1) call0_v0
  let call0_cst_0 : (⟨S_, .f32⟩ : BufTy).Contents (Elt F) := constant S_ .f32 0x47435000#32
  let call0_v2 : (⟨S1x256, .f32⟩ : BufTy).Contents (Elt F) := (broadcastInDim S1x256 ![] bcast_S_S1x256) call0_cst_0
  let call0_v3 : (⟨S1x256, .f32⟩ : BufTy).Contents (Elt F) := Host.divf call0_v1 call0_v2
  let call0_v4 : (⟨S50000x256, .f32⟩ : BufTy).Contents (Elt F) := (broadcastInDim S50000x256 ![0, 1] bcast_S1x256_S50000x256_0_1) call0_v3
  let call0_v5 : (⟨S50000x256, .f32⟩ : BufTy).Contents (Elt F) := subf v47 call0_v4
  let call0_v6 : (⟨S50000x256, .f32⟩ : BufTy).Contents (Elt F) := mulf call0_v5 call0_v5
  let call0_cst_2 : (⟨S_, .f32⟩ : BufTy).Contents (Elt F) := constant S_ .f32 0x00000000#32
  let call0_v9 : (⟨S256, .f32⟩ : BufTy).Contents (Elt F) := (fun x v => Host.reduceAdd x v reducesTo_S50000x256_S256_d0 h_S_) call0_v6 call0_cst_2
  let call0_v10 : (⟨S256, .f32⟩ : BufTy).Contents (Elt F) := (broadcastInDim S256 ![] bcast_S_S256) call0_v8
  let call0_v11 : (⟨S256, .f32⟩ : BufTy).Contents (Elt F) := Host.divf call0_v9 call0_v10
  let call0_cst_4 : (⟨S_, .f32⟩ : BufTy).Contents (Elt F) := constant S_ .f32 0x7FC00000#32
  let call0_call0_v0 : (⟨S_, .f32⟩ : BufTy).Contents (Elt F) := id call0_cst_4
  let call0_call0_v1 : (⟨S256, .f32⟩ : BufTy).Contents (Elt F) := (broadcastInDim S256 ![] bcast_S_S256) call0_call0_v0
  let v51 : (⟨S256, .f32⟩ : BufTy).Contents (Elt F) := (fun p a b => select (broadcastInDim S256 ![] bcast_S_S256 p) a b) call0_v12 call0_v11 call0_call0_v1
  v51

/-- The fused batch norm's scale row: gamma times the reciprocal root of (variance + epsilon). -/
def bnScale (v51 : (⟨S256, .f32⟩ : BufTy).Contents (Elt F)) (arg8 : (⟨S256, .f32⟩ : BufTy).Contents (Elt F)) :
    (⟨S1x256, .f32⟩ : BufTy).Contents (Elt F) :=
  let cst_11 : (⟨S_, .f32⟩ : BufTy).Contents (Elt F) := constant S_ .f32 0x3727C5AC#32
  let v52 : (⟨S256, .f32⟩ : BufTy).Contents (Elt F) := (broadcastInDim S256 ![] bcast_S_S256 : (⟨S_, .f32⟩ : BufTy).Contents (Elt F) → (⟨S256, .f32⟩ : BufTy).Contents (Elt F)) cst_11
  let v53 : (⟨S256, .f32⟩ : BufTy).Contents (Elt F) := (addf : (⟨S256, .f32⟩ : BufTy).Contents (Elt F) → (⟨S256, .f32⟩ : BufTy).Contents (Elt F) → (⟨S256, .f32⟩ : BufTy).Contents (Elt F)) v51 v52
  let v54 : (⟨S256, .f32⟩ : BufTy).Contents (Elt F) := (Host.rsqrt : (⟨S256, .f32⟩ : BufTy).Contents (Elt F) → (⟨S256, .f32⟩ : BufTy).Contents (Elt F)) v53
  let v55 : (⟨S256, .f32⟩ : BufTy).Contents (Elt F) := (mulf : (⟨S256, .f32⟩ : BufTy).Contents (Elt F) → (⟨S256, .f32⟩ : BufTy).Contents (Elt F) → (⟨S256, .f32⟩ : BufTy).Contents (Elt F)) arg8 v54
  let v56 : (⟨S1x256, .f32⟩ : BufTy).Contents (Elt F) := shapeCast S1x256 v55 shapeCasts_S256_S1x256
  v56

/-- The fused batch norm's shift row: beta minus (mean times gamma) times the reciprocal root of (variance + epsilon). -/
def bnShift (v50 : (⟨S256, .f32⟩ : BufTy).Contents (Elt F)) (v51 : (⟨S256, .f32⟩ : BufTy).Contents (Elt F)) (arg8 : (⟨S256, .f32⟩ : BufTy).Contents (Elt F)) (arg9 : (⟨S256, .f32⟩ : BufTy).Contents (Elt F)) :
    (⟨S1x256, .f32⟩ : BufTy).Contents (Elt F) :=
  let v57 : (⟨S256, .f32⟩ : BufTy).Contents (Elt F) := (mulf : (⟨S256, .f32⟩ : BufTy).Contents (Elt F) → (⟨S256, .f32⟩ : BufTy).Contents (Elt F) → (⟨S256, .f32⟩ : BufTy).Contents (Elt F)) v50 arg8
  let cst_11 : (⟨S_, .f32⟩ : BufTy).Contents (Elt F) := constant S_ .f32 0x3727C5AC#32
  let v52 : (⟨S256, .f32⟩ : BufTy).Contents (Elt F) := (broadcastInDim S256 ![] bcast_S_S256 : (⟨S_, .f32⟩ : BufTy).Contents (Elt F) → (⟨S256, .f32⟩ : BufTy).Contents (Elt F)) cst_11
  let v53 : (⟨S256, .f32⟩ : BufTy).Contents (Elt F) := (addf : (⟨S256, .f32⟩ : BufTy).Contents (Elt F) → (⟨S256, .f32⟩ : BufTy).Contents (Elt F) → (⟨S256, .f32⟩ : BufTy).Contents (Elt F)) v51 v52
  let v54 : (⟨S256, .f32⟩ : BufTy).Contents (Elt F) := (Host.rsqrt : (⟨S256, .f32⟩ : BufTy).Contents (Elt F) → (⟨S256, .f32⟩ : BufTy).Contents (Elt F)) v53
  let v58 : (⟨S256, .f32⟩ : BufTy).Contents (Elt F) := (mulf : (⟨S256, .f32⟩ : BufTy).Contents (Elt F) → (⟨S256, .f32⟩ : BufTy).Contents (Elt F) → (⟨S256, .f32⟩ : BufTy).Contents (Elt F)) v57 v54
  let v59 : (⟨S256, .f32⟩ : BufTy).Contents (Elt F) := (subf : (⟨S256, .f32⟩ : BufTy).Contents (Elt F) → (⟨S256, .f32⟩ : BufTy).Contents (Elt F) → (⟨S256, .f32⟩ : BufTy).Contents (Elt F)) arg9 v58
  let v60 : (⟨S1x256, .f32⟩ : BufTy).Contents (Elt F) := shapeCast S1x256 v59 shapeCasts_S256_S1x256
  v60

/-- Width 64: the same aggregate and bias. -/
def aggBias64 (v120 : (⟨S50000x64, .f32⟩ : BufTy).Contents (Elt F)) (v1 : (⟨S800000, .i32⟩ : BufTy).Contents (Elt F)) (v3 : (⟨S800000, .i32⟩ : BufTy).Contents (Elt F)) (v127 : (⟨S50000, .f32⟩ : BufTy).Contents (Elt F)) (v142 : (⟨S800000, .f32⟩ : BufTy).Contents (Elt F)) (arg7 : (⟨S64, .f32⟩ : BufTy).Contents (Elt F)) :
    (⟨S50000x64, .f32⟩ : BufTy).Contents (Elt F) :=
  let cst_35 : (⟨S_, .f32⟩ : BufTy).Contents (Elt F) := constant S_ .f32 0x00000000#32
  let v153 : (⟨S50000x64, .f32⟩ : BufTy).Contents (Elt F) := (broadcastInDim S50000x64 ![] bcast_S_S50000x64 : (⟨S_, .f32⟩ : BufTy).Contents (Elt F) → (⟨S50000x64, .f32⟩ : BufTy).Contents (Elt F)) cst_35
  let v154 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v3
  let c_33 : (⟨S_, .i32⟩ : BufTy).Contents (Elt F) := constantI S_ 32 0#32
  let v143 : (⟨S800000, .i32⟩ : BufTy).Contents (Elt F) := (broadcastInDim S800000 ![] bcast_S_S800000 : (⟨S_, .i32⟩ : BufTy).Contents (Elt F) → (⟨S800000, .i32⟩ : BufTy).Contents (Elt F)) c_33
  let v144 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) v1 v143
  let c_34 : (⟨S_, .i32⟩ : BufTy).Contents (Elt F) := constantI S_ 32 50000#32
  let v145 : (⟨S800000, .i32⟩ : BufTy).Contents (Elt F) := (broadcastInDim S800000 ![] bcast_S_S800000 : (⟨S_, .i32⟩ : BufTy).Contents (Elt F) → (⟨S800000, .i32⟩ : BufTy).Contents (Elt F)) c_34
  let v146 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) v1 v145
  let v147 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v144 v146 v1
  let v148 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v147
  let v149 : (⟨S800000x64, .f32⟩ : BufTy).Contents (Elt F) := ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) v120 v148
  let v150 : (⟨S800000x1, .f32⟩ : BufTy).Contents (Elt F) := (broadcastInDim S800000x1 ![0] bcast_S800000_S800000x1_0 : (⟨S800000, .f32⟩ : BufTy).Contents (Elt F) → (⟨S800000x1, .f32⟩ : BufTy).Contents (Elt F)) v142
  let v151 : (⟨S800000x64, .f32⟩ : BufTy).Contents (Elt F) := (broadcastInDim S800000x64 ![0, 1] bcast_S800000x1_S800000x64_0_1 : (⟨S800000x1, .f32⟩ : BufTy).Contents (Elt F) → (⟨S800000x64, .f32⟩ : BufTy).Contents (Elt F)) v150
  let v152 : (⟨S800000x64, .f32⟩ : BufTy).Contents (Elt F) := (mulf : (⟨S800000x64, .f32⟩ : BufTy).Contents (Elt F) → (⟨S800000x64, .f32⟩ : BufTy).Contents (Elt F) → (⟨S800000x64, .f32⟩ : BufTy).Contents (Elt F)) v149 v151
  let v155 : (⟨S50000x64, .f32⟩ : BufTy).Contents (Elt F) := ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) v153 v154 v152
  let v156 : (⟨S50000, .f32⟩ : BufTy).Contents (Elt F) := (mulf : (⟨S50000, .f32⟩ : BufTy).Contents (Elt F) → (⟨S50000, .f32⟩ : BufTy).Contents (Elt F) → (⟨S50000, .f32⟩ : BufTy).Contents (Elt F)) v127 v127
  let v157 : (⟨S50000x1, .f32⟩ : BufTy).Contents (Elt F) := (broadcastInDim S50000x1 ![0] bcast_S50000_S50000x1_0 : (⟨S50000, .f32⟩ : BufTy).Contents (Elt F) → (⟨S50000x1, .f32⟩ : BufTy).Contents (Elt F)) v156
  let v158 : (⟨S50000x64, .f32⟩ : BufTy).Contents (Elt F) := (broadcastInDim S50000x64 ![0, 1] bcast_S50000x1_S50000x64_0_1 : (⟨S50000x1, .f32⟩ : BufTy).Contents (Elt F) → (⟨S50000x64, .f32⟩ : BufTy).Contents (Elt F)) v157
  let v159 : (⟨S50000x64, .f32⟩ : BufTy).Contents (Elt F) := (mulf : (⟨S50000x64, .f32⟩ : BufTy).Contents (Elt F) → (⟨S50000x64, .f32⟩ : BufTy).Contents (Elt F) → (⟨S50000x64, .f32⟩ : BufTy).Contents (Elt F)) v120 v158
  let v160 : (⟨S50000x64, .f32⟩ : BufTy).Contents (Elt F) := (addf : (⟨S50000x64, .f32⟩ : BufTy).Contents (Elt F) → (⟨S50000x64, .f32⟩ : BufTy).Contents (Elt F) → (⟨S50000x64, .f32⟩ : BufTy).Contents (Elt F)) v155 v159
  let v161 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) arg7
  let v162 : (⟨S50000x64, .f32⟩ : BufTy).Contents (Elt F) := (broadcastInDim S50000x64 ![0, 1] bcast_S1x64_S50000x64_0_1 : (⟨S1x64, .f32⟩ : BufTy).Contents (Elt F) → (⟨S50000x64, .f32⟩ : BufTy).Contents (Elt F)) v161
  let v163 : (⟨S50000x64, .f32⟩ : BufTy).Contents (Elt F) := (addf : (⟨S50000x64, .f32⟩ : BufTy).Contents (Elt F) → (⟨S50000x64, .f32⟩ : BufTy).Contents (Elt F) → (⟨S50000x64, .f32⟩ : BufTy).Contents (Elt F)) v160 v162
  v163

/-- The first stretch leaves the edges' sources in their buffer. -/
theorem read_row0 (V : Valuation τ sig (Elt F)) :
    after hostOps0 V (main_v1 : DevRef τ sig) = edgeRow0 (V (main_arg1 : DevRef τ sig)) := by
  after_results_simp
  rfl

/-- The first stretch leaves the edges' targets in their buffer. -/
theorem read_row1 (V : Valuation τ sig (Elt F)) :
    after hostOps0 V (main_v3 : DevRef τ sig) = edgeRow1 (V (main_arg1 : DevRef τ sig)) := by
  after_results_simp
  rfl

/-- Layer 1: the stretch after the first product leaves the aggregate plus bias of that product. -/
theorem read_agg1 (V : Valuation τ sig (Elt F)) :
    after hostOps1 V (main_v47 : DevRef τ sig) = aggBias256 (V (main_v4 : DevRef τ sig)) (V (main_v1 : DevRef τ sig)) (V (main_v3 : DevRef τ sig)) (degInv (V (main_v3 : DevRef τ sig))) (edgeCoef (degInv (V (main_v3 : DevRef τ sig))) (V (main_v1 : DevRef τ sig)) (V (main_v3 : DevRef τ sig))) (V (main_arg3 : DevRef τ sig)) := by
  after_results_simp
  rfl

/-- Layer 1: and the column means of that. -/
theorem read_mean1 (V : Valuation τ sig (Elt F)) :
    after hostOps1 V (main_v50 : DevRef τ sig) = colMean256 (aggBias256 (V (main_v4 : DevRef τ sig)) (V (main_v1 : DevRef τ sig)) (V (main_v3 : DevRef τ sig)) (degInv (V (main_v3 : DevRef τ sig))) (edgeCoef (degInv (V (main_v3 : DevRef τ sig))) (V (main_v1 : DevRef τ sig)) (V (main_v3 : DevRef τ sig))) (V (main_arg3 : DevRef τ sig))) := by
  after_results_simp
  rfl

/-- Layer 1: the variance's correction is the integer zero. -/
theorem read_ddof1 (V : Valuation τ sig (Elt F)) :
    after hostOps1 V (main_c_10 : DevRef τ sig) = (constantI S_ 32 0#32 : (⟨S_, .i32⟩ : BufTy).Contents (Elt F)) := by
  after_results_simp

/-- Layer 1: the variance call leaves the column variances of its operand. -/
theorem read_var1 (V : Valuation τ sig (Elt F)) :
    after hostOps1_1 V (main_v51 : DevRef τ sig) = colVar256 (V (main_v47 : DevRef τ sig)) (V (main_c_10 : DevRef τ sig)) := by
  after_results_simp
  rfl

/-- Layer 1: the scale row. -/
theorem read_scale1 (V : Valuation τ sig (Elt F)) :
    after hostOps1_2 V (main_v56 : DevRef τ sig) = bnScale (V (main_v51 : DevRef τ sig)) (V (main_arg8 : DevRef τ sig)) := by
  after_results_simp
  rfl

/-- Layer 1: the shift row. -/
theorem read_shift1 (V : Valuation τ sig (Elt F)) :
    after hostOps1_2 V (main_v60 : DevRef τ sig) = bnShift (V (main_v50 : DevRef τ sig)) (V (main_v51 : DevRef τ sig)) (V (main_arg8 : DevRef τ sig)) (V (main_arg9 : DevRef τ sig)) := by
  after_results_simp
  rfl

/-- Layer 2: the aggregate plus bias of the second product. -/
theorem read_agg2 (V : Valuation τ sig (Elt F)) :
    after hostOps3 V (main_v105 : DevRef τ sig) = aggBias256 (V (main_v62 : DevRef τ sig)) (V (main_v1 : DevRef τ sig)) (V (main_v3 : DevRef τ sig)) (degInv (V (main_v3 : DevRef τ sig))) (edgeCoef (degInv (V (main_v3 : DevRef τ sig))) (V (main_v1 : DevRef τ sig)) (V (main_v3 : DevRef τ sig))) (V (main_arg5 : DevRef τ sig)) := by
  after_results_simp
  rfl

/-- Layer 2: its column means. -/
theorem read_mean2 (V : Valuation τ sig (Elt F)) :
    after hostOps3 V (main_v108 : DevRef τ sig) = colMean256 (aggBias256 (V (main_v62 : DevRef τ sig)) (V (main_v1 : DevRef τ sig)) (V (main_v3 : DevRef τ sig)) (degInv (V (main_v3 : DevRef τ sig))) (edgeCoef (degInv (V (main_v3 : DevRef τ sig))) (V (main_v1 : DevRef τ sig)) (V (main_v3 : DevRef τ sig))) (V (main_arg5 : DevRef τ sig))) := by
  after_results_simp
  rfl

/-- Layer 2: the variance's correction is the integer zero. -/
theorem read_ddof2 (V : Valuation τ sig (Elt F)) :
    after hostOps3 V (main_c_24 : DevRef τ sig) = (constantI S_ 32 0#32 : (⟨S_, .i32⟩ : BufTy).Contents (Elt F)) := by
  after_results_simp

/-- Layer 2: the column variances. -/
theorem read_var2 (V : Valuation τ sig (Elt F)) :
    after hostOps3_1 V (main_v109 : DevRef τ sig) = colVar256 (V (main_v105 : DevRef τ sig)) (V (main_c_24 : DevRef τ sig)) := by
  after_results_simp
  rfl

/-- Layer 2: the scale row. -/
theorem read_scale2 (V : Valuation τ sig (Elt F)) :
    after hostOps3_2 V (main_v114 : DevRef τ sig) = bnScale (V (main_v109 : DevRef τ sig)) (V (main_arg10 : DevRef τ sig)) := by
  after_results_simp
  rfl

/-- Layer 2: the shift row. -/
theorem read_shift2 (V : Valuation τ sig (Elt F)) :
    after hostOps3_2 V (main_v118 : DevRef τ sig) = bnShift (V (main_v108 : DevRef τ sig)) (V (main_v109 : DevRef τ sig)) (V (main_arg10 : DevRef τ sig)) (V (main_arg11 : DevRef τ sig)) := by
  after_results_simp
  rfl

/-- Layer 3: the aggregate plus bias of the third product, at width 64. -/
theorem read_agg3 (V : Valuation τ sig (Elt F)) :
    after hostOps5 V (main_v163 : DevRef τ sig) = aggBias64 (V (main_v120 : DevRef τ sig)) (V (main_v1 : DevRef τ sig)) (V (main_v3 : DevRef τ sig)) (degInv (V (main_v3 : DevRef τ sig))) (edgeCoef (degInv (V (main_v3 : DevRef τ sig))) (V (main_v1 : DevRef τ sig)) (V (main_v3 : DevRef τ sig))) (V (main_arg7 : DevRef τ sig)) := by
  after_results_simp
  rfl

end Cert.KernelIdeal.HostVal

end
-- ==== Proof.KernelKept.lean ====
/-
  Buffers that the segments in between do not write. Read at a later boundary of the program's fold, such a buffer
  holds what it held at the earlier one: a stretch of host operations leaves every buffer it does not write, and a
  region leaves every buffer that is not one of its arrays and writes back an input array unchanged. So the
  arguments are still the launch contents wherever a later segment reads them, the two edge rows computed by the
  first stretch are still there when each layer's host arithmetic reads them, and a layer's aggregate, mean and
  variance survive the stretches between their computation and their use.
-/
import proofs.«118705_j84670985273387_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem kept_arg0_1_0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem kept_arg2_1_0 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem kept_v1_2_1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem kept_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem kept_arg3_2_0 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem kept_v47_5_3 (c : Dev nD) : W5 m ρ c (Proc.devRef .tc main_v47) = W3 m ρ c (Proc.devRef .tc main_v47) :=
  calc W5 m ρ c (Proc.devRef .tc main_v47)
    _ = W4 m ρ c (Proc.devRef .tc main_v47) := StableHlo.after_of_forall_not_mem (b := Proc.devRef .tc main_v47) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v47) := StableHlo.after_of_forall_not_mem (b := Proc.devRef .tc main_v47) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_v50_4_3 (c : Dev nD) : W4 m ρ c (Proc.devRef .tc main_v50) = W3 m ρ c (Proc.devRef .tc main_v50) :=
  calc W4 m ρ c (Proc.devRef .tc main_v50)
    _ = W3 m ρ c (Proc.devRef .tc main_v50) := StableHlo.after_of_forall_not_mem (b := Proc.devRef .tc main_v50) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg8_4_0 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem kept_arg9_4_0 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem kept_arg4_6_0 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem kept_v1_7_1 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem kept_v3_7_1 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem kept_arg5_7_0 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem kept_v105_10_8 (c : Dev nD) : W10 m ρ c (Proc.devRef .tc main_v105) = W8 m ρ c (Proc.devRef .tc main_v105) :=
  calc W10 m ρ c (Proc.devRef .tc main_v105)
    _ = W9 m ρ c (Proc.devRef .tc main_v105) := StableHlo.after_of_forall_not_mem (b := Proc.devRef .tc main_v105) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v105) := StableHlo.after_of_forall_not_mem (b := Proc.devRef .tc main_v105) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_v108_9_8 (c : Dev nD) : W9 m ρ c (Proc.devRef .tc main_v108) = W8 m ρ c (Proc.devRef .tc main_v108) :=
  calc W9 m ρ c (Proc.devRef .tc main_v108)
    _ = W8 m ρ c (Proc.devRef .tc main_v108) := StableHlo.after_of_forall_not_mem (b := Proc.devRef .tc main_v108) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg10_9_0 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_forall_not_mem (b := Proc.devRef .tc main_arg10) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem kept_arg11_9_0 (c : Dev nD) : W9 m ρ c (Proc.devRef .tc main_arg11) = m ((c : Thread nD τ).loc main_arg11) :=
  calc W9 m ρ c (Proc.devRef .tc main_arg11)
    _ = W8 m ρ c (Proc.devRef .tc main_arg11) := StableHlo.after_of_forall_not_mem (b := Proc.devRef .tc main_arg11) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := StableHlo.after_of_forall_not_mem (b := Proc.devRef .tc main_arg11) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem kept_arg6_11_0 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := StableHlo.after_of_forall_not_mem (b := Proc.devRef .tc main_arg6) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg6) := StableHlo.after_of_forall_not_mem (b := Proc.devRef .tc main_arg6) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem kept_v1_12_1 (c : Dev nD) : W12 m ρ c (Proc.devRef .tc main_v1) = W1 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := StableHlo.after_of_forall_not_mem (b := Proc.devRef .tc main_v1) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v1) := StableHlo.after_of_forall_not_mem (b := Proc.devRef .tc main_v1) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem kept_v3_12_1 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := StableHlo.after_of_forall_not_mem (b := Proc.devRef .tc main_v3) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem kept_arg7_12_0 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := StableHlo.after_of_forall_not_mem (b := Proc.devRef .tc main_arg7) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := StableHlo.after_of_forall_not_mem (b := Proc.devRef .tc main_arg7) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

end Cert.KernelIdeal.Kept

end
-- ==== Proof.KernelStages.lean ====
/-
  The kernel's host arithmetic at the boundaries of its fold. At the boundary after a layer's matrix product the
  next stretch of host operations computes, from that product, the two edge rows and the bias: the aggregate plus
  bias; from the aggregate its column means and column variances; from those and the batch norm's gamma and beta
  the scale row and the shift row the fused kernel reads. Each equation below reads one such buffer at its
  boundary as the corresponding function of the earlier boundary's product and of the launch contents of the
  arguments (the edge rows and the arguments are carried unchanged across the segments in between).
-/
import proofs.«118705_j84670985273387_1_alg».proof.Proof.KernelHost
import proofs.«118705_j84670985273387_1_alg».proof.Proof.KernelKept

set_option maxRecDepth 16384

noncomputable section

namespace Cert.KernelIdeal.Stages

open Cert.KernelIdeal Cert.KernelIdeal.Gen Cert.KernelIdeal.HostVal Cert.KernelIdeal.Kept
open Idealize.ShloMosaic Idealize.ShloMosaic.TcCoe Idealize.SL Idealize.SL.Sem

variable {F : FTy → Type} [FloatOps F]
variable (m : (ℓ : Loc nD τ sig) → Buf (Elt F) ℓ) (ρ : Dev nD → PrngReg)

/-- The edges' sources, after the first stretch. -/
theorem src_at1 (c : Dev nD) : W1 m ρ c (Proc.devRef .tc main_v1) = edgeRow0 (m ((c : Thread nD τ).loc main_arg1)) :=
  read_row0 (W0 m ρ c)
/-- The edges' targets, after the first stretch. -/
theorem dst_at1 (c : Dev nD) : W1 m ρ c (Proc.devRef .tc main_v3) = edgeRow1 (m ((c : Thread nD τ).loc main_arg1)) :=
  read_row1 (W0 m ρ c)

/-! ## Layer 1 -/

/-- Layer 1: the aggregate plus bias of the layer's product. -/
theorem agg1 (c : Dev nD) : W3 m ρ c (Proc.devRef .tc main_v47) = aggBias256 (W2 m ρ c (Proc.devRef .tc main_v4)) (edgeRow0 (m ((c : Thread nD τ).loc main_arg1))) (edgeRow1 (m ((c : Thread nD τ).loc main_arg1))) (degInv (edgeRow1 (m ((c : Thread nD τ).loc main_arg1)))) (edgeCoef (degInv (edgeRow1 (m ((c : Thread nD τ).loc main_arg1)))) (edgeRow0 (m ((c : Thread nD τ).loc main_arg1))) (edgeRow1 (m ((c : Thread nD τ).loc main_arg1)))) (m ((c : Thread nD τ).loc main_arg3)) := by
  have h := read_agg1 (W2 m ρ c)
  rw [kept_v1_2_1 m ρ c, kept_v3_2_1 m ρ c, kept_arg3_2_0 m ρ c, src_at1 m ρ c, dst_at1 m ρ c] at h
  exact h
/-- Layer 1: the column means of the aggregate. -/
theorem mean1 (c : Dev nD) : W3 m ρ c (Proc.devRef .tc main_v50) = colMean256 (W3 m ρ c (Proc.devRef .tc main_v47)) := by
  have h := read_mean1 (W2 m ρ c)
  rw [kept_v1_2_1 m ρ c, kept_v3_2_1 m ρ c, kept_arg3_2_0 m ρ c, src_at1 m ρ c, dst_at1 m ρ c] at h
  rw [agg1 m ρ c]
  exact h
/-- Layer 1: the column variances of the aggregate (no degrees-of-freedom correction). -/
theorem var1 (c : Dev nD) : W4 m ρ c (Proc.devRef .tc main_v51) = colVar256 (W3 m ρ c (Proc.devRef .tc main_v47)) (constantI S_ 32 0#32) := by
  have h := read_var1 (W3 m ρ c)
  rw [show W3 m ρ c (Proc.devRef .tc main_c_10) = _ from read_ddof1 (W2 m ρ c)] at h
  exact h
/-- Layer 1: the fused batch norm's scale row. -/
theorem scale1 (c : Dev nD) : W5 m ρ c (Proc.devRef .tc main_v56) = bnScale (W4 m ρ c (Proc.devRef .tc main_v51)) (m ((c : Thread nD τ).loc main_arg8)) := by
  have h := read_scale1 (W4 m ρ c)
  rw [kept_arg8_4_0 m ρ c] at h
  exact h
/-- Layer 1: the fused batch norm's shift row. -/
theorem shift1 (c : Dev nD) : W5 m ρ c (Proc.devRef .tc main_v60) = bnShift (W3 m ρ c (Proc.devRef .tc main_v50)) (W4 m ρ c (Proc.devRef .tc main_v51)) (m ((c : Thread nD τ).loc main_arg8)) (m ((c : Thread nD τ).loc main_arg9)) := by
  have h := read_shift1 (W4 m ρ c)
  rw [kept_v50_4_3 m ρ c, kept_arg8_4_0 m ρ c, kept_arg9_4_0 m ρ c] at h
  exact h

/-! ## Layer 2 -/

/-- Layer 2: the aggregate plus bias of the layer's product. -/
theorem agg2 (c : Dev nD) : W8 m ρ c (Proc.devRef .tc main_v105) = aggBias256 (W7 m ρ c (Proc.devRef .tc main_v62)) (edgeRow0 (m ((c : Thread nD τ).loc main_arg1))) (edgeRow1 (m ((c : Thread nD τ).loc main_arg1))) (degInv (edgeRow1 (m ((c : Thread nD τ).loc main_arg1)))) (edgeCoef (degInv (edgeRow1 (m ((c : Thread nD τ).loc main_arg1)))) (edgeRow0 (m ((c : Thread nD τ).loc main_arg1))) (edgeRow1 (m ((c : Thread nD τ).loc main_arg1)))) (m ((c : Thread nD τ).loc main_arg5)) := by
  have h := read_agg2 (W7 m ρ c)
  rw [kept_v1_7_1 m ρ c, kept_v3_7_1 m ρ c, kept_arg5_7_0 m ρ c, src_at1 m ρ c, dst_at1 m ρ c] at h
  exact h
/-- Layer 2: the column means of the aggregate. -/
theorem mean2 (c : Dev nD) : W8 m ρ c (Proc.devRef .tc main_v108) = colMean256 (W8 m ρ c (Proc.devRef .tc main_v105)) := by
  have h := read_mean2 (W7 m ρ c)
  rw [kept_v1_7_1 m ρ c, kept_v3_7_1 m ρ c, kept_arg5_7_0 m ρ c, src_at1 m ρ c, dst_at1 m ρ c] at h
  rw [agg2 m ρ c]
  exact h
/-- Layer 2: the column variances of the aggregate (no degrees-of-freedom correction). -/
theorem var2 (c : Dev nD) : W9 m ρ c (Proc.devRef .tc main_v109) = colVar256 (W8 m ρ c (Proc.devRef .tc main_v105)) (constantI S_ 32 0#32) := by
  have h := read_var2 (W8 m ρ c)
  rw [show W8 m ρ c (Proc.devRef .tc main_c_24) = _ from read_ddof2 (W7 m ρ c)] at h
  exact h
/-- Layer 2: the fused batch norm's scale row. -/
theorem scale2 (c : Dev nD) : W10 m ρ c (Proc.devRef .tc main_v114) = bnScale (W9 m ρ c (Proc.devRef .tc main_v109)) (m ((c : Thread nD τ).loc main_arg10)) := by
  have h := read_scale2 (W9 m ρ c)
  rw [kept_arg10_9_0 m ρ c] at h
  exact h
/-- Layer 2: the fused batch norm's shift row. -/
theorem shift2 (c : Dev nD) : W10 m ρ c (Proc.devRef .tc main_v118) = bnShift (W8 m ρ c (Proc.devRef .tc main_v108)) (W9 m ρ c (Proc.devRef .tc main_v109)) (m ((c : Thread nD τ).loc main_arg10)) (m ((c : Thread nD τ).loc main_arg11)) := by
  have h := read_shift2 (W9 m ρ c)
  rw [kept_v108_9_8 m ρ c, kept_arg10_9_0 m ρ c, kept_arg11_9_0 m ρ c] at h
  exact h

/-! ## Layer 3 -/

/-- Layer 3: the aggregate plus bias of the third product, at width 64. -/
theorem agg3 (c : Dev nD) : W13 m ρ c (Proc.devRef .tc main_v163) = aggBias64 (W12 m ρ c (Proc.devRef .tc main_v120)) (edgeRow0 (m ((c : Thread nD τ).loc main_arg1))) (edgeRow1 (m ((c : Thread nD τ).loc main_arg1))) (degInv (edgeRow1 (m ((c : Thread nD τ).loc main_arg1)))) (edgeCoef (degInv (edgeRow1 (m ((c : Thread nD τ).loc main_arg1)))) (edgeRow0 (m ((c : Thread nD τ).loc main_arg1))) (edgeRow1 (m ((c : Thread nD τ).loc main_arg1)))) (m ((c : Thread nD τ).loc main_arg7)) := by
  have h := read_agg3 (W12 m ρ c)
  rw [kept_v1_12_1 m ρ c, kept_v3_12_1 m ρ c, kept_arg7_12_0 m ρ c, src_at1 m ρ c, dst_at1 m ρ c] at h
  exact h

end Cert.KernelIdeal.Stages

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.RegLinear0.lean ====
/-
  The first layer's dense projection x @ W1 ([50000, 512] against [512, 256]) as the result array holds it.

  The 50000 node rows are taken in 25 blocks of 2000 rows. At each block the body multiplies the block of x (2000 × 512)
  by the whole of W (512 × 256): both operands change float format (the identity on the extended reals) and the matrix
  unit, started from zero, leaves Σ_k x[p, k] · W[k, f] at entry (p, f) of the block. Block t is written back to rows
  2000 t … 2000 t + 1999 of the result, and the 25 blocks tile it, so after the region entry (n, f) of the result is
  Σ_k x[n, k] · W[k, f] of the two operand arrays as the region found them.
-/
import proofs.«118705_j84670985273387_1_alg».proof.Proof.Gen.KernelIdeal.Frame
import Idealize.ShloMosaic.Lib.Pipeline.Value
import Idealize.ShloMosaic.Lib.ValueIdx
import Idealize.ShloMosaic.PureOps.Ideal.Laws
import proofs.«118705_j84670985273387_1_alg».proof.Proof.LibDotInner

noncomputable section

open scoped BigOperators

namespace Cert.KernelIdeal.RegVal

open Idealize.ShloMosaic Idealize.ShloMosaic.TcCoe Idealize.SL.Sem Idealize.ShloMosaic.ValueIdx
open Idealize.ShloMosaic.Pipeline (Dat)
open Cert.KernelIdeal

/-- A whole-buffer access starts at offset zero on both axes. -/
theorem zero_offsets0 : (![0, 0] : Fin 2 → Nat) = fun _ => 0 := funext fun a => by fin_cases a <;> rfl

/-- THE PRODUCT: entry (n, f) of x @ W is Σ_k x[n, k] · W[k, f], over the extended reals. -/
abbrev prod0 (x : S50000x512.Idx → EReal) (w : S512x256.Idx → EReal) : S50000x256.Idx → EReal :=
  fun i => ∑ k : Fin 512, x (ix2 (n0 := 50000) (n1 := 512) (i 0) k) * w (ix2 (n0 := 512) (n1 := 256) k (i 1))

/-- One row block's product at an entry: the change of float format of both operands is the identity on
    the extended reals, and the matrix unit started from the zero splat sums x[p, k] · W[k, f] over the contracted
    axis; the dimension numbers contract the left operand's columns against the right operand's rows. -/
theorem block_product0 (x : FVec Ideal S2000x512 .f32) (w : FVec Ideal S512x256 .f32) (p : Fin 2000) (f : Fin 256) :
    Gen.k0_pay1 (F := Ideal) x w (ix2 p f) = ∑ k : Fin 512, x (ix2 p k) * w (ix2 k f) := by
  unfold Gen.k0_pay1
  refine DotInner.matmul_zero_apply dot_S2000x512_S512x256_S2000x256_1_0_0_1_n_n rfl rfl ?_ ?_ ?_ ?_ none x w p f
  · intro j q
    unfold DotDims.lhsIdx
    rw [dif_neg (show ¬(0 : Fin S2000x512.rank) ∈ dot_S2000x512_S512x256_S2000x256_1_0_0_1_n_n.lhsBatch by decide),
      dif_pos (show (0 : Fin S2000x512.rank) ∈ dot_S2000x512_S512x256_S2000x256_1_0_0_1_n_n.lhsNonContracting by decide)]
    rfl
  · exact fun j q => DotDims.lhsIdx_val_of_single dot_S2000x512_S512x256_S2000x256_1_0_0_1_n_n rfl j q
  · exact fun j q => DotDims.rhsIdx_val_of_single dot_S2000x512_S512x256_S2000x256_1_0_0_1_n_n rfl j q
  · intro j q
    unfold DotDims.rhsIdx
    rw [dif_neg (show ¬(1 : Fin S512x256.rank) ∈ dot_S2000x512_S512x256_S2000x256_1_0_0_1_n_n.rhsBatch by decide),
      dif_pos (show (1 : Fin S512x256.rank) ∈ dot_S2000x512_S512x256_S2000x256_1_0_0_1_n_n.rhsNonContracting by decide)]
    rfl

/-- The block index maps over the 25 grid points: x's and the result's blocks are row block t, all columns; W's block
    is the whole matrix at every point. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)

/-- x's block at point t is rows 2000 t … 2000 t + 1999 of x. -/
theorem x_block0 (t : Fin cfg0.N) (y : S2000x512.Idx) (i : S50000x512.Idx)
    (h0 : (i 0).val = 2000 * t.val + (y 0).val) (h1 : (i 1).val = (y 1).val) :
    (Gen.iblk0 V c 0 t : Vec Ideal S2000x512 .f32) y = (V c (Pipeline.arrRef spec0 0) : S50000x512.Idx → EReal) i := by
  obtain ⟨e0, e1, -, -, -, -⟩ := block_indices0 t
  unfold Gen.iblk0
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- W's block at every point is W. -/
theorem w_block0 (t : Fin cfg0.N) (y : S512x256.Idx) (i : S512x256.Idx)
    (h0 : (i 0).val = (y 0).val) (h1 : (i 1).val = (y 1).val) :
    (Gen.iblk0 V c 1 t : Vec Ideal S512x256 .f32) y = (V c (Pipeline.arrRef spec0 1) : S512x256.Idx → EReal) i := by
  obtain ⟨-, -, e0, e1, -, -⟩ := block_indices0 t
  unfold Gen.iblk0
  rw [View.read_apply]
  show V c (Pipeline.arrRef spec0 1) _ = V c (Pipeline.arrRef spec0 1) _
  congr 1
  funext a
  apply Fin.ext
  match a with
  | ⟨0, _⟩ => show win0_1.index t (0 : Fin 2) * 512 + 1 * (y 0).val = (i 0).val; rw [e0, h0]; omega
  | ⟨1, _⟩ => show win0_1.index t (1 : Fin 2) * 256 + 1 * (y 1).val = (i 1).val; rw [e1, h1]; omega

/-- WHAT POINT t WRITES BACK is row block t of the product: entry (p, f) of the block sits at row 2000 t + p, column f
    of the result, and the block's product reads x's row 2000 t + p and W's column f there. -/
theorem flushed0 (t : Fin cfg0.N) :
    (Gen.dat0 (F := Ideal) V c).flushed 2 t
      = ((cfg0.win 2).blk t).view.read (Elt Ideal) (prod0 (V c (Pipeline.arrRef spec0 0)) (V c (Pipeline.arrRef spec0 1))) := by
  show (cfg0.win 2).cut (grid0.coords t) ((Gen.dat0 V c).after 2 t) = _
  rw [Gen.after0_2]
  unfold Gen.out0_2
  rw [View.canon_unit_zero zero_offsets0]
  simp only [View.ld_unit_zero (S := S2000x512) zero_offsets0, View.ld_unit_zero (S := S512x256) zero_offsets0]
  obtain ⟨-, -, -, -, e0, e1⟩ := block_indices0 t
  funext j
  obtain ⟨p, f, rfl⟩ : ∃ (p : Fin 2000) (f : Fin 256), j = ix2 p f := ⟨j 0, j 1, eq_ix2 j⟩
  rw [View.read_apply]
  show Gen.k0_pay1 (Gen.iblk0 V c 0 t) (Gen.iblk0 V c 1 t) (ix2 p f) = prod0 _ _ (((cfg0.win 2).blk t).view.emb (ix2 p f))
  refine (block_product0 (Gen.iblk0 V c 0 t) (Gen.iblk0 V c 1 t) p f).trans ?_
  refine Finset.sum_congr rfl fun k _ => ?_
  refine congrArg₂ (· * ·) ?_ ?_
  · exact x_block0 V c t (ix2 p k) _
      (by show win0_2.index t (0 : Fin 2) * 2000 + 1 * p.val = 2000 * t.val + p.val; rw [e0]; omega) rfl
  · exact w_block0 V c t (ix2 k f) _ rfl
      (by show win0_2.index t (1 : Fin 2) * 256 + 1 * f.val = f.val; rw [e1]; omega)

/-- An entry of the result is in point t's block iff each coordinate is in the block's range on its axis. -/
theorem mem_block0 (t : Fin cfg0.N) (i : S50000x256.Idx) :
    i ∈ ((cfg0.win 2).blk t).view.set
      ↔ ∀ a : Fin 2, win0_2.index t a * S2000x256.size a ≤ (i a).val ∧ (i a).val < win0_2.index t a * S2000x256.size a + S2000x256.size a := by
  show i ∈ ((View.whole main_v4).slice (win0_2.rect t)).set ↔ _
  rw [View.set_slice_whole, Rect.mem_set_unit]
  exact Iff.rfl

/-- The 25 row blocks tile the result: row r is in block r / 2000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := Gen.N_0
  have ht : (i 0).val / 2000 < cfg0.N := by rw [hN]; omega
  obtain ⟨-, -, -, -, e0, e1⟩ := block_indices0 ⟨(i 0).val / 2000, ht⟩
  refine ⟨⟨(i 0).val / 2000, ht⟩, Gen.flush0_2 _, ?_⟩
  rw [mem_block0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val
      ∧ (i 1).val < win0_2.index ⟨(i 0).val / 2000, ht⟩ (1 : Fin 2) * 256 + 256
    rw [e1]; omega

/-- THE RESULT ARRAY after the region: the product of the two operand arrays as the region found them. -/
theorem linear0 :
    (Gen.dat0 (F := Ideal) V c).arrAt 2 cfg0.N
      = prod0 (V c (Pipeline.arrRef spec0 0)) (V c (Pipeline.arrRef spec0 1)) :=
  (Gen.dat0 V c).arrAt_eq_of_cover 2 _ (fun t _ => flushed0 V c t) cover0

end

end Cert.KernelIdeal.RegVal

end
-- ==== Proof.RegLinear2.lean ====
/-
  The second layer's dense projection h @ W2 ([50000, 256] against [256, 256]) as the result array holds it.

  The 50000 node rows are taken in 25 blocks of 2000 rows. At each block the body multiplies the block of x (2000 × 256)
  by the whole of W (256 × 256): both operands change float format (the identity on the extended reals) and the matrix
  unit, started from zero, leaves Σ_k x[p, k] · W[k, f] at entry (p, f) of the block. Block t is written back to rows
  2000 t … 2000 t + 1999 of the result, and the 25 blocks tile it, so after the region entry (n, f) of the result is
  Σ_k x[n, k] · W[k, f] of the two operand arrays as the region found them.
-/
import proofs.«118705_j84670985273387_1_alg».proof.Proof.Gen.KernelIdeal.Frame
import Idealize.ShloMosaic.Lib.Pipeline.Value
import Idealize.ShloMosaic.Lib.ValueIdx
import Idealize.ShloMosaic.PureOps.Ideal.Laws
import proofs.«118705_j84670985273387_1_alg».proof.Proof.LibDotInner

noncomputable section

open scoped BigOperators

namespace Cert.KernelIdeal.RegVal

open Idealize.ShloMosaic Idealize.ShloMosaic.TcCoe Idealize.SL.Sem Idealize.ShloMosaic.ValueIdx
open Idealize.ShloMosaic.Pipeline (Dat)
open Cert.KernelIdeal

/-- A whole-buffer access starts at offset zero on both axes. -/
theorem zero_offsets2 : (![0, 0] : Fin 2 → Nat) = fun _ => 0 := funext fun a => by fin_cases a <;> rfl

/-- THE PRODUCT: entry (n, f) of x @ W is Σ_k x[n, k] · W[k, f], over the extended reals. -/
abbrev prod2 (x : S50000x256.Idx → EReal) (w : S256x256.Idx → EReal) : S50000x256.Idx → EReal :=
  fun i => ∑ k : Fin 256, x (ix2 (n0 := 50000) (n1 := 256) (i 0) k) * w (ix2 (n0 := 256) (n1 := 256) k (i 1))

/-- One row block's product at an entry: the shape cast to the same shape and the change of float format of both operands are the identity on
    the extended reals, and the matrix unit started from the zero splat sums x[p, k] · W[k, f] over the contracted
    axis; the dimension numbers contract the left operand's columns against the right operand's rows. -/
theorem block_product2 (x : FVec Ideal S2000x256 .f32) (w : FVec Ideal S256x256 .f32) (p : Fin 2000) (f : Fin 256) :
    Gen.k2_pay1 (F := Ideal) x w (ix2 p f) = ∑ k : Fin 256, x (ix2 p k) * w (ix2 k f) := by
  unfold Gen.k2_pay1
  simp only [shapeCast_self]
  refine DotInner.matmul_zero_apply dot_S2000x256_S256x256_S2000x256_1_0_0_1_n_n rfl rfl ?_ ?_ ?_ ?_ none x w p f
  · intro j q
    unfold DotDims.lhsIdx
    rw [dif_neg (show ¬(0 : Fin S2000x256.rank) ∈ dot_S2000x256_S256x256_S2000x256_1_0_0_1_n_n.lhsBatch by decide),
      dif_pos (show (0 : Fin S2000x256.rank) ∈ dot_S2000x256_S256x256_S2000x256_1_0_0_1_n_n.lhsNonContracting by decide)]
    rfl
  · exact fun j q => DotDims.lhsIdx_val_of_single dot_S2000x256_S256x256_S2000x256_1_0_0_1_n_n rfl j q
  · exact fun j q => DotDims.rhsIdx_val_of_single dot_S2000x256_S256x256_S2000x256_1_0_0_1_n_n rfl j q
  · intro j q
    unfold DotDims.rhsIdx
    rw [dif_neg (show ¬(1 : Fin S256x256.rank) ∈ dot_S2000x256_S256x256_S2000x256_1_0_0_1_n_n.rhsBatch by decide),
      dif_pos (show (1 : Fin S256x256.rank) ∈ dot_S2000x256_S256x256_S2000x256_1_0_0_1_n_n.rhsNonContracting by decide)]
    rfl

/-- The block index maps over the 25 grid points: x's and the result's blocks are row block t, all columns; W's block
    is the whole matrix at every point. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b)) (c : Dev nD)

/-- x's block at point t is rows 2000 t … 2000 t + 1999 of x. -/
theorem x_block2 (t : Fin cfg2.N) (y : S2000x256.Idx) (i : S50000x256.Idx)
    (h0 : (i 0).val = 2000 * t.val + (y 0).val) (h1 : (i 1).val = (y 1).val) :
    (Gen.iblk2 V c 0 t : Vec Ideal S2000x256 .f32) y = (V c (Pipeline.arrRef spec2 0) : S50000x256.Idx → EReal) i := by
  obtain ⟨e0, e1, -, -, -, -⟩ := block_indices2 t
  unfold Gen.iblk2
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 256 + 1 * (y 1).val = (i 1).val; rw [e1, h1]; omega

/-- W's block at every point is W. -/
theorem w_block2 (t : Fin cfg2.N) (y : S256x256.Idx) (i : S256x256.Idx)
    (h0 : (i 0).val = (y 0).val) (h1 : (i 1).val = (y 1).val) :
    (Gen.iblk2 V c 1 t : Vec Ideal S256x256 .f32) y = (V c (Pipeline.arrRef spec2 1) : S256x256.Idx → EReal) i := by
  obtain ⟨-, -, e0, e1, -, -⟩ := block_indices2 t
  unfold Gen.iblk2
  rw [View.read_apply]
  show V c (Pipeline.arrRef spec2 1) _ = V c (Pipeline.arrRef spec2 1) _
  congr 1
  funext a
  apply Fin.ext
  match a with
  | ⟨0, _⟩ => show win2_1.index t (0 : Fin 2) * 256 + 1 * (y 0).val = (i 0).val; rw [e0, h0]; omega
  | ⟨1, _⟩ => show win2_1.index t (1 : Fin 2) * 256 + 1 * (y 1).val = (i 1).val; rw [e1, h1]; omega

/-- WHAT POINT t WRITES BACK is row block t of the product: entry (p, f) of the block sits at row 2000 t + p, column f
    of the result, and the block's product reads x's row 2000 t + p and W's column f there. -/
theorem flushed2 (t : Fin cfg2.N) :
    (Gen.dat2 (F := Ideal) V c).flushed 2 t
      = ((cfg2.win 2).blk t).view.read (Elt Ideal) (prod2 (V c (Pipeline.arrRef spec2 0)) (V c (Pipeline.arrRef spec2 1))) := by
  show (cfg2.win 2).cut (grid2.coords t) ((Gen.dat2 V c).after 2 t) = _
  rw [Gen.after2_2]
  unfold Gen.out2_2
  rw [View.canon_unit_zero zero_offsets2]
  simp only [View.ld_unit_zero (S := S2000x256) zero_offsets2, View.ld_unit_zero (S := S256x256) zero_offsets2]
  obtain ⟨-, -, -, -, e0, e1⟩ := block_indices2 t
  funext j
  obtain ⟨p, f, rfl⟩ : ∃ (p : Fin 2000) (f : Fin 256), j = ix2 p f := ⟨j 0, j 1, eq_ix2 j⟩
  rw [View.read_apply]
  show Gen.k2_pay1 (Gen.iblk2 V c 0 t) (Gen.iblk2 V c 1 t) (ix2 p f) = prod2 _ _ (((cfg2.win 2).blk t).view.emb (ix2 p f))
  refine (block_product2 (Gen.iblk2 V c 0 t) (Gen.iblk2 V c 1 t) p f).trans ?_
  refine Finset.sum_congr rfl fun k _ => ?_
  refine congrArg₂ (· * ·) ?_ ?_
  · exact x_block2 V c t (ix2 p k) _
      (by show win2_2.index t (0 : Fin 2) * 2000 + 1 * p.val = 2000 * t.val + p.val; rw [e0]; omega) rfl
  · exact w_block2 V c t (ix2 k f) _ rfl
      (by show win2_2.index t (1 : Fin 2) * 256 + 1 * f.val = f.val; rw [e1]; omega)

/-- An entry of the result is in point t's block iff each coordinate is in the block's range on its axis. -/
theorem mem_block2 (t : Fin cfg2.N) (i : S50000x256.Idx) :
    i ∈ ((cfg2.win 2).blk t).view.set
      ↔ ∀ a : Fin 2, win2_2.index t a * S2000x256.size a ≤ (i a).val ∧ (i a).val < win2_2.index t a * S2000x256.size a + S2000x256.size a := by
  show i ∈ ((View.whole main_v62).slice (win2_2.rect t)).set ↔ _
  rw [View.set_slice_whole, Rect.mem_set_unit]
  exact Iff.rfl

/-- The 25 row blocks tile the result: row r is in block r / 2000. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := Gen.N_2
  have ht : (i 0).val / 2000 < cfg2.N := by rw [hN]; omega
  obtain ⟨-, -, -, -, e0, e1⟩ := block_indices2 ⟨(i 0).val / 2000, ht⟩
  refine ⟨⟨(i 0).val / 2000, ht⟩, Gen.flush2_2 _, ?_⟩
  rw [mem_block2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_2.index ⟨(i 0).val / 2000, ht⟩ (1 : Fin 2) * 256 ≤ (i 1).val
      ∧ (i 1).val < win2_2.index ⟨(i 0).val / 2000, ht⟩ (1 : Fin 2) * 256 + 256
    rw [e1]; omega

/-- THE RESULT ARRAY after the region: the product of the two operand arrays as the region found them. -/
theorem linear2 :
    (Gen.dat2 (F := Ideal) V c).arrAt 2 cfg2.N
      = prod2 (V c (Pipeline.arrRef spec2 0)) (V c (Pipeline.arrRef spec2 1)) :=
  (Gen.dat2 V c).arrAt_eq_of_cover 2 _ (fun t _ => flushed2 V c t) cover2

end

end Cert.KernelIdeal.RegVal

end
-- ==== Proof.RegLinear4.lean ====
/-
  The third layer's dense projection h @ W3 ([50000, 256] against [256, 64]) as the result array holds it.

  The 50000 node rows are taken in 25 blocks of 2000 rows. At each block the body multiplies the block of x (2000 × 256)
  by the whole of W (256 × 64): both operands change float format (the identity on the extended reals) and the matrix
  unit, started from zero, leaves Σ_k x[p, k] · W[k, f] at entry (p, f) of the block. Block t is written back to rows
  2000 t … 2000 t + 1999 of the result, and the 25 blocks tile it, so after the region entry (n, f) of the result is
  Σ_k x[n, k] · W[k, f] of the two operand arrays as the region found them.
-/
import proofs.«118705_j84670985273387_1_alg».proof.Proof.Gen.KernelIdeal.Frame
import Idealize.ShloMosaic.Lib.Pipeline.Value
import Idealize.ShloMosaic.Lib.ValueIdx
import Idealize.ShloMosaic.PureOps.Ideal.Laws
import proofs.«118705_j84670985273387_1_alg».proof.Proof.LibDotInner

noncomputable section

open scoped BigOperators

namespace Cert.KernelIdeal.RegVal

open Idealize.ShloMosaic Idealize.ShloMosaic.TcCoe Idealize.SL.Sem Idealize.ShloMosaic.ValueIdx
open Idealize.ShloMosaic.Pipeline (Dat)
open Cert.KernelIdeal

/-- A whole-buffer access starts at offset zero on both axes. -/
theorem zero_offsets4 : (![0, 0] : Fin 2 → Nat) = fun _ => 0 := funext fun a => by fin_cases a <;> rfl

/-- THE PRODUCT: entry (n, f) of x @ W is Σ_k x[n, k] · W[k, f], over the extended reals. -/
abbrev prod4 (x : S50000x256.Idx → EReal) (w : S256x64.Idx → EReal) : S50000x64.Idx → EReal :=
  fun i => ∑ k : Fin 256, x (ix2 (n0 := 50000) (n1 := 256) (i 0) k) * w (ix2 (n0 := 256) (n1 := 64) k (i 1))

/-- One row block's product at an entry: the shape cast to the same shape and the change of float format of both operands are the identity on
    the extended reals, and the matrix unit started from the zero splat sums x[p, k] · W[k, f] over the contracted
    axis; the dimension numbers contract the left operand's columns against the right operand's rows. -/
theorem block_product4 (x : FVec Ideal S2000x256 .f32) (w : FVec Ideal S256x64 .f32) (p : Fin 2000) (f : Fin 64) :
    Gen.k4_pay1 (F := Ideal) x w (ix2 p f) = ∑ k : Fin 256, x (ix2 p k) * w (ix2 k f) := by
  unfold Gen.k4_pay1
  simp only [shapeCast_self]
  refine DotInner.matmul_zero_apply dot_S2000x256_S256x64_S2000x64_1_0_0_1_n_n rfl rfl ?_ ?_ ?_ ?_ none x w p f
  · intro j q
    unfold DotDims.lhsIdx
    rw [dif_neg (show ¬(0 : Fin S2000x256.rank) ∈ dot_S2000x256_S256x64_S2000x64_1_0_0_1_n_n.lhsBatch by decide),
      dif_pos (show (0 : Fin S2000x256.rank) ∈ dot_S2000x256_S256x64_S2000x64_1_0_0_1_n_n.lhsNonContracting by decide)]
    rfl
  · exact fun j q => DotDims.lhsIdx_val_of_single dot_S2000x256_S256x64_S2000x64_1_0_0_1_n_n rfl j q
  · exact fun j q => DotDims.rhsIdx_val_of_single dot_S2000x256_S256x64_S2000x64_1_0_0_1_n_n rfl j q
  · intro j q
    unfold DotDims.rhsIdx
    rw [dif_neg (show ¬(1 : Fin S256x64.rank) ∈ dot_S2000x256_S256x64_S2000x64_1_0_0_1_n_n.rhsBatch by decide),
      dif_pos (show (1 : Fin S256x64.rank) ∈ dot_S2000x256_S256x64_S2000x64_1_0_0_1_n_n.rhsNonContracting by decide)]
    rfl

/-- The block index maps over the 25 grid points: x's and the result's blocks are row block t, all columns; W's block
    is the whole matrix at every point. -/
theorem block_indices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b)) (c : Dev nD)

/-- x's block at point t is rows 2000 t … 2000 t + 1999 of x. -/
theorem x_block4 (t : Fin cfg4.N) (y : S2000x256.Idx) (i : S50000x256.Idx)
    (h0 : (i 0).val = 2000 * t.val + (y 0).val) (h1 : (i 1).val = (y 1).val) :
    (Gen.iblk4 V c 0 t : Vec Ideal S2000x256 .f32) y = (V c (Pipeline.arrRef spec4 0) : S50000x256.Idx → EReal) i := by
  obtain ⟨e0, e1, -, -, -, -⟩ := block_indices4 t
  unfold Gen.iblk4
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * (y 0).val = (i 0).val; rw [e0, h0]; omega
  | ⟨1, _⟩ => show win4_0.index t (1 : Fin 2) * 256 + 1 * (y 1).val = (i 1).val; rw [e1, h1]; omega

/-- W's block at every point is W. -/
theorem w_block4 (t : Fin cfg4.N) (y : S256x64.Idx) (i : S256x64.Idx)
    (h0 : (i 0).val = (y 0).val) (h1 : (i 1).val = (y 1).val) :
    (Gen.iblk4 V c 1 t : Vec Ideal S256x64 .f32) y = (V c (Pipeline.arrRef spec4 1) : S256x64.Idx → EReal) i := by
  obtain ⟨-, -, e0, e1, -, -⟩ := block_indices4 t
  unfold Gen.iblk4
  rw [View.read_apply]
  show V c (Pipeline.arrRef spec4 1) _ = V c (Pipeline.arrRef spec4 1) _
  congr 1
  funext a
  apply Fin.ext
  match a with
  | ⟨0, _⟩ => show win4_1.index t (0 : Fin 2) * 256 + 1 * (y 0).val = (i 0).val; rw [e0, h0]; omega
  | ⟨1, _⟩ => show win4_1.index t (1 : Fin 2) * 64 + 1 * (y 1).val = (i 1).val; rw [e1, h1]; omega

/-- WHAT POINT t WRITES BACK is row block t of the product: entry (p, f) of the block sits at row 2000 t + p, column f
    of the result, and the block's product reads x's row 2000 t + p and W's column f there. -/
theorem flushed4 (t : Fin cfg4.N) :
    (Gen.dat4 (F := Ideal) V c).flushed 2 t
      = ((cfg4.win 2).blk t).view.read (Elt Ideal) (prod4 (V c (Pipeline.arrRef spec4 0)) (V c (Pipeline.arrRef spec4 1))) := by
  show (cfg4.win 2).cut (grid4.coords t) ((Gen.dat4 V c).after 2 t) = _
  rw [Gen.after4_2]
  unfold Gen.out4_2
  rw [View.canon_unit_zero zero_offsets4]
  simp only [View.ld_unit_zero (S := S2000x256) zero_offsets4, View.ld_unit_zero (S := S256x64) zero_offsets4]
  obtain ⟨-, -, -, -, e0, e1⟩ := block_indices4 t
  funext j
  obtain ⟨p, f, rfl⟩ : ∃ (p : Fin 2000) (f : Fin 64), j = ix2 p f := ⟨j 0, j 1, eq_ix2 j⟩
  rw [View.read_apply]
  show Gen.k4_pay1 (Gen.iblk4 V c 0 t) (Gen.iblk4 V c 1 t) (ix2 p f) = prod4 _ _ (((cfg4.win 2).blk t).view.emb (ix2 p f))
  refine (block_product4 (Gen.iblk4 V c 0 t) (Gen.iblk4 V c 1 t) p f).trans ?_
  refine Finset.sum_congr rfl fun k _ => ?_
  refine congrArg₂ (· * ·) ?_ ?_
  · exact x_block4 V c t (ix2 p k) _
      (by show win4_2.index t (0 : Fin 2) * 2000 + 1 * p.val = 2000 * t.val + p.val; rw [e0]; omega) rfl
  · exact w_block4 V c t (ix2 k f) _ rfl
      (by show win4_2.index t (1 : Fin 2) * 64 + 1 * f.val = f.val; rw [e1]; omega)

/-- An entry of the result is in point t's block iff each coordinate is in the block's range on its axis. -/
theorem mem_block4 (t : Fin cfg4.N) (i : S50000x64.Idx) :
    i ∈ ((cfg4.win 2).blk t).view.set
      ↔ ∀ a : Fin 2, win4_2.index t a * S2000x64.size a ≤ (i a).val ∧ (i a).val < win4_2.index t a * S2000x64.size a + S2000x64.size a := by
  show i ∈ ((View.whole main_v120).slice (win4_2.rect t)).set ↔ _
  rw [View.set_slice_whole, Rect.mem_set_unit]
  exact Iff.rfl

/-- The 25 row blocks tile the result: row r is in block r / 2000. -/
theorem cover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 25 := Gen.N_4
  have ht : (i 0).val / 2000 < cfg4.N := by rw [hN]; omega
  obtain ⟨-, -, -, -, e0, e1⟩ := block_indices4 ⟨(i 0).val / 2000, ht⟩
  refine ⟨⟨(i 0).val / 2000, ht⟩, Gen.flush4_2 _, ?_⟩
  rw [mem_block4]
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_2.index ⟨(i 0).val / 2000, ht⟩ (1 : Fin 2) * 64 ≤ (i 1).val
      ∧ (i 1).val < win4_2.index ⟨(i 0).val / 2000, ht⟩ (1 : Fin 2) * 64 + 64
    rw [e1]; omega

/-- THE RESULT ARRAY after the region: the product of the two operand arrays as the region found them. -/
theorem linear4 :
    (Gen.dat4 (F := Ideal) V c).arrAt 2 cfg4.N
      = prod4 (V c (Pipeline.arrRef spec4 0)) (V c (Pipeline.arrRef spec4 1)) :=
  (Gen.dat4 V c).arrAt_eq_of_cover 2 _ (fun t _ => flushed4 V c t) cover4

end

end Cert.KernelIdeal.RegVal

end
-- ==== Proof.RegBnRelu1.lean ====
import proofs.«118705_j84670985273387_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The first batch-norm + ReLU region, as one function of the arrays it finds

The region reads `h : [50000, 256]`, a per-column `scale : [1, 256]` and `shift : [1, 256]`, in 25 row blocks of
2000 rows, and writes `max (h * scale + shift) 0` block by block. Its output array after the last block is therefore
`fun (r, k) => max (h (r, k) * scale (0, k) + shift (0, k)) 0`, whatever the arrays held at entry.
-/

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

/-! ## The affine map followed by the positive part, entry by entry -/

/-- The block's arithmetic at row `p`, column `q` of the block: the row broadcasts of `scale` and `shift` read
    their one row at `q`, the identity casts drop, and the zero word is the real `0`. -/
theorem bnrelu1_payload_ix (x0 : Vec Ideal S2000x256 .f32) (x1 x2 : Vec Ideal S1x256 .f32) (p : Fin 2000) (q : Fin 256) :
    k1_pay1 x0 x1 x2 (ix2 p q) = max (x0 (ix2 p q) * x1 (ix2 (0 : Fin 1) q) + x2 (ix2 (0 : Fin 1) q)) 0 := by
  unfold k1_pay1
  simp only [shapeCast_self]
  rw [maximumf_apply, addf_apply, mulf_apply, broadcast_apply, broadcastTo_1b_ab_apply, broadcastTo_1b_ab_apply]
  exact congrArg _ Ideal.ofBits_zero_f32

/-- The same at any index of the block, its column read off the index. -/
theorem bnrelu1_payload (x0 : Vec Ideal S2000x256 .f32) (x1 x2 : Vec Ideal S1x256 .f32) (j : S2000x256.Idx) :
    k1_pay1 x0 x1 x2 j = max (x0 j * x1 (ix2 (0 : Fin 1) (j 1)) + x2 (ix2 (0 : Fin 1) (j 1))) 0 := by
  obtain ⟨p, q, rfl⟩ : ∃ (p : Fin 2000) (q : Fin 256), j = ix2 p q := ⟨j 0, j 1, eq_ix2 j⟩
  exact bnrelu1_payload_ix x0 x1 x2 p q

/-- `max (h * scale + shift) 0` with the `[1, 256]` rows `scale`, `shift` read at the entry's column. -/
abbrev bnrelu1_fn (h : S50000x256.Idx → EReal) (sc sh : S1x256.Idx → EReal) : S50000x256.Idx → EReal :=
  fun i => max (h i * sc (ix2 (n0 := 1) (n1 := 256) (0 : Fin 1) (i 1)) + sh (ix2 (n0 := 1) (n1 := 256) (0 : Fin 1) (i 1))) 0

/-! ## From the 25 row blocks to the whole array -/

theorem bnrelu1_zero_offsets : (![0, 0] : Fin 2 → Nat) = fun _ => 0 := funext fun a => by fin_cases a <;> rfl

/-- The region's index maps over its 25 points: `h`'s block and the result's are row block `t`, all columns;
    `scale`'s and `shift`'s block is their one row at every point. -/
theorem bnrelu1_index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b)) (c : Dev nD)

/-- `h`'s block at point `t` is rows 2000 t … 2000 t + 1999 of `h`. -/
theorem bnrelu1_h_block (t : Fin cfg1.N) (y : S2000x256.Idx) (i : S50000x256.Idx)
    (h0 : (i 0).val = 2000 * t.val + (y 0).val) (h1 : (i 1).val = (y 1).val) :
    (iblk1 V c 0 t : Vec Ideal S2000x256 .f32) y = (V c (Pipeline.arrRef spec1 0) : S50000x256.Idx → EReal) i := by
  obtain ⟨e0, e1, -, -, -, -, -, -⟩ := bnrelu1_index_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- `scale`'s block at every point is `scale`. -/
theorem bnrelu1_scale_block (t : Fin cfg1.N) (y : S1x256.Idx) (i : S1x256.Idx)
    (h0 : (i 0).val = (y 0).val) (h1 : (i 1).val = (y 1).val) :
    (iblk1 V c 1 t : Vec Ideal S1x256 .f32) y = (V c (Pipeline.arrRef spec1 1) : S1x256.Idx → EReal) i := by
  obtain ⟨-, -, e0, e1, -, -, -, -⟩ := bnrelu1_index_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * (y 0).val = (i 0).val; rw [e0, h0]; omega
  | ⟨1, _⟩ => show win1_1.index t (1 : Fin 2) * 256 + 1 * (y 1).val = (i 1).val; rw [e1, h1]; omega

/-- `shift`'s block at every point is `shift`. -/
theorem bnrelu1_shift_block (t : Fin cfg1.N) (y : S1x256.Idx) (i : S1x256.Idx)
    (h0 : (i 0).val = (y 0).val) (h1 : (i 1).val = (y 1).val) :
    (iblk1 V c 2 t : Vec Ideal S1x256 .f32) y = (V c (Pipeline.arrRef spec1 2) : S1x256.Idx → EReal) i := by
  obtain ⟨-, -, -, -, e0, e1, -, -⟩ := bnrelu1_index_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (y 0).val = (i 0).val; rw [e0, h0]; omega
  | ⟨1, _⟩ => show win1_2.index t (1 : Fin 2) * 256 + 1 * (y 1).val = (i 1).val; rw [e1, h1]; omega

/-- WHAT POINT `t` WRITES BACK is row block `t` of the affine map's positive part: entry (p, q) of the block sits at
    row 2000 t + p, column q of the result, reads `h` there, and reads `scale` and `shift` in their one row at column q. -/
theorem bnrelu1_flushed (t : Fin cfg1.N) :
    (dat1 (F := Ideal) V c).flushed 3 t = ((cfg1.win 3).blk t).view.read (Elt Ideal)
      (bnrelu1_fn (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero bnrelu1_zero_offsets]
  simp only [View.ld_unit_zero (S := S2000x256) bnrelu1_zero_offsets, View.ld_unit_zero (S := S1x256) bnrelu1_zero_offsets]
  obtain ⟨-, -, -, -, -, -, e0, e1⟩ := bnrelu1_index_facts t
  funext j
  obtain ⟨p, q, rfl⟩ : ∃ (p : Fin 2000) (q : Fin 256), j = ix2 p q := ⟨j 0, j 1, eq_ix2 j⟩
  rw [View.read_apply]
  show k1_pay1 (iblk1 V c 0 t) (iblk1 V c 1 t) (iblk1 V c 2 t) (ix2 p q)
    = bnrelu1_fn _ _ _ (((cfg1.win 3).blk t).view.emb (ix2 p q))
  refine (bnrelu1_payload_ix (iblk1 V c 0 t) (iblk1 V c 1 t) (iblk1 V c 2 t) p q).trans ?_
  refine congrArg (fun z : EReal => max z 0) ?_
  refine congrArg₂ (· + ·) (congrArg₂ (· * ·) ?_ ?_) ?_
  · exact bnrelu1_h_block V c t (ix2 p q) _
      (by show win1_3.index t (0 : Fin 2) * 2000 + 1 * p.val = 2000 * t.val + p.val; rw [e0]; omega)
      (by show win1_3.index t (1 : Fin 2) * 256 + 1 * q.val = q.val; rw [e1]; omega)
  · exact bnrelu1_scale_block V c t (ix2 (0 : Fin 1) q) _ rfl
      (by show win1_3.index t (1 : Fin 2) * 256 + 1 * q.val = q.val; rw [e1]; omega)
  · exact bnrelu1_shift_block V c t (ix2 (0 : Fin 1) q) _ rfl
      (by show win1_3.index t (1 : Fin 2) * 256 + 1 * q.val = q.val; rw [e1]; omega)

/-- An entry of the result is in point `t`'s block iff each coordinate is in the block's range on its axis. -/
theorem bnrelu1_mem_block (t : Fin cfg1.N) (i : S50000x256.Idx) :
    i ∈ ((cfg1.win 3).blk t).view.set
      ↔ ∀ a : Fin 2, win1_3.index t a * S2000x256.size a ≤ (i a).val ∧ (i a).val < win1_3.index t a * S2000x256.size a + S2000x256.size a := by
  show i ∈ ((View.whole main_v61).slice (win1_3.rect t)).set ↔ _
  rw [View.set_slice_whole, Rect.mem_set_unit]
  exact Iff.rfl

/-- The 25 row blocks tile the result: row r is in block r / 2000. -/
theorem bnrelu1_cover (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  have ht : (i 0).val / 2000 < cfg1.N := by rw [hN]; omega
  obtain ⟨-, -, -, -, -, -, e0, e1⟩ := bnrelu1_index_facts ⟨(i 0).val / 2000, ht⟩
  refine ⟨⟨(i 0).val / 2000, ht⟩, flush1_3 _, ?_⟩
  rw [bnrelu1_mem_block]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val
      ∧ (i 1).val < win1_3.index ⟨(i 0).val / 2000, ht⟩ (1 : Fin 2) * 256 + 256
    rw [e1]; omega

/-- THE RESULT ARRAY after the region: `max (h * scale + shift) 0` of the three arrays as the region found them,
    entry by entry. -/
theorem bnrelu1 :
    (dat1 (F := Ideal) V c).arrAt 3 cfg1.N
      = bnrelu1_fn (V c (Pipeline.arrRef spec1 0)) (V c (Pipeline.arrRef spec1 1)) (V c (Pipeline.arrRef spec1 2)) :=
  (dat1 (F := Ideal) V c).arrAt_eq_of_cover 3 _ (fun t _ => bnrelu1_flushed V c t) bnrelu1_cover

end

end Cert.KernelIdeal.RegVal

end
-- ==== Proof.RegBnRelu3.lean ====
import proofs.«118705_j84670985273387_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The second batch-norm + ReLU region, as one function of the arrays it finds

The region reads `h : [50000, 256]`, a per-column `scale : [1, 256]` and `shift : [1, 256]`, in 25 row blocks of
2000 rows, and writes `max (h * scale + shift) 0` block by block. Its output array after the last block is therefore
`fun (r, k) => max (h (r, k) * scale (0, k) + shift (0, k)) 0`, whatever the arrays held at entry.
-/

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

/-! ## The affine map followed by the positive part, entry by entry -/

/-- The block's arithmetic at row `p`, column `q` of the block: the row broadcasts of `scale` and `shift` read
    their one row at `q`, the identity casts drop, and the zero word is the real `0`. -/
theorem bnrelu3_payload_ix (x0 : Vec Ideal S2000x256 .f32) (x1 x2 : Vec Ideal S1x256 .f32) (p : Fin 2000) (q : Fin 256) :
    k3_pay1 x0 x1 x2 (ix2 p q) = max (x0 (ix2 p q) * x1 (ix2 (0 : Fin 1) q) + x2 (ix2 (0 : Fin 1) q)) 0 := by
  unfold k3_pay1
  simp only [shapeCast_self]
  rw [maximumf_apply, addf_apply, mulf_apply, broadcast_apply, broadcastTo_1b_ab_apply, broadcastTo_1b_ab_apply]
  exact congrArg _ Ideal.ofBits_zero_f32

/-- The same at any index of the block, its column read off the index. -/
theorem bnrelu3_payload (x0 : Vec Ideal S2000x256 .f32) (x1 x2 : Vec Ideal S1x256 .f32) (j : S2000x256.Idx) :
    k3_pay1 x0 x1 x2 j = max (x0 j * x1 (ix2 (0 : Fin 1) (j 1)) + x2 (ix2 (0 : Fin 1) (j 1))) 0 := by
  obtain ⟨p, q, rfl⟩ : ∃ (p : Fin 2000) (q : Fin 256), j = ix2 p q := ⟨j 0, j 1, eq_ix2 j⟩
  exact bnrelu3_payload_ix x0 x1 x2 p q

/-- `max (h * scale + shift) 0` with the `[1, 256]` rows `scale`, `shift` read at the entry's column. -/
abbrev bnrelu3_fn (h : S50000x256.Idx → EReal) (sc sh : S1x256.Idx → EReal) : S50000x256.Idx → EReal :=
  fun i => max (h i * sc (ix2 (n0 := 1) (n1 := 256) (0 : Fin 1) (i 1)) + sh (ix2 (n0 := 1) (n1 := 256) (0 : Fin 1) (i 1))) 0

/-! ## From the 25 row blocks to the whole array -/

theorem bnrelu3_zero_offsets : (![0, 0] : Fin 2 → Nat) = fun _ => 0 := funext fun a => by fin_cases a <;> rfl

/-- The region's index maps over its 25 points: `h`'s block and the result's are row block `t`, all columns;
    `scale`'s and `shift`'s block is their one row at every point. -/
theorem bnrelu3_index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b)) (c : Dev nD)

/-- `h`'s block at point `t` is rows 2000 t … 2000 t + 1999 of `h`. -/
theorem bnrelu3_h_block (t : Fin cfg3.N) (y : S2000x256.Idx) (i : S50000x256.Idx)
    (h0 : (i 0).val = 2000 * t.val + (y 0).val) (h1 : (i 1).val = (y 1).val) :
    (iblk3 V c 0 t : Vec Ideal S2000x256 .f32) y = (V c (Pipeline.arrRef spec3 0) : S50000x256.Idx → EReal) i := by
  obtain ⟨e0, e1, -, -, -, -, -, -⟩ := bnrelu3_index_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 2000 + 1 * (y 0).val = (i 0).val; rw [e0, h0]; omega
  | ⟨1, _⟩ => show win3_0.index t (1 : Fin 2) * 256 + 1 * (y 1).val = (i 1).val; rw [e1, h1]; omega

/-- `scale`'s block at every point is `scale`. -/
theorem bnrelu3_scale_block (t : Fin cfg3.N) (y : S1x256.Idx) (i : S1x256.Idx)
    (h0 : (i 0).val = (y 0).val) (h1 : (i 1).val = (y 1).val) :
    (iblk3 V c 1 t : Vec Ideal S1x256 .f32) y = (V c (Pipeline.arrRef spec3 1) : S1x256.Idx → EReal) i := by
  obtain ⟨-, -, e0, e1, -, -, -, -⟩ := bnrelu3_index_facts t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * (y 0).val = (i 0).val; rw [e0, h0]; omega
  | ⟨1, _⟩ => show win3_1.index t (1 : Fin 2) * 256 + 1 * (y 1).val = (i 1).val; rw [e1, h1]; omega

/-- `shift`'s block at every point is `shift`. -/
theorem bnrelu3_shift_block (t : Fin cfg3.N) (y : S1x256.Idx) (i : S1x256.Idx)
    (h0 : (i 0).val = (y 0).val) (h1 : (i 1).val = (y 1).val) :
    (iblk3 V c 2 t : Vec Ideal S1x256 .f32) y = (V c (Pipeline.arrRef spec3 2) : S1x256.Idx → EReal) i := by
  obtain ⟨-, -, -, -, e0, e1, -, -⟩ := bnrelu3_index_facts t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * (y 0).val = (i 0).val; rw [e0, h0]; omega
  | ⟨1, _⟩ => show win3_2.index t (1 : Fin 2) * 256 + 1 * (y 1).val = (i 1).val; rw [e1, h1]; omega

/-- WHAT POINT `t` WRITES BACK is row block `t` of the affine map's positive part: entry (p, q) of the block sits at
    row 2000 t + p, column q of the result, reads `h` there, and reads `scale` and `shift` in their one row at column q. -/
theorem bnrelu3_flushed (t : Fin cfg3.N) :
    (dat3 (F := Ideal) V c).flushed 3 t = ((cfg3.win 3).blk t).view.read (Elt Ideal)
      (bnrelu3_fn (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero bnrelu3_zero_offsets]
  simp only [View.ld_unit_zero (S := S2000x256) bnrelu3_zero_offsets, View.ld_unit_zero (S := S1x256) bnrelu3_zero_offsets]
  obtain ⟨-, -, -, -, -, -, e0, e1⟩ := bnrelu3_index_facts t
  funext j
  obtain ⟨p, q, rfl⟩ : ∃ (p : Fin 2000) (q : Fin 256), j = ix2 p q := ⟨j 0, j 1, eq_ix2 j⟩
  rw [View.read_apply]
  show k3_pay1 (iblk3 V c 0 t) (iblk3 V c 1 t) (iblk3 V c 2 t) (ix2 p q)
    = bnrelu3_fn _ _ _ (((cfg3.win 3).blk t).view.emb (ix2 p q))
  refine (bnrelu3_payload_ix (iblk3 V c 0 t) (iblk3 V c 1 t) (iblk3 V c 2 t) p q).trans ?_
  refine congrArg (fun z : EReal => max z 0) ?_
  refine congrArg₂ (· + ·) (congrArg₂ (· * ·) ?_ ?_) ?_
  · exact bnrelu3_h_block V c t (ix2 p q) _
      (by show win3_3.index t (0 : Fin 2) * 2000 + 1 * p.val = 2000 * t.val + p.val; rw [e0]; omega)
      (by show win3_3.index t (1 : Fin 2) * 256 + 1 * q.val = q.val; rw [e1]; omega)
  · exact bnrelu3_scale_block V c t (ix2 (0 : Fin 1) q) _ rfl
      (by show win3_3.index t (1 : Fin 2) * 256 + 1 * q.val = q.val; rw [e1]; omega)
  · exact bnrelu3_shift_block V c t (ix2 (0 : Fin 1) q) _ rfl
      (by show win3_3.index t (1 : Fin 2) * 256 + 1 * q.val = q.val; rw [e1]; omega)

/-- An entry of the result is in point `t`'s block iff each coordinate is in the block's range on its axis. -/
theorem bnrelu3_mem_block (t : Fin cfg3.N) (i : S50000x256.Idx) :
    i ∈ ((cfg3.win 3).blk t).view.set
      ↔ ∀ a : Fin 2, win3_3.index t a * S2000x256.size a ≤ (i a).val ∧ (i a).val < win3_3.index t a * S2000x256.size a + S2000x256.size a := by
  show i ∈ ((View.whole main_v119).slice (win3_3.rect t)).set ↔ _
  rw [View.set_slice_whole, Rect.mem_set_unit]
  exact Iff.rfl

/-- The 25 row blocks tile the result: row r is in block r / 2000. -/
theorem bnrelu3_cover (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  have hN : cfg3.N = 25 := N_3
  have ht : (i 0).val / 2000 < cfg3.N := by rw [hN]; omega
  obtain ⟨-, -, -, -, -, -, e0, e1⟩ := bnrelu3_index_facts ⟨(i 0).val / 2000, ht⟩
  refine ⟨⟨(i 0).val / 2000, ht⟩, flush3_3 _, ?_⟩
  rw [bnrelu3_mem_block]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_3.index ⟨(i 0).val / 2000, ht⟩ (1 : Fin 2) * 256 ≤ (i 1).val
      ∧ (i 1).val < win3_3.index ⟨(i 0).val / 2000, ht⟩ (1 : Fin 2) * 256 + 256
    rw [e1]; omega

/-- THE RESULT ARRAY after the region: `max (h * scale + shift) 0` of the three arrays as the region found them,
    entry by entry. -/
theorem bnrelu3 :
    (dat3 (F := Ideal) V c).arrAt 3 cfg3.N
      = bnrelu3_fn (V c (Pipeline.arrRef spec3 0)) (V c (Pipeline.arrRef spec3 1)) (V c (Pipeline.arrRef spec3 2)) :=
  (dat3 (F := Ideal) V c).arrAt_eq_of_cover 3 _ (fun t _ => bnrelu3_flushed V c t) bnrelu3_cover

end

end Cert.KernelIdeal.RegVal

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibBitFolds.lean ====
/-
  Single bits, their conjunctions and disjunctions over a finite family, and their readings as numbers.

  Two bits are equal when each is 1 exactly when the other is; a fold by AND from 1 over a finite family of bits is 1
  exactly when every member is, a fold by OR from 0 exactly when some member is; the maximum over a finite family of
  "1.0 where the bit is set, else 0.0", started from the -inf word and compared with 0.0 (how a row-wise "any" of a
  mask is computed with float lanes), is 1 exactly when some bit of the family is set; and a bit read as a number is
  the same whether it is read unsigned as it stands or widened to 32 bits and read signed.  All over the extended
  reals of the ideal instance; nothing here mentions a program.
-/
import Idealize.ShloMosaic.PureOps.Ideal.Laws
import Idealize.ShloMosaic.PureOps.Reduce
import Idealize.ShloMosaic.Lib.ValueIdx
import Idealize.ShloMosaic.Lib.Affine
import Idealize.ShloMosaic.Lib.IdealHost

noncomputable section

namespace Cert.BitFolds

open Idealize.ShloMosaic Idealize.ShloMosaic.ValueIdx

/-- Two bits are equal when each is 1 exactly when the other is. -/
theorem bit_ext {a b : BitVec 1} (h : a = 1#1 ↔ b = 1#1) : a = b := by
  rcases BitVec.eq_zero_or_eq_one a with ha | ha <;> rcases BitVec.eq_zero_or_eq_one b with hb | hb <;> subst ha <;> subst hb
  · rfl
  · exact absurd (h.mpr rfl) (by decide)
  · exact absurd (h.mp rfl) (by decide)
  · rfl

/-- A truth value as a bit is 1 exactly when it is true. -/
theorem ofBool_eq_one {b : Bool} : BitVec.ofBool b = 1#1 ↔ b = true := by cases b <;> decide

/-- A bit read as a number: 0 or 1. -/
def bitR (b : BitVec 1) : EReal := ((b.toNat : ℝ) : EReal)

/-- Widening a bit to 32 bits and reading the word signed gives the same number. -/
theorem toInt_setWidth_bit (b : BitVec 1) : ((((b.setWidth 32).toInt : ℤ) : ℝ) : EReal) = bitR b := by
  rcases BitVec.eq_zero_or_eq_one b with h | h <;> subst h <;> simp [bitR]

theorem bitR_zero : bitR 0#1 = 0 := by simp [bitR]
theorem bitR_one : bitR 1#1 = 1 := by simp [bitR]

/-- A conjunction over a finite family of bits is 1 exactly when every member is. -/
theorem fold_andi_eq_one {ι : Type} [DecidableEq ι] (f : ι → BitVec 1) (s : Finset ι) :
    s.fold IntOp.andi 1#1 f = 1#1 ↔ ∀ k ∈ s, f k = 1#1 := by
  induction s using Finset.induction_on with
  | empty => simp
  | insert a s ha ih =>
    rw [Finset.fold_insert ha, IntOp.andi_eq_one, ih]
    constructor
    · rintro ⟨h1, h2⟩ k hk
      rcases Finset.mem_insert.mp hk with rfl | hk
      · exact h1
      · exact h2 k hk
    · intro h
      exact ⟨h a (Finset.mem_insert_self a s), fun k hk => h k (Finset.mem_insert_of_mem hk)⟩

/-- A disjunction over a finite family of bits is 1 exactly when some member is. -/
theorem fold_ori_eq_one {ι : Type} [DecidableEq ι] (f : ι → BitVec 1) (s : Finset ι) :
    s.fold IntOp.ori 0#1 f = 1#1 ↔ ∃ k ∈ s, f k = 1#1 := by
  induction s using Finset.induction_on with
  | empty => simp
  | insert a s ha ih =>
    rw [Finset.fold_insert ha, IntOp.ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.mp hk with rfl | hk
      · exact Or.inl h
      · exact Or.inr ⟨k, hk, h⟩

/-- The -inf word is the bottom of the extended reals. -/
theorem ofBits_neg_inf_f32 : Ideal.ofBits .f32 0xFF800000#32 = ⊥ := by simp [Ideal.ofBits, Ideal.ieee]

/-- The row maximum, over a finite family, of "1.0 where the bit is set, else 0.0", started from -inf, is above 0.0
    exactly when some bit of the family is set — the float spelling of a disjunction. -/
theorem max_select_pos {ι : Type} (f : ι → BitVec 1) (s : Finset ι) :
    Ideal.cmp .ogt (s.fold max (Ideal.ofBits .f32 0xFF800000#32)
        (fun k => Scalar.select (f k) (Ideal.ofBits .f32 0x3F800000#32) (Ideal.ofBits .f32 0x00000000#32)))
      (Ideal.ofBits .f32 0x00000000#32) = 1#1 ↔ ∃ k ∈ s, f k = 1#1 := by
  rw [ofBits_neg_inf_f32, Ideal.ofBits_zero_f32, Ideal.ofBits_one_f32]
  unfold Ideal.cmp
  simp only [ofBool_eq_one, decide_eq_true_eq]
  rw [Finset.lt_fold_max]
  constructor
  · rintro (h | ⟨k, hk, h⟩)
    · exact absurd h (by simp)
    · refine ⟨k, hk, ?_⟩
      rcases BitVec.eq_zero_or_eq_one (f k) with h0 | h1
      · rw [h0, select_zero] at h; exact absurd h (lt_irrefl _)
      · exact h1
  · rintro ⟨k, hk, h⟩
    refine Or.inr ⟨k, hk, ?_⟩
    rw [h, select_one]
    exact zero_lt_one

end Cert.BitFolds

end
-- ==== Proof.LibSoftmaxRows.lean ====
/-
  Softmax over the rows of a score block, read at an index, on the extended reals.

  For a block of scores s of shape [a, b]:
  * the row maximum — a max-reduction over the columns from the -inf word, kept as a column [a, 1] and broadcast back to
    [a, b] — read at (q, k) is the largest score of row q, folded from the bottom element (`rowTop`);
  * the row sum — an add-reduction from the zero word, kept and broadcast the same way — read at (q, k) is Σ_k' s[q, k'];
  * so exp(s − rowmax) / rowsum(exp(s − rowmax)) at (q, k) is the softmax weight of column k among row q's scores
    (`rowWeight`): the form jnp's `p = exp(s - max); p / sum(p)` takes in a kernel body.
  Beside them, the one law of the extended reals such kernels need when a constant scale is moved across an inner
  product: a nonnegative finite factor distributes over any finite sum, whatever the summands.
-/
import proofs.«118705_j84670985273387_1_alg».proof.Proof.LibRowSum
import proofs.«118705_j84670985273387_1_alg».proof.Proof.LibKeepdimsLayout
import proofs.«118705_j84670985273387_1_alg».proof.Proof.LibBitFolds
import Idealize.ShloMosaic.PureOps.Ideal.Laws
import Idealize.ShloMosaic.Lib.ValueIdx
import Idealize.ShloMosaic.Lib.Pipeline.Value
import Mathlib.Data.EReal.Operations
import Mathlib.Data.Finset.Fold

noncomputable section

open scoped BigOperators

namespace Cert.SoftmaxLib

open Idealize.ShloMosaic Idealize.ShloMosaic.ValueIdx

/-- The largest of finitely many extended reals, from the bottom element. -/
def rowTop {n : ℕ} (s : Fin n → EReal) : EReal := (Finset.univ : Finset (Fin n)).fold max (⊥ : EReal) s

/-- The softmax weight of entry k among s: exp(s_k − top) / Σ_k' exp(s_k' − top). -/
def rowWeight {n : ℕ} (s : Fin n → EReal) (k : Fin n) : EReal :=
  Ideal.div (Ideal.exp (s k - rowTop s)) (∑ k' : Fin n, Ideal.exp (s k' - rowTop s))

/-- A nonnegative finite factor distributes over a finite sum of extended reals; no summand need be finite. -/
theorem sum_mul_const {c : EReal} (h0 : 0 ≤ c) (htop : c ≠ ⊤) {n : ℕ} (t : Fin n → EReal) :
    ∑ e : Fin n, t e * c = (∑ e : Fin n, t e) * c := by
  classical
  refine Finset.induction_on (Finset.univ : Finset (Fin n)) ?_ ?_
  · simp
  · intro a s ha ih
    rw [Finset.sum_insert ha, Finset.sum_insert ha, ih, EReal.right_distrib_of_nonneg_of_ne_top h0 htop]

/-- Scaling the left factors of an inner product by such a constant scales the inner product. -/
theorem scaled_inner {c : EReal} (h0 : 0 ≤ c) (htop : c ≠ ⊤) {n : ℕ} (x y : Fin n → EReal) :
    ∑ e : Fin n, (x e * c) * y e = (∑ e : Fin n, x e * y e) * c := by
  rw [← sum_mul_const h0 htop]
  refine Finset.sum_congr rfl fun e _ => ?_
  rw [mul_assoc, mul_comm c, ← mul_assoc]

variable {a b : ℕ}

/-- The row maximum, kept as a column and broadcast over the row, read at (q, k). -/
theorem rowMax_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .maximumf [1] ⟨1, ![a]⟩ s 0xFF800000#32 h hφ hacc) hc) hb (ix2 q k)
      = rowTop (fun k' : Fin b => s (ix2 q k')) := by
  rw [Cert.LayoutKeepdims.broadcastTo_a1_ab_apply, Cert.LayoutKeepdims.shapeCast_a_a1_apply,
    Ideal.multiReduction_maximumf_single]
  unfold rowTop
  rw [Ideal.ofBits_def, Cert.BitFolds.ofBits_neg_inf_f32]
  refine congrArg (fun f => (Finset.univ : Finset (Fin b)).fold max (⊥ : EReal) f) ?_
  funext k'
  exact congrArg s (Idealize.ShloMosaic.RowSum.lift_row h q k')

/-- The row sum, kept as a column and broadcast over the row, read at (q, k). -/
theorem rowSum_at (s : FVec Ideal ⟨2, ![a, b]⟩ .f32)
    (h : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .add [1] ⟨1, ![a]⟩ s 0x00000000#32 h hφ hacc) hc) hb (ix2 q k)
      = ∑ k' : Fin b, s (ix2 q k') := by
  rw [Cert.LayoutKeepdims.broadcastTo_a1_ab_apply, Cert.LayoutKeepdims.shapeCast_a_a1_apply,
    Idealize.ShloMosaic.RowSum.rowSum_apply]

/-- Scores minus their row maximum, exponentiated, at (q, k). -/
theorem shifted_exp_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    exp (subf s (broadcastTo ⟨2, ![a, b]⟩ (shapeCast ⟨2, ![a, 1]⟩ (multiReduction .maximumf [1] ⟨1, ![a]⟩ s 0xFF800000#32 h hφ hacc) hc) hb)) (ix2 q k)
      = Ideal.exp (s (ix2 q k) - rowTop (fun k' : Fin b => s (ix2 q k'))) := by
  show Ideal.exp (s (ix2 q k) - _) = _
  rw [rowMax_at]

/-- THE WEIGHTS: exp(s − rowmax) / rowsum(exp(s − rowmax)) at (q, k) is the softmax weight of k in row q. -/
theorem weights_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hφ' : FKind.Formats .f32) (hacc' : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    divf (exp (subf s (broadcastTo ⟨2, ![a, b]⟩ (shapeCast ⟨2, ![a, 1]⟩ (multiReduction .maximumf [1] ⟨1, ![a]⟩ s 0xFF800000#32 h hφ hacc) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 h hφ hacc) hc) hb)))
          0x00000000#32 h hφ' hacc') hc) hb) (ix2 q k)
      = rowWeight (fun k' : Fin b => s (ix2 q k')) k := by
  rw [divf_apply, rowSum_at, shifted_exp_at]
  unfold rowWeight
  refine congrArg (Ideal.div _) ?_
  exact Finset.sum_congr rfl fun k' _ => shifted_exp_at s h hφ hacc hc hb q k'

end Cert.SoftmaxLib

end
-- ==== Proof.RegLogSoftmax5.lean ====
/-
  The final row-wise log-softmax as the result array holds it.

  The 50000 node rows are taken in 25 blocks of 2000 rows. For each row of a block the body takes the row's maximum
  (a max-reduction over the 64 columns from the -inf word, kept as a column and broadcast back), subtracts it, takes
  exponentials, sums them along the row (an add-reduction from the zero word, kept as a column), takes the logarithm of
  that column, broadcasts it back and subtracts: entry (p, f) of the block is
  (a[p, f] − max_k a[p, k]) − log Σ_k exp(a[p, k] − max_k a[p, k]). A row's value depends on that row alone, block t is
  written back to rows 2000 t … 2000 t + 1999 of the result, and the 25 blocks tile it; so after the region every entry
  of the result is that expression of the operand array's own row, as the region found it.
-/
import proofs.«118705_j84670985273387_1_alg».proof.Proof.Gen.KernelIdeal.Frame
import Idealize.ShloMosaic.Lib.Pipeline.Value
import Idealize.ShloMosaic.Lib.ValueIdx
import Idealize.ShloMosaic.PureOps.Ideal.Laws
import proofs.«118705_j84670985273387_1_alg».proof.Proof.LibSoftmaxRows

noncomputable section

open scoped BigOperators

namespace Cert.KernelIdeal.RegVal

open Idealize.ShloMosaic Idealize.ShloMosaic.TcCoe Idealize.SL.Sem Idealize.ShloMosaic.ValueIdx
open Idealize.ShloMosaic.Pipeline (Dat)
open Cert.KernelIdeal Cert.SoftmaxLib

/-- A whole-buffer access starts at offset zero on both axes. -/
theorem zero_offsets5 : (![0, 0] : Fin 2 → Nat) = fun _ => 0 := funext fun a => by fin_cases a <;> rfl

/-- The largest entry of row r, folded from the bottom element. -/
abbrev rowMax5 (a : S50000x64.Idx → EReal) (r : Fin 50000) : EReal :=
  rowTop (fun k : Fin 64 => a (ix2 (n0 := 50000) (n1 := 64) r k))

/-- THE LOG-SOFTMAX OF EVERY ROW: entry (n, f) is (a[n, f] − max_k a[n, k]) − log Σ_k exp(a[n, k] − max_k a[n, k]). -/
abbrev logSoftmaxRows (a : S50000x64.Idx → EReal) : S50000x64.Idx → EReal :=
  fun i => (a i - rowMax5 a (i 0))
    - Ideal.log (∑ k : Fin 64, Ideal.exp (a (ix2 (n0 := 50000) (n1 := 64) (i 0) k) - rowMax5 a (i 0)))

/-- One entry of a row's log-softmax, from the row and the entry. -/
abbrev logSoftmaxEntry (row : Fin 64 → EReal) (ent : EReal) : EReal :=
  (ent - rowTop row) - Ideal.log (∑ k : Fin 64, Ideal.exp (row k - rowTop row))

/-- Scores minus their row maximum, minus the logarithm of the row sum of the exponentials of the same differences,
    the logarithm taken on the kept column before it is broadcast back: at (q, k) it is the log-softmax of row q at k.
    The row maximum and the shifted exponentials are read by the row-softmax lemmas; the column broadcast re-reads the
    column's entry of row q, the cast from a vector to a column keeps the row, and the add-reduction is the finite sum. -/
theorem logsoftmax_at {a b : ℕ} (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hφ' : FKind.Formats .f32) (hacc' : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    subf (subf s (broadcastTo ⟨2, ![a, b]⟩ (shapeCast ⟨2, ![a, 1]⟩ (multiReduction .maximumf [1] ⟨1, ![a]⟩ s 0xFF800000#32 h hφ hacc) hc) hb))
        (broadcastTo ⟨2, ![a, b]⟩ (log (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 h hφ hacc) hc) hb)))
          0x00000000#32 h hφ' hacc') hc)) hb) (ix2 q k)
      = (s (ix2 q k) - rowTop (fun k' : Fin b => s (ix2 q k')))
        - Ideal.log (∑ k' : Fin b, Ideal.exp (s (ix2 q k') - rowTop (fun k'' : Fin b => s (ix2 q k'')))) := by
  rw [subf_apply, subf_apply, rowMax_at, Cert.LayoutKeepdims.broadcastTo_a1_ab_apply]
  show _ - Ideal.log (shapeCast ⟨2, ![a, 1]⟩ (multiReduction (F := Ideal) .add [1] ⟨1, ![a]⟩ _ 0x00000000#32 h hφ' hacc') hc (ix2 q (0 : Fin 1))) = _
  rw [Cert.LayoutKeepdims.shapeCast_a_a1_apply, Idealize.ShloMosaic.RowSum.rowSum_apply]
  refine congrArg (fun u : EReal => (s (ix2 q k) - rowTop (fun k' : Fin b => s (ix2 q k'))) - Ideal.log u) ?_
  exact Finset.sum_congr rfl fun k' _ => shifted_exp_at s h hφ hacc hc hb q k'

/-- One row block's body at an entry: the shape cast to the same shape is the identity, and the rest is the
    log-softmax of the block's row p at column f. -/
theorem block_logsoftmax5 (x : FVec Ideal S2000x64 .f32) (p : Fin 2000) (f : Fin 64) :
    Gen.k5_pay1 (F := Ideal) x (ix2 p f) = logSoftmaxEntry (fun k : Fin 64 => x (ix2 p k)) (x (ix2 p f)) := by
  unfold Gen.k5_pay1
  simp only [shapeCast_self]
  exact logsoftmax_at x _ _ _ _ _ _ _ p f

/-- The block index maps over the 25 grid points: the operand's and the result's blocks are row block t, all columns. -/
theorem block_indices5 : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

section
variable (V : (c : Dev nD) → (b : Ref sig .tc) → Buf (Elt Ideal) ((c : Thread nD τ).loc b)) (c : Dev nD)

/-- The operand's block at point t is rows 2000 t … 2000 t + 1999 of the operand. -/
theorem a_block5 (t : Fin cfg5.N) (y : S2000x64.Idx) (i : S50000x64.Idx)
    (h0 : (i 0).val = 2000 * t.val + (y 0).val) (h1 : (i 1).val = (y 1).val) :
    (Gen.iblk5 V c 0 t : Vec Ideal S2000x64 .f32) y = (V c (Pipeline.arrRef spec5 0) : S50000x64.Idx → EReal) i := by
  obtain ⟨e0, e1, -, -⟩ := block_indices5 t
  unfold Gen.iblk5
  rw [View.read_apply]
  show V c (Pipeline.arrRef spec5 0) _ = V c (Pipeline.arrRef spec5 0) _
  congr 1
  funext a
  apply Fin.ext
  match a with
  | ⟨0, _⟩ => show win5_0.index t (0 : Fin 2) * 2000 + 1 * (y 0).val = (i 0).val; rw [e0, h0]; omega
  | ⟨1, _⟩ => show win5_0.index t (1 : Fin 2) * 64 + 1 * (y 1).val = (i 1).val; rw [e1, h1]; omega

/-- WHAT POINT t WRITES BACK is row block t of the log-softmax: entry (p, f) of the block sits at row 2000 t + p,
    column f of the result, and the block's row p is the operand's row 2000 t + p. -/
theorem flushed5 (t : Fin cfg5.N) :
    (Gen.dat5 (F := Ideal) V c).flushed 1 t
      = ((cfg5.win 1).blk t).view.read (Elt Ideal) (logSoftmaxRows (V c (Pipeline.arrRef spec5 0))) := by
  show (cfg5.win 1).cut (grid5.coords t) ((Gen.dat5 V c).after 1 t) = _
  rw [Gen.after5_1]
  unfold Gen.out5_1
  rw [View.canon_unit_zero zero_offsets5]
  simp only [View.ld_unit_zero (S := S2000x64) zero_offsets5]
  obtain ⟨-, -, e0, e1⟩ := block_indices5 t
  funext j
  obtain ⟨p, f, rfl⟩ : ∃ (p : Fin 2000) (f : Fin 64), j = ix2 p f := ⟨j 0, j 1, eq_ix2 j⟩
  rw [View.read_apply]
  show Gen.k5_pay1 (Gen.iblk5 V c 0 t) (ix2 p f) = logSoftmaxRows _ (((cfg5.win 1).blk t).view.emb (ix2 p f))
  refine (block_logsoftmax5 (Gen.iblk5 V c 0 t) p f).trans ?_
  have h0 : ((((cfg5.win 1).blk t).view.emb (ix2 p f)) 0).val = 2000 * t.val + p.val := by
    show win5_1.index t (0 : Fin 2) * 2000 + 1 * p.val = 2000 * t.val + p.val; rw [e0]; omega
  have h1 : ((((cfg5.win 1).blk t).view.emb (ix2 p f)) 1).val = f.val := by
    show win5_1.index t (1 : Fin 2) * 64 + 1 * f.val = f.val; rw [e1]; omega
  refine congrArg₂ logSoftmaxEntry (funext fun k => ?_) ?_
  · exact a_block5 V c t (ix2 p k) _ h0 rfl
  · exact a_block5 V c t (ix2 p f) _ h0 h1

/-- An entry of the result is in point t's block iff each coordinate is in the block's range on its axis. -/
theorem mem_block5 (t : Fin cfg5.N) (i : S50000x64.Idx) :
    i ∈ ((cfg5.win 1).blk t).view.set
      ↔ ∀ a : Fin 2, win5_1.index t a * S2000x64.size a ≤ (i a).val ∧ (i a).val < win5_1.index t a * S2000x64.size a + S2000x64.size a := by
  show i ∈ ((View.whole main_v164).slice (win5_1.rect t)).set ↔ _
  rw [View.set_slice_whole, Rect.mem_set_unit]
  exact Iff.rfl

/-- The 25 row blocks tile the result: row r is in block r / 2000. -/
theorem cover5 (i : S50000x64.Idx) :
    ∃ t : Fin cfg5.N, (cfg5.win 1).flush t = true ∧ i ∈ ((cfg5.win 1).blk t).view.set := by
  have hi0 : (i 0).val < 50000 := (i 0).isLt
  have hi1 : (i 1).val < 64 := (i 1).isLt
  have hN : cfg5.N = 25 := Gen.N_5
  have ht : (i 0).val / 2000 < cfg5.N := by rw [hN]; omega
  obtain ⟨-, -, e0, e1⟩ := block_indices5 ⟨(i 0).val / 2000, ht⟩
  refine ⟨⟨(i 0).val / 2000, ht⟩, Gen.flush5_1 _, ?_⟩
  rw [mem_block5]
  intro a
  match a with
  | ⟨0, _⟩ =>
    show win5_1.index ⟨(i 0).val / 2000, ht⟩ (0 : Fin 2) * 2000 ≤ (i 0).val
      ∧ (i 0).val < win5_1.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_1.index ⟨(i 0).val / 2000, ht⟩ (1 : Fin 2) * 64 ≤ (i 1).val
      ∧ (i 1).val < win5_1.index ⟨(i 0).val / 2000, ht⟩ (1 : Fin 2) * 64 + 64
    rw [e1]; omega

/-- THE RESULT ARRAY after the region: the row-wise log-softmax of the operand array as the region found it. -/
theorem logsoftmax5 :
    (Gen.dat5 (F := Ideal) V c).arrAt 1 cfg5.N = logSoftmaxRows (V c (Pipeline.arrRef spec5 0)) :=
  (Gen.dat5 V c).arrAt_eq_of_cover 1 _ (fun t _ => flushed5 V c t) cover5

end

end Cert.KernelIdeal.RegVal

end
-- ==== Proof.GcnSpec.lean ====
/-
  The network both programs compute, as one function of the twelve arguments over the extended reals.
  Three graph-convolution layers: a layer multiplies the node features by its weight matrix, then aggregates —
  every node receives, from each edge pointing at it, the source's projected row scaled by the two ends' inverse
  root degrees, plus its own row scaled by its squared inverse root degree, plus the bias. After layers one and two
  a batch norm over the nodes (per feature: subtract the mean, divide by the root of variance plus epsilon, scale by
  gamma, shift by beta) and a positive part; after layer three a row-wise log-softmax.
  `kernelNet` states it the way the kernel's program computes it: the matrix products as sums over the inner index,
  the batch norm FUSED into one multiply-add per entry with a per-feature scale gamma·s and shift beta − (mean·gamma)·s
  (s the reciprocal root of variance plus epsilon), the host arithmetic in between as the functions transcribed from
  the program (degInv, edgeCoef, aggBias256, aggBias64, colMean256, colVar256, bnScale, bnShift).
-/
import proofs.«118705_j84670985273387_1_alg».proof.Proof.KernelHost
import Idealize.ShloMosaic.Lib.ValueIdx

set_option maxRecDepth 16384

noncomputable section

namespace Cert.GcnSpec

open Cert.KernelIdeal Cert.KernelIdeal.Gen Cert.KernelIdeal.HostVal
open Idealize.ShloMosaic Idealize.ShloMosaic.ValueIdx

/-- A row of the edge list. -/
abbrev EdgeRow : Type := (⟨S800000, .i32⟩ : BufTy).Contents (Elt Ideal)

/-- x @ W for x : [50000,512], W : [512,256], entry by entry. -/
abbrev prodA (x : S50000x512.Idx → EReal) (w : S512x256.Idx → EReal) : S50000x256.Idx → EReal :=
  fun i => ∑ k : Fin 512, x (ix2 (n0 := 50000) (n1 := 512) (i 0) k) * w (ix2 (n0 := 512) (n1 := 256) k (i 1))
/-- x @ W for x : [50000,256], W : [256,256]. -/
abbrev prodB (x : S50000x256.Idx → EReal) (w : S256x256.Idx → EReal) : S50000x256.Idx → EReal :=
  fun i => ∑ k : Fin 256, x (ix2 (n0 := 50000) (n1 := 256) (i 0) k) * w (ix2 (n0 := 256) (n1 := 256) k (i 1))
/-- x @ W for x : [50000,256], W : [256,64]. -/
abbrev prodC (x : S50000x256.Idx → EReal) (w : S256x64.Idx → EReal) : S50000x64.Idx → EReal :=
  fun i => ∑ k : Fin 256, x (ix2 (n0 := 50000) (n1 := 256) (i 0) k) * w (ix2 (n0 := 256) (n1 := 64) k (i 1))

/-- The fused multiply-add and positive part: max(h · scale + shift, 0) with the scale and shift rows read at the entry's column. -/
abbrev fused (h : S50000x256.Idx → EReal) (sc sh : S1x256.Idx → EReal) : S50000x256.Idx → EReal :=
  fun i => max (h i * sc (ix2 (n0 := 1) (n1 := 256) (0 : Fin 1) (i 1)) + sh (ix2 (n0 := 1) (n1 := 256) (0 : Fin 1) (i 1))) 0

/-- The variance's degrees-of-freedom correction: the integer zero. -/
abbrev noCorrection : (⟨S_, .i32⟩ : BufTy).Contents (Elt Ideal) := constantI S_ 32 0#32

/-- One layer's aggregate plus bias at width 256, from the projected features. -/
def conv256 (h : S50000x256.Idx → EReal) (src dst : EdgeRow) (b : S256.Idx → EReal) : S50000x256.Idx → EReal :=
  aggBias256 (F := Ideal) h src dst (degInv (F := Ideal) dst) (edgeCoef (F := Ideal) (degInv (F := Ideal) dst) src dst) b
/-- The same at width 64. -/
def conv64 (h : S50000x64.Idx → EReal) (src dst : EdgeRow) (b : S64.Idx → EReal) : S50000x64.Idx → EReal :=
  aggBias64 (F := Ideal) h src dst (degInv (F := Ideal) dst) (edgeCoef (F := Ideal) (degInv (F := Ideal) dst) src dst) b

/-- The fused batch norm and positive part of an aggregate. -/
def fusedBn (a : S50000x256.Idx → EReal) (γ β : S256.Idx → EReal) : S50000x256.Idx → EReal :=
  fused a (bnScale (F := Ideal) (colVar256 (F := Ideal) a noCorrection) γ)
    (bnShift (F := Ideal) (colMean256 (F := Ideal) a) (colVar256 (F := Ideal) a noCorrection) γ β)

/-- The third layer's aggregate, as the kernel's program computes it: what the log-softmax is applied to. -/
def kernelLogits (x : S50000x512.Idx → EReal) (ei : (⟨S2x800000, .i32⟩ : BufTy).Contents (Elt Ideal))
    (W1 : S512x256.Idx → EReal) (b1 : S256.Idx → EReal) (W2 : S256x256.Idx → EReal) (b2 : S256.Idx → EReal)
    (W3 : S256x64.Idx → EReal) (b3 : S64.Idx → EReal) (γ1 β1 γ2 β2 : S256.Idx → EReal) : S50000x64.Idx → EReal :=
  let src := edgeRow0 (F := Ideal) ei
  let dst := edgeRow1 (F := Ideal) ei
  let y1 := fusedBn (conv256 (prodA x W1) src dst b1) γ1 β1
  let y2 := fusedBn (conv256 (prodB y1 W2) src dst b2) γ2 β2
  conv64 (prodC y2 W3) src dst b3

end Cert.GcnSpec

end
-- ==== Proof.KernelValue.lean ====
/-
  The kernel's third-layer aggregate as the network function of the launch contents. Boundary by boundary through
  the program's fold: each matrix-product region leaves the product of what it finds (the previous layer's output
  and the layer's weights, the weights still as launched); the host stretch after it leaves the aggregate plus
  bias of that product and, for layers one and two, the column statistics and the scale and shift rows; the fused
  batch-norm region leaves max(h · scale + shift, 0) of what it finds. Substituting each into the next gives the
  aggregate that the last region reads, as `kernelLogits` of the twelve arguments; the last region leaves its
  row-wise log-softmax in the result array.
-/
import proofs.«118705_j84670985273387_1_alg».proof.Proof.KernelStages
import proofs.«118705_j84670985273387_1_alg».proof.Proof.RegLinear0
import proofs.«118705_j84670985273387_1_alg».proof.Proof.RegLinear2
import proofs.«118705_j84670985273387_1_alg».proof.Proof.RegLinear4
import proofs.«118705_j84670985273387_1_alg».proof.Proof.RegBnRelu1
import proofs.«118705_j84670985273387_1_alg».proof.Proof.RegBnRelu3
import proofs.«118705_j84670985273387_1_alg».proof.Proof.RegLogSoftmax5
import proofs.«118705_j84670985273387_1_alg».proof.Proof.GcnSpec

set_option maxRecDepth 16384

noncomputable section

namespace Cert.KernelIdeal.Final

open Cert.KernelIdeal Cert.KernelIdeal.Gen Cert.KernelIdeal.HostVal Cert.KernelIdeal.Kept Cert.KernelIdeal.Stages
open Cert.KernelIdeal.RegVal Cert.GcnSpec
open Idealize.ShloMosaic Idealize.ShloMosaic.TcCoe Idealize.ShloMosaic.ValueIdx Idealize.SL Idealize.SL.Sem

variable (m : (ℓ : Loc nD τ sig) → Buf (Elt Ideal) ℓ) (ρ : Dev nD → PrngReg)

/-- Region 0 leaves x @ W1. -/
theorem product1 (c : Dev nD) : W2 m ρ c (Proc.devRef .tc main_v4) = prodA (m ((c : Thread nD τ).loc main_arg0)) (m ((c : Thread nD τ).loc main_arg2)) := by
  have e : W2 m ρ c (Proc.devRef .tc main_v4) = prod0 (W1 m ρ c (Proc.devRef .tc main_arg0)) (W1 m ρ c (Proc.devRef .tc main_arg2)) :=
    (W2_arr m ρ c 2).trans (linear0 (V1 m ρ) c)
  rw [kept_arg0_1_0 m ρ c, kept_arg2_1_0 m ρ c] at e
  exact e

/-- Layer 1's aggregate plus bias. -/
theorem aggregate1 (c : Dev nD) : W3 m ρ c (Proc.devRef .tc main_v47) = conv256 (prodA (m ((c : Thread nD τ).loc main_arg0)) (m ((c : Thread nD τ).loc main_arg2))) (edgeRow0 (F := Ideal) (m ((c : Thread nD τ).loc main_arg1))) (edgeRow1 (F := Ideal) (m ((c : Thread nD τ).loc main_arg1))) (m ((c : Thread nD τ).loc main_arg3)) := by
  rw [agg1 m ρ c, product1 m ρ c]
  rfl

/-- Region 1 leaves the fused batch norm and positive part of layer 1's aggregate. -/
theorem activation1 (c : Dev nD) : W6 m ρ c (Proc.devRef .tc main_v61) = fusedBn (W3 m ρ c (Proc.devRef .tc main_v47)) (m ((c : Thread nD τ).loc main_arg8)) (m ((c : Thread nD τ).loc main_arg9)) := by
  have e : W6 m ρ c (Proc.devRef .tc main_v61) = bnrelu1_fn (W5 m ρ c (Proc.devRef .tc main_v47)) (W5 m ρ c (Proc.devRef .tc main_v56)) (W5 m ρ c (Proc.devRef .tc main_v60)) :=
    (W6_arr m ρ c 3).trans (bnrelu1 (V5 m ρ) c)
  rw [kept_v47_5_3 m ρ c, scale1 m ρ c, shift1 m ρ c, var1 m ρ c, mean1 m ρ c] at e
  exact e

/-- Region 2 leaves y1 @ W2. -/
theorem product2 (c : Dev nD) : W7 m ρ c (Proc.devRef .tc main_v62) = prodB (W6 m ρ c (Proc.devRef .tc main_v61)) (m ((c : Thread nD τ).loc main_arg4)) := by
  have e : W7 m ρ c (Proc.devRef .tc main_v62) = prod2 (W6 m ρ c (Proc.devRef .tc main_v61)) (W6 m ρ c (Proc.devRef .tc main_arg4)) :=
    (W7_arr m ρ c 2).trans (linear2 (V6 m ρ) c)
  rw [kept_arg4_6_0 m ρ c] at e
  exact e

/-- Layer 2's aggregate plus bias. -/
theorem aggregate2 (c : Dev nD) : W8 m ρ c (Proc.devRef .tc main_v105) = conv256 (prodB (W6 m ρ c (Proc.devRef .tc main_v61)) (m ((c : Thread nD τ).loc main_arg4))) (edgeRow0 (F := Ideal) (m ((c : Thread nD τ).loc main_arg1))) (edgeRow1 (F := Ideal) (m ((c : Thread nD τ).loc main_arg1))) (m ((c : Thread nD τ).loc main_arg5)) := by
  rw [agg2 m ρ c, product2 m ρ c]
  rfl

/-- Region 3 leaves the fused batch norm and positive part of layer 2's aggregate. -/
theorem activation2 (c : Dev nD) : W11 m ρ c (Proc.devRef .tc main_v119) = fusedBn (W8 m ρ c (Proc.devRef .tc main_v105)) (m ((c : Thread nD τ).loc main_arg10)) (m ((c : Thread nD τ).loc main_arg11)) := by
  have e : W11 m ρ c (Proc.devRef .tc main_v119) = bnrelu3_fn (W10 m ρ c (Proc.devRef .tc main_v105)) (W10 m ρ c (Proc.devRef .tc main_v114)) (W10 m ρ c (Proc.devRef .tc main_v118)) :=
    (W11_arr m ρ c 3).trans (bnrelu3 (V10 m ρ) c)
  rw [kept_v105_10_8 m ρ c, scale2 m ρ c, shift2 m ρ c, var2 m ρ c, mean2 m ρ c] at e
  exact e

/-- Region 4 leaves y2 @ W3. -/
theorem product3 (c : Dev nD) : W12 m ρ c (Proc.devRef .tc main_v120) = prodC (W11 m ρ c (Proc.devRef .tc main_v119)) (m ((c : Thread nD τ).loc main_arg6)) := by
  have e : W12 m ρ c (Proc.devRef .tc main_v120) = prod4 (W11 m ρ c (Proc.devRef .tc main_v119)) (W11 m ρ c (Proc.devRef .tc main_arg6)) :=
    (W12_arr m ρ c 2).trans (linear4 (V11 m ρ) c)
  rw [kept_arg6_11_0 m ρ c] at e
  exact e

/-- Layer 3's aggregate plus bias: what the last region reads. -/
theorem aggregate3 (c : Dev nD) : W13 m ρ c (Proc.devRef .tc main_v163) = conv64 (prodC (W11 m ρ c (Proc.devRef .tc main_v119)) (m ((c : Thread nD τ).loc main_arg6))) (edgeRow0 (F := Ideal) (m ((c : Thread nD τ).loc main_arg1))) (edgeRow1 (F := Ideal) (m ((c : Thread nD τ).loc main_arg1))) (m ((c : Thread nD τ).loc main_arg7)) := by
  rw [agg3 m ρ c, product3 m ρ c]
  rfl

/-- The last region's operand is the network's third-layer aggregate of the launch contents. -/
theorem logits (c : Dev nD) : W13 m ρ c (Proc.devRef .tc main_v163)
    = kernelLogits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [aggregate3 m ρ c, activation2 m ρ c, aggregate2 m ρ c, activation1 m ρ c, aggregate1 m ρ c]
  rfl

/-- The result array at the last boundary: the row-wise log-softmax of the network's third-layer aggregate. -/
theorem result (c : Dev nD) : W14 m ρ c (Proc.devRef .tc main_v164) = logSoftmaxRows (kernelLogits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  have e : W14 m ρ c (Proc.devRef .tc main_v164) = logSoftmaxRows (W13 m ρ c (Proc.devRef .tc main_v163)) :=
    (W14_arr m ρ c 1).trans (logsoftmax5 (V13 m ρ) c)
  rw [logits m ρ c] at e
  exact e

end Cert.KernelIdeal.Final

end
-- ==== Proof.RefOps.lean ====
/- The reference program's operations in order, as lists: the module-local functions' operations are listed at their call
   sites over the call's buffer record. The list is cut into consecutive pieces that end where a layer's stage ends
   (the dense product; the aggregation with the bias added; the column means; the column variances; the normalization
   with the rectifier; at the end the logarithm of the softmax) or where the printed program's window ends; beside each piece, the references its
   operations write. -/
import proofs.«118705_j84670985273387_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge-index table, each as a vector (4 operations). -/
abbrev A0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- The references that the operations of A0 write. -/
abbrev A0_W : List (Ref sig .tc) := [main_v0, main_v1, main_v2, main_v3]

/-- Layer 1's dense product of the features with the weights (1 operation). -/
abbrev D1 : List (HloOp τ sig (Elt F)) :=
  [ StableHlo.binary main_arg0 main_arg2 main_v4 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)) ]

/-- The references that the operations of D1 write. -/
abbrev D1_W : List (Ref sig .tc) := [main_v4]

/-- Layer 1's aggregation over the edges, with the self-loop term and the bias (53 operations). -/
abbrev G1 : List (HloOp τ sig (Elt F)) :=
  [ StableHlo.nullary main_cst (constant S_ .f32 0x3F800000#32),
    StableHlo.unary main_cst main_v5 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v6 (broadcastInDim S50000 ![] bcast_S_S50000 : (⟨S_, .f32⟩ : BufTy).Contents (Elt F) → (⟨S50000, .f32⟩ : BufTy).Contents (Elt F)),
    StableHlo.unary main_v3 main_v7 (broadcastInDim S800000x1 ![0] bcast_S800000_S800000x1_0 : (⟨S800000, .i32⟩ : BufTy).Contents (Elt F) → (⟨S800000x1, .i32⟩ : BufTy).Contents (Elt F)),
    StableHlo.ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v9 (broadcastInDim S50000 ![] bcast_S_S50000 : (⟨S_, .f32⟩ : BufTy).Contents (Elt F) → (⟨S50000, .f32⟩ : BufTy).Contents (Elt F)),
    StableHlo.binary main_v8 main_v9 main_v10 (addf : (⟨S50000, .f32⟩ : BufTy).Contents (Elt F) → (⟨S50000, .f32⟩ : BufTy).Contents (Elt F) → (⟨S50000, .f32⟩ : BufTy).Contents (Elt F)),
    StableHlo.unary main_v10 main_v11 (Host.rsqrt : (⟨S50000, .f32⟩ : BufTy).Contents (Elt F) → (⟨S50000, .f32⟩ : BufTy).Contents (Elt F)),
    StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_v1 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v14 (broadcastInDim S800000 ![] bcast_S_S800000 : (⟨S_, .i32⟩ : BufTy).Contents (Elt F) → (⟨S800000, .i32⟩ : BufTy).Contents (Elt F)),
    StableHlo.binary main_v1 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_3 (constantI S_ 32 0#32),
    StableHlo.unary main_c_3 main_v19 (broadcastInDim S800000 ![] bcast_S_S800000 : (⟨S_, .i32⟩ : BufTy).Contents (Elt F) → (⟨S800000, .i32⟩ : BufTy).Contents (Elt F)),
    StableHlo.binary main_v3 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v21 (broadcastInDim S800000 ![] bcast_S_S800000 : (⟨S_, .i32⟩ : BufTy).Contents (Elt F) → (⟨S800000, .i32⟩ : BufTy).Contents (Elt F)),
    StableHlo.binary main_v3 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v11 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v18 main_v25 main_v26 (mulf : (⟨S800000, .f32⟩ : BufTy).Contents (Elt F) → (⟨S800000, .f32⟩ : BufTy).Contents (Elt F) → (⟨S800000, .f32⟩ : BufTy).Contents (Elt F)),
    StableHlo.nullary main_c_5 (constantI S_ 32 0#32),
    StableHlo.unary main_c_5 main_v27 (broadcastInDim S800000 ![] bcast_S_S800000 : (⟨S_, .i32⟩ : BufTy).Contents (Elt F) → (⟨S800000, .i32⟩ : BufTy).Contents (Elt F)),
    StableHlo.binary main_v1 main_v27 main_v28 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v29 (broadcastInDim S800000 ![] bcast_S_S800000 : (⟨S_, .i32⟩ : BufTy).Contents (Elt F) → (⟨S800000, .i32⟩ : BufTy).Contents (Elt F)),
    StableHlo.binary main_v1 main_v29 main_v30 (addi : (⟨S800000, .i32⟩ : BufTy).Contents (Elt F) → (⟨S800000, .i32⟩ : BufTy).Contents (Elt F) → (⟨S800000, .i32⟩ : BufTy).Contents (Elt F)),
    StableHlo.ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v31 main_v32 (broadcastInDim S800000x1 ![0] bcast_S800000_S800000x1_0 : (⟨S800000, .i32⟩ : BufTy).Contents (Elt F) → (⟨S800000x1, .i32⟩ : BufTy).Contents (Elt F)),
    StableHlo.binary main_v4 main_v32 main_v33 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v26 main_v34 (broadcastInDim S800000x1 ![0] bcast_S800000_S800000x1_0 : (⟨S800000, .f32⟩ : BufTy).Contents (Elt F) → (⟨S800000x1, .f32⟩ : BufTy).Contents (Elt F)),
    StableHlo.unary main_v34 main_v35 (broadcastInDim S800000x256 ![0, 1] bcast_S800000x1_S800000x256_0_1 : (⟨S800000x1, .f32⟩ : BufTy).Contents (Elt F) → (⟨S800000x256, .f32⟩ : BufTy).Contents (Elt F)),
    StableHlo.binary main_v33 main_v35 main_v36 (mulf : (⟨S800000x256, .f32⟩ : BufTy).Contents (Elt F) → (⟨S800000x256, .f32⟩ : BufTy).Contents (Elt F) → (⟨S800000x256, .f32⟩ : BufTy).Contents (Elt F)),
    StableHlo.nullary main_cst_7 (constant S_ .f32 0x00000000#32),
    StableHlo.unary main_cst_7 main_v37 (broadcastInDim S50000x256 ![] bcast_S_S50000x256 : (⟨S_, .f32⟩ : BufTy).Contents (Elt F) → (⟨S50000x256, .f32⟩ : BufTy).Contents (Elt F)),
    StableHlo.unary main_v3 main_v38 (broadcastInDim S800000x1 ![0] bcast_S800000_S800000x1_0 : (⟨S800000, .i32⟩ : BufTy).Contents (Elt F) → (⟨S800000x1, .i32⟩ : BufTy).Contents (Elt F)),
    StableHlo.ternary main_v37 main_v38 main_v36 main_v39 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v11 main_v11 main_v40 (mulf : (⟨S50000, .f32⟩ : BufTy).Contents (Elt F) → (⟨S50000, .f32⟩ : BufTy).Contents (Elt F) → (⟨S50000, .f32⟩ : BufTy).Contents (Elt F)),
    StableHlo.unary main_v40 main_v41 (broadcastInDim S50000x1 ![0] bcast_S50000_S50000x1_0 : (⟨S50000, .f32⟩ : BufTy).Contents (Elt F) → (⟨S50000x1, .f32⟩ : BufTy).Contents (Elt F)),
    StableHlo.unary main_v41 main_v42 (broadcastInDim S50000x256 ![0, 1] bcast_S50000x1_S50000x256_0_1 : (⟨S50000x1, .f32⟩ : BufTy).Contents (Elt F) → (⟨S50000x256, .f32⟩ : BufTy).Contents (Elt F)),
    StableHlo.binary main_v4 main_v42 main_v43 (mulf : (⟨S50000x256, .f32⟩ : BufTy).Contents (Elt F) → (⟨S50000x256, .f32⟩ : BufTy).Contents (Elt F) → (⟨S50000x256, .f32⟩ : BufTy).Contents (Elt F)),
    StableHlo.binary main_v39 main_v43 main_v44 (addf : (⟨S50000x256, .f32⟩ : BufTy).Contents (Elt F) → (⟨S50000x256, .f32⟩ : BufTy).Contents (Elt F) → (⟨S50000x256, .f32⟩ : BufTy).Contents (Elt F)),
    StableHlo.unary main_arg3 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S50000x256 ![0, 1] bcast_S1x256_S50000x256_0_1 : (⟨S1x256, .f32⟩ : BufTy).Contents (Elt F) → (⟨S50000x256, .f32⟩ : BufTy).Contents (Elt F)),
    StableHlo.binary main_v44 main_v46 main_v47 (addf : (⟨S50000x256, .f32⟩ : BufTy).Contents (Elt F) → (⟨S50000x256, .f32⟩ : BufTy).Contents (Elt F) → (⟨S50000x256, .f32⟩ : BufTy).Contents (Elt F)) ]

/-- The references that the operations of G1 write. -/
abbrev G1_W : List (Ref sig .tc) := [main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47]

/-- Layer 1's column sums (2 operations). -/
abbrev M1a : List (HloOp τ sig (Elt F)) :=
  [ StableHlo.nullary main_cst_8 (constant S_ .f32 0x00000000#32),
    StableHlo.binary main_v47 main_cst_8 main_v48 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) ]

/-- The references that the operations of M1a write. -/
abbrev M1a_W : List (Ref sig .tc) := [main_cst_8, main_v48]

/-- Layer 1's column means (the sums over the row count), and the integer zero the variance takes as its correction (4 operations). -/
abbrev M1b : List (HloOp τ sig (Elt F)) :=
  [ StableHlo.nullary main_cst_9 (constant S_ .f32 0x47435000#32),
    StableHlo.unary main_cst_9 main_v49 (broadcastInDim S256 ![] bcast_S_S256 : (⟨S_, .f32⟩ : BufTy).Contents (Elt F) → (⟨S256, .f32⟩ : BufTy).Contents (Elt F)),
    StableHlo.binary main_v48 main_v49 main_v50 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32) ]

/-- The references that the operations of M1b write. -/
abbrev M1b_W : List (Ref sig .tc) := [main_cst_9, main_v49, main_v50, main_c_10]

/-- Layer 1's column variances (22 operations). -/
abbrev V1 : List (HloOp τ sig (Elt F)) :=
  [ StableHlo.TRef.nullary main_call0.cst (constant S_ .f32 0x00000000#32),
    StableHlo.TRef.binary (StableHlo.TRef.of main_v47 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (StableHlo.TRef.of main_v47 : StableHlo.TRef sig ⟨S50000x256, .f32⟩) main_call0.v4 main_call0.v5 subf,
    StableHlo.TRef.binary main_call0.v5 main_call0.v5 main_call0.v6 mulf,
    StableHlo.TRef.unary (StableHlo.TRef.of main_c_10 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

/-- The references that the operations of V1 write. -/
abbrev V1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v51]

/-- Layer 1's normalization (centred, scaled by the reciprocal root of the variance plus epsilon, then by gamma, shifted by beta) and the rectifier (19 operations). -/
abbrev N1 : List (HloOp τ sig (Elt F)) :=
  [ StableHlo.unary main_v50 main_v52 (broadcastInDim S1x256 ![1] bcast_S256_S1x256_1 : (⟨S256, .f32⟩ : BufTy).Contents (Elt F) → (⟨S1x256, .f32⟩ : BufTy).Contents (Elt F)),
    StableHlo.unary main_v52 main_v53 (broadcastInDim S50000x256 ![0, 1] bcast_S1x256_S50000x256_0_1 : (⟨S1x256, .f32⟩ : BufTy).Contents (Elt F) → (⟨S50000x256, .f32⟩ : BufTy).Contents (Elt F)),
    StableHlo.binary main_v47 main_v53 main_v54 (subf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x3727C5AC#32),
    StableHlo.unary main_cst_11 main_v55 (broadcastInDim S256 ![] bcast_S_S256 : (⟨S_, .f32⟩ : BufTy).Contents (Elt F) → (⟨S256, .f32⟩ : BufTy).Contents (Elt F)),
    StableHlo.binary main_v51 main_v55 main_v56 (addf : (⟨S256, .f32⟩ : BufTy).Contents (Elt F) → (⟨S256, .f32⟩ : BufTy).Contents (Elt F) → (⟨S256, .f32⟩ : BufTy).Contents (Elt F)),
    StableHlo.unary main_v56 main_v57 (Host.rsqrt : (⟨S256, .f32⟩ : BufTy).Contents (Elt F) → (⟨S256, .f32⟩ : BufTy).Contents (Elt F)),
    StableHlo.unary main_v57 main_v58 (broadcastInDim S1x256 ![1] bcast_S256_S1x256_1 : (⟨S256, .f32⟩ : BufTy).Contents (Elt F) → (⟨S1x256, .f32⟩ : BufTy).Contents (Elt F)),
    StableHlo.unary main_v58 main_v59 (broadcastInDim S50000x256 ![0, 1] bcast_S1x256_S50000x256_0_1 : (⟨S1x256, .f32⟩ : BufTy).Contents (Elt F) → (⟨S50000x256, .f32⟩ : BufTy).Contents (Elt F)),
    StableHlo.binary main_v54 main_v59 main_v60 (mulf : (⟨S50000x256, .f32⟩ : BufTy).Contents (Elt F) → (⟨S50000x256, .f32⟩ : BufTy).Contents (Elt F) → (⟨S50000x256, .f32⟩ : BufTy).Contents (Elt F)),
    StableHlo.unary main_arg8 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S50000x256 ![0, 1] bcast_S1x256_S50000x256_0_1 : (⟨S1x256, .f32⟩ : BufTy).Contents (Elt F) → (⟨S50000x256, .f32⟩ : BufTy).Contents (Elt F)),
    StableHlo.binary main_v60 main_v62 main_v63 (mulf : (⟨S50000x256, .f32⟩ : BufTy).Contents (Elt F) → (⟨S50000x256, .f32⟩ : BufTy).Contents (Elt F) → (⟨S50000x256, .f32⟩ : BufTy).Contents (Elt F)),
    StableHlo.unary main_arg9 main_v64 (broadcastInDim S1x256 ![1] bcast_S256_S1x256_1 : (⟨S256, .f32⟩ : BufTy).Contents (Elt F) → (⟨S1x256, .f32⟩ : BufTy).Contents (Elt F)),
    StableHlo.unary main_v64 main_v65 (broadcastInDim S50000x256 ![0, 1] bcast_S1x256_S50000x256_0_1 : (⟨S1x256, .f32⟩ : BufTy).Contents (Elt F) → (⟨S50000x256, .f32⟩ : BufTy).Contents (Elt F)),
    StableHlo.binary main_v63 main_v65 main_v66 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (StableHlo.TRef.of main_v66 : StableHlo.TRef sig ⟨S50000x256, .f32⟩) main_call1.v0 main_call1.v1 maximumf ]

/-- The references that the operations of N1 write. -/
abbrev N1_W : List (Ref sig .tc) := [main_v52, main_v53, main_v54, main_cst_11, main_v55, main_v56, main_v57, main_v58, main_v59, main_v60, main_v61, main_v62, main_v63, main_v64, main_v65, main_v66, main_call1_cst, main_call1_v0, main_v67]

/-- Layer 2's dense product (1 operation). -/
abbrev D2 : List (HloOp τ sig (Elt F)) :=
  [ StableHlo.binary main_v67 main_arg4 main_v68 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- The references that the operations of D2 write. -/
abbrev D2_W : List (Ref sig .tc) := [main_v68]

/-- Layer 2's aggregation: the degrees, the edge coefficients and the source-row indices (37 operations). -/
abbrev G2a : List (HloOp τ sig (Elt F)) :=
  [ StableHlo.nullary main_cst_12 (constant S_ .f32 0x3F800000#32),
    StableHlo.unary main_cst_12 main_v69 (broadcastInDim S800000 ![] bcast_S_S800000 : (⟨S_, .f32⟩ : BufTy).Contents (Elt F) → (⟨S800000, .f32⟩ : BufTy).Contents (Elt F)),
    StableHlo.nullary main_cst_13 (constant S_ .f32 0x00000000#32),
    StableHlo.unary main_cst_13 main_v70 (broadcastInDim S50000 ![] bcast_S_S50000 : (⟨S_, .f32⟩ : BufTy).Contents (Elt F) → (⟨S50000, .f32⟩ : BufTy).Contents (Elt F)),
    StableHlo.unary main_v3 main_v71 (broadcastInDim S800000x1 ![0] bcast_S800000_S800000x1_0 : (⟨S800000, .i32⟩ : BufTy).Contents (Elt F) → (⟨S800000x1, .i32⟩ : BufTy).Contents (Elt F)),
    StableHlo.ternary main_v70 main_v71 main_v69 main_v72 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_14 (constant S_ .f32 0x3F800000#32),
    StableHlo.unary main_cst_14 main_v73 (broadcastInDim S50000 ![] bcast_S_S50000 : (⟨S_, .f32⟩ : BufTy).Contents (Elt F) → (⟨S50000, .f32⟩ : BufTy).Contents (Elt F)),
    StableHlo.binary main_v72 main_v73 main_v74 (addf : (⟨S50000, .f32⟩ : BufTy).Contents (Elt F) → (⟨S50000, .f32⟩ : BufTy).Contents (Elt F) → (⟨S50000, .f32⟩ : BufTy).Contents (Elt F)),
    StableHlo.unary main_v74 main_v75 (Host.rsqrt : (⟨S50000, .f32⟩ : BufTy).Contents (Elt F) → (⟨S50000, .f32⟩ : BufTy).Contents (Elt F)),
    StableHlo.nullary main_c_15 (constantI S_ 32 0#32),
    StableHlo.unary main_c_15 main_v76 (broadcastInDim S800000 ![] bcast_S_S800000 : (⟨S_, .i32⟩ : BufTy).Contents (Elt F) → (⟨S800000, .i32⟩ : BufTy).Contents (Elt F)),
    StableHlo.binary main_v1 main_v76 main_v77 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v78 (broadcastInDim S800000 ![] bcast_S_S800000 : (⟨S_, .i32⟩ : BufTy).Contents (Elt F) → (⟨S800000, .i32⟩ : BufTy).Contents (Elt F)),
    StableHlo.binary main_v1 main_v78 main_v79 (addi : (⟨S800000, .i32⟩ : BufTy).Contents (Elt F) → (⟨S800000, .i32⟩ : BufTy).Contents (Elt F) → (⟨S800000, .i32⟩ : BufTy).Contents (Elt F)),
    StableHlo.ternary main_v77 main_v79 main_v1 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v80 main_v81 (broadcastInDim S800000x1 ![0] bcast_S800000_S800000x1_0 : (⟨S800000, .i32⟩ : BufTy).Contents (Elt F) → (⟨S800000x1, .i32⟩ : BufTy).Contents (Elt F)),
    StableHlo.binary main_v75 main_v81 main_v82 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_17 (constantI S_ 32 0#32),
    StableHlo.unary main_c_17 main_v83 (broadcastInDim S800000 ![] bcast_S_S800000 : (⟨S_, .i32⟩ : BufTy).Contents (Elt F) → (⟨S800000, .i32⟩ : BufTy).Contents (Elt F)),
    StableHlo.binary main_v3 main_v83 main_v84 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 50000#32),
    StableHlo.unary main_c_18 main_v85 (broadcastInDim S800000 ![] bcast_S_S800000 : (⟨S_, .i32⟩ : BufTy).Contents (Elt F) → (⟨S800000, .i32⟩ : BufTy).Contents (Elt F)),
    StableHlo.binary main_v3 main_v85 main_v86 (addi : (⟨S800000, .i32⟩ : BufTy).Contents (Elt F) → (⟨S800000, .i32⟩ : BufTy).Contents (Elt F) → (⟨S800000, .i32⟩ : BufTy).Contents (Elt F)),
    StableHlo.ternary main_v84 main_v86 main_v3 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v87 main_v88 (broadcastInDim S800000x1 ![0] bcast_S800000_S800000x1_0 : (⟨S800000, .i32⟩ : BufTy).Contents (Elt F) → (⟨S800000x1, .i32⟩ : BufTy).Contents (Elt F)),
    StableHlo.binary main_v75 main_v88 main_v89 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v82 main_v89 main_v90 (mulf : (⟨S800000, .f32⟩ : BufTy).Contents (Elt F) → (⟨S800000, .f32⟩ : BufTy).Contents (Elt F) → (⟨S800000, .f32⟩ : BufTy).Contents (Elt F)),
    StableHlo.nullary main_c_19 (constantI S_ 32 0#32),
    StableHlo.unary main_c_19 main_v91 (broadcastInDim S800000 ![] bcast_S_S800000 : (⟨S_, .i32⟩ : BufTy).Contents (Elt F) → (⟨S800000, .i32⟩ : BufTy).Contents (Elt F)),
    StableHlo.binary main_v1 main_v91 main_v92 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v93 (broadcastInDim S800000 ![] bcast_S_S800000 : (⟨S_, .i32⟩ : BufTy).Contents (Elt F) → (⟨S800000, .i32⟩ : BufTy).Contents (Elt F)),
    StableHlo.binary main_v1 main_v93 main_v94 (addi : (⟨S800000, .i32⟩ : BufTy).Contents (Elt F) → (⟨S800000, .i32⟩ : BufTy).Contents (Elt F) → (⟨S800000, .i32⟩ : BufTy).Contents (Elt F)),
    StableHlo.ternary main_v92 main_v94 main_v1 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v95 main_v96 (broadcastInDim S800000x1 ![0] bcast_S800000_S800000x1_0 : (⟨S800000, .i32⟩ : BufTy).Contents (Elt F) → (⟨S800000x1, .i32⟩ : BufTy).Contents (Elt F)) ]

/-- The references that the operations of G2a write. -/
abbrev G2a_W : List (Ref sig .tc) := [main_cst_12, main_v69, main_cst_13, main_v70, main_v71, main_v72, main_cst_14, main_v73, main_v74, main_v75, main_c_15, main_v76, main_v77, main_c_16, main_v78, main_v79, main_v80, main_v81, main_v82, main_c_17, main_v83, main_v84, main_c_18, main_v85, main_v86, main_v87, main_v88, main_v89, main_v90, main_c_19, main_v91, main_v92, main_c_20, main_v93, main_v94, main_v95, main_v96]

/-- Layer 2's aggregation, continued: the gathered rows scaled and summed per target, the self-loop term and the bias (16 operations). -/
abbrev G2b : List (HloOp τ sig (Elt F)) :=
  [ StableHlo.binary main_v68 main_v96 main_v97 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v90 main_v98 (broadcastInDim S800000x1 ![0] bcast_S800000_S800000x1_0 : (⟨S800000, .f32⟩ : BufTy).Contents (Elt F) → (⟨S800000x1, .f32⟩ : BufTy).Contents (Elt F)),
    StableHlo.unary main_v98 main_v99 (broadcastInDim S800000x256 ![0, 1] bcast_S800000x1_S800000x256_0_1 : (⟨S800000x1, .f32⟩ : BufTy).Contents (Elt F) → (⟨S800000x256, .f32⟩ : BufTy).Contents (Elt F)),
    StableHlo.binary main_v97 main_v99 main_v100 (mulf : (⟨S800000x256, .f32⟩ : BufTy).Contents (Elt F) → (⟨S800000x256, .f32⟩ : BufTy).Contents (Elt F) → (⟨S800000x256, .f32⟩ : BufTy).Contents (Elt F)),
    StableHlo.nullary main_cst_21 (constant S_ .f32 0x00000000#32),
    StableHlo.unary main_cst_21 main_v101 (broadcastInDim S50000x256 ![] bcast_S_S50000x256 : (⟨S_, .f32⟩ : BufTy).Contents (Elt F) → (⟨S50000x256, .f32⟩ : BufTy).Contents (Elt F)),
    StableHlo.unary main_v3 main_v102 (broadcastInDim S800000x1 ![0] bcast_S800000_S800000x1_0 : (⟨S800000, .i32⟩ : BufTy).Contents (Elt F) → (⟨S800000x1, .i32⟩ : BufTy).Contents (Elt F)),
    StableHlo.ternary main_v101 main_v102 main_v100 main_v103 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v75 main_v75 main_v104 (mulf : (⟨S50000, .f32⟩ : BufTy).Contents (Elt F) → (⟨S50000, .f32⟩ : BufTy).Contents (Elt F) → (⟨S50000, .f32⟩ : BufTy).Contents (Elt F)),
    StableHlo.unary main_v104 main_v105 (broadcastInDim S50000x1 ![0] bcast_S50000_S50000x1_0 : (⟨S50000, .f32⟩ : BufTy).Contents (Elt F) → (⟨S50000x1, .f32⟩ : BufTy).Contents (Elt F)),
    StableHlo.unary main_v105 main_v106 (broadcastInDim S50000x256 ![0, 1] bcast_S50000x1_S50000x256_0_1 : (⟨S50000x1, .f32⟩ : BufTy).Contents (Elt F) → (⟨S50000x256, .f32⟩ : BufTy).Contents (Elt F)),
    StableHlo.binary main_v68 main_v106 main_v107 (mulf : (⟨S50000x256, .f32⟩ : BufTy).Contents (Elt F) → (⟨S50000x256, .f32⟩ : BufTy).Contents (Elt F) → (⟨S50000x256, .f32⟩ : BufTy).Contents (Elt F)),
    StableHlo.binary main_v103 main_v107 main_v108 (addf : (⟨S50000x256, .f32⟩ : BufTy).Contents (Elt F) → (⟨S50000x256, .f32⟩ : BufTy).Contents (Elt F) → (⟨S50000x256, .f32⟩ : BufTy).Contents (Elt F)),
    StableHlo.unary main_arg5 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S50000x256 ![0, 1] bcast_S1x256_S50000x256_0_1 : (⟨S1x256, .f32⟩ : BufTy).Contents (Elt F) → (⟨S50000x256, .f32⟩ : BufTy).Contents (Elt F)),
    StableHlo.binary main_v108 main_v110 main_v111 (addf : (⟨S50000x256, .f32⟩ : BufTy).Contents (Elt F) → (⟨S50000x256, .f32⟩ : BufTy).Contents (Elt F) → (⟨S50000x256, .f32⟩ : BufTy).Contents (Elt F)) ]

/-- The references that the operations of G2b write. -/
abbrev G2b_W : List (Ref sig .tc) := [main_v97, main_v98, main_v99, main_v100, main_cst_21, main_v101, main_v102, main_v103, main_v104, main_v105, main_v106, main_v107, main_v108, main_v109, main_v110, main_v111]

/-- Layer 2's column means, and the integer zero the variance takes as its correction (6 operations). -/
abbrev M2 : List (HloOp τ sig (Elt F)) :=
  [ StableHlo.nullary main_cst_22 (constant S_ .f32 0x00000000#32),
    StableHlo.binary main_v111 main_cst_22 main_v112 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_23 (constant S_ .f32 0x47435000#32),
    StableHlo.unary main_cst_23 main_v113 (broadcastInDim S256 ![] bcast_S_S256 : (⟨S_, .f32⟩ : BufTy).Contents (Elt F) → (⟨S256, .f32⟩ : BufTy).Contents (Elt F)),
    StableHlo.binary main_v112 main_v113 main_v114 (Host.divf : (⟨S256, .f32⟩ : BufTy).Contents (Elt F) → (⟨S256, .f32⟩ : BufTy).Contents (Elt F) → (⟨S256, .f32⟩ : BufTy).Contents (Elt F)),
    StableHlo.nullary main_c_24 (constantI S_ 32 0#32) ]

/-- The references that the operations of M2 write. -/
abbrev M2_W : List (Ref sig .tc) := [main_cst_22, main_v112, main_cst_23, main_v113, main_v114, main_c_24]

/-- Layer 2's column variances (22 operations). -/
abbrev V2 : List (HloOp τ sig (Elt F)) :=
  [ StableHlo.TRef.nullary main_call2.cst (constant S_ .f32 0x00000000#32),
    StableHlo.TRef.binary (StableHlo.TRef.of main_v111 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (StableHlo.TRef.of main_v111 : StableHlo.TRef sig ⟨S50000x256, .f32⟩) main_call2.v4 main_call2.v5 subf,
    StableHlo.TRef.binary main_call2.v5 main_call2.v5 main_call2.v6 mulf,
    StableHlo.TRef.unary (StableHlo.TRef.of main_c_24 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b) ]

/-- The references that the operations of V2 write. -/
abbrev V2_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v115]

/-- Layer 2's normalization and the rectifier (19 operations). -/
abbrev N2 : List (HloOp τ sig (Elt F)) :=
  [ StableHlo.unary main_v114 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v117 main_v118 (subf : (⟨S50000x256, .f32⟩ : BufTy).Contents (Elt F) → (⟨S50000x256, .f32⟩ : BufTy).Contents (Elt F) → (⟨S50000x256, .f32⟩ : BufTy).Contents (Elt F)),
    StableHlo.nullary main_cst_25 (constant S_ .f32 0x3727C5AC#32),
    StableHlo.unary main_cst_25 main_v119 (broadcastInDim S256 ![] bcast_S_S256 : (⟨S_, .f32⟩ : BufTy).Contents (Elt F) → (⟨S256, .f32⟩ : BufTy).Contents (Elt F)),
    StableHlo.binary main_v115 main_v119 main_v120 (addf : (⟨S256, .f32⟩ : BufTy).Contents (Elt F) → (⟨S256, .f32⟩ : BufTy).Contents (Elt F) → (⟨S256, .f32⟩ : BufTy).Contents (Elt F)),
    StableHlo.unary main_v120 main_v121 (Host.rsqrt : (⟨S256, .f32⟩ : BufTy).Contents (Elt F) → (⟨S256, .f32⟩ : BufTy).Contents (Elt F)),
    StableHlo.unary main_v121 main_v122 (broadcastInDim S1x256 ![1] bcast_S256_S1x256_1 : (⟨S256, .f32⟩ : BufTy).Contents (Elt F) → (⟨S1x256, .f32⟩ : BufTy).Contents (Elt F)),
    StableHlo.unary main_v122 main_v123 (broadcastInDim S50000x256 ![0, 1] bcast_S1x256_S50000x256_0_1 : (⟨S1x256, .f32⟩ : BufTy).Contents (Elt F) → (⟨S50000x256, .f32⟩ : BufTy).Contents (Elt F)),
    StableHlo.binary main_v118 main_v123 main_v124 (mulf : (⟨S50000x256, .f32⟩ : BufTy).Contents (Elt F) → (⟨S50000x256, .f32⟩ : BufTy).Contents (Elt F) → (⟨S50000x256, .f32⟩ : BufTy).Contents (Elt F)),
    StableHlo.unary main_arg10 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S50000x256 ![0, 1] bcast_S1x256_S50000x256_0_1 : (⟨S1x256, .f32⟩ : BufTy).Contents (Elt F) → (⟨S50000x256, .f32⟩ : BufTy).Contents (Elt F)),
    StableHlo.binary main_v124 main_v126 main_v127 (mulf : (⟨S50000x256, .f32⟩ : BufTy).Contents (Elt F) → (⟨S50000x256, .f32⟩ : BufTy).Contents (Elt F) → (⟨S50000x256, .f32⟩ : BufTy).Contents (Elt F)),
    StableHlo.unary main_arg11 main_v128 (broadcastInDim S1x256 ![1] bcast_S256_S1x256_1 : (⟨S256, .f32⟩ : BufTy).Contents (Elt F) → (⟨S1x256, .f32⟩ : BufTy).Contents (Elt F)),
    StableHlo.unary main_v128 main_v129 (broadcastInDim S50000x256 ![0, 1] bcast_S1x256_S50000x256_0_1 : (⟨S1x256, .f32⟩ : BufTy).Contents (Elt F) → (⟨S50000x256, .f32⟩ : BufTy).Contents (Elt F)),
    StableHlo.binary main_v127 main_v129 main_v130 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (StableHlo.TRef.of main_v130 : StableHlo.TRef sig ⟨S50000x256, .f32⟩) main_call3.v0 main_call3.v1 maximumf ]

/-- The references that the operations of N2 write. -/
abbrev N2_W : List (Ref sig .tc) := [main_v116, main_v117, main_v118, main_cst_25, main_v119, main_v120, main_v121, main_v122, main_v123, main_v124, main_v125, main_v126, main_v127, main_v128, main_v129, main_v130, main_call3_cst, main_call3_v0, main_v131]

/-- Layer 3's dense product (1 operation). -/
abbrev D3 : List (HloOp τ sig (Elt F)) :=
  [ StableHlo.binary main_v131 main_arg6 main_v132 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)) ]

/-- The references that the operations of D3 write. -/
abbrev D3_W : List (Ref sig .tc) := [main_v132]

/-- Layer 3's aggregation: the degrees and the first factor of the edge coefficients (19 operations). -/
abbrev G3a : List (HloOp τ sig (Elt F)) :=
  [ StableHlo.nullary main_cst_26 (constant S_ .f32 0x3F800000#32),
    StableHlo.unary main_cst_26 main_v133 (broadcastInDim S800000 ![] bcast_S_S800000 : (⟨S_, .f32⟩ : BufTy).Contents (Elt F) → (⟨S800000, .f32⟩ : BufTy).Contents (Elt F)),
    StableHlo.nullary main_cst_27 (constant S_ .f32 0x00000000#32),
    StableHlo.unary main_cst_27 main_v134 (broadcastInDim S50000 ![] bcast_S_S50000 : (⟨S_, .f32⟩ : BufTy).Contents (Elt F) → (⟨S50000, .f32⟩ : BufTy).Contents (Elt F)),
    StableHlo.unary main_v3 main_v135 (broadcastInDim S800000x1 ![0] bcast_S800000_S800000x1_0 : (⟨S800000, .i32⟩ : BufTy).Contents (Elt F) → (⟨S800000x1, .i32⟩ : BufTy).Contents (Elt F)),
    StableHlo.ternary main_v134 main_v135 main_v133 main_v136 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_28 (constant S_ .f32 0x3F800000#32),
    StableHlo.unary main_cst_28 main_v137 (broadcastInDim S50000 ![] bcast_S_S50000 : (⟨S_, .f32⟩ : BufTy).Contents (Elt F) → (⟨S50000, .f32⟩ : BufTy).Contents (Elt F)),
    StableHlo.binary main_v136 main_v137 main_v138 (addf : (⟨S50000, .f32⟩ : BufTy).Contents (Elt F) → (⟨S50000, .f32⟩ : BufTy).Contents (Elt F) → (⟨S50000, .f32⟩ : BufTy).Contents (Elt F)),
    StableHlo.unary main_v138 main_v139 (Host.rsqrt : (⟨S50000, .f32⟩ : BufTy).Contents (Elt F) → (⟨S50000, .f32⟩ : BufTy).Contents (Elt F)),
    StableHlo.nullary main_c_29 (constantI S_ 32 0#32),
    StableHlo.unary main_c_29 main_v140 (broadcastInDim S800000 ![] bcast_S_S800000 : (⟨S_, .i32⟩ : BufTy).Contents (Elt F) → (⟨S800000, .i32⟩ : BufTy).Contents (Elt F)),
    StableHlo.binary main_v1 main_v140 main_v141 (cmpi .slt : (⟨S800000, .i32⟩ : BufTy).Contents (Elt F) → (⟨S800000, .i32⟩ : BufTy).Contents (Elt F) → (⟨S800000, .i1⟩ : BufTy).Contents (Elt F)),
    StableHlo.nullary main_c_30 (constantI S_ 32 50000#32),
    StableHlo.unary main_c_30 main_v142 (broadcastInDim S800000 ![] bcast_S_S800000 : (⟨S_, .i32⟩ : BufTy).Contents (Elt F) → (⟨S800000, .i32⟩ : BufTy).Contents (Elt F)),
    StableHlo.binary main_v1 main_v142 main_v143 (addi : (⟨S800000, .i32⟩ : BufTy).Contents (Elt F) → (⟨S800000, .i32⟩ : BufTy).Contents (Elt F) → (⟨S800000, .i32⟩ : BufTy).Contents (Elt F)),
    StableHlo.ternary main_v141 main_v143 main_v1 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v144 main_v145 (broadcastInDim S800000x1 ![0] bcast_S800000_S800000x1_0 : (⟨S800000, .i32⟩ : BufTy).Contents (Elt F) → (⟨S800000x1, .i32⟩ : BufTy).Contents (Elt F)),
    StableHlo.binary main_v139 main_v145 main_v146 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) ]

/-- The references that the operations of G3a write. -/
abbrev G3a_W : List (Ref sig .tc) := [main_cst_26, main_v133, main_cst_27, main_v134, main_v135, main_v136, main_cst_28, main_v137, main_v138, main_v139, main_c_29, main_v140, main_v141, main_c_30, main_v142, main_v143, main_v144, main_v145, main_v146]

/-- Layer 3's aggregation, continued: the edge coefficients, the gathered rows scaled and summed per target, the self-loop term and the bias (34 operations). -/
abbrev G3b : List (HloOp τ sig (Elt F)) :=
  [ StableHlo.nullary main_c_31 (constantI S_ 32 0#32),
    StableHlo.unary main_c_31 main_v147 (broadcastInDim S800000 ![] bcast_S_S800000 : (⟨S_, .i32⟩ : BufTy).Contents (Elt F) → (⟨S800000, .i32⟩ : BufTy).Contents (Elt F)),
    StableHlo.binary main_v3 main_v147 main_v148 (cmpi .slt : (⟨S800000, .i32⟩ : BufTy).Contents (Elt F) → (⟨S800000, .i32⟩ : BufTy).Contents (Elt F) → (⟨S800000, .i1⟩ : BufTy).Contents (Elt F)),
    StableHlo.nullary main_c_32 (constantI S_ 32 50000#32),
    StableHlo.unary main_c_32 main_v149 (broadcastInDim S800000 ![] bcast_S_S800000 : (⟨S_, .i32⟩ : BufTy).Contents (Elt F) → (⟨S800000, .i32⟩ : BufTy).Contents (Elt F)),
    StableHlo.binary main_v3 main_v149 main_v150 (addi : (⟨S800000, .i32⟩ : BufTy).Contents (Elt F) → (⟨S800000, .i32⟩ : BufTy).Contents (Elt F) → (⟨S800000, .i32⟩ : BufTy).Contents (Elt F)),
    StableHlo.ternary main_v148 main_v150 main_v3 main_v151 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v151 main_v152 (broadcastInDim S800000x1 ![0] bcast_S800000_S800000x1_0 : (⟨S800000, .i32⟩ : BufTy).Contents (Elt F) → (⟨S800000x1, .i32⟩ : BufTy).Contents (Elt F)),
    StableHlo.binary main_v139 main_v152 main_v153 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v146 main_v153 main_v154 (mulf : (⟨S800000, .f32⟩ : BufTy).Contents (Elt F) → (⟨S800000, .f32⟩ : BufTy).Contents (Elt F) → (⟨S800000, .f32⟩ : BufTy).Contents (Elt F)),
    StableHlo.nullary main_c_33 (constantI S_ 32 0#32),
    StableHlo.unary main_c_33 main_v155 (broadcastInDim S800000 ![] bcast_S_S800000 : (⟨S_, .i32⟩ : BufTy).Contents (Elt F) → (⟨S800000, .i32⟩ : BufTy).Contents (Elt F)),
    StableHlo.binary main_v1 main_v155 main_v156 (cmpi .slt : (⟨S800000, .i32⟩ : BufTy).Contents (Elt F) → (⟨S800000, .i32⟩ : BufTy).Contents (Elt F) → (⟨S800000, .i1⟩ : BufTy).Contents (Elt F)),
    StableHlo.nullary main_c_34 (constantI S_ 32 50000#32),
    StableHlo.unary main_c_34 main_v157 (broadcastInDim S800000 ![] bcast_S_S800000 : (⟨S_, .i32⟩ : BufTy).Contents (Elt F) → (⟨S800000, .i32⟩ : BufTy).Contents (Elt F)),
    StableHlo.binary main_v1 main_v157 main_v158 (addi : (⟨S800000, .i32⟩ : BufTy).Contents (Elt F) → (⟨S800000, .i32⟩ : BufTy).Contents (Elt F) → (⟨S800000, .i32⟩ : BufTy).Contents (Elt F)),
    StableHlo.ternary main_v156 main_v158 main_v1 main_v159 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v159 main_v160 (broadcastInDim S800000x1 ![0] bcast_S800000_S800000x1_0 : (⟨S800000, .i32⟩ : BufTy).Contents (Elt F) → (⟨S800000x1, .i32⟩ : BufTy).Contents (Elt F)),
    StableHlo.binary main_v132 main_v160 main_v161 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v154 main_v162 (broadcastInDim S800000x1 ![0] bcast_S800000_S800000x1_0 : (⟨S800000, .f32⟩ : BufTy).Contents (Elt F) → (⟨S800000x1, .f32⟩ : BufTy).Contents (Elt F)),
    StableHlo.unary main_v162 main_v163 (broadcastInDim S800000x64 ![0, 1] bcast_S800000x1_S800000x64_0_1 : (⟨S800000x1, .f32⟩ : BufTy).Contents (Elt F) → (⟨S800000x64, .f32⟩ : BufTy).Contents (Elt F)),
    StableHlo.binary main_v161 main_v163 main_v164 (mulf : (⟨S800000x64, .f32⟩ : BufTy).Contents (Elt F) → (⟨S800000x64, .f32⟩ : BufTy).Contents (Elt F) → (⟨S800000x64, .f32⟩ : BufTy).Contents (Elt F)),
    StableHlo.nullary main_cst_35 (constant S_ .f32 0x00000000#32),
    StableHlo.unary main_cst_35 main_v165 (broadcastInDim S50000x64 ![] bcast_S_S50000x64 : (⟨S_, .f32⟩ : BufTy).Contents (Elt F) → (⟨S50000x64, .f32⟩ : BufTy).Contents (Elt F)),
    StableHlo.unary main_v3 main_v166 (broadcastInDim S800000x1 ![0] bcast_S800000_S800000x1_0 : (⟨S800000, .i32⟩ : BufTy).Contents (Elt F) → (⟨S800000x1, .i32⟩ : BufTy).Contents (Elt F)),
    StableHlo.ternary main_v165 main_v166 main_v164 main_v167 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v139 main_v139 main_v168 (mulf : (⟨S50000, .f32⟩ : BufTy).Contents (Elt F) → (⟨S50000, .f32⟩ : BufTy).Contents (Elt F) → (⟨S50000, .f32⟩ : BufTy).Contents (Elt F)),
    StableHlo.unary main_v168 main_v169 (broadcastInDim S50000x1 ![0] bcast_S50000_S50000x1_0 : (⟨S50000, .f32⟩ : BufTy).Contents (Elt F) → (⟨S50000x1, .f32⟩ : BufTy).Contents (Elt F)),
    StableHlo.unary main_v169 main_v170 (broadcastInDim S50000x64 ![0, 1] bcast_S50000x1_S50000x64_0_1 : (⟨S50000x1, .f32⟩ : BufTy).Contents (Elt F) → (⟨S50000x64, .f32⟩ : BufTy).Contents (Elt F)),
    StableHlo.binary main_v132 main_v170 main_v171 (mulf : (⟨S50000x64, .f32⟩ : BufTy).Contents (Elt F) → (⟨S50000x64, .f32⟩ : BufTy).Contents (Elt F) → (⟨S50000x64, .f32⟩ : BufTy).Contents (Elt F)),
    StableHlo.binary main_v167 main_v171 main_v172 (addf : (⟨S50000x64, .f32⟩ : BufTy).Contents (Elt F) → (⟨S50000x64, .f32⟩ : BufTy).Contents (Elt F) → (⟨S50000x64, .f32⟩ : BufTy).Contents (Elt F)),
    StableHlo.unary main_arg7 main_v173 (broadcastInDim S1x64 ![1] bcast_S64_S1x64_1 : (⟨S64, .f32⟩ : BufTy).Contents (Elt F) → (⟨S1x64, .f32⟩ : BufTy).Contents (Elt F)),
    StableHlo.unary main_v173 main_v174 (broadcastInDim S50000x64 ![0, 1] bcast_S1x64_S50000x64_0_1 : (⟨S1x64, .f32⟩ : BufTy).Contents (Elt F) → (⟨S50000x64, .f32⟩ : BufTy).Contents (Elt F)),
    StableHlo.binary main_v172 main_v174 main_v175 (addf : (⟨S50000x64, .f32⟩ : BufTy).Contents (Elt F) → (⟨S50000x64, .f32⟩ : BufTy).Contents (Elt F) → (⟨S50000x64, .f32⟩ : BufTy).Contents (Elt F)) ]

/-- The references that the operations of G3b write. -/
abbrev G3b_W : List (Ref sig .tc) := [main_c_31, main_v147, main_v148, main_c_32, main_v149, main_v150, main_v151, main_v152, main_v153, main_v154, main_c_33, main_v155, main_v156, main_c_34, main_v157, main_v158, main_v159, main_v160, main_v161, main_v162, main_v163, main_v164, main_cst_35, main_v165, main_v166, main_v167, main_v168, main_v169, main_v170, main_v171, main_v172, main_v173, main_v174, main_v175]

/-- The logarithm of the row-wise softmax (15 operations). -/
abbrev LS : List (HloOp τ sig (Elt F)) :=
  [ StableHlo.TRef.nullary main_call4.cst (constant S_ .f32 0xFF800000#32),
    StableHlo.TRef.binary (StableHlo.TRef.of main_v175 : StableHlo.TRef sig ⟨S50000x64, .f32⟩) main_call4.cst main_call4.v0 (fun x v => Host.reduce FloatOps.maximumf x v reducesTo_S50000x64_S50000_d1 h_S_),
    StableHlo.TRef.nullary main_call4.cst_0 (constant S_ .f32 0xFF800000#32),
    StableHlo.TRef.unary main_call4.cst_0 main_call4.v1 (broadcastInDim S50000 ![] bcast_S_S50000),
    StableHlo.TRef.binary main_call4.v1 main_call4.v0 main_call4.v2 maximumf,
    StableHlo.TRef.unary main_call4.v2 main_call4.v3 (broadcastInDim S50000x1 ![0] bcast_S50000_S50000x1_0),
    StableHlo.TRef.unary main_call4.v3 main_call4.v4 (broadcastInDim S50000x64 ![0, 1] bcast_S50000x1_S50000x64_0_1),
    StableHlo.TRef.binary (StableHlo.TRef.of main_v175 : StableHlo.TRef sig ⟨S50000x64, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S50000x64_S50000_d1 h_S_),
    StableHlo.TRef.unary main_call4.v7 main_call4.v8 (broadcastInDim S50000x1 ![0] bcast_S50000_S50000x1_0),
    StableHlo.TRef.unary main_call4.v8 main_call4.v9 Host.log,
    StableHlo.TRef.unary main_call4.v9 main_call4.v10 (broadcastInDim S50000x64 ![0, 1] bcast_S50000x1_S50000x64_0_1),
    StableHlo.TRef.binary main_call4.v5 main_call4.v10 main_call4.v11 subf ]

/-- The references that the operations of LS write. -/
abbrev LS_W : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v176]

/-- The operations of the printed program's window 0. -/
abbrev opsP0 : List (HloOp τ sig (Elt F)) := A0 ++ (D1 ++ (G1 ++ (M1a)))

/-- The operations of the printed program's window 1. -/
abbrev opsP1 : List (HloOp τ sig (Elt F)) := M1b ++ (V1 ++ (N1 ++ (D2 ++ (G2a))))

/-- The operations of the printed program's window 2. -/
abbrev opsP2 : List (HloOp τ sig (Elt F)) := G2b ++ (M2 ++ (V2 ++ (N2 ++ (D3 ++ (G3a)))))

/-- The operations of the printed program's window 3. -/
abbrev opsP3 : List (HloOp τ sig (Elt F)) := G3b ++ (LS)

/-- The reference program's 275 operations, in order. -/
abbrev ops : List (HloOp τ sig (Elt F)) := opsP0 ++ (opsP1 ++ (opsP2 ++ (opsP3)))

end Cert.ReferenceIdeal.RefRun

end
-- ==== Proof.RefRun.lean ====
/-
  The reference program's run, read back. @main is the straight line of its 275 operations: its four printed windows
  in order, a module-local function's operations standing at its call over the call's buffers. So from any memory with
  zero counters every weakly fair execution ends with each buffer at the fold of the operations over the launch
  contents; and a buffer that no operation writes (each of the twelve arguments) ends as it began.
-/
import proofs.«118705_j84670985273387_1_alg».proof.Proof.RefOps
import proofs.«118705_j84670985273387_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Running one list after another -/

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lists holds of every operation of their concatenation. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-! ## The program is the straight line of its operations

Window by window: a window without calls is the line of its operations as printed; in a window with calls the callee's
body stands at the call, so the sequencing is reassociated first. -/

set_option maxRecDepth 8192 in
set_option maxHeartbeats 4000000 in
theorem main_part0_eq (c : Dev nD) : main_part0 (F := F) c = seq opsP0 := rfl

set_option maxRecDepth 8192 in
set_option maxHeartbeats 4000000 in
theorem main_part1_eq (c : Dev nD) : main_part1 (F := F) c = seq opsP1 := by
  simp only [main_part1, fn_var.body, fn_where.body, fn_relu.body, bind_assoc, pure_bind]
  rfl

set_option maxRecDepth 8192 in
set_option maxHeartbeats 4000000 in
theorem main_part2_eq (c : Dev nD) : main_part2 (F := F) c = seq opsP2 := by
  simp only [main_part2, fn_var.body, fn_where.body, fn_relu.body, bind_assoc, pure_bind]
  rfl

set_option maxRecDepth 8192 in
set_option maxHeartbeats 4000000 in
theorem main_part3_eq (c : Dev nD) : main_part3 (F := F) c = seq opsP3 := by
  simp only [main_part3, fn_log_softmax.body, bind_assoc, pure_bind]
  rfl

/-- @main runs its four windows in order, and the line of a concatenation is the lines one after the other. -/
theorem main_eq (c : Dev nD) : main (F := F) c = seq ops := by
  show (main_part0 (F := F) c >>= fun _ => main_part1 (F := F) c >>= fun _ => main_part2 (F := F) c >>= fun _ => main_part3 (F := F) c)
    = seq (opsP0 ++ (opsP1 ++ (opsP2 ++ opsP3)))
  rw [main_part0_eq, main_part1_eq, main_part2_eq, main_part3_eq, seq_append opsP0, seq_append opsP1, seq_append opsP2]

theorem scopedRefs_eq : (Finset.univ.filter fun b : Ref sig .tc => b.isScoped) = ∅ := by decide
theorem scopedSems_eq : (Finset.univ.filter fun sm : SemLoc sig => sm.isScoped .tc) = ∅ := by decide

/-! ## What the operations touch

Piece by piece: every operation touches TensorCore references only, leaves no result undetermined, and writes one
reference, which is in the piece's list. -/

/-- Each conjunct is one builder's fact that its buffers are TensorCore references. -/
local macro "bufs_sub_each" : tactic =>
  `(tactic| simp only [List.Forall, nullary_bufs_sub, unary_bufs_sub, binary_bufs_sub, ternary_bufs_sub, reshape_bufs_sub, and_self])

/-- Each conjunct holds by computation: no builder leaves a result undetermined. -/
local macro "fresh_each" : tactic =>
  `(tactic| (simp only [List.Forall]; (repeat' apply And.intro) <;> rfl))

/-- Each conjunct: the builder writes its result reference only, and that reference is in the list. -/
local macro "writes_each" : tactic =>
  `(tactic| (simp only [List.Forall, nullary_writes, unary_writes, binary_writes, ternary_writes, reshape_writes, Finset.singleton_subset_iff, List.mem_toFinset]; (repeat' apply And.intro) <;> exact List.mem_map_of_mem (by decide)))

set_option maxRecDepth 8192 in
theorem A0_sub : (A0 : List (HloOp τ sig (Elt F))).Forall fun op => op.bufs ⊆ tcRefs τ sig := by bufs_sub_each
set_option maxRecDepth 8192 in
theorem A0_fresh : (A0 : List (HloOp τ sig (Elt F))).Forall fun op => op.fresh = ∅ := by fresh_each
set_option maxRecDepth 8192 in
theorem A0_writes : (A0 : List (HloOp τ sig (Elt F))).Forall fun op => op.writes ⊆ (A0_W.map (Proc.devRef (τ := τ) .tc)).toFinset := by
  writes_each
/-- A reference that the operations of A0 do not write keeps its contents through them. -/
theorem keep_A0 (V : Valuation τ sig (Elt F)) {r : Ref sig .tc} (h : r ∉ A0_W) :
    after A0 V (Proc.devRef .tc r) = V (Proc.devRef .tc r) := after_of_writes_sub A0 V A0_writes h

set_option maxRecDepth 8192 in
theorem D1_sub : (D1 : List (HloOp τ sig (Elt F))).Forall fun op => op.bufs ⊆ tcRefs τ sig := by bufs_sub_each
set_option maxRecDepth 8192 in
theorem D1_fresh : (D1 : List (HloOp τ sig (Elt F))).Forall fun op => op.fresh = ∅ := by fresh_each
set_option maxRecDepth 8192 in
theorem D1_writes : (D1 : List (HloOp τ sig (Elt F))).Forall fun op => op.writes ⊆ (D1_W.map (Proc.devRef (τ := τ) .tc)).toFinset := by
  writes_each
/-- A reference that the operations of D1 do not write keeps its contents through them. -/
theorem keep_D1 (V : Valuation τ sig (Elt F)) {r : Ref sig .tc} (h : r ∉ D1_W) :
    after D1 V (Proc.devRef .tc r) = V (Proc.devRef .tc r) := after_of_writes_sub D1 V D1_writes h

set_option maxRecDepth 8192 in
theorem G1_sub : (G1 : List (HloOp τ sig (Elt F))).Forall fun op => op.bufs ⊆ tcRefs τ sig := by bufs_sub_each
set_option maxRecDepth 8192 in
theorem G1_fresh : (G1 : List (HloOp τ sig (Elt F))).Forall fun op => op.fresh = ∅ := by fresh_each
set_option maxRecDepth 8192 in
theorem G1_writes : (G1 : List (HloOp τ sig (Elt F))).Forall fun op => op.writes ⊆ (G1_W.map (Proc.devRef (τ := τ) .tc)).toFinset := by
  writes_each
/-- A reference that the operations of G1 do not write keeps its contents through them. -/
theorem keep_G1 (V : Valuation τ sig (Elt F)) {r : Ref sig .tc} (h : r ∉ G1_W) :
    after G1 V (Proc.devRef .tc r) = V (Proc.devRef .tc r) := after_of_writes_sub G1 V G1_writes h

set_option maxRecDepth 8192 in
theorem M1a_sub : (M1a : List (HloOp τ sig (Elt F))).Forall fun op => op.bufs ⊆ tcRefs τ sig := by bufs_sub_each
set_option maxRecDepth 8192 in
theorem M1a_fresh : (M1a : List (HloOp τ sig (Elt F))).Forall fun op => op.fresh = ∅ := by fresh_each
set_option maxRecDepth 8192 in
theorem M1a_writes : (M1a : List (HloOp τ sig (Elt F))).Forall fun op => op.writes ⊆ (M1a_W.map (Proc.devRef (τ := τ) .tc)).toFinset := by
  writes_each
/-- A reference that the operations of M1a do not write keeps its contents through them. -/
theorem keep_M1a (V : Valuation τ sig (Elt F)) {r : Ref sig .tc} (h : r ∉ M1a_W) :
    after M1a V (Proc.devRef .tc r) = V (Proc.devRef .tc r) := after_of_writes_sub M1a V M1a_writes h

set_option maxRecDepth 8192 in
theorem M1b_sub : (M1b : List (HloOp τ sig (Elt F))).Forall fun op => op.bufs ⊆ tcRefs τ sig := by bufs_sub_each
set_option maxRecDepth 8192 in
theorem M1b_fresh : (M1b : List (HloOp τ sig (Elt F))).Forall fun op => op.fresh = ∅ := by fresh_each
set_option maxRecDepth 8192 in
theorem M1b_writes : (M1b : List (HloOp τ sig (Elt F))).Forall fun op => op.writes ⊆ (M1b_W.map (Proc.devRef (τ := τ) .tc)).toFinset := by
  writes_each
/-- A reference that the operations of M1b do not write keeps its contents through them. -/
theorem keep_M1b (V : Valuation τ sig (Elt F)) {r : Ref sig .tc} (h : r ∉ M1b_W) :
    after M1b V (Proc.devRef .tc r) = V (Proc.devRef .tc r) := after_of_writes_sub M1b V M1b_writes h

set_option maxRecDepth 8192 in
theorem V1_sub : (V1 : List (HloOp τ sig (Elt F))).Forall fun op => op.bufs ⊆ tcRefs τ sig := by bufs_sub_each
set_option maxRecDepth 8192 in
theorem V1_fresh : (V1 : List (HloOp τ sig (Elt F))).Forall fun op => op.fresh = ∅ := by fresh_each
set_option maxRecDepth 8192 in
theorem V1_writes : (V1 : List (HloOp τ sig (Elt F))).Forall fun op => op.writes ⊆ (V1_W.map (Proc.devRef (τ := τ) .tc)).toFinset := by
  writes_each
/-- A reference that the operations of V1 do not write keeps its contents through them. -/
theorem keep_V1 (V : Valuation τ sig (Elt F)) {r : Ref sig .tc} (h : r ∉ V1_W) :
    after V1 V (Proc.devRef .tc r) = V (Proc.devRef .tc r) := after_of_writes_sub V1 V V1_writes h

set_option maxRecDepth 8192 in
theorem N1_sub : (N1 : List (HloOp τ sig (Elt F))).Forall fun op => op.bufs ⊆ tcRefs τ sig := by bufs_sub_each
set_option maxRecDepth 8192 in
theorem N1_fresh : (N1 : List (HloOp τ sig (Elt F))).Forall fun op => op.fresh = ∅ := by fresh_each
set_option maxRecDepth 8192 in
theorem N1_writes : (N1 : List (HloOp τ sig (Elt F))).Forall fun op => op.writes ⊆ (N1_W.map (Proc.devRef (τ := τ) .tc)).toFinset := by
  writes_each
/-- A reference that the operations of N1 do not write keeps its contents through them. -/
theorem keep_N1 (V : Valuation τ sig (Elt F)) {r : Ref sig .tc} (h : r ∉ N1_W) :
    after N1 V (Proc.devRef .tc r) = V (Proc.devRef .tc r) := after_of_writes_sub N1 V N1_writes h

set_option maxRecDepth 8192 in
theorem D2_sub : (D2 : List (HloOp τ sig (Elt F))).Forall fun op => op.bufs ⊆ tcRefs τ sig := by bufs_sub_each
set_option maxRecDepth 8192 in
theorem D2_fresh : (D2 : List (HloOp τ sig (Elt F))).Forall fun op => op.fresh = ∅ := by fresh_each
set_option maxRecDepth 8192 in
theorem D2_writes : (D2 : List (HloOp τ sig (Elt F))).Forall fun op => op.writes ⊆ (D2_W.map (Proc.devRef (τ := τ) .tc)).toFinset := by
  writes_each
/-- A reference that the operations of D2 do not write keeps its contents through them. -/
theorem keep_D2 (V : Valuation τ sig (Elt F)) {r : Ref sig .tc} (h : r ∉ D2_W) :
    after D2 V (Proc.devRef .tc r) = V (Proc.devRef .tc r) := after_of_writes_sub D2 V D2_writes h

set_option maxRecDepth 8192 in
theorem G2a_sub : (G2a : List (HloOp τ sig (Elt F))).Forall fun op => op.bufs ⊆ tcRefs τ sig := by bufs_sub_each
set_option maxRecDepth 8192 in
theorem G2a_fresh : (G2a : List (HloOp τ sig (Elt F))).Forall fun op => op.fresh = ∅ := by fresh_each
set_option maxRecDepth 8192 in
theorem G2a_writes : (G2a : List (HloOp τ sig (Elt F))).Forall fun op => op.writes ⊆ (G2a_W.map (Proc.devRef (τ := τ) .tc)).toFinset := by
  writes_each
/-- A reference that the operations of G2a do not write keeps its contents through them. -/
theorem keep_G2a (V : Valuation τ sig (Elt F)) {r : Ref sig .tc} (h : r ∉ G2a_W) :
    after G2a V (Proc.devRef .tc r) = V (Proc.devRef .tc r) := after_of_writes_sub G2a V G2a_writes h

set_option maxRecDepth 8192 in
theorem G2b_sub : (G2b : List (HloOp τ sig (Elt F))).Forall fun op => op.bufs ⊆ tcRefs τ sig := by bufs_sub_each
set_option maxRecDepth 8192 in
theorem G2b_fresh : (G2b : List (HloOp τ sig (Elt F))).Forall fun op => op.fresh = ∅ := by fresh_each
set_option maxRecDepth 8192 in
theorem G2b_writes : (G2b : List (HloOp τ sig (Elt F))).Forall fun op => op.writes ⊆ (G2b_W.map (Proc.devRef (τ := τ) .tc)).toFinset := by
  writes_each
/-- A reference that the operations of G2b do not write keeps its contents through them. -/
theorem keep_G2b (V : Valuation τ sig (Elt F)) {r : Ref sig .tc} (h : r ∉ G2b_W) :
    after G2b V (Proc.devRef .tc r) = V (Proc.devRef .tc r) := after_of_writes_sub G2b V G2b_writes h

set_option maxRecDepth 8192 in
theorem M2_sub : (M2 : List (HloOp τ sig (Elt F))).Forall fun op => op.bufs ⊆ tcRefs τ sig := by bufs_sub_each
set_option maxRecDepth 8192 in
theorem M2_fresh : (M2 : List (HloOp τ sig (Elt F))).Forall fun op => op.fresh = ∅ := by fresh_each
set_option maxRecDepth 8192 in
theorem M2_writes : (M2 : List (HloOp τ sig (Elt F))).Forall fun op => op.writes ⊆ (M2_W.map (Proc.devRef (τ := τ) .tc)).toFinset := by
  writes_each
/-- A reference that the operations of M2 do not write keeps its contents through them. -/
theorem keep_M2 (V : Valuation τ sig (Elt F)) {r : Ref sig .tc} (h : r ∉ M2_W) :
    after M2 V (Proc.devRef .tc r) = V (Proc.devRef .tc r) := after_of_writes_sub M2 V M2_writes h

set_option maxRecDepth 8192 in
theorem V2_sub : (V2 : List (HloOp τ sig (Elt F))).Forall fun op => op.bufs ⊆ tcRefs τ sig := by bufs_sub_each
set_option maxRecDepth 8192 in
theorem V2_fresh : (V2 : List (HloOp τ sig (Elt F))).Forall fun op => op.fresh = ∅ := by fresh_each
set_option maxRecDepth 8192 in
theorem V2_writes : (V2 : List (HloOp τ sig (Elt F))).Forall fun op => op.writes ⊆ (V2_W.map (Proc.devRef (τ := τ) .tc)).toFinset := by
  writes_each
/-- A reference that the operations of V2 do not write keeps its contents through them. -/
theorem keep_V2 (V : Valuation τ sig (Elt F)) {r : Ref sig .tc} (h : r ∉ V2_W) :
    after V2 V (Proc.devRef .tc r) = V (Proc.devRef .tc r) := after_of_writes_sub V2 V V2_writes h

set_option maxRecDepth 8192 in
theorem N2_sub : (N2 : List (HloOp τ sig (Elt F))).Forall fun op => op.bufs ⊆ tcRefs τ sig := by bufs_sub_each
set_option maxRecDepth 8192 in
theorem N2_fresh : (N2 : List (HloOp τ sig (Elt F))).Forall fun op => op.fresh = ∅ := by fresh_each
set_option maxRecDepth 8192 in
theorem N2_writes : (N2 : List (HloOp τ sig (Elt F))).Forall fun op => op.writes ⊆ (N2_W.map (Proc.devRef (τ := τ) .tc)).toFinset := by
  writes_each
/-- A reference that the operations of N2 do not write keeps its contents through them. -/
theorem keep_N2 (V : Valuation τ sig (Elt F)) {r : Ref sig .tc} (h : r ∉ N2_W) :
    after N2 V (Proc.devRef .tc r) = V (Proc.devRef .tc r) := after_of_writes_sub N2 V N2_writes h

set_option maxRecDepth 8192 in
theorem D3_sub : (D3 : List (HloOp τ sig (Elt F))).Forall fun op => op.bufs ⊆ tcRefs τ sig := by bufs_sub_each
set_option maxRecDepth 8192 in
theorem D3_fresh : (D3 : List (HloOp τ sig (Elt F))).Forall fun op => op.fresh = ∅ := by fresh_each
set_option maxRecDepth 8192 in
theorem D3_writes : (D3 : List (HloOp τ sig (Elt F))).Forall fun op => op.writes ⊆ (D3_W.map (Proc.devRef (τ := τ) .tc)).toFinset := by
  writes_each
/-- A reference that the operations of D3 do not write keeps its contents through them. -/
theorem keep_D3 (V : Valuation τ sig (Elt F)) {r : Ref sig .tc} (h : r ∉ D3_W) :
    after D3 V (Proc.devRef .tc r) = V (Proc.devRef .tc r) := after_of_writes_sub D3 V D3_writes h

set_option maxRecDepth 8192 in
theorem G3a_sub : (G3a : List (HloOp τ sig (Elt F))).Forall fun op => op.bufs ⊆ tcRefs τ sig := by bufs_sub_each
set_option maxRecDepth 8192 in
theorem G3a_fresh : (G3a : List (HloOp τ sig (Elt F))).Forall fun op => op.fresh = ∅ := by fresh_each
set_option maxRecDepth 8192 in
theorem G3a_writes : (G3a : List (HloOp τ sig (Elt F))).Forall fun op => op.writes ⊆ (G3a_W.map (Proc.devRef (τ := τ) .tc)).toFinset := by
  writes_each
/-- A reference that the operations of G3a do not write keeps its contents through them. -/
theorem keep_G3a (V : Valuation τ sig (Elt F)) {r : Ref sig .tc} (h : r ∉ G3a_W) :
    after G3a V (Proc.devRef .tc r) = V (Proc.devRef .tc r) := after_of_writes_sub G3a V G3a_writes h

set_option maxRecDepth 8192 in
theorem G3b_sub : (G3b : List (HloOp τ sig (Elt F))).Forall fun op => op.bufs ⊆ tcRefs τ sig := by bufs_sub_each
set_option maxRecDepth 8192 in
theorem G3b_fresh : (G3b : List (HloOp τ sig (Elt F))).Forall fun op => op.fresh = ∅ := by fresh_each
set_option maxRecDepth 8192 in
theorem G3b_writes : (G3b : List (HloOp τ sig (Elt F))).Forall fun op => op.writes ⊆ (G3b_W.map (Proc.devRef (τ := τ) .tc)).toFinset := by
  writes_each
/-- A reference that the operations of G3b do not write keeps its contents through them. -/
theorem keep_G3b (V : Valuation τ sig (Elt F)) {r : Ref sig .tc} (h : r ∉ G3b_W) :
    after G3b V (Proc.devRef .tc r) = V (Proc.devRef .tc r) := after_of_writes_sub G3b V G3b_writes h

set_option maxRecDepth 8192 in
theorem LS_sub : (LS : List (HloOp τ sig (Elt F))).Forall fun op => op.bufs ⊆ tcRefs τ sig := by bufs_sub_each
set_option maxRecDepth 8192 in
theorem LS_fresh : (LS : List (HloOp τ sig (Elt F))).Forall fun op => op.fresh = ∅ := by fresh_each
set_option maxRecDepth 8192 in
theorem LS_writes : (LS : List (HloOp τ sig (Elt F))).Forall fun op => op.writes ⊆ (LS_W.map (Proc.devRef (τ := τ) .tc)).toFinset := by
  writes_each
/-- A reference that the operations of LS do not write keeps its contents through them. -/
theorem keep_LS (V : Valuation τ sig (Elt F)) {r : Ref sig .tc} (h : r ∉ LS_W) :
    after LS V (Proc.devRef .tc r) = V (Proc.devRef .tc r) := after_of_writes_sub LS V LS_writes h

theorem ops_sub : (ops : List (HloOp τ sig (Elt F))).Forall fun op => op.bufs ⊆ tcRefs τ sig :=
  forall_append (forall_append A0_sub (forall_append D1_sub (forall_append G1_sub (M1a_sub)))) (forall_append (forall_append M1b_sub (forall_append V1_sub (forall_append N1_sub (forall_append D2_sub (G2a_sub))))) (forall_append (forall_append G2b_sub (forall_append M2_sub (forall_append V2_sub (forall_append N2_sub (forall_append D3_sub (G3a_sub)))))) (forall_append G3b_sub (LS_sub))))

theorem ops_fresh : (ops : List (HloOp τ sig (Elt F))).Forall fun op => op.fresh = ∅ :=
  forall_append (forall_append A0_fresh (forall_append D1_fresh (forall_append G1_fresh (M1a_fresh)))) (forall_append (forall_append M1b_fresh (forall_append V1_fresh (forall_append N1_fresh (forall_append D2_fresh (G2a_fresh))))) (forall_append (forall_append G2b_fresh (forall_append M2_fresh (forall_append V2_fresh (forall_append N2_fresh (forall_append D3_fresh (G3a_fresh)))))) (forall_append G3b_fresh (LS_fresh))))

/-! ## The run -/

/-- On every device, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-! ## The arguments are never written -/

/-- A reference that no piece writes keeps its contents through the whole line. -/
theorem kept_of_not_written (V : Valuation τ sig (Elt F)) {r : Ref sig .tc}
    (h0 : r ∉ A0_W) (h1 : r ∉ D1_W) (h2 : r ∉ G1_W) (h3 : r ∉ M1a_W) (h4 : r ∉ M1b_W) (h5 : r ∉ V1_W) (h6 : r ∉ N1_W) (h7 : r ∉ D2_W) (h8 : r ∉ G2a_W) (h9 : r ∉ G2b_W) (h10 : r ∉ M2_W) (h11 : r ∉ V2_W) (h12 : r ∉ N2_W) (h13 : r ∉ D3_W) (h14 : r ∉ G3a_W) (h15 : r ∉ G3b_W) (h16 : r ∉ LS_W) :
    after ops V (Proc.devRef .tc r) = V (Proc.devRef .tc r) := by
  simp only [ops, opsP0, opsP1, opsP2, opsP3, after_append]
  rw [keep_LS _ h16, keep_G3b _ h15, keep_G3a _ h14, keep_D3 _ h13, keep_N2 _ h12, keep_V2 _ h11, keep_M2 _ h10, keep_G2b _ h9, keep_G2a _ h8, keep_D2 _ h7, keep_N1 _ h6, keep_V1 _ h5, keep_M1b _ h4, keep_M1a _ h3, keep_G1 _ h2, keep_D1 _ h1, keep_A0 _ h0]

theorem kept_arg0 (V : Valuation τ sig (Elt F)) : after ops V (main_arg0 : DevRef τ sig) = V (main_arg0 : DevRef τ sig) :=
  kept_of_not_written V (by decide) (by decide) (by decide) (by decide) (by decide) (by decide) (by decide) (by decide) (by decide) (by decide) (by decide) (by decide) (by decide) (by decide) (by decide) (by decide) (by decide)
theorem kept_arg1 (V : Valuation τ sig (Elt F)) : after ops V (main_arg1 : DevRef τ sig) = V (main_arg1 : DevRef τ sig) :=
  kept_of_not_written V (by decide) (by decide) (by decide) (by decide) (by decide) (by decide) (by decide) (by decide) (by decide) (by decide) (by decide) (by decide) (by decide) (by decide) (by decide) (by decide) (by decide)
theorem kept_arg2 (V : Valuation τ sig (Elt F)) : after ops V (main_arg2 : DevRef τ sig) = V (main_arg2 : DevRef τ sig) :=
  kept_of_not_written V (by decide) (by decide) (by decide) (by decide) (by decide) (by decide) (by decide) (by decide) (by decide) (by decide) (by decide) (by decide) (by decide) (by decide) (by decide) (by decide) (by decide)
theorem kept_arg3 (V : Valuation τ sig (Elt F)) : after ops V (main_arg3 : DevRef τ sig) = V (main_arg3 : DevRef τ sig) :=
  kept_of_not_written V (by decide) (by decide) (by decide) (by decide) (by decide) (by decide) (by decide) (by decide) (by decide) (by decide) (by decide) (by decide) (by decide) (by decide) (by decide) (by decide) (by decide)
theorem kept_arg4 (V : Valuation τ sig (Elt F)) : after ops V (main_arg4 : DevRef τ sig) = V (main_arg4 : DevRef τ sig) :=
  kept_of_not_written V (by decide) (by decide) (by decide) (by decide) (by decide) (by decide) (by decide) (by decide) (by decide) (by decide) (by decide) (by decide) (by decide) (by decide) (by decide) (by decide) (by decide)
theorem kept_arg5 (V : Valuation τ sig (Elt F)) : after ops V (main_arg5 : DevRef τ sig) = V (main_arg5 : DevRef τ sig) :=
  kept_of_not_written V (by decide) (by decide) (by decide) (by decide) (by decide) (by decide) (by decide) (by decide) (by decide) (by decide) (by decide) (by decide) (by decide) (by decide) (by decide) (by decide) (by decide)
theorem kept_arg6 (V : Valuation τ sig (Elt F)) : after ops V (main_arg6 : DevRef τ sig) = V (main_arg6 : DevRef τ sig) :=
  kept_of_not_written V (by decide) (by decide) (by decide) (by decide) (by decide) (by decide) (by decide) (by decide) (by decide) (by decide) (by decide) (by decide) (by decide) (by decide) (by decide) (by decide) (by decide)
theorem kept_arg7 (V : Valuation τ sig (Elt F)) : after ops V (main_arg7 : DevRef τ sig) = V (main_arg7 : DevRef τ sig) :=
  kept_of_not_written V (by decide) (by decide) (by decide) (by decide) (by decide) (by decide) (by decide) (by decide) (by decide) (by decide) (by decide) (by decide) (by decide) (by decide) (by decide) (by decide) (by decide)
theorem kept_arg8 (V : Valuation τ sig (Elt F)) : after ops V (main_arg8 : DevRef τ sig) = V (main_arg8 : DevRef τ sig) :=
  kept_of_not_written V (by decide) (by decide) (by decide) (by decide) (by decide) (by decide) (by decide) (by decide) (by decide) (by decide) (by decide) (by decide) (by decide) (by decide) (by decide) (by decide) (by decide)
theorem kept_arg9 (V : Valuation τ sig (Elt F)) : after ops V (main_arg9 : DevRef τ sig) = V (main_arg9 : DevRef τ sig) :=
  kept_of_not_written V (by decide) (by decide) (by decide) (by decide) (by decide) (by decide) (by decide) (by decide) (by decide) (by decide) (by decide) (by decide) (by decide) (by decide) (by decide) (by decide) (by decide)
theorem kept_arg10 (V : Valuation τ sig (Elt F)) : after ops V (main_arg10 : DevRef τ sig) = V (main_arg10 : DevRef τ sig) :=
  kept_of_not_written V (by decide) (by decide) (by decide) (by decide) (by decide) (by decide) (by decide) (by decide) (by decide) (by decide) (by decide) (by decide) (by decide) (by decide) (by decide) (by decide) (by decide)
theorem kept_arg11 (V : Valuation τ sig (Elt F)) : after ops V (main_arg11 : DevRef τ sig) = V (main_arg11 : DevRef τ sig) :=
  kept_of_not_written V (by decide) (by decide) (by decide) (by decide) (by decide) (by decide) (by decide) (by decide) (by decide) (by decide) (by decide) (by decide) (by decide) (by decide) (by decide) (by decide) (by decide)

end Cert.ReferenceIdeal.RefRun

end
-- ==== Proof.RefHost.lean ====
/-
  The reference's host arithmetic, as functions. The reference runs, outside its matrix products, the same host
  operations as the kernel's program for the edge rows, the degree weight, the edge coefficient, the aggregate
  plus bias, the column means and the column variances: those functions are stated here by the same text, read
  against the reference's own dimension records. Its own stages are the three matrix products as the host
  computes them, the plain batch norm ((a − mean) · rsqrt(var + epsilon)) · gamma + beta with the rows broadcast
  down the columns, the positive part, and the row-wise log-softmax; each is the composition of the printed
  operations that compute it, one `let` per operation.
-/
import proofs.«118705_j84670985273387_1_alg».proof.Proof.Gen.ReferenceIdeal
import Idealize.ShloMosaic.Lib.StableHlo.Run

set_option maxRecDepth 16384

noncomputable section

namespace Cert.ReferenceIdeal.HostVal

open Cert.ReferenceIdeal Cert.ReferenceIdeal.Gen Idealize.ShloMosaic Idealize.ShloMosaic.TcCoe Idealize.ShloMosaic.StableHlo

variable {F : FTy → Type} [FloatOps F]

/-- Row 0 of the edge list (every edge's source node), as a vector. -/
def edgeRow0 (arg1 : (⟨S2x800000, .i32⟩ : BufTy).Contents (Elt F)) :
    (⟨S800000, .i32⟩ : BufTy).Contents (Elt F) :=
  let v0 : (⟨S1x800000, .i32⟩ : BufTy).Contents (Elt F) := ((extractStridedSlice S1x800000 ![0, 0] · slices_S2x800000_S1x800000_0_0) : (⟨S2x800000, .i32⟩ : BufTy).Contents (Elt F) → (⟨S1x800000, .i32⟩ : BufTy).Contents (Elt F)) arg1
  let v1 : (⟨S800000, .i32⟩ : BufTy).Contents (Elt F) := shapeCast S800000 v0 shapeCasts_S1x800000_S800000
  v1

/-- Row 1 of the edge list (every edge's target node), as a vector. -/
def edgeRow1 (arg1 : (⟨S2x800000, .i32⟩ : BufTy).Contents (Elt F)) :
    (⟨S800000, .i32⟩ : BufTy).Contents (Elt F) :=
  let v2 : (⟨S1x800000, .i32⟩ : BufTy).Contents (Elt F) := ((extractStridedSlice S1x800000 ![1, 0] · slices_S2x800000_S1x800000_1_0) : (⟨S2x800000, .i32⟩ : BufTy).Contents (Elt F) → (⟨S1x800000, .i32⟩ : BufTy).Contents (Elt F)) arg1
  let v3 : (⟨S800000, .i32⟩ : BufTy).Contents (Elt F) := shapeCast S800000 v2 shapeCasts_S1x800000_S800000
  v3

/-- The inverse square root of (in-degree + 1): ones scattered onto zeros at the edges' targets, plus one, then the reciprocal root. -/
def degInv (v3 : (⟨S800000, .i32⟩ : BufTy).Contents (Elt F)) :
    (⟨S50000, .f32⟩ : BufTy).Contents (Elt F) :=
  let cst_0 : (⟨S_, .f32⟩ : BufTy).Contents (Elt F) := constant S_ .f32 0x00000000#32
  let v6 : (⟨S50000, .f32⟩ : BufTy).Contents (Elt F) := (broadcastInDim S50000 ![] bcast_S_S50000 : (⟨S_, .f32⟩ : BufTy).Contents (Elt F) → (⟨S50000, .f32⟩ : BufTy).Contents (Elt F)) cst_0
  let v7 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v3
  let cst : (⟨S_, .f32⟩ : BufTy).Contents (Elt F) := constant S_ .f32 0x3F800000#32
  let v5 : (⟨S800000, .f32⟩ : BufTy).Contents (Elt F) := (broadcastInDim S800000 ![] bcast_S_S800000 : (⟨S_, .f32⟩ : BufTy).Contents (Elt F) → (⟨S800000, .f32⟩ : BufTy).Contents (Elt F)) cst
  let v8 : (⟨S50000, .f32⟩ : BufTy).Contents (Elt F) := ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) v6 v7 v5
  let cst_1 : (⟨S_, .f32⟩ : BufTy).Contents (Elt F) := constant S_ .f32 0x3F800000#32
  let v9 : (⟨S50000, .f32⟩ : BufTy).Contents (Elt F) := (broadcastInDim S50000 ![] bcast_S_S50000 : (⟨S_, .f32⟩ : BufTy).Contents (Elt F) → (⟨S50000, .f32⟩ : BufTy).Contents (Elt F)) cst_1
  let v10 : (⟨S50000, .f32⟩ : BufTy).Contents (Elt F) := (addf : (⟨S50000, .f32⟩ : BufTy).Contents (Elt F) → (⟨S50000, .f32⟩ : BufTy).Contents (Elt F) → (⟨S50000, .f32⟩ : BufTy).Contents (Elt F)) v8 v9
  let v11 : (⟨S50000, .f32⟩ : BufTy).Contents (Elt F) := (Host.rsqrt : (⟨S50000, .f32⟩ : BufTy).Contents (Elt F) → (⟨S50000, .f32⟩ : BufTy).Contents (Elt F)) v10
  v11

/-- An edge's coefficient: the node weight gathered at its source times the node weight gathered at its target (a negative index moved up by the node count first). -/
def edgeCoef (v11 : (⟨S50000, .f32⟩ : BufTy).Contents (Elt F)) (v1 : (⟨S800000, .i32⟩ : BufTy).Contents (Elt F)) (v3 : (⟨S800000, .i32⟩ : BufTy).Contents (Elt F)) :
    (⟨S800000, .f32⟩ : BufTy).Contents (Elt F) :=
  let c : (⟨S_, .i32⟩ : BufTy).Contents (Elt F) := constantI S_ 32 0#32
  let v12 : (⟨S800000, .i32⟩ : BufTy).Contents (Elt F) := (broadcastInDim S800000 ![] bcast_S_S800000 : (⟨S_, .i32⟩ : BufTy).Contents (Elt F) → (⟨S800000, .i32⟩ : BufTy).Contents (Elt F)) c
  let v13 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) v1 v12
  let c_2 : (⟨S_, .i32⟩ : BufTy).Contents (Elt F) := constantI S_ 32 50000#32
  let v14 : (⟨S800000, .i32⟩ : BufTy).Contents (Elt F) := (broadcastInDim S800000 ![] bcast_S_S800000 : (⟨S_, .i32⟩ : BufTy).Contents (Elt F) → (⟨S800000, .i32⟩ : BufTy).Contents (Elt F)) c_2
  let v15 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) v1 v14
  let v16 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v13 v15 v1
  let v17 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v16
  let v18 : (⟨S800000, .f32⟩ : BufTy).Contents (Elt F) := ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) v11 v17
  let c_3 : (⟨S_, .i32⟩ : BufTy).Contents (Elt F) := constantI S_ 32 0#32
  let v19 : (⟨S800000, .i32⟩ : BufTy).Contents (Elt F) := (broadcastInDim S800000 ![] bcast_S_S800000 : (⟨S_, .i32⟩ : BufTy).Contents (Elt F) → (⟨S800000, .i32⟩ : BufTy).Contents (Elt F)) c_3
  let v20 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) v3 v19
  let c_4 : (⟨S_, .i32⟩ : BufTy).Contents (Elt F) := constantI S_ 32 50000#32
  let v21 : (⟨S800000, .i32⟩ : BufTy).Contents (Elt F) := (broadcastInDim S800000 ![] bcast_S_S800000 : (⟨S_, .i32⟩ : BufTy).Contents (Elt F) → (⟨S800000, .i32⟩ : BufTy).Contents (Elt F)) c_4
  let v22 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) v3 v21
  let v23 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v20 v22 v3
  let v24 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v23
  let v25 : (⟨S800000, .f32⟩ : BufTy).Contents (Elt F) := ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) v11 v24
  let v26 : (⟨S800000, .f32⟩ : BufTy).Contents (Elt F) := (mulf : (⟨S800000, .f32⟩ : BufTy).Contents (Elt F) → (⟨S800000, .f32⟩ : BufTy).Contents (Elt F) → (⟨S800000, .f32⟩ : BufTy).Contents (Elt F)) v18 v25
  v26

/-- Width 256: the rows gathered at the edges' sources, scaled by the coefficient and summed into the targets; plus each node's own row scaled by its squared weight; plus the bias. -/
def aggBias256 (v4 : (⟨S50000x256, .f32⟩ : BufTy).Contents (Elt F)) (v1 : (⟨S800000, .i32⟩ : BufTy).Contents (Elt F)) (v3 : (⟨S800000, .i32⟩ : BufTy).Contents (Elt F)) (v11 : (⟨S50000, .f32⟩ : BufTy).Contents (Elt F)) (v26 : (⟨S800000, .f32⟩ : BufTy).Contents (Elt F)) (arg3 : (⟨S256, .f32⟩ : BufTy).Contents (Elt F)) :
    (⟨S50000x256, .f32⟩ : BufTy).Contents (Elt F) :=
  let cst_7 : (⟨S_, .f32⟩ : BufTy).Contents (Elt F) := constant S_ .f32 0x00000000#32
  let v37 : (⟨S50000x256, .f32⟩ : BufTy).Contents (Elt F) := (broadcastInDim S50000x256 ![] bcast_S_S50000x256 : (⟨S_, .f32⟩ : BufTy).Contents (Elt F) → (⟨S50000x256, .f32⟩ : BufTy).Contents (Elt F)) cst_7
  let v38 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v3
  let c_5 : (⟨S_, .i32⟩ : BufTy).Contents (Elt F) := constantI S_ 32 0#32
  let v27 : (⟨S800000, .i32⟩ : BufTy).Contents (Elt F) := (broadcastInDim S800000 ![] bcast_S_S800000 : (⟨S_, .i32⟩ : BufTy).Contents (Elt F) → (⟨S800000, .i32⟩ : BufTy).Contents (Elt F)) c_5
  let v28 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) v1 v27
  let c_6 : (⟨S_, .i32⟩ : BufTy).Contents (Elt F) := constantI S_ 32 50000#32
  let v29 : (⟨S800000, .i32⟩ : BufTy).Contents (Elt F) := (broadcastInDim S800000 ![] bcast_S_S800000 : (⟨S_, .i32⟩ : BufTy).Contents (Elt F) → (⟨S800000, .i32⟩ : BufTy).Contents (Elt F)) c_6
  let v30 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) v1 v29
  let v31 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v28 v30 v1
  let v32 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v31
  let v33 : (⟨S800000x256, .f32⟩ : BufTy).Contents (Elt F) := ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) v4 v32
  let v34 : (⟨S800000x1, .f32⟩ : BufTy).Contents (Elt F) := (broadcastInDim S800000x1 ![0] bcast_S800000_S800000x1_0 : (⟨S800000, .f32⟩ : BufTy).Contents (Elt F) → (⟨S800000x1, .f32⟩ : BufTy).Contents (Elt F)) v26
  let v35 : (⟨S800000x256, .f32⟩ : BufTy).Contents (Elt F) := (broadcastInDim S800000x256 ![0, 1] bcast_S800000x1_S800000x256_0_1 : (⟨S800000x1, .f32⟩ : BufTy).Contents (Elt F) → (⟨S800000x256, .f32⟩ : BufTy).Contents (Elt F)) v34
  let v36 : (⟨S800000x256, .f32⟩ : BufTy).Contents (Elt F) := (mulf : (⟨S800000x256, .f32⟩ : BufTy).Contents (Elt F) → (⟨S800000x256, .f32⟩ : BufTy).Contents (Elt F) → (⟨S800000x256, .f32⟩ : BufTy).Contents (Elt F)) v33 v35
  let v39 : (⟨S50000x256, .f32⟩ : BufTy).Contents (Elt F) := ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) v37 v38 v36
  let v40 : (⟨S50000, .f32⟩ : BufTy).Contents (Elt F) := (mulf : (⟨S50000, .f32⟩ : BufTy).Contents (Elt F) → (⟨S50000, .f32⟩ : BufTy).Contents (Elt F) → (⟨S50000, .f32⟩ : BufTy).Contents (Elt F)) v11 v11
  let v41 : (⟨S50000x1, .f32⟩ : BufTy).Contents (Elt F) := (broadcastInDim S50000x1 ![0] bcast_S50000_S50000x1_0 : (⟨S50000, .f32⟩ : BufTy).Contents (Elt F) → (⟨S50000x1, .f32⟩ : BufTy).Contents (Elt F)) v40
  let v42 : (⟨S50000x256, .f32⟩ : BufTy).Contents (Elt F) := (broadcastInDim S50000x256 ![0, 1] bcast_S50000x1_S50000x256_0_1 : (⟨S50000x1, .f32⟩ : BufTy).Contents (Elt F) → (⟨S50000x256, .f32⟩ : BufTy).Contents (Elt F)) v41
  let v43 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v4 v42
  let v44 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v39 v43
  let v45 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) arg3
  let v46 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v45
  let v47 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v44 v46
  v47

/-- The column means of a [50000,256] array: the column sums over 50000. -/
def colMean256 (v47 : (⟨S50000x256, .f32⟩ : BufTy).Contents (Elt F)) :
    (⟨S256, .f32⟩ : BufTy).Contents (Elt F) :=
  let cst_8 : (⟨S_, .f32⟩ : BufTy).Contents (Elt F) := constant S_ .f32 0x00000000#32
  let v48 : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) v47 cst_8
  let cst_9 : (⟨S_, .f32⟩ : BufTy).Contents (Elt F) := constant S_ .f32 0x47435000#32
  let v49 : (⟨S256, .f32⟩ : BufTy).Contents (Elt F) := (broadcastInDim S256 ![] bcast_S_S256 : (⟨S_, .f32⟩ : BufTy).Contents (Elt F) → (⟨S256, .f32⟩ : BufTy).Contents (Elt F)) cst_9
  let v50 : (⟨S256, .f32⟩ : BufTy).Contents (Elt F) := (Host.divf : (⟨S256, .f32⟩ : BufTy).Contents (Elt F) → (⟨S256, .f32⟩ : BufTy).Contents (Elt F) → (⟨S256, .f32⟩ : BufTy).Contents (Elt F)) v48 v49
  v50

/-- The column variances of a [50000,256] array with `ddof` correction `c_10`: the column sums of the squared deviations from the column means, over (50000 − ddof), where that count is positive. -/
def colVar256 (v47 : (⟨S50000x256, .f32⟩ : BufTy).Contents (Elt F)) (c_10 : (⟨S_, .i32⟩ : BufTy).Contents (Elt F)) :
    (⟨S256, .f32⟩ : BufTy).Contents (Elt F) :=
  let call0_cst_1 : (⟨S_, .f32⟩ : BufTy).Contents (Elt F) := constant S_ .f32 0x47435000#32
  let call0_v7 : (⟨S_, .f32⟩ : BufTy).Contents (Elt F) := (sitofp .f32) c_10
  let call0_v8 : (⟨S_, .f32⟩ : BufTy).Contents (Elt F) := subf call0_cst_1 call0_v7
  let call0_cst_3 : (⟨S_, .f32⟩ : BufTy).Contents (Elt F) := constant S_ .f32 0x00000000#32
  let call0_v12 : (⟨S_, .i1⟩ : BufTy).Contents (Elt F) := (cmpf .ogt) call0_v8 call0_cst_3
  let call0_cst : (⟨S_, .f32⟩ : BufTy).Contents (Elt F) := constant S_ .f32 0x00000000#32
  let call0_v0 : (⟨S256, .f32⟩ : BufTy).Contents (Elt F) := (fun x v => Host.reduceAdd x v reducesTo_S50000x256_S256_d0 h_S_) v47 call0_cst
  let call0_v1 : (⟨S1x256, .f32⟩ : BufTy).Contents (Elt F) := (broadcastInDim S1x256 ![1] bcast_S256_S1x256_1) call0_v0
  let call0_cst_0 : (⟨S_, .f32⟩ : BufTy).Contents (Elt F) := constant S_ .f32 0x47435000#32
  let call0_v2 : (⟨S1x256, .f32⟩ : BufTy).Contents (Elt F) := (broadcastInDim S1x256 ![] bcast_S_S1x256) call0_cst_0
  let call0_v3 : (⟨S1x256, .f32⟩ : BufTy).Contents (Elt F) := Host.divf call0_v1 call0_v2
  let call0_v4 : (⟨S50000x256, .f32⟩ : BufTy).Contents (Elt F) := (broadcastInDim S50000x256 ![0, 1] bcast_S1x256_S50000x256_0_1) call0_v3
  let call0_v5 : (⟨S50000x256, .f32⟩ : BufTy).Contents (Elt F) := subf v47 call0_v4
  let call0_v6 : (⟨S50000x256, .f32⟩ : BufTy).Contents (Elt F) := mulf call0_v5 call0_v5
  let call0_cst_2 : (⟨S_, .f32⟩ : BufTy).Contents (Elt F) := constant S_ .f32 0x00000000#32
  let call0_v9 : (⟨S256, .f32⟩ : BufTy).Contents (Elt F) := (fun x v => Host.reduceAdd x v reducesTo_S50000x256_S256_d0 h_S_) call0_v6 call0_cst_2
  let call0_v10 : (⟨S256, .f32⟩ : BufTy).Contents (Elt F) := (broadcastInDim S256 ![] bcast_S_S256) call0_v8
  let call0_v11 : (⟨S256, .f32⟩ : BufTy).Contents (Elt F) := Host.divf call0_v9 call0_v10
  let call0_cst_4 : (⟨S_, .f32⟩ : BufTy).Contents (Elt F) := constant S_ .f32 0x7FC00000#32
  let call0_call0_v0 : (⟨S_, .f32⟩ : BufTy).Contents (Elt F) := id call0_cst_4
  let call0_call0_v1 : (⟨S256, .f32⟩ : BufTy).Contents (Elt F) := (broadcastInDim S256 ![] bcast_S_S256) call0_call0_v0
  let v51 : (⟨S256, .f32⟩ : BufTy).Contents (Elt F) := (fun p a b => select (broadcastInDim S256 ![] bcast_S_S256 p) a b) call0_v12 call0_v11 call0_call0_v1
  v51

/-- Width 64: the same aggregate and bias. -/
def aggBias64 (v120 : (⟨S50000x64, .f32⟩ : BufTy).Contents (Elt F)) (v1 : (⟨S800000, .i32⟩ : BufTy).Contents (Elt F)) (v3 : (⟨S800000, .i32⟩ : BufTy).Contents (Elt F)) (v127 : (⟨S50000, .f32⟩ : BufTy).Contents (Elt F)) (v142 : (⟨S800000, .f32⟩ : BufTy).Contents (Elt F)) (arg7 : (⟨S64, .f32⟩ : BufTy).Contents (Elt F)) :
    (⟨S50000x64, .f32⟩ : BufTy).Contents (Elt F) :=
  let cst_35 : (⟨S_, .f32⟩ : BufTy).Contents (Elt F) := constant S_ .f32 0x00000000#32
  let v153 : (⟨S50000x64, .f32⟩ : BufTy).Contents (Elt F) := (broadcastInDim S50000x64 ![] bcast_S_S50000x64 : (⟨S_, .f32⟩ : BufTy).Contents (Elt F) → (⟨S50000x64, .f32⟩ : BufTy).Contents (Elt F)) cst_35
  let v154 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v3
  let c_33 : (⟨S_, .i32⟩ : BufTy).Contents (Elt F) := constantI S_ 32 0#32
  let v143 : (⟨S800000, .i32⟩ : BufTy).Contents (Elt F) := (broadcastInDim S800000 ![] bcast_S_S800000 : (⟨S_, .i32⟩ : BufTy).Contents (Elt F) → (⟨S800000, .i32⟩ : BufTy).Contents (Elt F)) c_33
  let v144 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) v1 v143
  let c_34 : (⟨S_, .i32⟩ : BufTy).Contents (Elt F) := constantI S_ 32 50000#32
  let v145 : (⟨S800000, .i32⟩ : BufTy).Contents (Elt F) := (broadcastInDim S800000 ![] bcast_S_S800000 : (⟨S_, .i32⟩ : BufTy).Contents (Elt F) → (⟨S800000, .i32⟩ : BufTy).Contents (Elt F)) c_34
  let v146 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) v1 v145
  let v147 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v144 v146 v1
  let v148 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v147
  let v149 : (⟨S800000x64, .f32⟩ : BufTy).Contents (Elt F) := ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) v120 v148
  let v150 : (⟨S800000x1, .f32⟩ : BufTy).Contents (Elt F) := (broadcastInDim S800000x1 ![0] bcast_S800000_S800000x1_0 : (⟨S800000, .f32⟩ : BufTy).Contents (Elt F) → (⟨S800000x1, .f32⟩ : BufTy).Contents (Elt F)) v142
  let v151 : (⟨S800000x64, .f32⟩ : BufTy).Contents (Elt F) := (broadcastInDim S800000x64 ![0, 1] bcast_S800000x1_S800000x64_0_1 : (⟨S800000x1, .f32⟩ : BufTy).Contents (Elt F) → (⟨S800000x64, .f32⟩ : BufTy).Contents (Elt F)) v150
  let v152 : (⟨S800000x64, .f32⟩ : BufTy).Contents (Elt F) := (mulf : (⟨S800000x64, .f32⟩ : BufTy).Contents (Elt F) → (⟨S800000x64, .f32⟩ : BufTy).Contents (Elt F) → (⟨S800000x64, .f32⟩ : BufTy).Contents (Elt F)) v149 v151
  let v155 : (⟨S50000x64, .f32⟩ : BufTy).Contents (Elt F) := ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) v153 v154 v152
  let v156 : (⟨S50000, .f32⟩ : BufTy).Contents (Elt F) := (mulf : (⟨S50000, .f32⟩ : BufTy).Contents (Elt F) → (⟨S50000, .f32⟩ : BufTy).Contents (Elt F) → (⟨S50000, .f32⟩ : BufTy).Contents (Elt F)) v127 v127
  let v157 : (⟨S50000x1, .f32⟩ : BufTy).Contents (Elt F) := (broadcastInDim S50000x1 ![0] bcast_S50000_S50000x1_0 : (⟨S50000, .f32⟩ : BufTy).Contents (Elt F) → (⟨S50000x1, .f32⟩ : BufTy).Contents (Elt F)) v156
  let v158 : (⟨S50000x64, .f32⟩ : BufTy).Contents (Elt F) := (broadcastInDim S50000x64 ![0, 1] bcast_S50000x1_S50000x64_0_1 : (⟨S50000x1, .f32⟩ : BufTy).Contents (Elt F) → (⟨S50000x64, .f32⟩ : BufTy).Contents (Elt F)) v157
  let v159 : (⟨S50000x64, .f32⟩ : BufTy).Contents (Elt F) := (mulf : (⟨S50000x64, .f32⟩ : BufTy).Contents (Elt F) → (⟨S50000x64, .f32⟩ : BufTy).Contents (Elt F) → (⟨S50000x64, .f32⟩ : BufTy).Contents (Elt F)) v120 v158
  let v160 : (⟨S50000x64, .f32⟩ : BufTy).Contents (Elt F) := (addf : (⟨S50000x64, .f32⟩ : BufTy).Contents (Elt F) → (⟨S50000x64, .f32⟩ : BufTy).Contents (Elt F) → (⟨S50000x64, .f32⟩ : BufTy).Contents (Elt F)) v155 v159
  let v161 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) arg7
  let v162 : (⟨S50000x64, .f32⟩ : BufTy).Contents (Elt F) := (broadcastInDim S50000x64 ![0, 1] bcast_S1x64_S50000x64_0_1 : (⟨S1x64, .f32⟩ : BufTy).Contents (Elt F) → (⟨S50000x64, .f32⟩ : BufTy).Contents (Elt F)) v161
  let v163 : (⟨S50000x64, .f32⟩ : BufTy).Contents (Elt F) := (addf : (⟨S50000x64, .f32⟩ : BufTy).Contents (Elt F) → (⟨S50000x64, .f32⟩ : BufTy).Contents (Elt F) → (⟨S50000x64, .f32⟩ : BufTy).Contents (Elt F)) v160 v162
  v163

/-- Layer 1's matrix product, as the host computes it. -/
def dot512x256 (arg0 : (⟨S50000x512, .f32⟩ : BufTy).Contents (Elt F)) (arg2 : (⟨S512x256, .f32⟩ : BufTy).Contents (Elt F)) :
    (⟨S50000x256, .f32⟩ : BufTy).Contents (Elt F) :=
  let v4 : (⟨S50000x256, .f32⟩ : BufTy).Contents (Elt F) := ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)) arg0 arg2
  v4

/-- Layer 2's matrix product, as the host computes it. -/
def dot256x256 (v67 : (⟨S50000x256, .f32⟩ : BufTy).Contents (Elt F)) (arg4 : (⟨S256x256, .f32⟩ : BufTy).Contents (Elt F)) :
    (⟨S50000x256, .f32⟩ : BufTy).Contents (Elt F) :=
  let v68 : (⟨S50000x256, .f32⟩ : BufTy).Contents (Elt F) := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) v67 arg4
  v68

/-- Layer 3's matrix product, as the host computes it. -/
def dot256x64 (v131 : (⟨S50000x256, .f32⟩ : BufTy).Contents (Elt F)) (arg6 : (⟨S256x64, .f32⟩ : BufTy).Contents (Elt F)) :
    (⟨S50000x64, .f32⟩ : BufTy).Contents (Elt F) :=
  let v132 : (⟨S50000x64, .f32⟩ : BufTy).Contents (Elt F) := ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)) v131 arg6
  v132

/-- The plain batch norm from the aggregate, its column means, its column variances, gamma and beta: ((a − mean) · rsqrt(var + epsilon)) · gamma + beta, the rows broadcast down the columns. -/
def bnPlain (v47 : (⟨S50000x256, .f32⟩ : BufTy).Contents (Elt F)) (v50 : (⟨S256, .f32⟩ : BufTy).Contents (Elt F)) (v51 : (⟨S256, .f32⟩ : BufTy).Contents (Elt F)) (arg8 : (⟨S256, .f32⟩ : BufTy).Contents (Elt F)) (arg9 : (⟨S256, .f32⟩ : BufTy).Contents (Elt F)) :
    (⟨S50000x256, .f32⟩ : BufTy).Contents (Elt F) :=
  let v52 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v50
  let v53 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v52
  let v54 : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) v47 v53
  let cst_11 : (⟨S_, .f32⟩ : BufTy).Contents (Elt F) := constant S_ .f32 0x3727C5AC#32
  let v55 : (⟨S256, .f32⟩ : BufTy).Contents (Elt F) := (broadcastInDim S256 ![] bcast_S_S256 : (⟨S_, .f32⟩ : BufTy).Contents (Elt F) → (⟨S256, .f32⟩ : BufTy).Contents (Elt F)) cst_11
  let v56 : (⟨S256, .f32⟩ : BufTy).Contents (Elt F) := (addf : (⟨S256, .f32⟩ : BufTy).Contents (Elt F) → (⟨S256, .f32⟩ : BufTy).Contents (Elt F) → (⟨S256, .f32⟩ : BufTy).Contents (Elt F)) v51 v55
  let v57 : (⟨S256, .f32⟩ : BufTy).Contents (Elt F) := (Host.rsqrt : (⟨S256, .f32⟩ : BufTy).Contents (Elt F) → (⟨S256, .f32⟩ : BufTy).Contents (Elt F)) v56
  let v58 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v57
  let v59 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v58
  let v60 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v54 v59
  let v61 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) arg8
  let v62 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v61
  let v63 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v60 v62
  let v64 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) arg9
  let v65 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v64
  let v66 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v63 v65
  v66

/-- The positive part of a [50000,256] array. -/
def relu256 (arg0 : (⟨S50000x256, .f32⟩ : BufTy).Contents (Elt F)) :
    (⟨S50000x256, .f32⟩ : BufTy).Contents (Elt F) :=
  let cst : (⟨S_, .f32⟩ : BufTy).Contents (Elt F) := constant S_ .f32 0x00000000#32
  let v0 : (⟨S50000x256, .f32⟩ : BufTy).Contents (Elt F) := (broadcastInDim S50000x256 ![] bcast_S_S50000x256) cst
  let v1 : (⟨S50000x256, .f32⟩ : BufTy).Contents (Elt F) := maximumf arg0 v0
  v1

/-- The row-wise log-softmax of a [50000,64] array: the row maximum subtracted, then the logarithm of the row sum of exponentials subtracted. -/
def logSoftmax64 (arg0 : (⟨S50000x64, .f32⟩ : BufTy).Contents (Elt F)) :
    (⟨S50000x64, .f32⟩ : BufTy).Contents (Elt F) :=
  let cst_0 : (⟨S_, .f32⟩ : BufTy).Contents (Elt F) := constant S_ .f32 0xFF800000#32
  let v1 : (⟨S50000, .f32⟩ : BufTy).Contents (Elt F) := (broadcastInDim S50000 ![] bcast_S_S50000) cst_0
  let cst : (⟨S_, .f32⟩ : BufTy).Contents (Elt F) := constant S_ .f32 0xFF800000#32
  let v0 : (⟨S50000, .f32⟩ : BufTy).Contents (Elt F) := (fun x v => Host.reduce FloatOps.maximumf x v reducesTo_S50000x64_S50000_d1 h_S_) arg0 cst
  let v2 : (⟨S50000, .f32⟩ : BufTy).Contents (Elt F) := maximumf v1 v0
  let v3 : (⟨S50000x1, .f32⟩ : BufTy).Contents (Elt F) := (broadcastInDim S50000x1 ![0] bcast_S50000_S50000x1_0) v2
  let v4 : (⟨S50000x64, .f32⟩ : BufTy).Contents (Elt F) := (broadcastInDim S50000x64 ![0, 1] bcast_S50000x1_S50000x64_0_1) v3
  let v5 : (⟨S50000x64, .f32⟩ : BufTy).Contents (Elt F) := subf arg0 v4
  let v6 : (⟨S50000x64, .f32⟩ : BufTy).Contents (Elt F) := Host.exp v5
  let cst_1 : (⟨S_, .f32⟩ : BufTy).Contents (Elt F) := constant S_ .f32 0x00000000#32
  let v7 : (⟨S50000, .f32⟩ : BufTy).Contents (Elt F) := (fun x v => Host.reduceAdd x v reducesTo_S50000x64_S50000_d1 h_S_) v6 cst_1
  let v8 : (⟨S50000x1, .f32⟩ : BufTy).Contents (Elt F) := (broadcastInDim S50000x1 ![0] bcast_S50000_S50000x1_0) v7
  let v9 : (⟨S50000x1, .f32⟩ : BufTy).Contents (Elt F) := Host.log v8
  let v10 : (⟨S50000x64, .f32⟩ : BufTy).Contents (Elt F) := (broadcastInDim S50000x64 ![0, 1] bcast_S50000x1_S50000x64_0_1) v9
  let v11 : (⟨S50000x64, .f32⟩ : BufTy).Contents (Elt F) := subf v5 v10
  v11

end Cert.ReferenceIdeal.HostVal

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.RefSegments.lean ====
/-
  The reference program's run, stage by stage. Its line of operations is cut where a stage of the network ends: the two
  rows of the edge table; then in each of the three graph-convolution layers the dense product, the aggregation over
  the edges with the self-loop term and the bias added, and (layers 1 and 2) the column means, the column variances and
  the normalization with the rectifier; at the end the logarithm of the row-wise softmax. Running the line is running
  the segments one after the other; each segment's result is one function of the contents, at the segment's entry, of
  the buffers it reads (the host functions of the companion module); and a buffer that a later segment reads passes
  unchanged through every segment in between, none of which writes it.
-/
import proofs.«118705_j84670985273387_1_alg».proof.Proof.RefRun
import proofs.«118705_j84670985273387_1_alg».proof.Proof.RefHost
import proofs.«118705_j84670985273387_1_alg».proof.Proof.LibTypedRefs
import proofs.«118705_j84670985273387_1_alg».proof.Proof.Gen.ReferenceIdeal
import Idealize.ShloMosaic.Lib.StableHlo.Run

noncomputable section

namespace Cert.ReferenceIdeal.RefRun

open Cert.ReferenceIdeal Cert.ReferenceIdeal.Gen Cert.ReferenceIdeal.HostVal Idealize.ShloMosaic Idealize.ShloMosaic.TcCoe Idealize.SL.Sem Idealize.ShloMosaic.StableHlo

variable {F : FTy → Type} [FloatOps F]

/-! ## The segments

The line cut where a stage ends: the edge rows; then per layer the dense product, the aggregation with the bias added,
(layers 1 and 2) the column means, the column variances, the normalization with the rectifier; at the end the logarithm
of the softmax. -/

/-- The two rows of the edge-index table. -/
abbrev seg0 : List (HloOp τ sig (Elt F)) := A0
/-- Layer 1: the dense product. -/
abbrev segD1 : List (HloOp τ sig (Elt F)) := D1
/-- Layer 1: the aggregation over the edges, the self-loop term and the bias. -/
abbrev segG1 : List (HloOp τ sig (Elt F)) := G1
/-- Layer 1: the column means, and the variance's integer correction. -/
abbrev segM1 : List (HloOp τ sig (Elt F)) := M1a ++ M1b
/-- Layer 1: the column variances. -/
abbrev segV1 : List (HloOp τ sig (Elt F)) := V1
/-- Layer 1: the normalization and the rectifier. -/
abbrev segN1 : List (HloOp τ sig (Elt F)) := N1
/-- Layer 2: the dense product. -/
abbrev segD2 : List (HloOp τ sig (Elt F)) := D2
/-- Layer 2: the aggregation over the edges, the self-loop term and the bias. -/
abbrev segG2 : List (HloOp τ sig (Elt F)) := G2a ++ G2b
/-- Layer 2: the column means, and the variance's integer correction. -/
abbrev segM2 : List (HloOp τ sig (Elt F)) := M2
/-- Layer 2: the column variances. -/
abbrev segV2 : List (HloOp τ sig (Elt F)) := V2
/-- Layer 2: the normalization and the rectifier. -/
abbrev segN2 : List (HloOp τ sig (Elt F)) := N2
/-- Layer 3: the dense product. -/
abbrev segD3 : List (HloOp τ sig (Elt F)) := D3
/-- Layer 3: the aggregation over the edges, the self-loop term and the bias. -/
abbrev segG3 : List (HloOp τ sig (Elt F)) := G3a ++ G3b
/-- The logarithm of the row-wise softmax. -/
abbrev segLS : List (HloOp τ sig (Elt F)) := LS

/-- The whole line is the segments in order. -/
theorem ops_eq_segs : (ops : List (HloOp τ sig (Elt F))) = seg0 ++ (segD1 ++ (segG1 ++ (segM1 ++ (segV1 ++ (segN1 ++ (segD2 ++ (segG2 ++ (segM2 ++ (segV2 ++ (segN2 ++ (segD3 ++ (segG3 ++ (segLS))))))))))))) := by
  simp only [ops, opsP0, opsP1, opsP2, opsP3, seg0, segD1, segG1, segM1, segV1, segN1, segD2, segG2, segM2, segV2, segN2, segD3, segG3, segLS, List.append_assoc]

/-- Running the whole line is running the segments one after the other. -/
theorem after_ops (V : Valuation τ sig (Elt F)) :
    after ops V = after segLS (after segG3 (after segD3 (after segN2 (after segV2 (after segM2 (after segG2 (after segD2 (after segN1 (after segV1 (after segM1 (after segG1 (after segD1 (after seg0 (V)))))))))))))) := by
  rw [ops_eq_segs, after_append seg0, after_append segD1, after_append segG1, after_append segM1, after_append segV1, after_append segN1, after_append segD2, after_append segG2, after_append segM2, after_append segV2, after_append segN2, after_append segD3, after_append segG3]

/-! ## What a segment does not write, it keeps -/

theorem keep_seg0 (V : Valuation τ sig (Elt F)) {r : Ref sig .tc} (h : r ∉ A0_W) :
    after seg0 V (Proc.devRef .tc r) = V (Proc.devRef .tc r) := keep_A0 V h
theorem keep_segD1 (V : Valuation τ sig (Elt F)) {r : Ref sig .tc} (h : r ∉ D1_W) :
    after segD1 V (Proc.devRef .tc r) = V (Proc.devRef .tc r) := keep_D1 V h
theorem keep_segG1 (V : Valuation τ sig (Elt F)) {r : Ref sig .tc} (h : r ∉ G1_W) :
    after segG1 V (Proc.devRef .tc r) = V (Proc.devRef .tc r) := keep_G1 V h
theorem keep_segM1 (V : Valuation τ sig (Elt F)) {r : Ref sig .tc} (h₁ : r ∉ M1a_W) (h₂ : r ∉ M1b_W) :
    after segM1 V (Proc.devRef .tc r) = V (Proc.devRef .tc r) := by
  rw [after_append M1a M1b, keep_M1b _ h₂, keep_M1a _ h₁]
theorem keep_segV1 (V : Valuation τ sig (Elt F)) {r : Ref sig .tc} (h : r ∉ V1_W) :
    after segV1 V (Proc.devRef .tc r) = V (Proc.devRef .tc r) := keep_V1 V h
theorem keep_segN1 (V : Valuation τ sig (Elt F)) {r : Ref sig .tc} (h : r ∉ N1_W) :
    after segN1 V (Proc.devRef .tc r) = V (Proc.devRef .tc r) := keep_N1 V h
theorem keep_segD2 (V : Valuation τ sig (Elt F)) {r : Ref sig .tc} (h : r ∉ D2_W) :
    after segD2 V (Proc.devRef .tc r) = V (Proc.devRef .tc r) := keep_D2 V h
theorem keep_segG2 (V : Valuation τ sig (Elt F)) {r : Ref sig .tc} (h₁ : r ∉ G2a_W) (h₂ : r ∉ G2b_W) :
    after segG2 V (Proc.devRef .tc r) = V (Proc.devRef .tc r) := by
  rw [after_append G2a G2b, keep_G2b _ h₂, keep_G2a _ h₁]
theorem keep_segM2 (V : Valuation τ sig (Elt F)) {r : Ref sig .tc} (h : r ∉ M2_W) :
    after segM2 V (Proc.devRef .tc r) = V (Proc.devRef .tc r) := keep_M2 V h
theorem keep_segV2 (V : Valuation τ sig (Elt F)) {r : Ref sig .tc} (h : r ∉ V2_W) :
    after segV2 V (Proc.devRef .tc r) = V (Proc.devRef .tc r) := keep_V2 V h
theorem keep_segN2 (V : Valuation τ sig (Elt F)) {r : Ref sig .tc} (h : r ∉ N2_W) :
    after segN2 V (Proc.devRef .tc r) = V (Proc.devRef .tc r) := keep_N2 V h
theorem keep_segD3 (V : Valuation τ sig (Elt F)) {r : Ref sig .tc} (h : r ∉ D3_W) :
    after segD3 V (Proc.devRef .tc r) = V (Proc.devRef .tc r) := keep_D3 V h
theorem keep_segG3 (V : Valuation τ sig (Elt F)) {r : Ref sig .tc} (h₁ : r ∉ G3a_W) (h₂ : r ∉ G3b_W) :
    after segG3 V (Proc.devRef .tc r) = V (Proc.devRef .tc r) := by
  rw [after_append G3a G3b, keep_G3b _ h₂, keep_G3a _ h₁]
theorem keep_segLS (V : Valuation τ sig (Elt F)) {r : Ref sig .tc} (h : r ∉ LS_W) :
    after segLS V (Proc.devRef .tc r) = V (Proc.devRef .tc r) := keep_LS V h

/-! ## Each segment's result, from the contents at its entry -/

set_option maxHeartbeats 4000000 in
/-- The first segment leaves the edges' sources in their buffer. -/
theorem read_row0 (V : Valuation τ sig (Elt F)) :
    after seg0 V (main_v1 : DevRef τ sig) = edgeRow0 (V (main_arg1 : DevRef τ sig)) := by
  after_results_simp
  rfl

set_option maxHeartbeats 4000000 in
/-- And the edges' targets in theirs. -/
theorem read_row1 (V : Valuation τ sig (Elt F)) :
    after seg0 V (main_v3 : DevRef τ sig) = edgeRow1 (V (main_arg1 : DevRef τ sig)) := by
  after_results_simp
  rfl

set_option maxHeartbeats 4000000 in
/-- Layer 1: the features times the weights. -/
theorem read_dot1 (V : Valuation τ sig (Elt F)) :
    after segD1 V (main_v4 : DevRef τ sig) = dot512x256 (V (main_arg0 : DevRef τ sig)) (V (main_arg2 : DevRef τ sig)) := by
  after_results_simp
  rfl

set_option maxHeartbeats 4000000 in
/-- Layer 1: the aggregate plus bias of the product. -/
theorem read_agg1 (V : Valuation τ sig (Elt F)) :
    after segG1 V (main_v47 : DevRef τ sig) = aggBias256 (V (main_v4 : DevRef τ sig)) (V (main_v1 : DevRef τ sig)) (V (main_v3 : DevRef τ sig)) (degInv (V (main_v3 : DevRef τ sig))) (edgeCoef (degInv (V (main_v3 : DevRef τ sig))) (V (main_v1 : DevRef τ sig)) (V (main_v3 : DevRef τ sig))) (V (main_arg3 : DevRef τ sig)) := by
  after_results_simp
  rfl

set_option maxHeartbeats 4000000 in
/-- Layer 1: the column means of the aggregate. -/
theorem read_mean1 (V : Valuation τ sig (Elt F)) :
    after segM1 V (main_v50 : DevRef τ sig) = colMean256 (V (main_v47 : DevRef τ sig)) := by
  rw [after_append M1a M1b]
  after_results_simp
  rfl

set_option maxHeartbeats 4000000 in
/-- Layer 1: the variance's correction is the integer zero. -/
theorem read_ddof1 (V : Valuation τ sig (Elt F)) :
    after segM1 V (main_c_10 : DevRef τ sig) = (constantI S_ 32 0#32 : (⟨S_, .i32⟩ : BufTy).Contents (Elt F)) := by
  rw [after_append M1a M1b]
  after_results_simp

set_option maxHeartbeats 4000000 in
/-- Layer 1: the column variances of the aggregate. -/
theorem read_var1 (V : Valuation τ sig (Elt F)) :
    after segV1 V (main_v51 : DevRef τ sig) = colVar256 (V (main_v47 : DevRef τ sig)) (V (main_c_10 : DevRef τ sig)) := by
  after_results_simp
  rfl

set_option maxHeartbeats 4000000 in
/-- Layer 1: the aggregate normalized by its column means and variances, scaled by gamma and shifted by beta. -/
theorem read_bn1 (V : Valuation τ sig (Elt F)) :
    after segN1 V (main_v66 : DevRef τ sig) = bnPlain (V (main_v47 : DevRef τ sig)) (V (main_v50 : DevRef τ sig)) (V (main_v51 : DevRef τ sig)) (V (main_arg8 : DevRef τ sig)) (V (main_arg9 : DevRef τ sig)) := by
  after_results_simp
  rfl

set_option maxHeartbeats 4000000 in
/-- Layer 1: and the rectifier of that. -/
theorem read_relu1 (V : Valuation τ sig (Elt F)) :
    after segN1 V (main_v67 : DevRef τ sig) = relu256 (bnPlain (V (main_v47 : DevRef τ sig)) (V (main_v50 : DevRef τ sig)) (V (main_v51 : DevRef τ sig)) (V (main_arg8 : DevRef τ sig)) (V (main_arg9 : DevRef τ sig))) := by
  after_results_simp
  rfl

set_option maxHeartbeats 4000000 in
/-- Layer 2: the first layer's output times the weights. -/
theorem read_dot2 (V : Valuation τ sig (Elt F)) :
    after segD2 V (main_v68 : DevRef τ sig) = dot256x256 (V (main_v67 : DevRef τ sig)) (V (main_arg4 : DevRef τ sig)) := by
  after_results_simp
  rfl

set_option maxHeartbeats 4000000 in
/-- Layer 2: the aggregate plus bias of the product. -/
theorem read_agg2 (V : Valuation τ sig (Elt F)) :
    after segG2 V (main_v111 : DevRef τ sig) = aggBias256 (V (main_v68 : DevRef τ sig)) (V (main_v1 : DevRef τ sig)) (V (main_v3 : DevRef τ sig)) (degInv (V (main_v3 : DevRef τ sig))) (edgeCoef (degInv (V (main_v3 : DevRef τ sig))) (V (main_v1 : DevRef τ sig)) (V (main_v3 : DevRef τ sig))) (V (main_arg5 : DevRef τ sig)) := by
  rw [after_append G2a G2b]
  after_results_simp
  rfl

set_option maxHeartbeats 4000000 in
/-- Layer 2: the column means of the aggregate. -/
theorem read_mean2 (V : Valuation τ sig (Elt F)) :
    after segM2 V (main_v114 : DevRef τ sig) = colMean256 (V (main_v111 : DevRef τ sig)) := by
  after_results_simp
  rfl

set_option maxHeartbeats 4000000 in
/-- Layer 2: the variance's correction is the integer zero. -/
theorem read_ddof2 (V : Valuation τ sig (Elt F)) :
    after segM2 V (main_c_24 : DevRef τ sig) = (constantI S_ 32 0#32 : (⟨S_, .i32⟩ : BufTy).Contents (Elt F)) := by
  after_results_simp

set_option maxHeartbeats 4000000 in
/-- Layer 2: the column variances of the aggregate. -/
theorem read_var2 (V : Valuation τ sig (Elt F)) :
    after segV2 V (main_v115 : DevRef τ sig) = colVar256 (V (main_v111 : DevRef τ sig)) (V (main_c_24 : DevRef τ sig)) := by
  after_results_simp
  rfl

set_option maxHeartbeats 4000000 in
/-- Layer 2: the normalized, scaled and shifted aggregate. -/
theorem read_bn2 (V : Valuation τ sig (Elt F)) :
    after segN2 V (main_v130 : DevRef τ sig) = bnPlain (V (main_v111 : DevRef τ sig)) (V (main_v114 : DevRef τ sig)) (V (main_v115 : DevRef τ sig)) (V (main_arg10 : DevRef τ sig)) (V (main_arg11 : DevRef τ sig)) := by
  after_results_simp
  rfl

set_option maxHeartbeats 4000000 in
/-- Layer 2: and the rectifier of that. -/
theorem read_relu2 (V : Valuation τ sig (Elt F)) :
    after segN2 V (main_v131 : DevRef τ sig) = relu256 (bnPlain (V (main_v111 : DevRef τ sig)) (V (main_v114 : DevRef τ sig)) (V (main_v115 : DevRef τ sig)) (V (main_arg10 : DevRef τ sig)) (V (main_arg11 : DevRef τ sig))) := by
  after_results_simp
  rfl

set_option maxHeartbeats 4000000 in
/-- Layer 3: the second layer's output times the weights. -/
theorem read_dot3 (V : Valuation τ sig (Elt F)) :
    after segD3 V (main_v132 : DevRef τ sig) = dot256x64 (V (main_v131 : DevRef τ sig)) (V (main_arg6 : DevRef τ sig)) := by
  after_results_simp
  rfl

set_option maxHeartbeats 4000000 in
/-- Layer 3: the aggregate plus bias of the product, at width 64. -/
theorem read_agg3 (V : Valuation τ sig (Elt F)) :
    after segG3 V (main_v175 : DevRef τ sig) = aggBias64 (V (main_v132 : DevRef τ sig)) (V (main_v1 : DevRef τ sig)) (V (main_v3 : DevRef τ sig)) (degInv (V (main_v3 : DevRef τ sig))) (edgeCoef (degInv (V (main_v3 : DevRef τ sig))) (V (main_v1 : DevRef τ sig)) (V (main_v3 : DevRef τ sig))) (V (main_arg7 : DevRef τ sig)) := by
  rw [after_append G3a G3b]
  after_results_simp
  rfl

set_option maxHeartbeats 4000000 in
/-- The result: the logarithm of the row-wise softmax of the third aggregate. -/
theorem read_lsm (V : Valuation τ sig (Elt F)) :
    after segLS V (main_v176 : DevRef τ sig) = logSoftmax64 (V (main_v175 : DevRef τ sig)) := by
  after_results_simp
  simp only [TRef.ofBuf_toBuf]
  rfl

/-! ## The buffers a later segment reads pass through the segments between

For each segment: every buffer that holds an argument or an earlier segment's result, and that a later segment reads,
is not among the references the segment writes. -/

theorem seg0_keeps_arg0 (V : Valuation τ sig (Elt F)) : after seg0 V (main_arg0 : DevRef τ sig) = V (main_arg0 : DevRef τ sig) :=
  keep_seg0 V (by decide)
theorem seg0_keeps_arg2 (V : Valuation τ sig (Elt F)) : after seg0 V (main_arg2 : DevRef τ sig) = V (main_arg2 : DevRef τ sig) :=
  keep_seg0 V (by decide)
theorem seg0_keeps_arg3 (V : Valuation τ sig (Elt F)) : after seg0 V (main_arg3 : DevRef τ sig) = V (main_arg3 : DevRef τ sig) :=
  keep_seg0 V (by decide)
theorem seg0_keeps_arg4 (V : Valuation τ sig (Elt F)) : after seg0 V (main_arg4 : DevRef τ sig) = V (main_arg4 : DevRef τ sig) :=
  keep_seg0 V (by decide)
theorem seg0_keeps_arg5 (V : Valuation τ sig (Elt F)) : after seg0 V (main_arg5 : DevRef τ sig) = V (main_arg5 : DevRef τ sig) :=
  keep_seg0 V (by decide)
theorem seg0_keeps_arg6 (V : Valuation τ sig (Elt F)) : after seg0 V (main_arg6 : DevRef τ sig) = V (main_arg6 : DevRef τ sig) :=
  keep_seg0 V (by decide)
theorem seg0_keeps_arg7 (V : Valuation τ sig (Elt F)) : after seg0 V (main_arg7 : DevRef τ sig) = V (main_arg7 : DevRef τ sig) :=
  keep_seg0 V (by decide)
theorem seg0_keeps_arg8 (V : Valuation τ sig (Elt F)) : after seg0 V (main_arg8 : DevRef τ sig) = V (main_arg8 : DevRef τ sig) :=
  keep_seg0 V (by decide)
theorem seg0_keeps_arg9 (V : Valuation τ sig (Elt F)) : after seg0 V (main_arg9 : DevRef τ sig) = V (main_arg9 : DevRef τ sig) :=
  keep_seg0 V (by decide)
theorem seg0_keeps_arg10 (V : Valuation τ sig (Elt F)) : after seg0 V (main_arg10 : DevRef τ sig) = V (main_arg10 : DevRef τ sig) :=
  keep_seg0 V (by decide)
theorem seg0_keeps_arg11 (V : Valuation τ sig (Elt F)) : after seg0 V (main_arg11 : DevRef τ sig) = V (main_arg11 : DevRef τ sig) :=
  keep_seg0 V (by decide)
theorem segD1_keeps_arg3 (V : Valuation τ sig (Elt F)) : after segD1 V (main_arg3 : DevRef τ sig) = V (main_arg3 : DevRef τ sig) :=
  keep_segD1 V (by decide)
theorem segD1_keeps_arg4 (V : Valuation τ sig (Elt F)) : after segD1 V (main_arg4 : DevRef τ sig) = V (main_arg4 : DevRef τ sig) :=
  keep_segD1 V (by decide)
theorem segD1_keeps_arg5 (V : Valuation τ sig (Elt F)) : after segD1 V (main_arg5 : DevRef τ sig) = V (main_arg5 : DevRef τ sig) :=
  keep_segD1 V (by decide)
theorem segD1_keeps_arg6 (V : Valuation τ sig (Elt F)) : after segD1 V (main_arg6 : DevRef τ sig) = V (main_arg6 : DevRef τ sig) :=
  keep_segD1 V (by decide)
theorem segD1_keeps_arg7 (V : Valuation τ sig (Elt F)) : after segD1 V (main_arg7 : DevRef τ sig) = V (main_arg7 : DevRef τ sig) :=
  keep_segD1 V (by decide)
theorem segD1_keeps_arg8 (V : Valuation τ sig (Elt F)) : after segD1 V (main_arg8 : DevRef τ sig) = V (main_arg8 : DevRef τ sig) :=
  keep_segD1 V (by decide)
theorem segD1_keeps_arg9 (V : Valuation τ sig (Elt F)) : after segD1 V (main_arg9 : DevRef τ sig) = V (main_arg9 : DevRef τ sig) :=
  keep_segD1 V (by decide)
theorem segD1_keeps_arg10 (V : Valuation τ sig (Elt F)) : after segD1 V (main_arg10 : DevRef τ sig) = V (main_arg10 : DevRef τ sig) :=
  keep_segD1 V (by decide)
theorem segD1_keeps_arg11 (V : Valuation τ sig (Elt F)) : after segD1 V (main_arg11 : DevRef τ sig) = V (main_arg11 : DevRef τ sig) :=
  keep_segD1 V (by decide)
theorem segD1_keeps_v1 (V : Valuation τ sig (Elt F)) : after segD1 V (main_v1 : DevRef τ sig) = V (main_v1 : DevRef τ sig) :=
  keep_segD1 V (by decide)
theorem segD1_keeps_v3 (V : Valuation τ sig (Elt F)) : after segD1 V (main_v3 : DevRef τ sig) = V (main_v3 : DevRef τ sig) :=
  keep_segD1 V (by decide)
theorem segG1_keeps_arg4 (V : Valuation τ sig (Elt F)) : after segG1 V (main_arg4 : DevRef τ sig) = V (main_arg4 : DevRef τ sig) :=
  keep_segG1 V (by decide)
theorem segG1_keeps_arg5 (V : Valuation τ sig (Elt F)) : after segG1 V (main_arg5 : DevRef τ sig) = V (main_arg5 : DevRef τ sig) :=
  keep_segG1 V (by decide)
theorem segG1_keeps_arg6 (V : Valuation τ sig (Elt F)) : after segG1 V (main_arg6 : DevRef τ sig) = V (main_arg6 : DevRef τ sig) :=
  keep_segG1 V (by decide)
theorem segG1_keeps_arg7 (V : Valuation τ sig (Elt F)) : after segG1 V (main_arg7 : DevRef τ sig) = V (main_arg7 : DevRef τ sig) :=
  keep_segG1 V (by decide)
theorem segG1_keeps_arg8 (V : Valuation τ sig (Elt F)) : after segG1 V (main_arg8 : DevRef τ sig) = V (main_arg8 : DevRef τ sig) :=
  keep_segG1 V (by decide)
theorem segG1_keeps_arg9 (V : Valuation τ sig (Elt F)) : after segG1 V (main_arg9 : DevRef τ sig) = V (main_arg9 : DevRef τ sig) :=
  keep_segG1 V (by decide)
theorem segG1_keeps_arg10 (V : Valuation τ sig (Elt F)) : after segG1 V (main_arg10 : DevRef τ sig) = V (main_arg10 : DevRef τ sig) :=
  keep_segG1 V (by decide)
theorem segG1_keeps_arg11 (V : Valuation τ sig (Elt F)) : after segG1 V (main_arg11 : DevRef τ sig) = V (main_arg11 : DevRef τ sig) :=
  keep_segG1 V (by decide)
theorem segG1_keeps_v1 (V : Valuation τ sig (Elt F)) : after segG1 V (main_v1 : DevRef τ sig) = V (main_v1 : DevRef τ sig) :=
  keep_segG1 V (by decide)
theorem segG1_keeps_v3 (V : Valuation τ sig (Elt F)) : after segG1 V (main_v3 : DevRef τ sig) = V (main_v3 : DevRef τ sig) :=
  keep_segG1 V (by decide)
theorem segM1_keeps_arg4 (V : Valuation τ sig (Elt F)) : after segM1 V (main_arg4 : DevRef τ sig) = V (main_arg4 : DevRef τ sig) :=
  keep_segM1 V (by decide) (by decide)
theorem segM1_keeps_arg5 (V : Valuation τ sig (Elt F)) : after segM1 V (main_arg5 : DevRef τ sig) = V (main_arg5 : DevRef τ sig) :=
  keep_segM1 V (by decide) (by decide)
theorem segM1_keeps_arg6 (V : Valuation τ sig (Elt F)) : after segM1 V (main_arg6 : DevRef τ sig) = V (main_arg6 : DevRef τ sig) :=
  keep_segM1 V (by decide) (by decide)
theorem segM1_keeps_arg7 (V : Valuation τ sig (Elt F)) : after segM1 V (main_arg7 : DevRef τ sig) = V (main_arg7 : DevRef τ sig) :=
  keep_segM1 V (by decide) (by decide)
theorem segM1_keeps_arg8 (V : Valuation τ sig (Elt F)) : after segM1 V (main_arg8 : DevRef τ sig) = V (main_arg8 : DevRef τ sig) :=
  keep_segM1 V (by decide) (by decide)
theorem segM1_keeps_arg9 (V : Valuation τ sig (Elt F)) : after segM1 V (main_arg9 : DevRef τ sig) = V (main_arg9 : DevRef τ sig) :=
  keep_segM1 V (by decide) (by decide)
theorem segM1_keeps_arg10 (V : Valuation τ sig (Elt F)) : after segM1 V (main_arg10 : DevRef τ sig) = V (main_arg10 : DevRef τ sig) :=
  keep_segM1 V (by decide) (by decide)
theorem segM1_keeps_arg11 (V : Valuation τ sig (Elt F)) : after segM1 V (main_arg11 : DevRef τ sig) = V (main_arg11 : DevRef τ sig) :=
  keep_segM1 V (by decide) (by decide)
theorem segM1_keeps_v1 (V : Valuation τ sig (Elt F)) : after segM1 V (main_v1 : DevRef τ sig) = V (main_v1 : DevRef τ sig) :=
  keep_segM1 V (by decide) (by decide)
theorem segM1_keeps_v3 (V : Valuation τ sig (Elt F)) : after segM1 V (main_v3 : DevRef τ sig) = V (main_v3 : DevRef τ sig) :=
  keep_segM1 V (by decide) (by decide)
theorem segM1_keeps_v47 (V : Valuation τ sig (Elt F)) : after segM1 V (main_v47 : DevRef τ sig) = V (main_v47 : DevRef τ sig) :=
  keep_segM1 V (by decide) (by decide)
theorem segV1_keeps_arg4 (V : Valuation τ sig (Elt F)) : after segV1 V (main_arg4 : DevRef τ sig) = V (main_arg4 : DevRef τ sig) :=
  keep_segV1 V (by decide)
theorem segV1_keeps_arg5 (V : Valuation τ sig (Elt F)) : after segV1 V (main_arg5 : DevRef τ sig) = V (main_arg5 : DevRef τ sig) :=
  keep_segV1 V (by decide)
theorem segV1_keeps_arg6 (V : Valuation τ sig (Elt F)) : after segV1 V (main_arg6 : DevRef τ sig) = V (main_arg6 : DevRef τ sig) :=
  keep_segV1 V (by decide)
theorem segV1_keeps_arg7 (V : Valuation τ sig (Elt F)) : after segV1 V (main_arg7 : DevRef τ sig) = V (main_arg7 : DevRef τ sig) :=
  keep_segV1 V (by decide)
theorem segV1_keeps_arg8 (V : Valuation τ sig (Elt F)) : after segV1 V (main_arg8 : DevRef τ sig) = V (main_arg8 : DevRef τ sig) :=
  keep_segV1 V (by decide)
theorem segV1_keeps_arg9 (V : Valuation τ sig (Elt F)) : after segV1 V (main_arg9 : DevRef τ sig) = V (main_arg9 : DevRef τ sig) :=
  keep_segV1 V (by decide)
theorem segV1_keeps_arg10 (V : Valuation τ sig (Elt F)) : after segV1 V (main_arg10 : DevRef τ sig) = V (main_arg10 : DevRef τ sig) :=
  keep_segV1 V (by decide)
theorem segV1_keeps_arg11 (V : Valuation τ sig (Elt F)) : after segV1 V (main_arg11 : DevRef τ sig) = V (main_arg11 : DevRef τ sig) :=
  keep_segV1 V (by decide)
theorem segV1_keeps_v1 (V : Valuation τ sig (Elt F)) : after segV1 V (main_v1 : DevRef τ sig) = V (main_v1 : DevRef τ sig) :=
  keep_segV1 V (by decide)
theorem segV1_keeps_v3 (V : Valuation τ sig (Elt F)) : after segV1 V (main_v3 : DevRef τ sig) = V (main_v3 : DevRef τ sig) :=
  keep_segV1 V (by decide)
theorem segV1_keeps_v47 (V : Valuation τ sig (Elt F)) : after segV1 V (main_v47 : DevRef τ sig) = V (main_v47 : DevRef τ sig) :=
  keep_segV1 V (by decide)
theorem segV1_keeps_v50 (V : Valuation τ sig (Elt F)) : after segV1 V (main_v50 : DevRef τ sig) = V (main_v50 : DevRef τ sig) :=
  keep_segV1 V (by decide)
theorem segN1_keeps_arg4 (V : Valuation τ sig (Elt F)) : after segN1 V (main_arg4 : DevRef τ sig) = V (main_arg4 : DevRef τ sig) :=
  keep_segN1 V (by decide)
theorem segN1_keeps_arg5 (V : Valuation τ sig (Elt F)) : after segN1 V (main_arg5 : DevRef τ sig) = V (main_arg5 : DevRef τ sig) :=
  keep_segN1 V (by decide)
theorem segN1_keeps_arg6 (V : Valuation τ sig (Elt F)) : after segN1 V (main_arg6 : DevRef τ sig) = V (main_arg6 : DevRef τ sig) :=
  keep_segN1 V (by decide)
theorem segN1_keeps_arg7 (V : Valuation τ sig (Elt F)) : after segN1 V (main_arg7 : DevRef τ sig) = V (main_arg7 : DevRef τ sig) :=
  keep_segN1 V (by decide)
theorem segN1_keeps_arg10 (V : Valuation τ sig (Elt F)) : after segN1 V (main_arg10 : DevRef τ sig) = V (main_arg10 : DevRef τ sig) :=
  keep_segN1 V (by decide)
theorem segN1_keeps_arg11 (V : Valuation τ sig (Elt F)) : after segN1 V (main_arg11 : DevRef τ sig) = V (main_arg11 : DevRef τ sig) :=
  keep_segN1 V (by decide)
theorem segN1_keeps_v1 (V : Valuation τ sig (Elt F)) : after segN1 V (main_v1 : DevRef τ sig) = V (main_v1 : DevRef τ sig) :=
  keep_segN1 V (by decide)
theorem segN1_keeps_v3 (V : Valuation τ sig (Elt F)) : after segN1 V (main_v3 : DevRef τ sig) = V (main_v3 : DevRef τ sig) :=
  keep_segN1 V (by decide)
theorem segD2_keeps_arg5 (V : Valuation τ sig (Elt F)) : after segD2 V (main_arg5 : DevRef τ sig) = V (main_arg5 : DevRef τ sig) :=
  keep_segD2 V (by decide)
theorem segD2_keeps_arg6 (V : Valuation τ sig (Elt F)) : after segD2 V (main_arg6 : DevRef τ sig) = V (main_arg6 : DevRef τ sig) :=
  keep_segD2 V (by decide)
theorem segD2_keeps_arg7 (V : Valuation τ sig (Elt F)) : after segD2 V (main_arg7 : DevRef τ sig) = V (main_arg7 : DevRef τ sig) :=
  keep_segD2 V (by decide)
theorem segD2_keeps_arg10 (V : Valuation τ sig (Elt F)) : after segD2 V (main_arg10 : DevRef τ sig) = V (main_arg10 : DevRef τ sig) :=
  keep_segD2 V (by decide)
theorem segD2_keeps_arg11 (V : Valuation τ sig (Elt F)) : after segD2 V (main_arg11 : DevRef τ sig) = V (main_arg11 : DevRef τ sig) :=
  keep_segD2 V (by decide)
theorem segD2_keeps_v1 (V : Valuation τ sig (Elt F)) : after segD2 V (main_v1 : DevRef τ sig) = V (main_v1 : DevRef τ sig) :=
  keep_segD2 V (by decide)
theorem segD2_keeps_v3 (V : Valuation τ sig (Elt F)) : after segD2 V (main_v3 : DevRef τ sig) = V (main_v3 : DevRef τ sig) :=
  keep_segD2 V (by decide)
theorem segG2_keeps_arg6 (V : Valuation τ sig (Elt F)) : after segG2 V (main_arg6 : DevRef τ sig) = V (main_arg6 : DevRef τ sig) :=
  keep_segG2 V (by decide) (by decide)
theorem segG2_keeps_arg7 (V : Valuation τ sig (Elt F)) : after segG2 V (main_arg7 : DevRef τ sig) = V (main_arg7 : DevRef τ sig) :=
  keep_segG2 V (by decide) (by decide)
theorem segG2_keeps_arg10 (V : Valuation τ sig (Elt F)) : after segG2 V (main_arg10 : DevRef τ sig) = V (main_arg10 : DevRef τ sig) :=
  keep_segG2 V (by decide) (by decide)
theorem segG2_keeps_arg11 (V : Valuation τ sig (Elt F)) : after segG2 V (main_arg11 : DevRef τ sig) = V (main_arg11 : DevRef τ sig) :=
  keep_segG2 V (by decide) (by decide)
theorem segG2_keeps_v1 (V : Valuation τ sig (Elt F)) : after segG2 V (main_v1 : DevRef τ sig) = V (main_v1 : DevRef τ sig) :=
  keep_segG2 V (by decide) (by decide)
theorem segG2_keeps_v3 (V : Valuation τ sig (Elt F)) : after segG2 V (main_v3 : DevRef τ sig) = V (main_v3 : DevRef τ sig) :=
  keep_segG2 V (by decide) (by decide)
theorem segM2_keeps_arg6 (V : Valuation τ sig (Elt F)) : after segM2 V (main_arg6 : DevRef τ sig) = V (main_arg6 : DevRef τ sig) :=
  keep_segM2 V (by decide)
theorem segM2_keeps_arg7 (V : Valuation τ sig (Elt F)) : after segM2 V (main_arg7 : DevRef τ sig) = V (main_arg7 : DevRef τ sig) :=
  keep_segM2 V (by decide)
theorem segM2_keeps_arg10 (V : Valuation τ sig (Elt F)) : after segM2 V (main_arg10 : DevRef τ sig) = V (main_arg10 : DevRef τ sig) :=
  keep_segM2 V (by decide)
theorem segM2_keeps_arg11 (V : Valuation τ sig (Elt F)) : after segM2 V (main_arg11 : DevRef τ sig) = V (main_arg11 : DevRef τ sig) :=
  keep_segM2 V (by decide)
theorem segM2_keeps_v1 (V : Valuation τ sig (Elt F)) : after segM2 V (main_v1 : DevRef τ sig) = V (main_v1 : DevRef τ sig) :=
  keep_segM2 V (by decide)
theorem segM2_keeps_v3 (V : Valuation τ sig (Elt F)) : after segM2 V (main_v3 : DevRef τ sig) = V (main_v3 : DevRef τ sig) :=
  keep_segM2 V (by decide)
theorem segM2_keeps_v111 (V : Valuation τ sig (Elt F)) : after segM2 V (main_v111 : DevRef τ sig) = V (main_v111 : DevRef τ sig) :=
  keep_segM2 V (by decide)
theorem segV2_keeps_arg6 (V : Valuation τ sig (Elt F)) : after segV2 V (main_arg6 : DevRef τ sig) = V (main_arg6 : DevRef τ sig) :=
  keep_segV2 V (by decide)
theorem segV2_keeps_arg7 (V : Valuation τ sig (Elt F)) : after segV2 V (main_arg7 : DevRef τ sig) = V (main_arg7 : DevRef τ sig) :=
  keep_segV2 V (by decide)
theorem segV2_keeps_arg10 (V : Valuation τ sig (Elt F)) : after segV2 V (main_arg10 : DevRef τ sig) = V (main_arg10 : DevRef τ sig) :=
  keep_segV2 V (by decide)
theorem segV2_keeps_arg11 (V : Valuation τ sig (Elt F)) : after segV2 V (main_arg11 : DevRef τ sig) = V (main_arg11 : DevRef τ sig) :=
  keep_segV2 V (by decide)
theorem segV2_keeps_v1 (V : Valuation τ sig (Elt F)) : after segV2 V (main_v1 : DevRef τ sig) = V (main_v1 : DevRef τ sig) :=
  keep_segV2 V (by decide)
theorem segV2_keeps_v3 (V : Valuation τ sig (Elt F)) : after segV2 V (main_v3 : DevRef τ sig) = V (main_v3 : DevRef τ sig) :=
  keep_segV2 V (by decide)
theorem segV2_keeps_v111 (V : Valuation τ sig (Elt F)) : after segV2 V (main_v111 : DevRef τ sig) = V (main_v111 : DevRef τ sig) :=
  keep_segV2 V (by decide)
theorem segV2_keeps_v114 (V : Valuation τ sig (Elt F)) : after segV2 V (main_v114 : DevRef τ sig) = V (main_v114 : DevRef τ sig) :=
  keep_segV2 V (by decide)
theorem segN2_keeps_arg6 (V : Valuation τ sig (Elt F)) : after segN2 V (main_arg6 : DevRef τ sig) = V (main_arg6 : DevRef τ sig) :=
  keep_segN2 V (by decide)
theorem segN2_keeps_arg7 (V : Valuation τ sig (Elt F)) : after segN2 V (main_arg7 : DevRef τ sig) = V (main_arg7 : DevRef τ sig) :=
  keep_segN2 V (by decide)
theorem segN2_keeps_v1 (V : Valuation τ sig (Elt F)) : after segN2 V (main_v1 : DevRef τ sig) = V (main_v1 : DevRef τ sig) :=
  keep_segN2 V (by decide)
theorem segN2_keeps_v3 (V : Valuation τ sig (Elt F)) : after segN2 V (main_v3 : DevRef τ sig) = V (main_v3 : DevRef τ sig) :=
  keep_segN2 V (by decide)
theorem segD3_keeps_arg7 (V : Valuation τ sig (Elt F)) : after segD3 V (main_arg7 : DevRef τ sig) = V (main_arg7 : DevRef τ sig) :=
  keep_segD3 V (by decide)
theorem segD3_keeps_v1 (V : Valuation τ sig (Elt F)) : after segD3 V (main_v1 : DevRef τ sig) = V (main_v1 : DevRef τ sig) :=
  keep_segD3 V (by decide)
theorem segD3_keeps_v3 (V : Valuation τ sig (Elt F)) : after segD3 V (main_v3 : DevRef τ sig) = V (main_v3 : DevRef τ sig) :=
  keep_segD3 V (by decide)

end Cert.ReferenceIdeal.RefRun

end
-- ==== Proof.RefSpec.lean ====
/-
  The same network the way the reference computes it: the matrix products by the host's dot_general, the batch norm
  PLAIN — ((a − mean) · s) · gamma + beta with s the reciprocal root of variance plus epsilon, the per-feature rows
  broadcast down the columns — followed by the positive part, the host arithmetic in between as the functions
  transcribed from the reference (the same operations as the kernel's program), and the host's log-softmax last.
-/
import proofs.«118705_j84670985273387_1_alg».proof.Proof.RefHost
import Idealize.ShloMosaic.Lib.ValueIdx

set_option maxRecDepth 16384

noncomputable section

namespace Cert.RefSpec

open Cert.ReferenceIdeal Cert.ReferenceIdeal.Gen Cert.ReferenceIdeal.HostVal
open Idealize.ShloMosaic

/-- A row of the edge list. -/
abbrev EdgeRow : Type := (⟨S800000, .i32⟩ : BufTy).Contents (Elt Ideal)

/-- One layer's aggregate plus bias at width 256. -/
def conv256 (h : S50000x256.Idx → EReal) (src dst : EdgeRow) (b : S256.Idx → EReal) : S50000x256.Idx → EReal :=
  aggBias256 (F := Ideal) h src dst (degInv (F := Ideal) dst) (edgeCoef (F := Ideal) (degInv (F := Ideal) dst) src dst) b
/-- The same at width 64. -/
def conv64 (h : S50000x64.Idx → EReal) (src dst : EdgeRow) (b : S64.Idx → EReal) : S50000x64.Idx → EReal :=
  aggBias64 (F := Ideal) h src dst (degInv (F := Ideal) dst) (edgeCoef (F := Ideal) (degInv (F := Ideal) dst) src dst) b

/-- The plain batch norm and positive part of an aggregate. -/
def plainBn (a : S50000x256.Idx → EReal) (γ β : S256.Idx → EReal) : S50000x256.Idx → EReal :=
  relu256 (F := Ideal) (bnPlain (F := Ideal) a (colMean256 (F := Ideal) a) (colVar256 (F := Ideal) a (constantI S_ 32 0#32)) γ β)

/-- The third layer's aggregate, as the reference computes it. -/
def refLogits (x : S50000x512.Idx → EReal) (ei : (⟨S2x800000, .i32⟩ : BufTy).Contents (Elt Ideal))
    (W1 : S512x256.Idx → EReal) (b1 : S256.Idx → EReal) (W2 : S256x256.Idx → EReal) (b2 : S256.Idx → EReal)
    (W3 : S256x64.Idx → EReal) (b3 : S64.Idx → EReal) (γ1 β1 γ2 β2 : S256.Idx → EReal) : S50000x64.Idx → EReal :=
  let src := edgeRow0 (F := Ideal) ei
  let dst := edgeRow1 (F := Ideal) ei
  let y1 := plainBn (conv256 (dot512x256 (F := Ideal) x W1) src dst b1) γ1 β1
  let y2 := plainBn (conv256 (dot256x256 (F := Ideal) y1 W2) src dst b2) γ2 β2
  conv64 (dot256x64 (F := Ideal) y2 W3) src dst b3

end Cert.RefSpec

end
-- ==== Proof.RefValue.lean ====
/-
  The reference program's result as one function of its twelve arguments. Running the line is running its segments one
  after the other; each segment's result is a host function of the buffers it reads, and every buffer it reads holds,
  unchanged through the segments in between, an argument or an earlier segment's result. Composed from the edge rows
  down to the last segment, the result buffer holds the logarithm of the row-wise softmax of the third layer's
  aggregate: each layer the dense product, the aggregation with the bias, and (layers 1 and 2) the plain batch
  normalization by the aggregate's own column means and variances followed by the rectifier.
-/
import proofs.«118705_j84670985273387_1_alg».proof.Proof.RefSegments
import proofs.«118705_j84670985273387_1_alg».proof.Proof.RefSpec

noncomputable section

namespace Cert.ReferenceIdeal.RefRun

open Cert.ReferenceIdeal Cert.ReferenceIdeal.Gen Cert.ReferenceIdeal.HostVal Idealize.ShloMosaic Idealize.ShloMosaic.TcCoe Idealize.SL.Sem Idealize.ShloMosaic.StableHlo

set_option maxHeartbeats 1000000 in
/-- The result buffer after the whole line: the log-softmax of the reference's third-layer aggregate of the arguments. -/
theorem ref_value (V : Valuation τ sig (Elt Ideal)) :
    after ops V (main_v176 : DevRef τ sig)
      = logSoftmax64 (F := Ideal) (Cert.RefSpec.refLogits (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))) := by
  rw [after_ops]
  generalize h0 : after seg0 V = W0
  generalize h1 : after segD1 W0 = W1
  generalize h2 : after segG1 W1 = W2
  generalize h3 : after segM1 W2 = W3
  generalize h4 : after segV1 W3 = W4
  generalize h5 : after segN1 W4 = W5
  generalize h6 : after segD2 W5 = W6
  generalize h7 : after segG2 W6 = W7
  generalize h8 : after segM2 W7 = W8
  generalize h9 : after segV2 W8 = W9
  generalize h10 : after segN2 W9 = W10
  generalize h11 : after segD3 W10 = W11
  generalize h12 : after segG3 W11 = W12
  generalize h13 : after segLS W12 = W13
  -- the two rows of the edge-index table
  have s0_v1 : W0 (main_v1 : DevRef τ sig) = (edgeRow0 (F := Ideal) (V (main_arg1 : DevRef τ sig))) := by
    rw [← h0, read_row0 (F := Ideal) V] <;> rfl
  have s0_v3 : W0 (main_v3 : DevRef τ sig) = (edgeRow1 (F := Ideal) (V (main_arg1 : DevRef τ sig))) := by
    rw [← h0, read_row1 (F := Ideal) V] <;> rfl
  have s0_arg0 : W0 (main_arg0 : DevRef τ sig) = (V (main_arg0 : DevRef τ sig)) := by rw [← h0]; exact seg0_keeps_arg0 V
  have s0_arg2 : W0 (main_arg2 : DevRef τ sig) = (V (main_arg2 : DevRef τ sig)) := by rw [← h0]; exact seg0_keeps_arg2 V
  have s0_arg3 : W0 (main_arg3 : DevRef τ sig) = (V (main_arg3 : DevRef τ sig)) := by rw [← h0]; exact seg0_keeps_arg3 V
  have s0_arg4 : W0 (main_arg4 : DevRef τ sig) = (V (main_arg4 : DevRef τ sig)) := by rw [← h0]; exact seg0_keeps_arg4 V
  have s0_arg5 : W0 (main_arg5 : DevRef τ sig) = (V (main_arg5 : DevRef τ sig)) := by rw [← h0]; exact seg0_keeps_arg5 V
  have s0_arg6 : W0 (main_arg6 : DevRef τ sig) = (V (main_arg6 : DevRef τ sig)) := by rw [← h0]; exact seg0_keeps_arg6 V
  have s0_arg7 : W0 (main_arg7 : DevRef τ sig) = (V (main_arg7 : DevRef τ sig)) := by rw [← h0]; exact seg0_keeps_arg7 V
  have s0_arg8 : W0 (main_arg8 : DevRef τ sig) = (V (main_arg8 : DevRef τ sig)) := by rw [← h0]; exact seg0_keeps_arg8 V
  have s0_arg9 : W0 (main_arg9 : DevRef τ sig) = (V (main_arg9 : DevRef τ sig)) := by rw [← h0]; exact seg0_keeps_arg9 V
  have s0_arg10 : W0 (main_arg10 : DevRef τ sig) = (V (main_arg10 : DevRef τ sig)) := by rw [← h0]; exact seg0_keeps_arg10 V
  have s0_arg11 : W0 (main_arg11 : DevRef τ sig) = (V (main_arg11 : DevRef τ sig)) := by rw [← h0]; exact seg0_keeps_arg11 V
  -- layer 1: the dense product
  have s1_v4 : W1 (main_v4 : DevRef τ sig) = (dot512x256 (F := Ideal) (V (main_arg0 : DevRef τ sig)) (V (main_arg2 : DevRef τ sig))) := by
    rw [← h1, read_dot1 (F := Ideal) W0, s0_arg0, s0_arg2] <;> rfl
  have s1_arg3 : W1 (main_arg3 : DevRef τ sig) = (V (main_arg3 : DevRef τ sig)) := by rw [← h1, segD1_keeps_arg3 W0]; exact s0_arg3
  have s1_arg4 : W1 (main_arg4 : DevRef τ sig) = (V (main_arg4 : DevRef τ sig)) := by rw [← h1, segD1_keeps_arg4 W0]; exact s0_arg4
  have s1_arg5 : W1 (main_arg5 : DevRef τ sig) = (V (main_arg5 : DevRef τ sig)) := by rw [← h1, segD1_keeps_arg5 W0]; exact s0_arg5
  have s1_arg6 : W1 (main_arg6 : DevRef τ sig) = (V (main_arg6 : DevRef τ sig)) := by rw [← h1, segD1_keeps_arg6 W0]; exact s0_arg6
  have s1_arg7 : W1 (main_arg7 : DevRef τ sig) = (V (main_arg7 : DevRef τ sig)) := by rw [← h1, segD1_keeps_arg7 W0]; exact s0_arg7
  have s1_arg8 : W1 (main_arg8 : DevRef τ sig) = (V (main_arg8 : DevRef τ sig)) := by rw [← h1, segD1_keeps_arg8 W0]; exact s0_arg8
  have s1_arg9 : W1 (main_arg9 : DevRef τ sig) = (V (main_arg9 : DevRef τ sig)) := by rw [← h1, segD1_keeps_arg9 W0]; exact s0_arg9
  have s1_arg10 : W1 (main_arg10 : DevRef τ sig) = (V (main_arg10 : DevRef τ sig)) := by rw [← h1, segD1_keeps_arg10 W0]; exact s0_arg10
  have s1_arg11 : W1 (main_arg11 : DevRef τ sig) = (V (main_arg11 : DevRef τ sig)) := by rw [← h1, segD1_keeps_arg11 W0]; exact s0_arg11
  have s1_v1 : W1 (main_v1 : DevRef τ sig) = (edgeRow0 (F := Ideal) (V (main_arg1 : DevRef τ sig))) := by rw [← h1, segD1_keeps_v1 W0]; exact s0_v1
  have s1_v3 : W1 (main_v3 : DevRef τ sig) = (edgeRow1 (F := Ideal) (V (main_arg1 : DevRef τ sig))) := by rw [← h1, segD1_keeps_v3 W0]; exact s0_v3
  -- layer 1: the aggregation over the edges, the self-loop term and the bias
  have s2_v47 : W2 (main_v47 : DevRef τ sig) = (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) := by
    rw [← h2, read_agg1 (F := Ideal) W1, s1_v4, s1_v1, s1_v3, s1_arg3] <;> rfl
  have s2_arg4 : W2 (main_arg4 : DevRef τ sig) = (V (main_arg4 : DevRef τ sig)) := by rw [← h2, segG1_keeps_arg4 W1]; exact s1_arg4
  have s2_arg5 : W2 (main_arg5 : DevRef τ sig) = (V (main_arg5 : DevRef τ sig)) := by rw [← h2, segG1_keeps_arg5 W1]; exact s1_arg5
  have s2_arg6 : W2 (main_arg6 : DevRef τ sig) = (V (main_arg6 : DevRef τ sig)) := by rw [← h2, segG1_keeps_arg6 W1]; exact s1_arg6
  have s2_arg7 : W2 (main_arg7 : DevRef τ sig) = (V (main_arg7 : DevRef τ sig)) := by rw [← h2, segG1_keeps_arg7 W1]; exact s1_arg7
  have s2_arg8 : W2 (main_arg8 : DevRef τ sig) = (V (main_arg8 : DevRef τ sig)) := by rw [← h2, segG1_keeps_arg8 W1]; exact s1_arg8
  have s2_arg9 : W2 (main_arg9 : DevRef τ sig) = (V (main_arg9 : DevRef τ sig)) := by rw [← h2, segG1_keeps_arg9 W1]; exact s1_arg9
  have s2_arg10 : W2 (main_arg10 : DevRef τ sig) = (V (main_arg10 : DevRef τ sig)) := by rw [← h2, segG1_keeps_arg10 W1]; exact s1_arg10
  have s2_arg11 : W2 (main_arg11 : DevRef τ sig) = (V (main_arg11 : DevRef τ sig)) := by rw [← h2, segG1_keeps_arg11 W1]; exact s1_arg11
  have s2_v1 : W2 (main_v1 : DevRef τ sig) = (edgeRow0 (F := Ideal) (V (main_arg1 : DevRef τ sig))) := by rw [← h2, segG1_keeps_v1 W1]; exact s1_v1
  have s2_v3 : W2 (main_v3 : DevRef τ sig) = (edgeRow1 (F := Ideal) (V (main_arg1 : DevRef τ sig))) := by rw [← h2, segG1_keeps_v3 W1]; exact s1_v3
  -- layer 1: the column means, and the variance's integer correction
  have s3_v50 : W3 (main_v50 : DevRef τ sig) = (colMean256 (F := Ideal) (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig)))) := by
    rw [← h3, read_mean1 (F := Ideal) W2, s2_v47] <;> rfl
  have s3_c_10 : W3 (main_c_10 : DevRef τ sig) = (constantI S_ 32 0#32 : (⟨S_, .i32⟩ : BufTy).Contents (Elt Ideal)) := by
    rw [← h3, read_ddof1 (F := Ideal) W2] <;> rfl
  have s3_arg4 : W3 (main_arg4 : DevRef τ sig) = (V (main_arg4 : DevRef τ sig)) := by rw [← h3, segM1_keeps_arg4 W2]; exact s2_arg4
  have s3_arg5 : W3 (main_arg5 : DevRef τ sig) = (V (main_arg5 : DevRef τ sig)) := by rw [← h3, segM1_keeps_arg5 W2]; exact s2_arg5
  have s3_arg6 : W3 (main_arg6 : DevRef τ sig) = (V (main_arg6 : DevRef τ sig)) := by rw [← h3, segM1_keeps_arg6 W2]; exact s2_arg6
  have s3_arg7 : W3 (main_arg7 : DevRef τ sig) = (V (main_arg7 : DevRef τ sig)) := by rw [← h3, segM1_keeps_arg7 W2]; exact s2_arg7
  have s3_arg8 : W3 (main_arg8 : DevRef τ sig) = (V (main_arg8 : DevRef τ sig)) := by rw [← h3, segM1_keeps_arg8 W2]; exact s2_arg8
  have s3_arg9 : W3 (main_arg9 : DevRef τ sig) = (V (main_arg9 : DevRef τ sig)) := by rw [← h3, segM1_keeps_arg9 W2]; exact s2_arg9
  have s3_arg10 : W3 (main_arg10 : DevRef τ sig) = (V (main_arg10 : DevRef τ sig)) := by rw [← h3, segM1_keeps_arg10 W2]; exact s2_arg10
  have s3_arg11 : W3 (main_arg11 : DevRef τ sig) = (V (main_arg11 : DevRef τ sig)) := by rw [← h3, segM1_keeps_arg11 W2]; exact s2_arg11
  have s3_v1 : W3 (main_v1 : DevRef τ sig) = (edgeRow0 (F := Ideal) (V (main_arg1 : DevRef τ sig))) := by rw [← h3, segM1_keeps_v1 W2]; exact s2_v1
  have s3_v3 : W3 (main_v3 : DevRef τ sig) = (edgeRow1 (F := Ideal) (V (main_arg1 : DevRef τ sig))) := by rw [← h3, segM1_keeps_v3 W2]; exact s2_v3
  have s3_v47 : W3 (main_v47 : DevRef τ sig) = (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) := by rw [← h3, segM1_keeps_v47 W2]; exact s2_v47
  -- layer 1: the column variances
  have s4_v51 : W4 (main_v51 : DevRef τ sig) = (colVar256 (F := Ideal) (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (constantI S_ 32 0#32 : (⟨S_, .i32⟩ : BufTy).Contents (Elt Ideal))) := by
    rw [← h4, read_var1 (F := Ideal) W3, s3_v47, s3_c_10] <;> rfl
  have s4_arg4 : W4 (main_arg4 : DevRef τ sig) = (V (main_arg4 : DevRef τ sig)) := by rw [← h4, segV1_keeps_arg4 W3]; exact s3_arg4
  have s4_arg5 : W4 (main_arg5 : DevRef τ sig) = (V (main_arg5 : DevRef τ sig)) := by rw [← h4, segV1_keeps_arg5 W3]; exact s3_arg5
  have s4_arg6 : W4 (main_arg6 : DevRef τ sig) = (V (main_arg6 : DevRef τ sig)) := by rw [← h4, segV1_keeps_arg6 W3]; exact s3_arg6
  have s4_arg7 : W4 (main_arg7 : DevRef τ sig) = (V (main_arg7 : DevRef τ sig)) := by rw [← h4, segV1_keeps_arg7 W3]; exact s3_arg7
  have s4_arg8 : W4 (main_arg8 : DevRef τ sig) = (V (main_arg8 : DevRef τ sig)) := by rw [← h4, segV1_keeps_arg8 W3]; exact s3_arg8
  have s4_arg9 : W4 (main_arg9 : DevRef τ sig) = (V (main_arg9 : DevRef τ sig)) := by rw [← h4, segV1_keeps_arg9 W3]; exact s3_arg9
  have s4_arg10 : W4 (main_arg10 : DevRef τ sig) = (V (main_arg10 : DevRef τ sig)) := by rw [← h4, segV1_keeps_arg10 W3]; exact s3_arg10
  have s4_arg11 : W4 (main_arg11 : DevRef τ sig) = (V (main_arg11 : DevRef τ sig)) := by rw [← h4, segV1_keeps_arg11 W3]; exact s3_arg11
  have s4_v1 : W4 (main_v1 : DevRef τ sig) = (edgeRow0 (F := Ideal) (V (main_arg1 : DevRef τ sig))) := by rw [← h4, segV1_keeps_v1 W3]; exact s3_v1
  have s4_v3 : W4 (main_v3 : DevRef τ sig) = (edgeRow1 (F := Ideal) (V (main_arg1 : DevRef τ sig))) := by rw [← h4, segV1_keeps_v3 W3]; exact s3_v3
  have s4_v47 : W4 (main_v47 : DevRef τ sig) = (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) := by rw [← h4, segV1_keeps_v47 W3]; exact s3_v47
  have s4_v50 : W4 (main_v50 : DevRef τ sig) = (colMean256 (F := Ideal) (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig)))) := by rw [← h4, segV1_keeps_v50 W3]; exact s3_v50
  -- layer 1: the normalization and the rectifier
  have s5_v67 : W5 (main_v67 : DevRef τ sig) = (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) := by
    rw [← h5, read_relu1 (F := Ideal) W4, s4_v47, s4_v50, s4_v51, s4_arg8, s4_arg9] <;> rfl
  have s5_arg4 : W5 (main_arg4 : DevRef τ sig) = (V (main_arg4 : DevRef τ sig)) := by rw [← h5, segN1_keeps_arg4 W4]; exact s4_arg4
  have s5_arg5 : W5 (main_arg5 : DevRef τ sig) = (V (main_arg5 : DevRef τ sig)) := by rw [← h5, segN1_keeps_arg5 W4]; exact s4_arg5
  have s5_arg6 : W5 (main_arg6 : DevRef τ sig) = (V (main_arg6 : DevRef τ sig)) := by rw [← h5, segN1_keeps_arg6 W4]; exact s4_arg6
  have s5_arg7 : W5 (main_arg7 : DevRef τ sig) = (V (main_arg7 : DevRef τ sig)) := by rw [← h5, segN1_keeps_arg7 W4]; exact s4_arg7
  have s5_arg10 : W5 (main_arg10 : DevRef τ sig) = (V (main_arg10 : DevRef τ sig)) := by rw [← h5, segN1_keeps_arg10 W4]; exact s4_arg10
  have s5_arg11 : W5 (main_arg11 : DevRef τ sig) = (V (main_arg11 : DevRef τ sig)) := by rw [← h5, segN1_keeps_arg11 W4]; exact s4_arg11
  have s5_v1 : W5 (main_v1 : DevRef τ sig) = (edgeRow0 (F := Ideal) (V (main_arg1 : DevRef τ sig))) := by rw [← h5, segN1_keeps_v1 W4]; exact s4_v1
  have s5_v3 : W5 (main_v3 : DevRef τ sig) = (edgeRow1 (F := Ideal) (V (main_arg1 : DevRef τ sig))) := by rw [← h5, segN1_keeps_v3 W4]; exact s4_v3
  -- layer 2: the dense product
  have s6_v68 : W6 (main_v68 : DevRef τ sig) = (dot256x256 (F := Ideal) (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) (V (main_arg4 : DevRef τ sig))) := by
    rw [← h6, read_dot2 (F := Ideal) W5, s5_v67, s5_arg4] <;> rfl
  have s6_arg5 : W6 (main_arg5 : DevRef τ sig) = (V (main_arg5 : DevRef τ sig)) := by rw [← h6, segD2_keeps_arg5 W5]; exact s5_arg5
  have s6_arg6 : W6 (main_arg6 : DevRef τ sig) = (V (main_arg6 : DevRef τ sig)) := by rw [← h6, segD2_keeps_arg6 W5]; exact s5_arg6
  have s6_arg7 : W6 (main_arg7 : DevRef τ sig) = (V (main_arg7 : DevRef τ sig)) := by rw [← h6, segD2_keeps_arg7 W5]; exact s5_arg7
  have s6_arg10 : W6 (main_arg10 : DevRef τ sig) = (V (main_arg10 : DevRef τ sig)) := by rw [← h6, segD2_keeps_arg10 W5]; exact s5_arg10
  have s6_arg11 : W6 (main_arg11 : DevRef τ sig) = (V (main_arg11 : DevRef τ sig)) := by rw [← h6, segD2_keeps_arg11 W5]; exact s5_arg11
  have s6_v1 : W6 (main_v1 : DevRef τ sig) = (edgeRow0 (F := Ideal) (V (main_arg1 : DevRef τ sig))) := by rw [← h6, segD2_keeps_v1 W5]; exact s5_v1
  have s6_v3 : W6 (main_v3 : DevRef τ sig) = (edgeRow1 (F := Ideal) (V (main_arg1 : DevRef τ sig))) := by rw [← h6, segD2_keeps_v3 W5]; exact s5_v3
  -- layer 2: the aggregation over the edges, the self-loop term and the bias
  have s7_v111 : W7 (main_v111 : DevRef τ sig) = (Cert.RefSpec.conv256 (dot256x256 (F := Ideal) (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) (V (main_arg4 : DevRef τ sig))) (edgeRow0 (F := Ideal) (V (main_arg1 : DevRef τ sig))) (edgeRow1 (F := Ideal) (V (main_arg1 : DevRef τ sig))) (V (main_arg5 : DevRef τ sig))) := by
    rw [← h7, read_agg2 (F := Ideal) W6, s6_v68, s6_v1, s6_v3, s6_arg5] <;> rfl
  have s7_arg6 : W7 (main_arg6 : DevRef τ sig) = (V (main_arg6 : DevRef τ sig)) := by rw [← h7, segG2_keeps_arg6 W6]; exact s6_arg6
  have s7_arg7 : W7 (main_arg7 : DevRef τ sig) = (V (main_arg7 : DevRef τ sig)) := by rw [← h7, segG2_keeps_arg7 W6]; exact s6_arg7
  have s7_arg10 : W7 (main_arg10 : DevRef τ sig) = (V (main_arg10 : DevRef τ sig)) := by rw [← h7, segG2_keeps_arg10 W6]; exact s6_arg10
  have s7_arg11 : W7 (main_arg11 : DevRef τ sig) = (V (main_arg11 : DevRef τ sig)) := by rw [← h7, segG2_keeps_arg11 W6]; exact s6_arg11
  have s7_v1 : W7 (main_v1 : DevRef τ sig) = (edgeRow0 (F := Ideal) (V (main_arg1 : DevRef τ sig))) := by rw [← h7, segG2_keeps_v1 W6]; exact s6_v1
  have s7_v3 : W7 (main_v3 : DevRef τ sig) = (edgeRow1 (F := Ideal) (V (main_arg1 : DevRef τ sig))) := by rw [← h7, segG2_keeps_v3 W6]; exact s6_v3
  -- layer 2: the column means, and the variance's integer correction
  have s8_v114 : W8 (main_v114 : DevRef τ sig) = (colMean256 (F := Ideal) (Cert.RefSpec.conv256 (dot256x256 (F := Ideal) (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) (V (main_arg4 : DevRef τ sig))) (edgeRow0 (F := Ideal) (V (main_arg1 : DevRef τ sig))) (edgeRow1 (F := Ideal) (V (main_arg1 : DevRef τ sig))) (V (main_arg5 : DevRef τ sig)))) := by
    rw [← h8, read_mean2 (F := Ideal) W7, s7_v111] <;> rfl
  have s8_c_24 : W8 (main_c_24 : DevRef τ sig) = (constantI S_ 32 0#32 : (⟨S_, .i32⟩ : BufTy).Contents (Elt Ideal)) := by
    rw [← h8, read_ddof2 (F := Ideal) W7] <;> rfl
  have s8_arg6 : W8 (main_arg6 : DevRef τ sig) = (V (main_arg6 : DevRef τ sig)) := by rw [← h8, segM2_keeps_arg6 W7]; exact s7_arg6
  have s8_arg7 : W8 (main_arg7 : DevRef τ sig) = (V (main_arg7 : DevRef τ sig)) := by rw [← h8, segM2_keeps_arg7 W7]; exact s7_arg7
  have s8_arg10 : W8 (main_arg10 : DevRef τ sig) = (V (main_arg10 : DevRef τ sig)) := by rw [← h8, segM2_keeps_arg10 W7]; exact s7_arg10
  have s8_arg11 : W8 (main_arg11 : DevRef τ sig) = (V (main_arg11 : DevRef τ sig)) := by rw [← h8, segM2_keeps_arg11 W7]; exact s7_arg11
  have s8_v1 : W8 (main_v1 : DevRef τ sig) = (edgeRow0 (F := Ideal) (V (main_arg1 : DevRef τ sig))) := by rw [← h8, segM2_keeps_v1 W7]; exact s7_v1
  have s8_v3 : W8 (main_v3 : DevRef τ sig) = (edgeRow1 (F := Ideal) (V (main_arg1 : DevRef τ sig))) := by rw [← h8, segM2_keeps_v3 W7]; exact s7_v3
  have s8_v111 : W8 (main_v111 : DevRef τ sig) = (Cert.RefSpec.conv256 (dot256x256 (F := Ideal) (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) (V (main_arg4 : DevRef τ sig))) (edgeRow0 (F := Ideal) (V (main_arg1 : DevRef τ sig))) (edgeRow1 (F := Ideal) (V (main_arg1 : DevRef τ sig))) (V (main_arg5 : DevRef τ sig))) := by rw [← h8, segM2_keeps_v111 W7]; exact s7_v111
  -- layer 2: the column variances
  have s9_v115 : W9 (main_v115 : DevRef τ sig) = (colVar256 (F := Ideal) (Cert.RefSpec.conv256 (dot256x256 (F := Ideal) (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) (V (main_arg4 : DevRef τ sig))) (edgeRow0 (F := Ideal) (V (main_arg1 : DevRef τ sig))) (edgeRow1 (F := Ideal) (V (main_arg1 : DevRef τ sig))) (V (main_arg5 : DevRef τ sig))) (constantI S_ 32 0#32 : (⟨S_, .i32⟩ : BufTy).Contents (Elt Ideal))) := by
    rw [← h9, read_var2 (F := Ideal) W8, s8_v111, s8_c_24] <;> rfl
  have s9_arg6 : W9 (main_arg6 : DevRef τ sig) = (V (main_arg6 : DevRef τ sig)) := by rw [← h9, segV2_keeps_arg6 W8]; exact s8_arg6
  have s9_arg7 : W9 (main_arg7 : DevRef τ sig) = (V (main_arg7 : DevRef τ sig)) := by rw [← h9, segV2_keeps_arg7 W8]; exact s8_arg7
  have s9_arg10 : W9 (main_arg10 : DevRef τ sig) = (V (main_arg10 : DevRef τ sig)) := by rw [← h9, segV2_keeps_arg10 W8]; exact s8_arg10
  have s9_arg11 : W9 (main_arg11 : DevRef τ sig) = (V (main_arg11 : DevRef τ sig)) := by rw [← h9, segV2_keeps_arg11 W8]; exact s8_arg11
  have s9_v1 : W9 (main_v1 : DevRef τ sig) = (edgeRow0 (F := Ideal) (V (main_arg1 : DevRef τ sig))) := by rw [← h9, segV2_keeps_v1 W8]; exact s8_v1
  have s9_v3 : W9 (main_v3 : DevRef τ sig) = (edgeRow1 (F := Ideal) (V (main_arg1 : DevRef τ sig))) := by rw [← h9, segV2_keeps_v3 W8]; exact s8_v3
  have s9_v111 : W9 (main_v111 : DevRef τ sig) = (Cert.RefSpec.conv256 (dot256x256 (F := Ideal) (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) (V (main_arg4 : DevRef τ sig))) (edgeRow0 (F := Ideal) (V (main_arg1 : DevRef τ sig))) (edgeRow1 (F := Ideal) (V (main_arg1 : DevRef τ sig))) (V (main_arg5 : DevRef τ sig))) := by rw [← h9, segV2_keeps_v111 W8]; exact s8_v111
  have s9_v114 : W9 (main_v114 : DevRef τ sig) = (colMean256 (F := Ideal) (Cert.RefSpec.conv256 (dot256x256 (F := Ideal) (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) (V (main_arg4 : DevRef τ sig))) (edgeRow0 (F := Ideal) (V (main_arg1 : DevRef τ sig))) (edgeRow1 (F := Ideal) (V (main_arg1 : DevRef τ sig))) (V (main_arg5 : DevRef τ sig)))) := by rw [← h9, segV2_keeps_v114 W8]; exact s8_v114
  -- layer 2: the normalization and the rectifier
  have s10_v131 : W10 (main_v131 : DevRef τ sig) = (Cert.RefSpec.plainBn (Cert.RefSpec.conv256 (dot256x256 (F := Ideal) (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) (V (main_arg4 : DevRef τ sig))) (edgeRow0 (F := Ideal) (V (main_arg1 : DevRef τ sig))) (edgeRow1 (F := Ideal) (V (main_arg1 : DevRef τ sig))) (V (main_arg5 : DevRef τ sig))) (V (main_arg10 : DevRef τ sig)) (V (main_arg11 : DevRef τ sig))) := by
    rw [← h10, read_relu2 (F := Ideal) W9, s9_v111, s9_v114, s9_v115, s9_arg10, s9_arg11] <;> rfl
  have s10_arg6 : W10 (main_arg6 : DevRef τ sig) = (V (main_arg6 : DevRef τ sig)) := by rw [← h10, segN2_keeps_arg6 W9]; exact s9_arg6
  have s10_arg7 : W10 (main_arg7 : DevRef τ sig) = (V (main_arg7 : DevRef τ sig)) := by rw [← h10, segN2_keeps_arg7 W9]; exact s9_arg7
  have s10_v1 : W10 (main_v1 : DevRef τ sig) = (edgeRow0 (F := Ideal) (V (main_arg1 : DevRef τ sig))) := by rw [← h10, segN2_keeps_v1 W9]; exact s9_v1
  have s10_v3 : W10 (main_v3 : DevRef τ sig) = (edgeRow1 (F := Ideal) (V (main_arg1 : DevRef τ sig))) := by rw [← h10, segN2_keeps_v3 W9]; exact s9_v3
  -- layer 3: the dense product
  have s11_v132 : W11 (main_v132 : DevRef τ sig) = (dot256x64 (F := Ideal) (Cert.RefSpec.plainBn (Cert.RefSpec.conv256 (dot256x256 (F := Ideal) (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) (V (main_arg4 : DevRef τ sig))) (edgeRow0 (F := Ideal) (V (main_arg1 : DevRef τ sig))) (edgeRow1 (F := Ideal) (V (main_arg1 : DevRef τ sig))) (V (main_arg5 : DevRef τ sig))) (V (main_arg10 : DevRef τ sig)) (V (main_arg11 : DevRef τ sig))) (V (main_arg6 : DevRef τ sig))) := by
    rw [← h11, read_dot3 (F := Ideal) W10, s10_v131, s10_arg6] <;> rfl
  have s11_arg7 : W11 (main_arg7 : DevRef τ sig) = (V (main_arg7 : DevRef τ sig)) := by rw [← h11, segD3_keeps_arg7 W10]; exact s10_arg7
  have s11_v1 : W11 (main_v1 : DevRef τ sig) = (edgeRow0 (F := Ideal) (V (main_arg1 : DevRef τ sig))) := by rw [← h11, segD3_keeps_v1 W10]; exact s10_v1
  have s11_v3 : W11 (main_v3 : DevRef τ sig) = (edgeRow1 (F := Ideal) (V (main_arg1 : DevRef τ sig))) := by rw [← h11, segD3_keeps_v3 W10]; exact s10_v3
  -- layer 3: the aggregation over the edges, the self-loop term and the bias
  have s12_v175 : W12 (main_v175 : DevRef τ sig) = (Cert.RefSpec.conv64 (dot256x64 (F := Ideal) (Cert.RefSpec.plainBn (Cert.RefSpec.conv256 (dot256x256 (F := Ideal) (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) (V (main_arg4 : DevRef τ sig))) (edgeRow0 (F := Ideal) (V (main_arg1 : DevRef τ sig))) (edgeRow1 (F := Ideal) (V (main_arg1 : DevRef τ sig))) (V (main_arg5 : DevRef τ sig))) (V (main_arg10 : DevRef τ sig)) (V (main_arg11 : DevRef τ sig))) (V (main_arg6 : DevRef τ sig))) (edgeRow0 (F := Ideal) (V (main_arg1 : DevRef τ sig))) (edgeRow1 (F := Ideal) (V (main_arg1 : DevRef τ sig))) (V (main_arg7 : DevRef τ sig))) := by
    rw [← h12, read_agg3 (F := Ideal) W11, s11_v132, s11_v1, s11_v3, s11_arg7] <;> rfl
  -- the logarithm of the row-wise softmax
  have s13_v176 : W13 (main_v176 : DevRef τ sig) = (logSoftmax64 (F := Ideal) (Cert.RefSpec.conv64 (dot256x64 (F := Ideal) (Cert.RefSpec.plainBn (Cert.RefSpec.conv256 (dot256x256 (F := Ideal) (Cert.RefSpec.plainBn (Cert.RefSpec.conv256 (dot512x256 (F := Ideal) (V (main_arg0 : DevRef τ sig)) (V (main_arg2 : DevRef τ sig))) (edgeRow0 (F := Ideal) (V (main_arg1 : DevRef τ sig))) (edgeRow1 (F := Ideal) (V (main_arg1 : DevRef τ sig))) (V (main_arg3 : DevRef τ sig))) (V (main_arg8 : DevRef τ sig)) (V (main_arg9 : DevRef τ sig))) (V (main_arg4 : DevRef τ sig))) (edgeRow0 (F := Ideal) (V (main_arg1 : DevRef τ sig))) (edgeRow1 (F := Ideal) (V (main_arg1 : DevRef τ sig))) (V (main_arg5 : DevRef τ sig))) (V (main_arg10 : DevRef τ sig)) (V (main_arg11 : DevRef τ sig))) (V (main_arg6 : DevRef τ sig))) (edgeRow0 (F := Ideal) (V (main_arg1 : DevRef τ sig))) (edgeRow1 (F := Ideal) (V (main_arg1 : DevRef τ sig))) (V (main_arg7 : DevRef τ sig)))) := by
    rw [← h13, read_lsm (F := Ideal) W12, s12_v175] <;> rfl
  rw [s13_v176]
  rfl

end Cert.ReferenceIdeal.RefRun

end
-- ==== Proof.HostAgree.lean ====
/-
  The two programs' shared host arithmetic is one family of functions: the kernel's program and the reference
  compute the edge rows, the degree weight, the edge coefficient, the aggregate plus bias, the column means and the
  column variances by the same operations in the same order over dimension records that are equal, so the
  functions transcribed from either text are equal.
-/
import proofs.«118705_j84670985273387_1_alg».proof.Proof.KernelHost
import proofs.«118705_j84670985273387_1_alg».proof.Proof.RefHost

set_option maxRecDepth 16384

noncomputable section

namespace Cert.HostAgree

open Idealize.ShloMosaic

variable {F : FTy → Type} [FloatOps F]

theorem edgeRow0_eq : Cert.ReferenceIdeal.HostVal.edgeRow0 (F := F) = Cert.KernelIdeal.HostVal.edgeRow0 (F := F) := rfl
theorem edgeRow1_eq : Cert.ReferenceIdeal.HostVal.edgeRow1 (F := F) = Cert.KernelIdeal.HostVal.edgeRow1 (F := F) := rfl
theorem degInv_eq : Cert.ReferenceIdeal.HostVal.degInv (F := F) = Cert.KernelIdeal.HostVal.degInv (F := F) := rfl
theorem edgeCoef_eq : Cert.ReferenceIdeal.HostVal.edgeCoef (F := F) = Cert.KernelIdeal.HostVal.edgeCoef (F := F) := rfl
theorem aggBias256_eq : Cert.ReferenceIdeal.HostVal.aggBias256 (F := F) = Cert.KernelIdeal.HostVal.aggBias256 (F := F) := rfl
theorem colMean256_eq : Cert.ReferenceIdeal.HostVal.colMean256 (F := F) = Cert.KernelIdeal.HostVal.colMean256 (F := F) := rfl
theorem colVar256_eq : Cert.ReferenceIdeal.HostVal.colVar256 (F := F) = Cert.KernelIdeal.HostVal.colVar256 (F := F) := rfl
theorem aggBias64_eq : Cert.ReferenceIdeal.HostVal.aggBias64 (F := F) = Cert.KernelIdeal.HostVal.aggBias64 (F := F) := rfl

end Cert.HostAgree

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«118705_j84670985273387_1_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.DotBridge.lean ====
/-
  The reference's three dense projections, read at an entry.

  Each is one host matrix product of a [50000, K] matrix against a [K, N] matrix whose dimension numbers contract the
  left operand's columns against the right operand's rows. Over the extended reals its entry (n, f) is
  Σ_k x[n, k] · W[k, f]: the same sum, spelled the same way, that the kernel's row-blocked matrix-unit products leave.
-/
import proofs.«118705_j84670985273387_1_alg».proof.Proof.RefHost
import Idealize.ShloMosaic.PureOps.Ideal.Laws
import Idealize.ShloMosaic.Lib.ValueIdx
import proofs.«118705_j84670985273387_1_alg».proof.Proof.LibDotInnerHost

noncomputable section

open scoped BigOperators

namespace Cert.DotBridge

open Idealize.ShloMosaic Idealize.ShloMosaic.ValueIdx Cert.ReferenceIdeal

/-- The first layer's dimension numbers say rows by columns: the left operand's columns (extent 512) are contracted
    against the right operand's rows, with no batch axes. -/
theorem plain_dot512x256 : DotInner.Plain dot_S50000x512_S512x256_S50000x256_1_0_0_1_n_n :=
  plain_record dot_S50000x512_S512x256_S50000x256_1_0_0_1_n_n, S50000x512, S512x256

/-- The first layer's host product: entry (n, f) is Σ_k x[n, k] · W[k, f], over the extended reals. -/
theorem dot512x256_eq (x : S50000x512.Idx → EReal) (w : S512x256.Idx → EReal) :
    Cert.ReferenceIdeal.HostVal.dot512x256 (F := Ideal) x w
      = fun i => ∑ k : Fin 512, x (ix2 (n0 := 50000) (n1 := 512) (i 0) k) * w (ix2 (n0 := 512) (n1 := 256) k (i 1)) := by
  funext i
  obtain ⟨p, f, rfl⟩ : ∃ (p : Fin 50000) (f : Fin 256), i = ix2 p f := ⟨i 0, i 1, eq_ix2 i⟩
  unfold Cert.ReferenceIdeal.HostVal.dot512x256
  exact plain_dot512x256.dotGeneral none x w p f

/-- The second layer's dimension numbers say rows by columns: the left operand's columns (extent 256) are contracted
    against the right operand's rows, with no batch axes. -/
theorem plain_dot256x256 : DotInner.Plain dot_S50000x256_S256x256_S50000x256_1_0_0_1_n_n :=
  plain_record dot_S50000x256_S256x256_S50000x256_1_0_0_1_n_n, S50000x256, S256x256

/-- The second layer's host product: entry (n, f) is Σ_k x[n, k] · W[k, f], over the extended reals. -/
theorem dot256x256_eq (x : S50000x256.Idx → EReal) (w : S256x256.Idx → EReal) :
    Cert.ReferenceIdeal.HostVal.dot256x256 (F := Ideal) x w
      = fun i => ∑ k : Fin 256, x (ix2 (n0 := 50000) (n1 := 256) (i 0) k) * w (ix2 (n0 := 256) (n1 := 256) k (i 1)) := by
  funext i
  obtain ⟨p, f, rfl⟩ : ∃ (p : Fin 50000) (f : Fin 256), i = ix2 p f := ⟨i 0, i 1, eq_ix2 i⟩
  unfold Cert.ReferenceIdeal.HostVal.dot256x256
  exact plain_dot256x256.dotGeneral none x w p f

/-- The third layer's dimension numbers say rows by columns: the left operand's columns (extent 256) are contracted
    against the right operand's rows, with no batch axes. -/
theorem plain_dot256x64 : DotInner.Plain dot_S50000x256_S256x64_S50000x64_1_0_0_1_n_n :=
  plain_record dot_S50000x256_S256x64_S50000x64_1_0_0_1_n_n, S50000x256, S256x64

/-- The third layer's host product: entry (n, f) is Σ_k x[n, k] · W[k, f], over the extended reals. -/
theorem dot256x64_eq (x : S50000x256.Idx → EReal) (w : S256x64.Idx → EReal) :
    Cert.ReferenceIdeal.HostVal.dot256x64 (F := Ideal) x w
      = fun i => ∑ k : Fin 256, x (ix2 (n0 := 50000) (n1 := 256) (i 0) k) * w (ix2 (n0 := 256) (n1 := 64) k (i 1)) := by
  funext i
  obtain ⟨p, f, rfl⟩ : ∃ (p : Fin 50000) (f : Fin 64), i = ix2 p f := ⟨i 0, i 1, eq_ix2 i⟩
  unfold Cert.ReferenceIdeal.HostVal.dot256x64
  exact plain_dot256x64.dotGeneral none x w p f

end Cert.DotBridge

end
-- ==== Proof.LibBnLaw.lean ====
/-
  The scalar facts of a graph convolution network's batch normalization, over the extended reals.

  A fused batch norm folds the per-feature statistics into one scale and one shift: with s the reciprocal
  standard deviation it computes  h·(γ·s) + (β − (μ·γ)·s), where the textbook form is  ((h − μ)·s)·γ + β.
  On the extended reals multiplication does not distribute over a difference at the infinities, so the two
  agree where the five numbers are real; there they are one polynomial identity.  Beside the law: the
  values of the float words the two programs share (50000, 1, 0, the single-precision neighbour of 1e-5,
  -inf), and the variance's guard "number of rows minus the degrees of freedom is positive", which at
  50000 rows and zero degrees of freedom is true, so that the guarded select returns its first branch.
-/
import Idealize.ShloMosaic.PureOps.Ideal.Laws
import Idealize.ShloMosaic.Lib.IdealHost
import Idealize.ShloMosaic.Lib.ValueIdx

noncomputable section

namespace Cert.GcnReal

open Idealize.ShloMosaic

/-! ## The batch-norm law -/

/-- Scale-and-shift equals normalize-then-affine, at real numbers: h(γs) + (β − (μγ)s) = ((h − μ)s)γ + β. -/
theorem bn_law (h μ s γ β : ℝ) :
    ((h : EReal) * ((γ : EReal) * (s : EReal)) + ((β : EReal) - ((μ : EReal) * (γ : EReal)) * (s : EReal)))
      = ((((h : EReal) - (μ : EReal)) * (s : EReal)) * (γ : EReal) + (β : EReal)) := by
  simp only [← EReal.coe_mul, ← EReal.coe_sub, ← EReal.coe_add]
  exact congrArg _ (by ring)

/-- The law under a maximum with any third number (the rectifier is the maximum with zero). -/
theorem bn_law_max (h μ s γ β : ℝ) (z : EReal) :
    max ((h : EReal) * ((γ : EReal) * (s : EReal)) + ((β : EReal) - ((μ : EReal) * (γ : EReal)) * (s : EReal))) z
      = max ((((h : EReal) - (μ : EReal)) * (s : EReal)) * (γ : EReal) + (β : EReal)) z := by
  rw [bn_law]

/-- The law for extended reals known to be real numbers. -/
theorem bn_law_of_real {x μ s γ β : EReal} (hx : ∃ r : ℝ, x = r) (hμ : ∃ r : ℝ, μ = r) (hs : ∃ r : ℝ, s = r)
    (hγ : ∃ r : ℝ, γ = r) (hβ : ∃ r : ℝ, β = r) :
    x * (γ * s) + (β - (μ * γ) * s) = ((x - μ) * s) * γ + β := by
  obtain ⟨x, rfl⟩ := hx; obtain ⟨μ, rfl⟩ := hμ; obtain ⟨s, rfl⟩ := hs; obtain ⟨γ, rfl⟩ := hγ; obtain ⟨β, rfl⟩ := hβ
  exact bn_law x μ s γ β

/-- The rectified law for extended reals known to be real numbers, the maximum spelt as the ideal
    instance's maximumf is (the maximum of the order). -/
theorem bn_relu_law_of_real {x μ s γ β : EReal} (z : EReal) (hx : ∃ r : ℝ, x = r) (hμ : ∃ r : ℝ, μ = r)
    (hs : ∃ r : ℝ, s = r) (hγ : ∃ r : ℝ, γ = r) (hβ : ∃ r : ℝ, β = r) :
    max (x * (γ * s) + (β - (μ * γ) * s)) z = max (((x - μ) * s) * γ + β) z := by
  rw [bn_law_of_real hx hμ hs hγ hβ]

/-- The same, in the float operations' own names at the ideal instance. -/
theorem bn_relu_law_ops {x μ s γ β : Ideal .f32} (z : Ideal .f32) (hx : ∃ r : ℝ, x = r) (hμ : ∃ r : ℝ, μ = r)
    (hs : ∃ r : ℝ, s = r) (hγ : ∃ r : ℝ, γ = r) (hβ : ∃ r : ℝ, β = r) :
    FloatOps.maximumf (FloatOps.addf (FloatOps.mulf x (FloatOps.mulf γ s)) (FloatOps.subf β (FloatOps.mulf (FloatOps.mulf μ γ) s))) z
      = FloatOps.maximumf (FloatOps.addf (FloatOps.mulf (FloatOps.mulf (FloatOps.subf x μ) s) γ) β) z :=
  bn_relu_law_of_real z hx hμ hs hγ hβ

/-! ## The float words the programs share -/

/-- The word 0x47435000 is 50000 (the number of rows). -/
theorem ofBits_50000 : Ideal.ofBits .f32 0x47435000#32 = ((50000 : ℝ) : EReal) := by
  simp [Ideal.ofBits, Ideal.ieee, -EReal.coe_mul]; norm_num

/-- The word 0x3F800000 is 1. -/
theorem ofBits_one : Ideal.ofBits .f32 0x3F800000#32 = ((1 : ℝ) : EReal) := by
  simp [Ideal.ofBits, Ideal.ieee, -EReal.coe_mul]; norm_num

/-- The word 0x00000000 is 0. -/
theorem ofBits_zero : Ideal.ofBits .f32 0x00000000#32 = ((0 : ℝ) : EReal) :=
  Ideal.ofBits_zero_f32.trans EReal.coe_zero.symm

/-- The word 0x3727C5AC, single precision's neighbour of 1e-5, is a positive real number. -/
theorem ofBits_eps_pos : ∃ r : ℝ, 0 < r ∧ Ideal.ofBits .f32 0x3727C5AC#32 = (r : EReal) := by
  refine ⟨(10995116 : ℝ) * (2 : ℝ) ^ (-40 : ℤ), by positivity, ?_⟩
  simp [Ideal.ofBits, Ideal.ieee, -EReal.coe_mul]

/-- The word 0xFF800000 is -inf, the bottom of the extended reals. -/
theorem ofBits_neg_inf : Ideal.ofBits .f32 0xFF800000#32 = ⊥ := by simp [Ideal.ofBits, Ideal.ieee]

/-! ## The variance's guard: 50000 − 0 > 0 -/

/-- The integer word zero converts to the float zero. -/
theorem sitofp_zero (S0 : Shape) :
    sitofp (F := Ideal) .f32 (constantI S0 32 0#32) = fun _ => ((0 : ℝ) : EReal) := by
  funext i
  show (((0#32 : BitVec 32).toInt : ℝ) : EReal) = _
  simp

/-- 50000 minus the converted zero word is 50000. -/
theorem rows_sub_ddof (S0 : Shape) :
    subf (constant (F := Ideal) S0 .f32 0x47435000#32) (sitofp (F := Ideal) .f32 (constantI S0 32 0#32))
      = fun _ => ((50000 : ℝ) : EReal) := by
  rw [sitofp_zero]
  funext i
  show Ideal.ofBits .f32 0x47435000#32 - ((0 : ℝ) : EReal) = _
  rw [ofBits_50000, EReal.coe_zero, sub_zero]

/-- The guard "rows − degrees of freedom > 0" is the true bit everywhere. -/
theorem guard_true (S0 : Shape) :
    cmpf .ogt (subf (constant (F := Ideal) S0 .f32 0x47435000#32) (sitofp (F := Ideal) .f32 (constantI S0 32 0#32)))
        (constant (F := Ideal) S0 .f32 0x00000000#32)
      = constantI S0 1 1#1 := by
  rw [rows_sub_ddof]
  funext i
  show Ideal.cmp .ogt ((50000 : ℝ) : EReal) (Ideal.ofBits .f32 0x00000000#32) = 1#1
  rw [Ideal.ofBits_zero_f32]
  unfold Ideal.cmp
  have h : (0 : EReal) < ((50000 : ℝ) : EReal) := by exact_mod_cast (by norm_num : (0 : ℝ) < 50000)
  simp [h]

/-- A select whose predicate is the true bit broadcast to the operands' shape returns its first operand. -/
theorem select_broadcast_true {S0 T : Shape} {α : Type} (dims : Fin S0.rank → Fin T.rank)
    (hb : S0.BroadcastsInDim T dims) (a b : T.Idx → α) :
    select (broadcastInDim T dims hb (constantI S0 1 1#1)) a b = a := by
  funext j
  show Scalar.select (1#1 : BitVec 1) (a j) (b j) = a j
  unfold Scalar.select
  simp

/-- The guarded select of the variance returns the guarded value: the predicate is "rows − 0 > 0". -/
theorem select_guard {S0 T : Shape} {α : Type} (dims : Fin S0.rank → Fin T.rank)
    (hb : S0.BroadcastsInDim T dims) (a b : T.Idx → α) :
    select (broadcastInDim T dims hb
        (cmpf .ogt (subf (constant (F := Ideal) S0 .f32 0x47435000#32) (sitofp (F := Ideal) .f32 (constantI S0 32 0#32)))
          (constant (F := Ideal) S0 .f32 0x00000000#32))) a b = a := by
  rw [guard_true, select_broadcast_true]

end Cert.GcnReal

end
-- ==== Proof.LibRealEntries.lean ====
/-
  EVERY ENTRY IS A REAL NUMBER: the calculus of one graph-convolution layer's host operations.

  On the extended reals multiplication does not distribute over addition at an infinity, so the two ways of
  writing a batch-norm step, h·(γ·s) + (β − (μ·γ)·s) and ((h − μ)·s)·γ + β, agree only where every quantity is a real
  number. This file carries "every entry is a real number" (and, where a reciprocal square root needs it, "every entry
  is a nonnegative / positive real number, or a real number at least one") through each operation of a layer: a
  constant and its broadcasts, re-indexings (broadcast, reshape, slice, gather: an entry of the result IS an entry of
  the operand, whatever the start indices), sums, differences and products entry by entry, a scatter-add and a sum
  along an axis (an entry plus a finite sum of entries), a quotient by a nonzero real, a maximum, a selection, a
  contraction (a finite sum of products), and the reciprocal square root of a positive real. Every statement is over an
  arbitrary shape and an arbitrary dimension record, so it serves both programs and every layer width.
-/
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost

noncomputable section

namespace Cert.GcnReal

open Idealize.ShloMosaic
open scoped BigOperators

/-! ## The four predicates -/

/-- Every entry is a real number. -/
def AllReal {S : Shape} (v : S.Idx → EReal) : Prop := ∀ i, ∃ r : ℝ, v i = (r : EReal)

/-- Every entry is a nonnegative real number. -/
def NonnegReal {S : Shape} (v : S.Idx → EReal) : Prop := ∀ i, ∃ r : ℝ, 0 ≤ r ∧ v i = (r : EReal)

/-- Every entry is a positive real number. -/
def PosReal {S : Shape} (v : S.Idx → EReal) : Prop := ∀ i, ∃ r : ℝ, 0 < r ∧ v i = (r : EReal)

/-- Every entry is a real number at least one. -/
def GeOneReal {S : Shape} (v : S.Idx → EReal) : Prop := ∀ i, ∃ r : ℝ, 1 ≤ r ∧ v i = (r : EReal)

/-- Every entry is a nonzero real number. -/
def NonzeroReal {S : Shape} (v : S.Idx → EReal) : Prop := ∀ i, ∃ r : ℝ, r ≠ 0 ∧ v i = (r : EReal)

theorem NonnegReal.allReal {S : Shape} {v : S.Idx → EReal} (h : NonnegReal v) : AllReal v :=
  fun i => let ⟨r, _, e⟩ := h i; ⟨r, e⟩

theorem PosReal.nonnegReal {S : Shape} {v : S.Idx → EReal} (h : PosReal v) : NonnegReal v :=
  fun i => let ⟨r, hr, e⟩ := h i; ⟨r, hr.le, e⟩

theorem PosReal.allReal {S : Shape} {v : S.Idx → EReal} (h : PosReal v) : AllReal v := h.nonnegReal.allReal

theorem PosReal.nonzeroReal {S : Shape} {v : S.Idx → EReal} (h : PosReal v) : NonzeroReal v :=
  fun i => let ⟨r, hr, e⟩ := h i; ⟨r, hr.ne', e⟩

theorem GeOneReal.posReal {S : Shape} {v : S.Idx → EReal} (h : GeOneReal v) : PosReal v :=
  fun i => let ⟨r, hr, e⟩ := h i; ⟨r, lt_of_lt_of_le one_pos hr, e⟩

theorem GeOneReal.allReal {S : Shape} {v : S.Idx → EReal} (h : GeOneReal v) : AllReal v := h.posReal.allReal

theorem NonzeroReal.allReal {S : Shape} {v : S.Idx → EReal} (h : NonzeroReal v) : AllReal v :=
  fun i => let ⟨r, _, e⟩ := h i; ⟨r, e⟩

/-! ## Finite sums of real numbers -/

/-- The inclusion of the reals in the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number: the sum of the witnesses. -/
theorem sum_real {ι : Type*} (s : Finset ι) (f : ι → EReal) (g : ι → ℝ) (h : ∀ i, f i = (g i : EReal)) :
    ∑ i ∈ s, f i = ((∑ i ∈ s, g i : ℝ) : EReal) := by
  rw [coe_finset_sum]; exact Finset.sum_congr rfl fun i _ => h i

/-! ## Re-indexings: an entry of the result is an entry of the operand

A broadcast, a reshape, a slice and a gather all read the operand at an index computed from the result's index (for a
gather, from the start indices too, clamped into range): whatever that index is, the entry there is an entry of the
operand. -/

theorem AllReal.reindex {S T : Shape} {v : S.Idx → EReal} (h : AllReal v) (f : T.Idx → S.Idx) :
    AllReal (S := T) fun j => v (f j) := fun j => h (f j)
theorem NonnegReal.reindex {S T : Shape} {v : S.Idx → EReal} (h : NonnegReal v) (f : T.Idx → S.Idx) :
    NonnegReal (S := T) fun j => v (f j) := fun j => h (f j)
theorem PosReal.reindex {S T : Shape} {v : S.Idx → EReal} (h : PosReal v) (f : T.Idx → S.Idx) :
    PosReal (S := T) fun j => v (f j) := fun j => h (f j)
theorem GeOneReal.reindex {S T : Shape} {v : S.Idx → EReal} (h : GeOneReal v) (f : T.Idx → S.Idx) :
    GeOneReal (S := T) fun j => v (f j) := fun j => h (f j)
theorem NonzeroReal.reindex {S T : Shape} {v : S.Idx → EReal} (h : NonzeroReal v) (f : T.Idx → S.Idx) :
    NonzeroReal (S := T) fun j => v (f j) := fun j => h (f j)

section Layout
variable {S T : Shape} {v : S.Idx → EReal}

/-- A broadcast along any axes (every broadcast record). -/
theorem AllReal.broadcastInDim (h : AllReal v) (dims : Fin S.rank → Fin T.rank) (hb : S.BroadcastsInDim T dims) :
    AllReal (broadcastInDim T dims hb v) := fun _ => h _
theorem NonnegReal.broadcastInDim (h : NonnegReal v) (dims : Fin S.rank → Fin T.rank) (hb : S.BroadcastsInDim T dims) :
    NonnegReal (broadcastInDim T dims hb v) := fun _ => h _
theorem PosReal.broadcastInDim (h : PosReal v) (dims : Fin S.rank → Fin T.rank) (hb : S.BroadcastsInDim T dims) :
    PosReal (broadcastInDim T dims hb v) := fun _ => h _
theorem GeOneReal.broadcastInDim (h : GeOneReal v) (dims : Fin S.rank → Fin T.rank) (hb : S.BroadcastsInDim T dims) :
    GeOneReal (broadcastInDim T dims hb v) := fun _ => h _
theorem NonzeroReal.broadcastInDim (h : NonzeroReal v) (dims : Fin S.rank → Fin T.rank) (hb : S.BroadcastsInDim T dims) :
    NonzeroReal (broadcastInDim T dims hb v) := fun _ => h _

/-- A reshape (every shape-cast record). -/
theorem AllReal.shapeCast (h : AllReal v) (hc : S.ShapeCasts T) : AllReal (shapeCast T v hc) := fun _ => h _
theorem NonnegReal.shapeCast (h : NonnegReal v) (hc : S.ShapeCasts T) : NonnegReal (shapeCast T v hc) := fun _ => h _
theorem PosReal.shapeCast (h : PosReal v) (hc : S.ShapeCasts T) : PosReal (shapeCast T v hc) := fun _ => h _

/-- A gather: each entry of the result is the operand's entry at the clamped start plus the offset. -/
theorem AllReal.gather {si : Shape} {w : Nat} (h : AllReal v) (d : GatherDims S si T) (idx : IVec si w) :
    AllReal (Host.gather d v idx) := fun _ => h _
theorem NonnegReal.gather {si : Shape} {w : Nat} (h : NonnegReal v) (d : GatherDims S si T) (idx : IVec si w) :
    NonnegReal (Host.gather d v idx) := fun _ => h _
theorem PosReal.gather {si : Shape} {w : Nat} (h : PosReal v) (d : GatherDims S si T) (idx : IVec si w) :
    PosReal (Host.gather d v idx) := fun _ => h _

end Layout

/-! ## Constants

A constant array holds one word everywhere; which real number the word denotes is a fact about the word. -/

/-- The single-precision word of one is the real number one. -/
theorem ofBits_one_f32_coe : Ideal.ofBits .f32 0x3F800000#32 = ((1 : ℝ) : EReal) := by
  rw [Ideal.ofBits_one_f32, EReal.coe_one]

/-- The all-zero single-precision word is the real number zero. -/
theorem ofBits_zero_f32_coe : Ideal.ofBits .f32 0x00000000#32 = ((0 : ℝ) : EReal) := by
  rw [Ideal.ofBits_zero_f32, EReal.coe_zero]

/-- The word 0x47435000 (exponent 142, fraction 4411392) is the real number 12800000 · 2⁻⁸ = 50000: the number of rows
    a column mean divides by. -/
theorem ofBits_rows_f32_coe : Ideal.ofBits .f32 0x47435000#32 = ((50000 : ℝ) : EReal) := by
  simp [Ideal.ofBits, Ideal.ieee, -EReal.coe_mul]; norm_num

/-- The word 0x3727C5AC (exponent 110, fraction 2606508) is a positive real number, 10995116 · 2⁻⁴⁰: the ε a variance
    is shifted by before its reciprocal square root. -/
theorem ofBits_eps_f32_pos : ∃ r : ℝ, 0 < r ∧ Ideal.ofBits .f32 0x3727C5AC#32 = (r : EReal) := by
  refine ⟨10995116 * (2 : ℝ) ^ (-40 : ℤ), by positivity, ?_⟩
  simp [Ideal.ofBits, Ideal.ieee, -EReal.coe_mul]

section Constants
variable {S : Shape} {φ : FTy} {b : BitVec φ.bits}

theorem AllReal.constant (h : ∃ r : ℝ, Ideal.ofBits φ b = (r : EReal)) : AllReal (constant (F := Ideal) S φ b) :=
  fun _ => h
theorem NonnegReal.constant (h : ∃ r : ℝ, 0 ≤ r ∧ Ideal.ofBits φ b = (r : EReal)) :
    NonnegReal (constant (F := Ideal) S φ b) := fun _ => h
theorem PosReal.constant (h : ∃ r : ℝ, 0 < r ∧ Ideal.ofBits φ b = (r : EReal)) :
    PosReal (constant (F := Ideal) S φ b) := fun _ => h
theorem GeOneReal.constant (h : ∃ r : ℝ, 1 ≤ r ∧ Ideal.ofBits φ b = (r : EReal)) :
    GeOneReal (constant (F := Ideal) S φ b) := fun _ => h

end Constants

/-- The constant one: every entry is a real number at least one. -/
theorem geOneReal_one (S : Shape) : GeOneReal (constant (F := Ideal) S .f32 0x3F800000#32) :=
  GeOneReal.constant ⟨1, le_refl _, ofBits_one_f32_coe⟩
/-- The constant zero: every entry is a nonnegative real number. -/
theorem nonnegReal_zero (S : Shape) : NonnegReal (constant (F := Ideal) S .f32 0x00000000#32) :=
  NonnegReal.constant ⟨0, le_refl _, ofBits_zero_f32_coe⟩
/-- The constant 50000: every entry is a positive real number. -/
theorem posReal_rows (S : Shape) : PosReal (constant (F := Ideal) S .f32 0x47435000#32) :=
  PosReal.constant ⟨50000, by norm_num, ofBits_rows_f32_coe⟩
/-- The constant ε: every entry is a positive real number. -/
theorem posReal_eps (S : Shape) : PosReal (constant (F := Ideal) S .f32 0x3727C5AC#32) :=
  PosReal.constant ofBits_eps_f32_pos

/-- An integer read as a float is that integer, a real number. -/
theorem allReal_sitofp {S : Shape} {w : Nat} (φ : FTy) (x : IVec S w) : AllReal (sitofp (F := Ideal) φ x) :=
  fun i => ⟨((x i).toInt : ℝ), rfl⟩

/-- The integer zero read as a float is the real number zero. -/
theorem sitofp_zero_apply {S : Shape} (φ : FTy) (i : S.Idx) :
    sitofp (F := Ideal) φ (constantI S 32 0#32) i = ((0 : ℝ) : EReal) := by
  show ((((0#32 : BitVec 32).toInt : ℤ) : ℝ) : EReal) = _
  norm_num

/-! ## Sums, differences and products entry by entry -/

section Pointwise
variable {S : Shape} {φ : FTy} {x y : FVec Ideal S φ}

theorem AllReal.addf (hx : AllReal x) (hy : AllReal y) : AllReal (addf (F := Ideal) x y) := fun i => by
  obtain ⟨a, ha⟩ := hx i; obtain ⟨b, hb⟩ := hy i
  exact ⟨a + b, by show x i + y i = _; rw [ha, hb, EReal.coe_add]⟩

theorem AllReal.subf (hx : AllReal x) (hy : AllReal y) : AllReal (subf (F := Ideal) x y) := fun i => by
  obtain ⟨a, ha⟩ := hx i; obtain ⟨b, hb⟩ := hy i
  exact ⟨a - b, by show x i - y i = _; rw [ha, hb, EReal.coe_sub]⟩

theorem AllReal.mulf (hx : AllReal x) (hy : AllReal y) : AllReal (mulf (F := Ideal) x y) := fun i => by
  obtain ⟨a, ha⟩ := hx i; obtain ⟨b, hb⟩ := hy i
  exact ⟨a * b, by show x i * y i = _; rw [ha, hb, EReal.coe_mul]⟩

theorem NonnegReal.addf (hx : NonnegReal x) (hy : NonnegReal y) : NonnegReal (addf (F := Ideal) x y) := fun i => by
  obtain ⟨a, ha0, ha⟩ := hx i; obtain ⟨b, hb0, hb⟩ := hy i
  exact ⟨a + b, add_nonneg ha0 hb0, by show x i + y i = _; rw [ha, hb, EReal.coe_add]⟩

theorem NonnegReal.mulf (hx : NonnegReal x) (hy : NonnegReal y) : NonnegReal (mulf (F := Ideal) x y) := fun i => by
  obtain ⟨a, ha0, ha⟩ := hx i; obtain ⟨b, hb0, hb⟩ := hy i
  exact ⟨a * b, mul_nonneg ha0 hb0, by show x i * y i = _; rw [ha, hb, EReal.coe_mul]⟩

theorem PosReal.mulf (hx : PosReal x) (hy : PosReal y) : PosReal (mulf (F := Ideal) x y) := fun i => by
  obtain ⟨a, ha0, ha⟩ := hx i; obtain ⟨b, hb0, hb⟩ := hy i
  exact ⟨a * b, mul_pos ha0 hb0, by show x i * y i = _; rw [ha, hb, EReal.coe_mul]⟩

/-- The square of a real number is a nonnegative real number. -/
theorem AllReal.mulf_self (hx : AllReal x) : NonnegReal (Idealize.ShloMosaic.mulf (F := Ideal) x x) := fun i => by
  obtain ⟨a, ha⟩ := hx i
  exact ⟨a * a, mul_self_nonneg a, by show x i * x i = _; rw [ha, EReal.coe_mul]⟩

/-- A nonnegative real number plus a real number at least one is at least one: a count plus the self-loop's one. -/
theorem NonnegReal.addf_geOne (hx : NonnegReal x) (hy : GeOneReal y) :
    GeOneReal (Idealize.ShloMosaic.addf (F := Ideal) x y) := fun i => by
  obtain ⟨a, ha0, ha⟩ := hx i; obtain ⟨b, hb1, hb⟩ := hy i
  exact ⟨a + b, by linarith, by show x i + y i = _; rw [ha, hb, EReal.coe_add]⟩

/-- A nonnegative real number plus a positive one is positive: a variance plus ε. -/
theorem NonnegReal.addf_pos (hx : NonnegReal x) (hy : PosReal y) :
    PosReal (Idealize.ShloMosaic.addf (F := Ideal) x y) := fun i => by
  obtain ⟨a, ha0, ha⟩ := hx i; obtain ⟨b, hb0, hb⟩ := hy i
  exact ⟨a + b, by linarith, by show x i + y i = _; rw [ha, hb, EReal.coe_add]⟩

/-- A positive real number minus zero is positive: the row count minus the zero degrees of freedom. -/
theorem PosReal.subf_zero (hx : PosReal x) (hy : ∀ i, y i = ((0 : ℝ) : EReal)) : PosReal (subf (F := Ideal) x y) :=
  fun i => by
    obtain ⟨a, ha0, ha⟩ := hx i
    exact ⟨a - 0, by linarith, by show x i - y i = _; rw [ha, hy i, EReal.coe_sub]⟩

/-! ## A maximum and a selection -/

/-- The larger of two real numbers, taken among the extended reals, is the larger taken among the reals. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem AllReal.maximumf (hx : AllReal x) (hy : AllReal y) : AllReal (maximumf (F := Ideal) x y) := fun i => by
  obtain ⟨a, ha⟩ := hx i; obtain ⟨b, hb⟩ := hy i
  exact ⟨max a b, by show max (x i) (y i) = _; rw [ha, hb, max_coe]⟩

/-- The larger of a real number and a nonnegative one (the rectifier's zero) is nonnegative. -/
theorem AllReal.maximumf_nonneg (hx : AllReal x) (hy : NonnegReal y) :
    NonnegReal (Idealize.ShloMosaic.maximumf (F := Ideal) x y) :=
  fun i => by
    obtain ⟨a, ha⟩ := hx i; obtain ⟨b, hb0, hb⟩ := hy i
    exact ⟨max a b, le_trans hb0 (le_max_right a b), by show max (x i) (y i) = _; rw [ha, hb, max_coe]⟩

end Pointwise

section Select
variable {S : Shape}

/-- A selection between two arrays of real numbers, under any predicate, is an array of real numbers. -/
theorem AllReal.select {a b : S.Idx → EReal} (c : IVec S 1) (ha : AllReal a) (hb : AllReal b) :
    AllReal (select c a b) := fun i => by
  show ∃ r : ℝ, (if c i = 1 then a i else b i) = (r : EReal)
  split
  · exact ha i
  · exact hb i

/-- Where the predicate holds everywhere, a selection IS its first branch, whatever the second holds (a junk value,
    for instance). -/
theorem select_eq_left {α : Type} (c : IVec S 1) (a b : S.Idx → α) (hc : ∀ i, c i = 1#1) : select c a b = a :=
  funext fun i => by
    show (if c i = 1 then a i else b i) = a i
    exact if_pos (hc i)

/-- A broadcast of a predicate that holds everywhere holds everywhere. -/
theorem broadcastInDim_eq_one {T : Shape} (p : IVec S 1) (dims : Fin S.rank → Fin T.rank)
    (hb : S.BroadcastsInDim T dims) (hp : ∀ i, p i = 1#1) (j : T.Idx) : broadcastInDim T dims hb p j = 1#1 := hp _

/-- "Greater than" between a positive real number and zero holds. -/
theorem cmpf_ogt_pos_zero {φ : FTy} {x y : FVec Ideal S φ} (hx : PosReal x) (hy : ∀ i, y i = 0) (i : S.Idx) :
    cmpf (F := Ideal) .ogt x y i = 1#1 := by
  obtain ⟨a, ha0, ha⟩ := hx i
  have hlt : y i < x i := by rw [hy i, ha]; exact EReal.coe_pos.mpr ha0
  show BitVec.ofBool (decide (y i < x i)) = 1#1
  rw [decide_eq_true hlt]; rfl

end Select

/-! ## An entry plus a finite sum of entries: a scatter-add and a sum along an axis

At an index, a scatter-add is the operand's entry plus the sum of the updates that land there (none, if every start index
falls outside), and a sum along an axis is the initial value plus the sum of the entries that reduce there. Which
updates land where depends on the integer operands; that the result is a real number does not. -/

/-- A real number plus a finite sum of real numbers is a real number. -/
theorem add_sum_isReal {ι : Type*} (s : Finset ι) (f : ι → EReal) (x : EReal) (hx : ∃ a : ℝ, x = (a : EReal))
    (hf : ∀ i, ∃ r : ℝ, f i = (r : EReal)) : ∃ r : ℝ, x + ∑ i ∈ s, f i = (r : EReal) := by
  obtain ⟨a, ha⟩ := hx
  choose g hg using hf
  exact ⟨a + ∑ i ∈ s, g i, by rw [ha, sum_real s f g hg, EReal.coe_add]⟩

/-- A nonnegative real number plus a finite sum of nonnegative real numbers is a nonnegative real number. -/
theorem add_sum_isNonnegReal {ι : Type*} (s : Finset ι) (f : ι → EReal) (x : EReal)
    (hx : ∃ a : ℝ, 0 ≤ a ∧ x = (a : EReal)) (hf : ∀ i, ∃ r : ℝ, 0 ≤ r ∧ f i = (r : EReal)) :
    ∃ r : ℝ, 0 ≤ r ∧ x + ∑ i ∈ s, f i = (r : EReal) := by
  obtain ⟨a, ha0, ha⟩ := hx
  choose g hg0 hg using hf
  exact ⟨a + ∑ i ∈ s, g i, add_nonneg ha0 (Finset.sum_nonneg fun i _ => hg0 i),
    by rw [ha, sum_real s f g hg, EReal.coe_add]⟩

section ScatterReduce
variable {S T U si su : Shape} {φ : FTy} {w : Nat}

/-- A scatter-add of real updates into a real operand, at any start indices (every scatter record). -/
theorem AllReal.scatterAdd {x : FVec Ideal S φ} {upd : FVec Ideal su φ} (hx : AllReal x) (hu : AllReal upd)
    (d : ScatterDims S si su) (idx : IVec si w) : AllReal (Host.scatterAdd (F := Ideal) d x idx upd) := fun i => by
  show ∃ r : ℝ, Ideal.hostScatterAdd d x idx upd i = (r : EReal)
  unfold Ideal.hostScatterAdd
  exact add_sum_isReal _ _ _ (hx i) hu

/-- A scatter-add of nonnegative real updates into a nonnegative real operand, at any start indices: a count. -/
theorem NonnegReal.scatterAdd {x : FVec Ideal S φ} {upd : FVec Ideal su φ} (hx : NonnegReal x) (hu : NonnegReal upd)
    (d : ScatterDims S si su) (idx : IVec si w) : NonnegReal (Host.scatterAdd (F := Ideal) d x idx upd) := fun i => by
  show ∃ r : ℝ, 0 ≤ r ∧ Ideal.hostScatterAdd d x idx upd i = (r : EReal)
  unfold Ideal.hostScatterAdd
  exact add_sum_isNonnegReal _ _ _ (hx i) hu

/-- A sum of real numbers along any axes from a real initial value (every reduce record). -/
theorem AllReal.reduceAdd {axes : List (Fin S.rank)} {x : FVec Ideal S φ} {init : U.Idx → Ideal φ} (hx : AllReal x)
    (hi : AllReal init) (h : S.ReducesTo axes T) (hu : 0 < U.numel) :
    AllReal (Host.reduceAdd (F := Ideal) x init h hu) := fun j => by
  show ∃ r : ℝ, Ideal.hostReduceAdd h x (init (Shape.Idx.first hu)) j = (r : EReal)
  unfold Ideal.hostReduceAdd
  exact add_sum_isReal _ _ _ (hi _) hx

/-- A sum of nonnegative real numbers along any axes from a nonnegative real initial value. -/
theorem NonnegReal.reduceAdd {axes : List (Fin S.rank)} {x : FVec Ideal S φ} {init : U.Idx → Ideal φ}
    (hx : NonnegReal x) (hi : NonnegReal init) (h : S.ReducesTo axes T) (hu : 0 < U.numel) :
    NonnegReal (Host.reduceAdd (F := Ideal) x init h hu) := fun j => by
  show ∃ r : ℝ, 0 ≤ r ∧ Ideal.hostReduceAdd h x (init (Shape.Idx.first hu)) j = (r : EReal)
  unfold Ideal.hostReduceAdd
  exact add_sum_isNonnegReal _ _ _ (hi _) hx

end ScatterReduce

/-! ## A quotient by a nonzero real number, and the reciprocal square root of a positive one -/

section DivRsqrt
variable {S : Shape} {φ : FTy} {x y : FVec Ideal S φ}

/-- A real number over a nonzero real number is their real quotient. -/
theorem AllReal.hostDivf (hx : AllReal x) (hy : NonzeroReal y) : AllReal (Host.divf (F := Ideal) x y) := fun i => by
  obtain ⟨a, ha⟩ := hx i; obtain ⟨b, hb0, hb⟩ := hy i
  refine ⟨a * (1 / b), ?_⟩
  show Ideal.div (x i) (y i) = _
  rw [ha, hb, Ideal.div_coe hb0, EReal.coe_mul]

/-- A nonnegative real number over a positive one is nonnegative. -/
theorem NonnegReal.hostDivf (hx : NonnegReal x) (hy : PosReal y) : NonnegReal (Host.divf (F := Ideal) x y) :=
  fun i => by
    obtain ⟨a, ha0, ha⟩ := hx i; obtain ⟨b, hb0, hb⟩ := hy i
    refine ⟨a * (1 / b), mul_nonneg ha0 (one_div_nonneg.mpr hb0.le), ?_⟩
    show Ideal.div (x i) (y i) = _
    rw [ha, hb, Ideal.div_coe hb0.ne', EReal.coe_mul]

/-- The reciprocal square root of a positive real number r is the positive real number (√r)⁻¹ (at zero it would be +∞,
    below zero a junk value). -/
theorem rsqrt_pos_coe {a : ℝ} (ha : 0 < a) : Ideal.rsqrt (a : EReal) = (((Real.sqrt a)⁻¹ : ℝ) : EReal) := by
  rw [Ideal.rsqrt_coe, if_neg (not_lt.mpr ha.le), if_neg ha.ne']

/-- The host's reciprocal square root of positive real numbers: positive real numbers. -/
theorem PosReal.hostRsqrt (hx : PosReal x) : PosReal (Host.rsqrt (F := Ideal) x) := fun i => by
  obtain ⟨a, ha0, ha⟩ := hx i
  refine ⟨(Real.sqrt a)⁻¹, inv_pos.mpr (Real.sqrt_pos.mpr ha0), ?_⟩
  show Ideal.rsqrt (x i) = _
  rw [ha, rsqrt_pos_coe ha0]

/-- A kernel body's reciprocal square root of positive real numbers, likewise. -/
theorem PosReal.rsqrt (hx : PosReal x) : PosReal (Idealize.ShloMosaic.rsqrt (F := Ideal) x) := fun i => by
  obtain ⟨a, ha0, ha⟩ := hx i
  refine ⟨(Real.sqrt a)⁻¹, inv_pos.mpr (Real.sqrt_pos.mpr ha0), ?_⟩
  show Ideal.rsqrt (x i) = _
  rw [ha, rsqrt_pos_coe ha0]

end DivRsqrt

/-! ## A contraction: a finite sum of products -/

/-- A finite sum of products of real numbers is a real number. -/
theorem sum_mul_isReal {ι : Type*} (s : Finset ι) (f g : ι → EReal) (hf : ∀ k, ∃ r : ℝ, f k = (r : EReal))
    (hg : ∀ k, ∃ r : ℝ, g k = (r : EReal)) : ∃ r : ℝ, ∑ k ∈ s, f k * g k = (r : EReal) := by
  choose a ha using hf
  choose b hb using hg
  exact ⟨∑ k ∈ s, a k * b k, sum_real s _ _ fun k => by rw [ha k, hb k, EReal.coe_mul]⟩

/-- A matrix product written as a sum over the inner coordinate: entry (r, q) of x·w is a real number. -/
theorem AllReal.dot_ix2 {m k n : Nat} {x : (⟨2, ![m, k]⟩ : Shape).Idx → EReal}
    {w : (⟨2, ![k, n]⟩ : Shape).Idx → EReal} (hx : AllReal x) (hw : AllReal w) (r : Fin m) (q : Fin n) :
    ∃ s : ℝ, ∑ t : Fin k, x (ValueIdx.ix2 r t) * w (ValueIdx.ix2 t q) = (s : EReal) :=
  sum_mul_isReal _ _ _ (fun _ => hx _) (fun _ => hw _)

section Contraction
variable {sl sr so : Shape}

/-- A matrix unit's product into an accumulator, over any contraction record. -/
theorem AllReal.matmul {lhs : sl.Idx → EReal} {rhs : sr.Idx → EReal} {acc : so.Idx → EReal} (hl : AllReal lhs)
    (hr : AllReal rhs) (ha : AllReal acc) (d : DotDims sl sr so) : AllReal (Ideal.matmul d lhs rhs acc) := fun j => by
  obtain ⟨a, ha'⟩ := ha j
  obtain ⟨p, hp⟩ := sum_mul_isReal Finset.univ (fun k => lhs (d.lhsIdx j k)) (fun k => rhs (d.rhsIdx j k))
    (fun _ => hl _) (fun _ => hr _)
  exact ⟨a + p, by unfold Ideal.matmul; rw [ha', hp, EReal.coe_add]⟩

/-- A matrix unit's pass with no accumulator, over any contraction record. -/
theorem AllReal.mxuPass {lhs : sl.Idx → EReal} {rhs : sr.Idx → EReal} (hl : AllReal lhs) (hr : AllReal rhs)
    (d : DotDims sl sr so) : AllReal (Ideal.mxuPass d lhs rhs) := fun j => by
  unfold Ideal.mxuPass
  exact sum_mul_isReal Finset.univ (fun k => lhs (d.lhsIdx j k)) (fun k => rhs (d.rhsIdx j k)) (fun _ => hl _)
    (fun _ => hr _)

/-- The host's general contraction, over any contraction record, precision and schedule. -/
theorem AllReal.dotGeneral {φ₁ φ₂ : FTy} {lhs : FVec Ideal sl φ₁} {rhs : FVec Ideal sr φ₂} (hl : AllReal lhs)
    (hr : AllReal rhs) (d : DotDims sl sr so) (prec : Option ContractPrecision) (sched : HostSchedule) :
    AllReal (FloatOps.dotGeneral d prec sched lhs rhs) := fun j => by
  rw [Ideal.dotGeneral_apply]
  exact sum_mul_isReal Finset.univ (fun k => lhs (d.lhsIdx j k)) (fun k => rhs (d.rhsIdx j k)) (fun _ => hl _)
    (fun _ => hr _)

end Contraction

/-! ## The two positivity facts a layer needs

(i) A node's degree is a count of edges plus one for its self-loop, so it is at least one and its reciprocal square root
is a positive real number, whatever the edge list. (ii) A column's variance, the mean of squared deviations from any
real centre, is a nonnegative real number, so after the shift by a positive ε its reciprocal square root is a positive
real number. -/

section Degree
variable {S si su : Shape} {φ : FTy} {w : Nat} {zeros ones' : FVec Ideal S φ} {ones : FVec Ideal su φ}

/-- A count (a scatter-add of nonnegative numbers into nonnegative numbers, at any indices) plus a number at least one
    is at least one. -/
theorem geOneReal_degree (d : ScatterDims S si su) (idx : IVec si w) (hz : NonnegReal zeros) (ho : NonnegReal ones)
    (ho' : GeOneReal ones') :
    GeOneReal (addf (F := Ideal) (Host.scatterAdd (F := Ideal) d zeros idx ones) ones') :=
  (hz.scatterAdd ho d idx).addf_geOne ho'

/-- The reciprocal square root of a degree is a positive real number. -/
theorem posReal_rsqrt_degree (d : ScatterDims S si su) (idx : IVec si w) (hz : NonnegReal zeros) (ho : NonnegReal ones)
    (ho' : GeOneReal ones') :
    PosReal (Host.rsqrt (F := Ideal) (addf (F := Ideal) (Host.scatterAdd (F := Ideal) d zeros idx ones) ones')) :=
  (geOneReal_degree d idx hz ho ho').posReal.hostRsqrt

end Degree

/-- The same with the operands as a layer writes them: zeros and ones are broadcasts of the constant words, under any
    broadcast records. -/
theorem posReal_rsqrt_degree_of_constants {S0 S si su : Shape} {w : Nat} (d : ScatterDims S si su) (idx : IVec si w)
    (dz : Fin S0.rank → Fin S.rank) (bz : S0.BroadcastsInDim S dz) (du : Fin S0.rank → Fin su.rank)
    (bu : S0.BroadcastsInDim su du) :
    PosReal (Host.rsqrt (F := Ideal) (addf (F := Ideal)
      (Host.scatterAdd (F := Ideal) d (broadcastInDim S dz bz (constant (F := Ideal) S0 .f32 0x00000000#32)) idx
        (broadcastInDim su du bu (constant (F := Ideal) S0 .f32 0x3F800000#32)))
      (broadcastInDim S dz bz (constant (F := Ideal) S0 .f32 0x3F800000#32)))) :=
  posReal_rsqrt_degree d idx ((nonnegReal_zero S0).broadcastInDim dz bz)
    ((geOneReal_one S0).posReal.nonnegReal.broadcastInDim du bu) ((geOneReal_one S0).broadcastInDim dz bz)

section Variance
variable {S T U : Shape} {φ : FTy} {axes : List (Fin S.rank)} {a m : FVec Ideal S φ} {init : U.Idx → Ideal φ}
  {n e : FVec Ideal T φ}

/-- A column mean: the sum of real entries from a real initial value, over a nonzero real count, is a real number. -/
theorem allReal_mean (h : S.ReducesTo axes T) (hu : 0 < U.numel) (ha : AllReal a) (hi : AllReal init)
    (hn : NonzeroReal n) : AllReal (Host.divf (F := Ideal) (Host.reduceAdd (F := Ideal) a init h hu) n) :=
  (ha.reduceAdd hi h hu).hostDivf hn

/-- A column variance: the sum of the squared deviations of real entries from any real centre, from a nonnegative
    initial value, over a positive real count, is a nonnegative real number. -/
theorem nonnegReal_variance (h : S.ReducesTo axes T) (hu : 0 < U.numel) (ha : AllReal a) (hm : AllReal m)
    (hi : NonnegReal init) (hn : PosReal n) :
    NonnegReal (Host.divf (F := Ideal)
      (Host.reduceAdd (F := Ideal) (mulf (F := Ideal) (subf (F := Ideal) a m) (subf (F := Ideal) a m)) init h hu) n) :=
  ((ha.subf hm).mulf_self.reduceAdd hi h hu).hostDivf hn

/-- The reciprocal square root of a nonnegative real number shifted by a positive one is a positive real number. -/
theorem posReal_rsqrt_shifted {v : FVec Ideal T φ} (hv : NonnegReal v) (he : PosReal e) :
    PosReal (Host.rsqrt (F := Ideal) (addf (F := Ideal) v e)) := (hv.addf_pos he).hostRsqrt

/-- The reciprocal standard deviation of a column: the reciprocal square root of its variance plus a positive ε is a
    positive real number. -/
theorem posReal_rsqrt_variance_eps (h : S.ReducesTo axes T) (hu : 0 < U.numel) (ha : AllReal a) (hm : AllReal m)
    (hi : NonnegReal init) (hn : PosReal n) (he : PosReal e) :
    PosReal (Host.rsqrt (F := Ideal) (addf (F := Ideal) (Host.divf (F := Ideal)
      (Host.reduceAdd (F := Ideal) (mulf (F := Ideal) (subf (F := Ideal) a m) (subf (F := Ideal) a m)) init h hu) n) e)) :=
  posReal_rsqrt_shifted (nonnegReal_variance h hu ha hm hi hn) he

end Variance

end Cert.GcnReal
-- ==== Proof.LibColSum.lean ====
/-
  A sum down the columns of a matrix, read at a column.

  Summing a [a, b] matrix over its FIRST axis gives a vector of length b whose entry j is Σ_k x[k, j]. Over the
  extended reals this holds of the vector unit's add-reduction whatever order it sums in: addition of extended
  reals is commutative and associative, so the reduction is the finite sum over the dropped axis's coordinates,
  and the source index lying over column j with row k put back is (k, j).
-/
import Idealize.ShloMosaic.PureOps.Ideal.Laws
import Idealize.ShloMosaic.Lib.ValueIdx

noncomputable section

open scoped BigOperators

namespace Idealize.ShloMosaic.ColSum

open Idealize.ShloMosaic Idealize.ShloMosaic.ValueIdx

variable {a b : ℕ}

/-- The source index over column `j` with row `k` inserted on the dropped axis is `(k, j)`. -/
theorem lift_col (h : (⟨2, ![a, b]⟩ : Shape).Reduces [0] ⟨1, ![b]⟩) (j : Fin b) (k : Fin a) :
    h.lift (ix1 j) k = ix2 k j :=
  funext fun c => Fin.ext (by match c with | ⟨0, _⟩ => rfl | ⟨1, _⟩ => rfl)

/-- THE COLUMN SUM: an f32 add-reduction of a [a, b] matrix over its rows, from the zero word, has at column `j`
    the entry Σ_k x[k, j]. The accumulator's side condition is taken as the equation between the two zero words
    that a printed reduction carries. -/
theorem colSum_apply (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  exact Finset.sum_congr rfl fun k _ => congrArg src (lift_col h j k)

end Idealize.ShloMosaic.ColSum

end
-- ==== Proof.BnStats.lean ====
/-
  The batch-norm statistics of a 50000 × 256 matrix, read at a column and shown real.

  The column mean is the column sum over 50000; the column variance is the column sum of the squared deviations
  from that mean, over 50000 minus the degrees of freedom (zero here, so the guard "that count is positive" holds
  and the guarded select returns the quotient); the fused batch norm's scale row is γ · rsqrt (variance + ε) and
  its shift row β − (mean · γ) · rsqrt (variance + ε).  Where the matrix's entries are real numbers the mean is a
  real number, the variance a nonnegative one, variance + ε a positive one and its reciprocal square root a
  positive real number; there the fused form  h · scale + shift  equals  ((h − mean) · rsqrt (variance + ε)) · γ + β.
-/
import proofs.«118705_j84670985273387_1_alg».proof.Proof.KernelHost
import proofs.«118705_j84670985273387_1_alg».proof.Proof.LibBnLaw
import proofs.«118705_j84670985273387_1_alg».proof.Proof.LibRealEntries
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import proofs.«118705_j84670985273387_1_alg».proof.Proof.LibColSum

set_option maxRecDepth 16384

noncomputable section

open scoped BigOperators

namespace Cert.KernelIdeal.BnStats

open Cert.KernelIdeal Cert.KernelIdeal.Gen Cert.KernelIdeal.HostVal Idealize.ShloMosaic Idealize.ShloMosaic.ValueIdx
open Cert.GcnReal

/-! ## Layout reads -/

/-- One row broadcast down n rows reads, at (e, k), the row at k. -/
theorem row_down_apply {α : Type} {n h : ℕ} (v : (⟨2, ![1, h]⟩ : Shape).Idx → α)
    (h2 : (⟨2, ![1, h]⟩ : Shape).BroadcastsInDim ⟨2, ![n, h]⟩ ![0, 1]) (e : Fin n) (k : Fin h) :
    broadcastInDim ⟨2, ![n, h]⟩ ![0, 1] h2 v (ix2 e k) = v (ix2 (0 : Fin 1) k) :=
  broadcastInDim_apply ![0, 1] h2 v (ix2 e k) (ix2 (0 : Fin 1) k) (fun a => by
    match a with
    | ⟨0, _⟩ => rfl
    | ⟨1, _⟩ =>
      show k.val = if h = 1 then 0 else k.val
      split
      · have := k.isLt; omega
      · rfl)

/-- A vector laid out as one row reads, at (u, k), the vector at k. -/
theorem vec_as_row_apply {α : Type} {h : ℕ} (b : (⟨1, ![h]⟩ : Shape).Idx → α)
    (h1 : (⟨1, ![h]⟩ : Shape).BroadcastsInDim ⟨2, ![1, h]⟩ ![1]) (u : Fin 1) (k : Fin h) :
    broadcastInDim ⟨2, ![1, h]⟩ ![1] h1 b (ix2 u k) = b (ix1 k) :=
  broadcastInDim_apply ![1] h1 b (ix2 u k) (ix1 k) (fun a => by
    match a with
    | ⟨0, _⟩ =>
      show k.val = if h = 1 then 0 else k.val
      split
      · have := k.isLt; omega
      · rfl)

/-- A sum down the rows of an n × c matrix from an initial scalar reads, at column j, that scalar plus Σ_r x[r, j]. -/
theorem colSum_apply {n c : ℕ} {u : Shape} (x : (⟨2, ![n, c]⟩ : Shape).Idx → EReal) (init : u.Idx → EReal)
    (h' : (⟨2, ![n, c]⟩ : Shape).ReducesTo [0] ⟨1, ![c]⟩) (hu : 0 < u.numel)
    (h : (⟨2, ![n, c]⟩ : Shape).Reduces [0] ⟨1, ![c]⟩) (j : Fin c) :
    Host.reduceAdd (F := Ideal) (φ := .f32) x init h' hu (ix1 j)
      = init (Shape.Idx.first hu) + ∑ r : Fin n, x (ix2 r j) := by
  refine (hostReduceAdd_apply x init h' hu (ix1 j)).trans ?_
  refine (Ideal.hostReduceAdd_single h' h x _ (ix1 j)).trans ?_
  exact congrArg (init (Shape.Idx.first hu) + ·) (Finset.sum_congr rfl fun r _ => congrArg x (ColSum.lift_col h j r))

/-- The 50000 × 256 matrix's first axis can be summed away. -/
theorem reduces_rows : S50000x256.Reduces [0] S256 := by decide

/-! ## The statistics read at a column -/

/-- The column mean: the column sum over 50000. -/
theorem colMean256_apply (a : S50000x256.Idx → EReal) (j : Fin 256) :
    colMean256 (F := Ideal) a (ix1 j) = Ideal.div (∑ r : Fin 50000, a (ix2 r j)) ((50000 : ℝ) : EReal) := by
  show Ideal.div (Host.reduceAdd (F := Ideal) (φ := .f32) a (constant (F := Ideal) S_ .f32 0x00000000#32)
      reducesTo_S50000x256_S256_d0 h_S_ (ix1 j)) (Ideal.ofBits .f32 0x47435000#32) = _
  rw [colSum_apply a _ _ _ reduces_rows j, constant_apply, Ideal.ofBits_zero_f32, zero_add, ofBits_50000]

/-- The deviations from the column means, as the variance's chain computes them: the column sums over 50000 laid
    out as one row, read down the 50000 rows, subtracted. -/
def dev (a : S50000x256.Idx → EReal) : S50000x256.Idx → EReal :=
  subf (F := Ideal) (φ := .f32) a
    (broadcastInDim S50000x256 ![0, 1] bcast_S1x256_S50000x256_0_1
      (Host.divf (F := Ideal) (φ := .f32)
        (broadcastInDim S1x256 ![1] bcast_S256_S1x256_1
          (Host.reduceAdd (F := Ideal) (φ := .f32) a (constant (F := Ideal) S_ .f32 0x00000000#32)
            reducesTo_S50000x256_S256_d0 h_S_))
        (broadcastInDim S1x256 ![] bcast_S_S1x256 (constant (F := Ideal) S_ .f32 0x47435000#32))))

/-- A deviation is the entry minus its column's mean (the same mean the mean's own chain computes). -/
theorem dev_apply (a : S50000x256.Idx → EReal) (r : Fin 50000) (j : Fin 256) :
    dev a (ix2 r j) = a (ix2 r j) - colMean256 (F := Ideal) a (ix1 j) := by
  unfold dev
  rw [subf_apply, row_down_apply, hostDivf_apply, vec_as_row_apply]
  rfl

/-- With zero degrees of freedom the guard holds, and the variance is the guarded quotient: the column sums of the
    squared deviations over (50000 − 0). -/
theorem colVar256_eq (a : S50000x256.Idx → EReal) :
    colVar256 (F := Ideal) a (constantI S_ 32 0#32)
      = Host.divf (F := Ideal) (φ := .f32)
          (Host.reduceAdd (F := Ideal) (φ := .f32) (mulf (F := Ideal) (φ := .f32) (dev a) (dev a))
            (constant (F := Ideal) S_ .f32 0x00000000#32) reducesTo_S50000x256_S256_d0 h_S_)
          (broadcastInDim S256 ![] bcast_S_S256
            (subf (F := Ideal) (φ := .f32) (constant (F := Ideal) S_ .f32 0x47435000#32)
              (sitofp (F := Ideal) .f32 (constantI S_ 32 0#32)))) :=
  select_guard (S0 := S_) (T := S256) ![] bcast_S_S256 _ _

/-- The column variance: the column sum of the squared deviations from the column mean, over 50000. -/
theorem colVar256_apply (a : S50000x256.Idx → EReal) (j : Fin 256) :
    colVar256 (F := Ideal) a (constantI S_ 32 0#32) (ix1 j)
      = Ideal.div (∑ r : Fin 50000, (a (ix2 r j) - colMean256 (F := Ideal) a (ix1 j))
          * (a (ix2 r j) - colMean256 (F := Ideal) a (ix1 j))) ((50000 : ℝ) : EReal) := by
  have hs : (∑ r : Fin 50000, mulf (F := Ideal) (φ := .f32) (dev a) (dev a) (ix2 r j))
      = ∑ r : Fin 50000, (a (ix2 r j) - colMean256 (F := Ideal) a (ix1 j))
          * (a (ix2 r j) - colMean256 (F := Ideal) a (ix1 j)) :=
    Finset.sum_congr rfl fun r _ => by rw [mulf_apply, dev_apply]
  refine (congrFun (colVar256_eq a) (ix1 j)).trans ?_
  refine (hostDivf_apply _ _ (ix1 j)).trans ?_
  rw [colSum_apply _ _ _ _ reduces_rows j, constant_apply, Ideal.ofBits_zero_f32, zero_add, hs,
    broadcastInDim_scalar_apply, rows_sub_ddof]

/-- The scale row: γ times the reciprocal root of (variance + ε). -/
theorem bnScale_apply (v γ : S256.Idx → EReal) (j : Fin 256) :
    bnScale (F := Ideal) v γ (ix2 (0 : Fin 1) j)
      = γ (ix1 j) * Ideal.rsqrt (v (ix1 j) + Ideal.ofBits .f32 0x3727C5AC#32) := by
  show shapeCast S1x256 (mulf (F := Ideal) (φ := .f32) γ (Host.rsqrt (F := Ideal) (φ := .f32)
      (addf (F := Ideal) (φ := .f32) v (broadcastInDim S256 ![] bcast_S_S256 (constant (F := Ideal) S_ .f32 0x3727C5AC#32)))))
    shapeCasts_S256_S1x256 (ix2 (0 : Fin 1) j) = _
  rw [shapeCast_a_1a_apply]
  rfl

/-- The shift row: β minus (mean times γ) times the reciprocal root of (variance + ε). -/
theorem bnShift_apply (μ v γ β : S256.Idx → EReal) (j : Fin 256) :
    bnShift (F := Ideal) μ v γ β (ix2 (0 : Fin 1) j)
      = β (ix1 j) - (μ (ix1 j) * γ (ix1 j)) * Ideal.rsqrt (v (ix1 j) + Ideal.ofBits .f32 0x3727C5AC#32) := by
  show shapeCast S1x256 (subf (F := Ideal) (φ := .f32) β (mulf (F := Ideal) (φ := .f32) (mulf (F := Ideal) (φ := .f32) μ γ)
      (Host.rsqrt (F := Ideal) (φ := .f32)
        (addf (F := Ideal) (φ := .f32) v (broadcastInDim S256 ![] bcast_S_S256 (constant (F := Ideal) S_ .f32 0x3727C5AC#32))))))
    shapeCasts_S256_S1x256 (ix2 (0 : Fin 1) j) = _
  rw [shapeCast_a_1a_apply]
  rfl

/-! ## Where the entries are real numbers -/

/-- A real number over 50000 is a real number. -/
theorem div_rows_coe (x : ℝ) : Ideal.div (x : EReal) ((50000 : ℝ) : EReal) = ((x / 50000 : ℝ) : EReal) := by
  rw [Ideal.div_coe (by norm_num : (50000 : ℝ) ≠ 0), ← EReal.coe_mul]
  exact congrArg _ (by ring)

/-- The column means of a matrix of real numbers are real numbers. -/
theorem allReal_colMean256 {a : S50000x256.Idx → EReal} (ha : AllReal a) :
    AllReal (S := S256) (colMean256 (F := Ideal) a) := by
  intro i
  obtain ⟨q, rfl⟩ : ∃ q : Fin 256, i = ix1 q := ⟨i 0, eq_ix1 i⟩
  choose f hf using ha
  rw [colMean256_apply, sum_real Finset.univ _ (fun r => f (ix2 r q)) (fun r => hf _), div_rows_coe]
  exact ⟨_, rfl⟩

/-- The column variances of a matrix of real numbers are nonnegative real numbers: a sum of squares over 50000. -/
theorem nonnegReal_colVar256 {a : S50000x256.Idx → EReal} (ha : AllReal a) :
    NonnegReal (S := S256) (colVar256 (F := Ideal) a (constantI S_ 32 0#32)) := by
  intro i
  obtain ⟨q, rfl⟩ : ∃ q : Fin 256, i = ix1 q := ⟨i 0, eq_ix1 i⟩
  obtain ⟨m, hm⟩ := allReal_colMean256 ha (ix1 q)
  choose f hf using ha
  rw [colVar256_apply, hm, sum_real Finset.univ _ (fun r => (f (ix2 r q) - m) * (f (ix2 r q) - m))
    (fun r => by rw [hf, ← EReal.coe_sub, ← EReal.coe_mul]), div_rows_coe]
  exact ⟨_, div_nonneg (Finset.sum_nonneg fun r _ => mul_self_nonneg _) (by norm_num), rfl⟩

/-- The reciprocal square root of a positive real number is a positive real number. -/
theorem rsqrt_coe_pos {x : EReal} (hx : ∃ r : ℝ, 0 < r ∧ x = (r : EReal)) :
    ∃ s : ℝ, 0 < s ∧ Ideal.rsqrt x = (s : EReal) := by
  obtain ⟨r, hr, rfl⟩ := hx
  refine ⟨(Real.sqrt r)⁻¹, inv_pos.mpr (Real.sqrt_pos.mpr hr), ?_⟩
  rw [Ideal.rsqrt_coe, if_neg (not_lt.mpr hr.le), if_neg hr.ne']

/-- Variance plus ε is a positive real number, so its reciprocal square root is one too. -/
theorem rsqrt_var_eps_pos {a : S50000x256.Idx → EReal} (ha : AllReal a) (j : Fin 256) :
    ∃ s : ℝ, 0 < s ∧ Ideal.rsqrt (colVar256 (F := Ideal) a (constantI S_ 32 0#32) (ix1 j)
      + Ideal.ofBits .f32 0x3727C5AC#32) = (s : EReal) := by
  obtain ⟨w, hw0, hw⟩ := nonnegReal_colVar256 ha (ix1 j)
  obtain ⟨e, he0, he⟩ := ofBits_eps_pos
  exact rsqrt_coe_pos ⟨w + e, by linarith, by rw [hw, he, EReal.coe_add]⟩

/-! ## The fused batch norm is the plain one -/

/-- Entry by entry, for real entries, scales and offsets: the entry times the scale row plus the shift row is the
    normalized entry times γ plus β, under a maximum with any number. -/
theorem fused_eq_plain {a : S50000x256.Idx → EReal} {γ β : S256.Idx → EReal} (ha : AllReal a) (hγ : AllReal γ)
    (hβ : AllReal β) (p : Fin 50000) (q : Fin 256) (z : EReal) :
    max (a (ix2 p q) * bnScale (F := Ideal) (colVar256 (F := Ideal) a (constantI S_ 32 0#32)) γ (ix2 (0 : Fin 1) q)
        + bnShift (F := Ideal) (colMean256 (F := Ideal) a) (colVar256 (F := Ideal) a (constantI S_ 32 0#32)) γ β
            (ix2 (0 : Fin 1) q)) z
      = max (((a (ix2 p q) - colMean256 (F := Ideal) a (ix1 q))
            * Ideal.rsqrt (colVar256 (F := Ideal) a (constantI S_ 32 0#32) (ix1 q) + Ideal.ofBits .f32 0x3727C5AC#32))
          * γ (ix1 q) + β (ix1 q)) z := by
  rw [bnScale_apply, bnShift_apply]
  obtain ⟨s, _, hs⟩ := rsqrt_var_eps_pos ha q
  exact bn_relu_law_of_real z (ha _) (allReal_colMean256 ha _) ⟨s, hs⟩ (hγ _) (hβ _)

/-- Rectified (the maximum with zero), that common value is a nonnegative real number. -/
theorem plain_relu_nonneg_real {a : S50000x256.Idx → EReal} {γ β : S256.Idx → EReal} (ha : AllReal a) (hγ : AllReal γ)
    (hβ : AllReal β) (p : Fin 50000) (q : Fin 256) :
    ∃ r : ℝ, 0 ≤ r ∧ max (((a (ix2 p q) - colMean256 (F := Ideal) a (ix1 q))
            * Ideal.rsqrt (colVar256 (F := Ideal) a (constantI S_ 32 0#32) (ix1 q) + Ideal.ofBits .f32 0x3727C5AC#32))
          * γ (ix1 q) + β (ix1 q)) 0 = (r : EReal) := by
  obtain ⟨s, _, hs⟩ := rsqrt_var_eps_pos ha q
  obtain ⟨x, hx⟩ := ha (ix2 p q)
  obtain ⟨m, hm⟩ := allReal_colMean256 ha (ix1 q)
  obtain ⟨g, hg⟩ := hγ (ix1 q)
  obtain ⟨b, hb⟩ := hβ (ix1 q)
  refine ⟨max ((x - m) * s * g + b) 0, le_max_right _ _, ?_⟩
  rw [hs, hx, hm, hg, hb, ← EReal.coe_sub, ← EReal.coe_mul, ← EReal.coe_mul, ← EReal.coe_add, ← EReal.coe_zero, max_coe]

/-- The same for the fused form: the fused batch norm with rectifier yields nonnegative real numbers. -/
theorem fused_relu_nonneg_real {a : S50000x256.Idx → EReal} {γ β : S256.Idx → EReal} (ha : AllReal a) (hγ : AllReal γ)
    (hβ : AllReal β) (p : Fin 50000) (q : Fin 256) :
    ∃ r : ℝ, 0 ≤ r ∧ max (a (ix2 p q) * bnScale (F := Ideal) (colVar256 (F := Ideal) a (constantI S_ 32 0#32)) γ (ix2 (0 : Fin 1) q)
        + bnShift (F := Ideal) (colMean256 (F := Ideal) a) (colVar256 (F := Ideal) a (constantI S_ 32 0#32)) γ β
            (ix2 (0 : Fin 1) q)) 0 = (r : EReal) := by
  rw [fused_eq_plain ha hγ hβ p q 0]
  exact plain_relu_nonneg_real ha hγ hβ p q

/-- The same at an arbitrary entry i of the matrix, the column being i's second coordinate. -/
theorem fused_eq_plain_at {a : S50000x256.Idx → EReal} {γ β : S256.Idx → EReal} (ha : AllReal a) (hγ : AllReal γ)
    (hβ : AllReal β) (i : S50000x256.Idx) (z : EReal) :
    max (a i * bnScale (F := Ideal) (colVar256 (F := Ideal) a (constantI S_ 32 0#32)) γ (ix2 (0 : Fin 1) (i 1))
        + bnShift (F := Ideal) (colMean256 (F := Ideal) a) (colVar256 (F := Ideal) a (constantI S_ 32 0#32)) γ β
            (ix2 (0 : Fin 1) (i 1))) z
      = max (((a i - colMean256 (F := Ideal) a (ix1 (i 1)))
            * Ideal.rsqrt (colVar256 (F := Ideal) a (constantI S_ 32 0#32) (ix1 (i 1)) + Ideal.ofBits .f32 0x3727C5AC#32))
          * γ (ix1 (i 1)) + β (ix1 (i 1))) z := by
  obtain ⟨p, q, rfl⟩ : ∃ (p : Fin 50000) (q : Fin 256), i = ix2 p q := ⟨i 0, i 1, eq_ix2 i⟩
  exact fused_eq_plain ha hγ hβ p q z

end Cert.KernelIdeal.BnStats

end
-- ==== Proof.LibDenseLayer.lean ====
/-
  A host-side dense layer read at an entry, on the extended reals.

  jnp's  x @ W + b  lowers to a dot_general, the bias vector broadcast to a one-row matrix and then down the rows, and an
  add; a relu lowers to a maximum against the zero scalar broadcast to the whole shape. Read at entry (e, k):
  the broadcast bias is b[k] whatever the row; the zero splat is the extended real 0; the layer is Σ_j x[e,j]·W[j,k] + b[k].
-/
import Idealize.ShloMosaic.PureOps.Ideal.Laws
import Idealize.ShloMosaic.Lib.ValueIdx
import Idealize.ShloMosaic.Lib.Pipeline.Value
import proofs.«118705_j84670985273387_1_alg».proof.Proof.LibDotInnerHost

noncomputable section

open scoped BigOperators

namespace Idealize.ShloMosaic.DenseLayer

open Idealize.ShloMosaic Idealize.ShloMosaic.ValueIdx Idealize.ShloMosaic.DotInner

variable {n d h : ℕ}

/-- A vector broadcast to one row and then down n rows reads, at (e, k), the vector at k. -/
theorem bias_apply (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    broadcastInDim ⟨2, ![n, h]⟩ ![0, 1] h2 (broadcastInDim ⟨2, ![1, h]⟩ ![1] h1 b) (ix2 e k) = b (ix1 k) := by
  rw [broadcastInDim_apply ![0, 1] h2 _ (ix2 e k) (ix2 (0 : Fin 1) k) (fun a => by
        match a with
        | ⟨0, _⟩ => rfl
        | ⟨1, _⟩ =>
          show k.val = if h = 1 then 0 else k.val
          split
          · have := k.isLt; omega
          · rfl)]
  exact broadcastInDim_apply ![1] h1 b (ix2 (0 : Fin 1) k) (ix1 k) (fun a => by
        match a with
        | ⟨0, _⟩ =>
          show k.val = if h = 1 then 0 else k.val
          split
          · have := k.isLt; omega
          · rfl)

/-- The zero scalar broadcast to a whole shape reads the extended real 0 everywhere. -/
theorem zero_splat_apply {t : Shape} (h0 : (⟨0, ![]⟩ : Shape).BroadcastsInDim t ![]) (i : t.Idx) :
    broadcastInDim t ![] h0 (constant (F := Ideal) ⟨0, ![]⟩ .f32 0x00000000#32) i = 0 := by
  rw [broadcastInDim_apply ![] h0 _ i ix0 (fun a => a.elim0), constant_apply]
  exact Ideal.ofBits_zero_f32

/-- THE LAYER: a rows-by-columns host product plus the broadcast bias, at entry (e, k). -/
theorem dense_apply {D : DotDims ⟨2, ![n, d]⟩ ⟨2, ![d, h]⟩ ⟨2, ![n, h]⟩} (hD : Plain D)
    (x : (⟨2, ![n, d]⟩ : Shape).Idx → EReal) (W : (⟨2, ![d, h]⟩ : Shape).Idx → EReal) (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    addf (F := Ideal) (φ := .f32) (Host.dotGeneral (F := Ideal) (φ₁ := .f32) (φ₂ := .f32) D none x W)
        (broadcastInDim ⟨2, ![n, h]⟩ ![0, 1] h2 (broadcastInDim ⟨2, ![1, h]⟩ ![1] h1 b)) (ix2 e k)
      = (∑ j : Fin d, x (ix2 e j) * W (ix2 j k)) + b (ix1 k) := by
  rw [addf_apply, hD.dotGeneral, bias_apply]

end Idealize.ShloMosaic.DenseLayer

end
-- ==== Proof.BnPlainRead.lean ====
/-
  The reference's batch norm and positive part, read at an entry. At row p and column q the plain batch norm of an
  array a with column means mu, column variances v, gamma and beta is
  ((a(p,q) − mu(q)) · rsqrt(v(q) + epsilon)) · gamma(q) + beta(q): each per-column vector reaches the entry through a
  broadcast to one row and then down the rows, and the epsilon through a broadcast of a scalar. The positive part
  is the maximum with zero.
-/
import proofs.«118705_j84670985273387_1_alg».proof.Proof.RefHost
import proofs.«118705_j84670985273387_1_alg».proof.Proof.LibDenseLayer
import Idealize.ShloMosaic.PureOps.Ideal.Laws
import Idealize.ShloMosaic.Lib.ValueIdx
import Idealize.ShloMosaic.Lib.Pipeline.Value

set_option maxRecDepth 16384

noncomputable section

namespace Cert.ReferenceIdeal.BnRead

open Cert.ReferenceIdeal Cert.ReferenceIdeal.Gen Cert.ReferenceIdeal.HostVal
open Idealize.ShloMosaic Idealize.ShloMosaic.ValueIdx Idealize.ShloMosaic.DenseLayer

/-- A scalar broadcast to a vector reads the scalar everywhere. -/
theorem splat_vec_apply (x : (⟨S_, .f32⟩ : BufTy).Contents (Elt Ideal)) (q : Fin 256) :
    broadcastInDim S256 ![] bcast_S_S256 x (ix1 q) = x ix0 :=
  broadcastInDim_apply ![] bcast_S_S256 x (ix1 q) ix0 (fun a => a.elim0)

/-- The plain batch norm followed by the positive part, at entry (p, q). -/
theorem relu_bnPlain_apply (a : (⟨S50000x256, .f32⟩ : BufTy).Contents (Elt Ideal))
    (μ v γ β : (⟨S256, .f32⟩ : BufTy).Contents (Elt Ideal)) (p : Fin 50000) (q : Fin 256) :
    relu256 (F := Ideal) (bnPlain (F := Ideal) a μ v γ β) (ix2 p q)
      = max ((((a (ix2 p q) - μ (ix1 q)) * Ideal.rsqrt (v (ix1 q) + Ideal.ofBits .f32 0x3727C5AC#32)) * γ (ix1 q)) + β (ix1 q)) 0 := by
  unfold relu256 bnPlain
  dsimp only
  rw [maximumf_apply, zero_splat_apply, addf_apply, mulf_apply, mulf_apply, subf_apply,
    bias_apply, bias_apply, bias_apply, bias_apply]
  show max ((((a (ix2 p q) - μ (ix1 q)) * Ideal.rsqrt (addf (F := Ideal) v (broadcastInDim S256 ![] bcast_S_S256 (constant (F := Ideal) S_ .f32 0x3727C5AC#32)) (ix1 q))) * γ (ix1 q)) + β (ix1 q)) 0 = _
  rw [addf_apply, splat_vec_apply, constant_apply]

end Cert.ReferenceIdeal.BnRead

end
-- ==== Proof.RealLayer.lean ====
/-
  EVERY ENTRY OF A GRAPH-CONVOLUTION LAYER IS A REAL NUMBER, at this program's own functions.

  For an arbitrary edge list (two integer rows, the edges' sources and targets): a node's weight, the reciprocal
  square root of its degree plus one, is a positive real number; an edge's coefficient, the product of the weights at
  its two ends, is a positive real number; and the layer's output — the projected rows gathered at the sources, scaled
  by the coefficients and summed into the targets, plus each node's own row scaled by its squared weight, plus the
  bias — is an array of real numbers when the projected rows and the bias are. Then the statistics a batch norm
  takes of such an array: its column means are real numbers and its column variances are nonnegative real numbers.
  Each proof follows the function's expression tree, innermost operation first.
-/
import proofs.«118705_j84670985273387_1_alg».proof.Proof.KernelHost
import proofs.«118705_j84670985273387_1_alg».proof.Proof.LibRealEntries

noncomputable section

namespace Cert.KernelIdeal.RealLayer

open Cert.KernelIdeal Cert.KernelIdeal.HostVal Cert.GcnReal Idealize.ShloMosaic

/-- An integer row of the edge list. -/
abbrev EdgeRow : Type := (⟨S800000, .i32⟩ : BufTy).Contents (Elt Ideal)

/-! ## Node weights and edge coefficients -/

/-- A node's weight, the reciprocal square root of its degree plus one, is a positive real number, whatever the
    edges' targets. -/
theorem posReal_degInv (dst : EdgeRow) : PosReal (degInv (F := Ideal) dst) := by
  unfold degInv
  exact posReal_rsqrt_degree_of_constants _ _ _ _ _ _

/-- An edge's coefficient is a positive real number when the node weights are: it is a product of two of them, each
    read at an end of the edge (wherever the ends point). -/
theorem posReal_edgeCoef {dv : (⟨S50000, .f32⟩ : BufTy).Contents (Elt Ideal)} (hdv : PosReal dv) (src dst : EdgeRow) :
    PosReal (edgeCoef (F := Ideal) dv src dst) := by
  unfold edgeCoef
  exact (hdv.gather _ _).mulf (hdv.gather _ _)

/-- An edge's coefficient, from the weights of this edge list's own nodes, is a positive real number. -/
theorem posReal_edgeCoef_degInv (src dst : EdgeRow) :
    PosReal (edgeCoef (F := Ideal) (degInv (F := Ideal) dst) src dst) :=
  posReal_edgeCoef (posReal_degInv dst) src dst

theorem allReal_edgeCoef_degInv (src dst : EdgeRow) :
    AllReal (edgeCoef (F := Ideal) (degInv (F := Ideal) dst) src dst) :=
  (posReal_edgeCoef_degInv src dst).allReal

/-! ## A layer's output -/

/-- Width 256: real projected rows, real node weights, real coefficients and a real bias give real output rows. -/
theorem allReal_aggBias256 {h : (⟨S50000x256, .f32⟩ : BufTy).Contents (Elt Ideal)}
    {dv : (⟨S50000, .f32⟩ : BufTy).Contents (Elt Ideal)} {cf : (⟨S800000, .f32⟩ : BufTy).Contents (Elt Ideal)}
    {b : (⟨S256, .f32⟩ : BufTy).Contents (Elt Ideal)} (hh : AllReal h) (hdv : AllReal dv) (hcf : AllReal cf)
    (hb : AllReal b) (src dst : EdgeRow) : AllReal (aggBias256 (F := Ideal) h src dst dv cf b) := by
  unfold aggBias256
  exact ((((nonnegReal_zero S_).allReal.broadcastInDim _ _).scatterAdd
      ((hh.gather _ _).mulf ((hcf.broadcastInDim _ _).broadcastInDim _ _)) _ _).addf
      (hh.mulf (((hdv.mulf hdv).broadcastInDim _ _).broadcastInDim _ _))).addf
    ((hb.broadcastInDim _ _).broadcastInDim _ _)

/-- Width 64, likewise. -/
theorem allReal_aggBias64 {h : (⟨S50000x64, .f32⟩ : BufTy).Contents (Elt Ideal)}
    {dv : (⟨S50000, .f32⟩ : BufTy).Contents (Elt Ideal)} {cf : (⟨S800000, .f32⟩ : BufTy).Contents (Elt Ideal)}
    {b : (⟨S64, .f32⟩ : BufTy).Contents (Elt Ideal)} (hh : AllReal h) (hdv : AllReal dv) (hcf : AllReal cf)
    (hb : AllReal b) (src dst : EdgeRow) : AllReal (aggBias64 (F := Ideal) h src dst dv cf b) := by
  unfold aggBias64
  exact ((((nonnegReal_zero S_).allReal.broadcastInDim _ _).scatterAdd
      ((hh.gather _ _).mulf ((hcf.broadcastInDim _ _).broadcastInDim _ _)) _ _).addf
      (hh.mulf (((hdv.mulf hdv).broadcastInDim _ _).broadcastInDim _ _))).addf
    ((hb.broadcastInDim _ _).broadcastInDim _ _)

/-- Width 256 at this edge list's own weights and coefficients. -/
theorem allReal_aggBias256_layer {h : (⟨S50000x256, .f32⟩ : BufTy).Contents (Elt Ideal)}
    {b : (⟨S256, .f32⟩ : BufTy).Contents (Elt Ideal)} (hh : AllReal h) (hb : AllReal b) (src dst : EdgeRow) :
    AllReal (aggBias256 (F := Ideal) h src dst (degInv (F := Ideal) dst)
      (edgeCoef (F := Ideal) (degInv (F := Ideal) dst) src dst) b) :=
  allReal_aggBias256 hh (posReal_degInv dst).allReal (allReal_edgeCoef_degInv src dst) hb src dst

/-- Width 64 at this edge list's own weights and coefficients. -/
theorem allReal_aggBias64_layer {h : (⟨S50000x64, .f32⟩ : BufTy).Contents (Elt Ideal)}
    {b : (⟨S64, .f32⟩ : BufTy).Contents (Elt Ideal)} (hh : AllReal h) (hb : AllReal b) (src dst : EdgeRow) :
    AllReal (aggBias64 (F := Ideal) h src dst (degInv (F := Ideal) dst)
      (edgeCoef (F := Ideal) (degInv (F := Ideal) dst) src dst) b) :=
  allReal_aggBias64 hh (posReal_degInv dst).allReal (allReal_edgeCoef_degInv src dst) hb src dst

/-! ## Column statistics -/

/-- Where the predicate holds everywhere, a selection of nonnegative real numbers (whatever the branch not taken holds)
    is an array of nonnegative real numbers. -/
theorem nonnegReal_select_left {S : Shape} {a b : S.Idx → EReal} (c : IVec S 1) (hc : ∀ i, c i = 1#1)
    (ha : NonnegReal a) : NonnegReal (select c a b) := by
  rw [select_eq_left c a b hc]; exact ha

/-- The row count less zero degrees of freedom, 50000 − 0, is a positive real number. -/
theorem posReal_count : PosReal (subf (F := Ideal) (constant (F := Ideal) S_ .f32 0x47435000#32)
    (sitofp (F := Ideal) .f32 (constantI S_ 32 0#32))) :=
  (posReal_rows S_).subf_zero (sitofp_zero_apply .f32)

/-- The column means of an array of real numbers are real numbers. -/
theorem allReal_colMean256 {a : (⟨S50000x256, .f32⟩ : BufTy).Contents (Elt Ideal)} (ha : AllReal a) :
    AllReal (colMean256 (F := Ideal) a) := by
  unfold colMean256
  exact allReal_mean _ _ ha (nonnegReal_zero S_).allReal ((posReal_rows S_).broadcastInDim _ _).nonzeroReal

/-- The column variances (zero degrees of freedom) of an array of real numbers are nonnegative real numbers: the count
    50000 is positive, so the selection takes the quotient, never the junk value, and the quotient is a sum of squares
    over a positive number. -/
theorem nonnegReal_colVar256 {a : (⟨S50000x256, .f32⟩ : BufTy).Contents (Elt Ideal)} (ha : AllReal a) :
    NonnegReal (colVar256 (F := Ideal) a (constantI S_ 32 0#32)) := by
  unfold colVar256
  exact nonnegReal_select_left _
    (broadcastInDim_eq_one _ _ _ (cmpf_ogt_pos_zero posReal_count (fun _ => Ideal.ofBits_zero_f32)))
    (nonnegReal_variance _ _ ha
      ((((ha.reduceAdd (nonnegReal_zero S_).allReal _ _).broadcastInDim _ _).hostDivf
        ((posReal_rows S_).broadcastInDim _ _).nonzeroReal).broadcastInDim _ _)
      (nonnegReal_zero S_) (posReal_count.broadcastInDim _ _))

end Cert.KernelIdeal.RealLayer
-- ==== Proof.GcnBridge.lean ====
/-
  The two statements of the network agree on real inputs. The host arithmetic between the products is the same
  function on both sides; a host dot_general is the sum over the inner index that a product region leaves; and the
  fused batch norm h·(gamma·s) + (beta − (mean·gamma)·s) equals the plain ((h − mean)·s)·gamma + beta wherever h, mean,
  s, gamma and beta are real numbers — which they are, layer after layer: real features times real weights sum to
  reals; the aggregate of real rows with real (positive) degree weights plus a real bias is real; its column means
  are real, its column variances nonnegative reals, so s is a positive real; and the batch norm's positive part is
  a nonnegative real. (On the extended reals the law fails at infinities, so this is where the inputs' finiteness is
  used; the third layer and the log-softmax need none.)
-/
import proofs.«118705_j84670985273387_1_alg».proof.Proof.GcnSpec
import proofs.«118705_j84670985273387_1_alg».proof.Proof.RefSpec
import proofs.«118705_j84670985273387_1_alg».proof.Proof.HostAgree
import proofs.«118705_j84670985273387_1_alg».proof.Proof.DotBridge
import proofs.«118705_j84670985273387_1_alg».proof.Proof.BnStats
import proofs.«118705_j84670985273387_1_alg».proof.Proof.BnPlainRead
import proofs.«118705_j84670985273387_1_alg».proof.Proof.RealLayer

set_option maxRecDepth 16384

noncomputable section

namespace Cert.GcnBridge

open Idealize.ShloMosaic Idealize.ShloMosaic.ValueIdx Cert.GcnReal
open Cert.KernelIdeal (S50000x512 S512x256 S256 S256x256 S256x64 S64 S50000x256 S50000x64 S2x800000 S_ S1x256)

/-! ## The shared host arithmetic -/

theorem conv256_eq (h : S50000x256.Idx → EReal) (src dst : Cert.GcnSpec.EdgeRow) (b : S256.Idx → EReal) :
    Cert.RefSpec.conv256 h src dst b = Cert.GcnSpec.conv256 h src dst b := by
  unfold Cert.RefSpec.conv256 Cert.GcnSpec.conv256
  rw [Cert.HostAgree.aggBias256_eq, Cert.HostAgree.degInv_eq, Cert.HostAgree.edgeCoef_eq]

theorem conv64_eq (h : S50000x64.Idx → EReal) (src dst : Cert.GcnSpec.EdgeRow) (b : S64.Idx → EReal) :
    Cert.RefSpec.conv64 h src dst b = Cert.GcnSpec.conv64 h src dst b := by
  unfold Cert.RefSpec.conv64 Cert.GcnSpec.conv64
  rw [Cert.HostAgree.aggBias64_eq, Cert.HostAgree.degInv_eq, Cert.HostAgree.edgeCoef_eq]

/-! ## Reality, layer by layer -/

theorem real_prodA {x : S50000x512.Idx → EReal} {w : S512x256.Idx → EReal} (hx : AllReal x) (hw : AllReal w) :
    AllReal (Cert.GcnSpec.prodA x w) := fun i => AllReal.dot_ix2 hx hw (i 0) (i 1)
theorem real_prodB {x : S50000x256.Idx → EReal} {w : S256x256.Idx → EReal} (hx : AllReal x) (hw : AllReal w) :
    AllReal (Cert.GcnSpec.prodB x w) := fun i => AllReal.dot_ix2 hx hw (i 0) (i 1)

theorem real_conv256 {h : S50000x256.Idx → EReal} {b : S256.Idx → EReal} (hh : AllReal h) (hb : AllReal b)
    (src dst : Cert.GcnSpec.EdgeRow) : AllReal (Cert.GcnSpec.conv256 h src dst b) := by
  unfold Cert.GcnSpec.conv256
  exact Cert.KernelIdeal.RealLayer.allReal_aggBias256_layer hh hb src dst

theorem real_fusedBn {a : S50000x256.Idx → EReal} {γ β : S256.Idx → EReal} (ha : AllReal a) (hγ : AllReal γ) (hβ : AllReal β) :
    AllReal (Cert.GcnSpec.fusedBn a γ β) := fun i => by
  obtain ⟨p, q, rfl⟩ : ∃ (p : Fin 50000) (q : Fin 256), i = ix2 p q := ⟨i 0, i 1, eq_ix2 i⟩
  obtain ⟨r, -, hr⟩ := Cert.KernelIdeal.BnStats.fused_relu_nonneg_real ha hγ hβ p q
  exact ⟨r, hr⟩

/-! ## The batch norm: plain is fused on reals -/

theorem plainBn_eq {a : S50000x256.Idx → EReal} {γ β : S256.Idx → EReal} (ha : AllReal a) (hγ : AllReal γ) (hβ : AllReal β) :
    Cert.RefSpec.plainBn a γ β = Cert.GcnSpec.fusedBn a γ β := by
  funext i
  obtain ⟨p, q, rfl⟩ : ∃ (p : Fin 50000) (q : Fin 256), i = ix2 p q := ⟨i 0, i 1, eq_ix2 i⟩
  unfold Cert.RefSpec.plainBn
  rw [Cert.HostAgree.colMean256_eq, Cert.HostAgree.colVar256_eq, Cert.ReferenceIdeal.BnRead.relu_bnPlain_apply]
  exact (Cert.KernelIdeal.BnStats.fused_eq_plain ha hγ hβ p q 0).symm

/-! ## The networks -/

theorem logits_eq {x : S50000x512.Idx → EReal} (ei : (⟨S2x800000, .i32⟩ : BufTy).Contents (Elt Ideal))
    {W1 : S512x256.Idx → EReal} {b1 : S256.Idx → EReal} {W2 : S256x256.Idx → EReal} {b2 : S256.Idx → EReal}
    (W3 : S256x64.Idx → EReal) (b3 : S64.Idx → EReal) {γ1 β1 γ2 β2 : S256.Idx → EReal}
    (hx : AllReal x) (hW1 : AllReal W1) (hb1 : AllReal b1) (hW2 : AllReal W2) (hb2 : AllReal b2)
    (hγ1 : AllReal γ1) (hβ1 : AllReal β1) (hγ2 : AllReal γ2) (hβ2 : AllReal β2) :
    Cert.RefSpec.refLogits x ei W1 b1 W2 b2 W3 b3 γ1 β1 γ2 β2 = Cert.GcnSpec.kernelLogits x ei W1 b1 W2 b2 W3 b3 γ1 β1 γ2 β2 := by
  unfold Cert.RefSpec.refLogits Cert.GcnSpec.kernelLogits
  dsimp only
  rw [Cert.HostAgree.edgeRow0_eq, Cert.HostAgree.edgeRow1_eq]
  have h1 := real_conv256 (real_prodA hx hW1) hb1 (Cert.KernelIdeal.HostVal.edgeRow0 (F := Ideal) ei) (Cert.KernelIdeal.HostVal.edgeRow1 (F := Ideal) ei)
  have y1 := real_fusedBn h1 hγ1 hβ1
  have h2 := real_conv256 (real_prodB y1 hW2) hb2 (Cert.KernelIdeal.HostVal.edgeRow0 (F := Ideal) ei) (Cert.KernelIdeal.HostVal.edgeRow1 (F := Ideal) ei)
  have e1 : Cert.ReferenceIdeal.HostVal.dot512x256 (F := Ideal) x W1 = Cert.GcnSpec.prodA x W1 :=
    Cert.DotBridge.dot512x256_eq x W1
  have e2 : ∀ y : S50000x256.Idx → EReal, Cert.ReferenceIdeal.HostVal.dot256x256 (F := Ideal) y W2 = Cert.GcnSpec.prodB y W2 :=
    fun y => Cert.DotBridge.dot256x256_eq y W2
  have e3 : ∀ y : S50000x256.Idx → EReal, Cert.ReferenceIdeal.HostVal.dot256x64 (F := Ideal) y W3 = Cert.GcnSpec.prodC y W3 :=
    fun y => Cert.DotBridge.dot256x64_eq y W3
  simp only [conv256_eq, conv64_eq]
  rw [e1, plainBn_eq h1 hγ1 hβ1, e2, plainBn_eq h2 hγ2 hβ2, e3]

end Cert.GcnBridge

end
-- ==== Proof.FiniteInputs.lean ====
/-
  Every entry of every float argument is a real number.

  The precondition is the conjunction, over the eleven float arguments, of "every entry's absolute value is
  below +inf".  On the extended reals |x| = max x (−x), and max x (−x) < ⊤ excludes both infinities (the
  absolute value of either is ⊤), so each entry is the image of a real number.  A conjunction of bits is 1
  exactly when both are; a reduction by "and" to a single result that came out 1 met a 1 at every entry.
-/
import proofs.«118705_j84670985273387_1_alg».proof.Pre_finite_inputs
import proofs.«118705_j84670985273387_1_alg».proof.Proof.Gen.Pre_finite_inputs
import proofs.«118705_j84670985273387_1_alg».proof.Defs
import Idealize.ShloMosaic.Lib.ReduceAll

noncomputable section

namespace Cert.GcnFinite

open Idealize.ShloMosaic Idealize.SL.Sem

/-- The shape of a single number has one index. -/
instance : Subsingleton Cert.Pre_finite_inputs.S_.Idx := ⟨fun a b => funext fun d => d.elim0⟩

/-- The word 0x7F800000 is +inf, the top of the extended reals. -/
theorem ofBits_pos_inf : Ideal.ofBits .f32 0x7F800000#32 = ⊤ := by simp [Ideal.ofBits, Ideal.ieee]

/-- An extended real whose absolute value max x (−x) compares below +inf is a real number. -/
theorem real_of_abs_lt_inf (x : EReal)
    (h : Ideal.cmp .olt (max x (-x)) (Ideal.ofBits .f32 0x7F800000#32) = 1#1) : ∃ r : ℝ, x = (r : EReal) := by
  rw [ofBits_pos_inf] at h
  unfold Ideal.cmp at h
  have hlt : max x (-x) < ⊤ := by
    by_contra hn
    simp [hn] at h
  induction x using EReal.rec with
  | bot => simp at hlt
  | coe r => exact ⟨r, rfl⟩
  | top => simp at hlt

/-- One conjunct of the precondition read back: when the "and" over all entries of "|a| < +inf" is the true
    bit, every entry of a is a real number. -/
theorem real_of_all_finite {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (a : FVec Ideal S .f32) (j : Cert.Pre_finite_inputs.S_.Idx)
    (e : Host.reduce IntOp.andi
          (cmpf .olt (Host.absf a) (broadcastInDim S ![] hb (constant (F := Ideal) Cert.Pre_finite_inputs.S_ .f32 0x7F800000#32)))
          (constantI Cert.Pre_finite_inputs.S_ 1 1#1) hr hu j = 1#1) :
    ∀ i, ∃ r : ℝ, a i = (r : EReal) := by
  intro i
  have hi := Host.reduce_andi_all _ _ hr hu j e i
  exact real_of_abs_lt_inf (a i) hi

/-- The one index of a single number. -/
def j0 : Cert.Pre_finite_inputs.S_.Idx := fun d => d.elim0

section Decode
open Cert.Pre_finite_inputs

/-- The precondition, as a function of twelve arrays, read back: when it answers the true bit, every entry
    of each of its eleven float operands is a real number. -/
theorem reals_of_finite_inputs
    {a0 : FVec Ideal S50000x512 .f32} {a1 : IVec S2x800000 32} {a2 : FVec Ideal S512x256 .f32}
    {a3 : FVec Ideal S256 .f32} {a4 : FVec Ideal S256x256 .f32} {a5 : FVec Ideal S256 .f32}
    {a6 : FVec Ideal S256x64 .f32} {a7 : FVec Ideal S64 .f32} {a8 : FVec Ideal S256 .f32}
    {a9 : FVec Ideal S256 .f32} {a10 : FVec Ideal S256 .f32} {a11 : FVec Ideal S256 .f32}
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) ∧ (∀ i, ∃ r : ℝ, a11 i = (r : EReal)) := by
  have e := congrFun h j0
  simp only [Cert.Pre_finite_inputs.fn, fn_part1, fn_part2, fn_part3, andi, IntOp.andi_eq_one] at e
  obtain ⟨⟨⟨⟨⟨⟨⟨⟨⟨⟨e0, e2⟩, e3⟩, e4⟩, e5⟩, e6⟩, e7⟩, e8⟩, e9⟩, e10⟩, e11⟩ := e
  exact ⟨real_of_all_finite _ _ _ a0 _ e0, real_of_all_finite _ _ _ a2 _ e2, real_of_all_finite _ _ _ a3 _ e3,
    real_of_all_finite _ _ _ a4 _ e4, real_of_all_finite _ _ _ a5 _ e5, real_of_all_finite _ _ _ a6 _ e6,
    real_of_all_finite _ _ _ a7 _ e7, real_of_all_finite _ _ _ a8 _ e8, real_of_all_finite _ _ _ a9 _ e9,
    real_of_all_finite _ _ _ a10 _ e10, real_of_all_finite _ _ _ a11 _ e11⟩

end Decode

/-- Every entry of the node features (argument 0, 50000 × 512) is a real number. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (reals_of_finite_inputs (h c)).1

/-- Every entry of the first layer's weights (argument 2, 512 × 256) is a real number. -/
theorem real_arg2 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (reals_of_finite_inputs (h c)).2.1

/-- Every entry of the first layer's bias (argument 3, 256) is a real number. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (reals_of_finite_inputs (h c)).2.2.1

/-- Every entry of the second layer's weights (argument 4, 256 × 256) is a real number. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (reals_of_finite_inputs (h c)).2.2.2.1

/-- Every entry of the second layer's bias (argument 5, 256) is a real number. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (reals_of_finite_inputs (h c)).2.2.2.2.1

/-- Every entry of the third layer's weights (argument 6, 256 × 64) is a real number. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (reals_of_finite_inputs (h c)).2.2.2.2.2.1

/-- Every entry of the third layer's bias (argument 7, 64) is a real number. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg7) i = (r : EReal) :=
  (reals_of_finite_inputs (h c)).2.2.2.2.2.2.1

/-- Every entry of the first batch norm's scale γ (argument 8, 256) is a real number. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) :=
  (reals_of_finite_inputs (h c)).2.2.2.2.2.2.2.1

/-- Every entry of the first batch norm's offset β (argument 9, 256) is a real number. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) :=
  (reals_of_finite_inputs (h c)).2.2.2.2.2.2.2.2.1

/-- Every entry of the second batch norm's scale γ (argument 10, 256) is a real number. -/
theorem real_arg10 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg10) i = (r : EReal) :=
  (reals_of_finite_inputs (h c)).2.2.2.2.2.2.2.2.2.1

/-- Every entry of the second batch norm's offset β (argument 11, 256) is a real number. -/
theorem real_arg11 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg11) i = (r : EReal) :=
  (reals_of_finite_inputs (h c)).2.2.2.2.2.2.2.2.2.2

end Cert.GcnFinite

end
-- ==== Proof.LibMaxMinFold.lean ====
/-
  General facts about maxima and minima taken as folds, at the extended reals.

  1. Grouping. In a linear order the fold of `max` from a start value `b` over a finite family is the least upper bound
     of `b` and the family's terms; so the maximum of four such folds over four sub-families, each from the same `b`,
     is the fold over the whole family as soon as every index lies in one of the four (`b` counted four times is
     harmless: `max` is idempotent). The same for `min` and greatest lower bounds. Nothing is asked of the terms: the
     statements hold at +∞ and −∞.
  2. Reductions over ONE axis read at a result index, with the extended reals as values: a vector `multi_reduction` by
     `minimumf` and the host's one-operand `reduce` with a `maximumf` or `minimumf` body are the fold of `min` / `max`,
     from the initial value, over that axis's coordinates `k`, of the source at the result index with `k` inserted on
     the dropped axis. (For a vector `multi_reduction` by `maximumf` this is the library's
     `Ideal.multiReduction_maximumf_single`.)
-/
import Idealize.ShloMosaic.PureOps.Ideal.Laws
import Mathlib.Data.Finset.Fold

noncomputable section

namespace Cert.MaxMinFold

open Idealize.ShloMosaic

/-! ## Folding over four sub-families that cover the index set -/

section Runs

variable {α : Type} [LinearOrder α] {ι κ : Type} [Fintype ι] [Fintype κ]

/-- The maximum of four partial maxima, each folded from `b` over one sub-family `f ∘ g c`, is the maximum folded from
    `b` over the whole family `f`, when every index of `f` is `g c k` for some `c` and `k`. Both sides are the least upper
    bound of `b` and the terms of `f`. -/
theorem fold_max_runs (b : α) (f : ι → α) (g0 g1 g2 g3 : κ → ι)
    (hcov : ∀ i : ι, ∃ k : κ, g0 k = i ∨ g1 k = i ∨ g2 k = i ∨ g3 k = i) :
    max (max (max (Finset.univ.fold max b (f ∘ g0)) (Finset.univ.fold max b (f ∘ g1)))
        (Finset.univ.fold max b (f ∘ g2))) (Finset.univ.fold max b (f ∘ g3))
      = Finset.univ.fold max b f := by
  have hb : ∀ g : κ → ι, b ≤ Finset.univ.fold max b (f ∘ g) := fun g =>
    (Finset.le_fold_max _).2 (Or.inl le_rfl)
  have hk : ∀ (g : κ → ι) (k : κ), f (g k) ≤ Finset.univ.fold max b (f ∘ g) := fun g k =>
    (Finset.le_fold_max _).2 (Or.inr ⟨k, Finset.mem_univ k, le_rfl⟩)
  have hrun : ∀ g : κ → ι, Finset.univ.fold max b (f ∘ g) ≤ Finset.univ.fold max b f := fun g =>
    (Finset.fold_max_le _).2 ⟨(Finset.le_fold_max _).2 (Or.inl le_rfl),
      fun k _ => (Finset.le_fold_max _).2 (Or.inr ⟨g k, Finset.mem_univ _, le_rfl⟩)⟩
  apply le_antisymm
  · exact max_le (max_le (max_le (hrun g0) (hrun g1)) (hrun g2)) (hrun g3)
  · refine (Finset.fold_max_le _).2 ⟨?_, fun i _ => ?_⟩
    · exact le_max_of_le_right (hb g3)
    · obtain ⟨k, h | h | h | h⟩ := hcov i
      · rw [← h]; exact le_max_of_le_left (le_max_of_le_left (le_max_of_le_left (hk g0 k)))
      · rw [← h]; exact le_max_of_le_left (le_max_of_le_left (le_max_of_le_right (hk g1 k)))
      · rw [← h]; exact le_max_of_le_left (le_max_of_le_right (hk g2 k))
      · rw [← h]; exact le_max_of_le_right (hk g3 k)

/-- The same for the minimum: both sides are the greatest lower bound of `b` and the terms of `f`. -/
theorem fold_min_runs (b : α) (f : ι → α) (g0 g1 g2 g3 : κ → ι)
    (hcov : ∀ i : ι, ∃ k : κ, g0 k = i ∨ g1 k = i ∨ g2 k = i ∨ g3 k = i) :
    min (min (min (Finset.univ.fold min b (f ∘ g0)) (Finset.univ.fold min b (f ∘ g1)))
        (Finset.univ.fold min b (f ∘ g2))) (Finset.univ.fold min b (f ∘ g3))
      = Finset.univ.fold min b f := by
  have hb : ∀ g : κ → ι, Finset.univ.fold min b (f ∘ g) ≤ b := fun g =>
    (Finset.fold_min_le _).2 (Or.inl le_rfl)
  have hk : ∀ (g : κ → ι) (k : κ), Finset.univ.fold min b (f ∘ g) ≤ f (g k) := fun g k =>
    (Finset.fold_min_le _).2 (Or.inr ⟨k, Finset.mem_univ k, le_rfl⟩)
  have hrun : ∀ g : κ → ι, Finset.univ.fold min b f ≤ Finset.univ.fold min b (f ∘ g) := fun g =>
    (Finset.le_fold_min _).2 ⟨(Finset.fold_min_le _).2 (Or.inl le_rfl),
      fun k _ => (Finset.fold_min_le _).2 (Or.inr ⟨g k, Finset.mem_univ _, le_rfl⟩)⟩
  apply le_antisymm
  · refine (Finset.le_fold_min _).2 ⟨?_, fun i _ => ?_⟩
    · exact min_le_of_right_le (hb g3)
    · obtain ⟨k, h | h | h | h⟩ := hcov i
      · rw [← h]; exact min_le_of_left_le (min_le_of_left_le (min_le_of_left_le (hk g0 k)))
      · rw [← h]; exact min_le_of_left_le (min_le_of_left_le (min_le_of_right_le (hk g1 k)))
      · rw [← h]; exact min_le_of_left_le (min_le_of_right_le (hk g2 k))
      · rw [← h]; exact min_le_of_right_le (hk g3 k)
  · exact le_min (le_min (le_min (hrun g0) (hrun g1)) (hrun g2)) (hrun g3)

end Runs

/-! ## One-axis reductions at the extended reals, read at a result index -/

section OneAxis

variable {s t : Shape} {a : Fin s.rank}

/-- A float vector `multi_reduction` by `minimumf` over one axis, at the extended reals: the fold of `min`, from the
    accumulator word's value, over that axis's coordinates. -/
theorem multiReduction_minimumf_single {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The host's one-operand `reduce` with a `maximumf` body over one axis, at the extended reals: the fold of `max`, from
    the initial value's element, over that axis's coordinates. -/
theorem hostReduce_maximumf_single {u : Shape} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single (FloatOps.maximumf (F := Ideal) (φ := φ)) x init h' h hu j

/-- The same with a `minimumf` body: the fold of `min`. -/
theorem hostReduce_minimumf_single {u : Shape} {φ : FTy} (x : s.Idx → EReal) (init : u.Idx → EReal)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end OneAxis

end Cert.MaxMinFold

end
-- ==== Proof.LogSoftmaxRead.lean ====
/-
  THE REFERENCE'S LOG-SOFTMAX READ AT AN ENTRY.

  Over the 64 columns of each of 50000 rows the reference takes the row maximum M (a maximum started from −∞, then
  once more against −∞, which changes nothing), subtracts it, exponentiates, sums the row (from zero, which changes
  nothing), takes the logarithm, and subtracts that from the shifted entry. At entry (p, q) this is
      (a[p,q] − M p) − log Σ_k exp(a[p,k] − M p),        M p = max_k a[p,k] folded from the bottom element.
  The steps: a maximum or a sum along the column axis is a fold or a sum over the 64 column coordinates of row p; a
  vector kept as a column and broadcast across the row reads, at (p, q), the vector's entry p.
-/
import proofs.«118705_j84670985273387_1_alg».proof.Proof.RefHost
import proofs.«118705_j84670985273387_1_alg».proof.Proof.LibMaxMinFold
import proofs.«118705_j84670985273387_1_alg».proof.Proof.LibBitFolds
import proofs.«118705_j84670985273387_1_alg».proof.Proof.LibRowSum
import proofs.«118705_j84670985273387_1_alg».proof.Proof.LibSoftmaxRows
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.LsmRead

open Cert.ReferenceIdeal Cert.ReferenceIdeal.Gen Cert.ReferenceIdeal.HostVal
open Idealize.ShloMosaic Idealize.ShloMosaic.ValueIdx
open Cert.SoftmaxLib (rowTop)
open scoped BigOperators

/-! ## A vector kept as a column, and a column broadcast across the row -/

/-- A vector [50000] kept as a column [50000, 1] reads, at (p, u), the vector's entry p. -/
theorem column_apply {α : Type} (x : S50000.Idx → α) (h : S50000.BroadcastsInDim S50000x1 ![0]) (p : Fin 50000)
    (u : Fin 1) : broadcastInDim S50000x1 ![0] h x (ix2 p u) = x (ix1 p) :=
  broadcastInDim_apply _ h x _ _ fun a => by
    match a with
    | ⟨0, _⟩ => exact (if_neg (show ¬ (50000 : ℕ) = 1 by decide)).symm

/-- A column [50000, 1] broadcast to [50000, 64] reads, at (p, q), the column's entry of row p. -/
theorem across_apply {α : Type} (y : S50000x1.Idx → α) (h : S50000x1.BroadcastsInDim S50000x64 ![0, 1]) (p : Fin 50000)
    (q : Fin 64) : broadcastInDim S50000x64 ![0, 1] h y (ix2 p q) = y (ix2 p (0 : Fin 1)) :=
  broadcastInDim_apply _ h y _ _ fun a => by
    match a with
    | ⟨0, _⟩ => exact (if_neg (show ¬ (50000 : ℕ) = 1 by decide)).symm
    | ⟨1, _⟩ => exact (if_pos (show (1 : ℕ) = 1 from rfl)).symm

/-- Both together: a vector broadcast across the rows reads, at (p, q), its entry p. -/
theorem column_across_apply {α : Type} (x : S50000.Idx → α) (h1 : S50000.BroadcastsInDim S50000x1 ![0])
    (h2 : S50000x1.BroadcastsInDim S50000x64 ![0, 1]) (p : Fin 50000) (q : Fin 64) :
    broadcastInDim S50000x64 ![0, 1] h2 (broadcastInDim S50000x1 ![0] h1 x) (ix2 p q) = x (ix1 p) := by
  rw [across_apply, column_apply]

/-! ## Single operations read at an index -/

/-- The −∞ word broadcast to a vector is the bottom element everywhere. -/
theorem negInf_apply (h0 : S_.BroadcastsInDim S50000 ![]) (i : S50000.Idx) :
    broadcastInDim S50000 ![] h0 (constant (F := Ideal) S_ .f32 0xFF800000#32) i = (⊥ : EReal) :=
  Cert.BitFolds.ofBits_neg_inf_f32

/-- The host's exponential, entry by entry. -/
theorem hostExp_apply {S : Shape} (x : FVec Ideal S .f32) (i : S.Idx) :
    Host.exp (F := Ideal) x i = Ideal.exp (x i) := rfl

/-- The host's logarithm, entry by entry. -/
theorem hostLog_apply {S : Shape} (x : FVec Ideal S .f32) (i : S.Idx) :
    Host.log (F := Ideal) x i = Ideal.log (x i) := rfl

/-! ## The two reductions along the columns -/

/-- The host's maximum along the columns from the −∞ word: at row p, the largest entry of the row. -/
theorem hostRowMax_apply (a : S50000x64.Idx → EReal) (h' : S50000x64.ReducesTo [1] S50000) (hu : 0 < S_.numel)
    (p : Fin 50000) :
    Host.reduce (FloatOps.maximumf (F := Ideal) (φ := .f32)) a (constant (F := Ideal) S_ .f32 0xFF800000#32) h' hu
      (ix1 p) = rowTop (fun k : Fin 64 => a (ix2 p k)) := by
  have h : S50000x64.Reduces [1] S50000 := by decide
  rw [Cert.MaxMinFold.hostReduce_maximumf_single (φ := .f32) a _ h' h hu (ix1 p)]
  show (Finset.univ : Finset (Fin 64)).fold max (Ideal.ofBits .f32 0xFF800000#32) (a ∘ h.lift (ix1 p)) = _
  rw [Cert.BitFolds.ofBits_neg_inf_f32]
  unfold rowTop
  refine congrArg (fun f => (Finset.univ : Finset (Fin 64)).fold max (⊥ : EReal) f) ?_
  funext k
  exact congrArg a (Idealize.ShloMosaic.RowSum.lift_row h p k)

/-- The host's sum along the columns from the zero word: at row p, the sum of the row. -/
theorem hostRowSum_apply (e : FVec Ideal S50000x64 .f32) (h' : S50000x64.ReducesTo [1] S50000) (hu : 0 < S_.numel)
    (p : Fin 50000) :
    Host.reduceAdd (F := Ideal) e (constant (F := Ideal) S_ .f32 0x00000000#32) h' hu (ix1 p)
      = ∑ k : Fin 64, e (ix2 p k) := by
  have h : S50000x64.Reduces [1] S50000 := by decide
  show Ideal.hostReduceAdd h' e (Ideal.ofBits .f32 0x00000000#32) (ix1 p) = _
  rw [Ideal.hostReduceAdd_single h' h, Ideal.ofBits_zero_f32, zero_add]
  exact Finset.sum_congr rfl fun k _ => congrArg e (Idealize.ShloMosaic.RowSum.lift_row h p k)

/-! ## The function, operation by operation, over arbitrary witnesses of its shape facts -/

section Steps
variable (h0 : S_.BroadcastsInDim S50000 ![]) (h1 : S50000.BroadcastsInDim S50000x1 ![0])
  (h2 : S50000x1.BroadcastsInDim S50000x64 ![0, 1]) (h' : S50000x64.ReducesTo [1] S50000) (hu : 0 < S_.numel)
  (a : FVec Ideal S50000x64 .f32)

/-- The row maxima as computed: the reduction, then once more against −∞. -/
def maxima : FVec Ideal S50000 .f32 :=
  maximumf (F := Ideal) (broadcastInDim S50000 ![] h0 (constant (F := Ideal) S_ .f32 0xFF800000#32))
    (Host.reduce (FloatOps.maximumf (F := Ideal) (φ := .f32)) a (constant (F := Ideal) S_ .f32 0xFF800000#32) h' hu)

/-- The entries less their row's maximum. -/
def shifted : FVec Ideal S50000x64 .f32 :=
  subf (F := Ideal) a (broadcastInDim S50000x64 ![0, 1] h2 (broadcastInDim S50000x1 ![0] h1 (maxima h0 h' hu a)))

/-- The shifted entries less the logarithm of their row's sum of exponentials. -/
def result : FVec Ideal S50000x64 .f32 :=
  subf (F := Ideal) (shifted h0 h1 h2 h' hu a)
    (broadcastInDim S50000x64 ![0, 1] h2 (Host.log (F := Ideal) (broadcastInDim S50000x1 ![0] h1
      (Host.reduceAdd (F := Ideal) (Host.exp (F := Ideal) (shifted h0 h1 h2 h' hu a))
        (constant (F := Ideal) S_ .f32 0x00000000#32) h' hu))))

/-- The maximum against −∞ changes nothing: the computed maximum of row p is the largest entry of the row. -/
theorem maxima_apply (p : Fin 50000) : maxima h0 h' hu a (ix1 p) = rowTop (fun k : Fin 64 => a (ix2 p k)) := by
  unfold maxima
  rw [maximumf_apply, negInf_apply, hostRowMax_apply]
  exact max_bot_left _

theorem shifted_apply (p : Fin 50000) (k : Fin 64) :
    shifted h0 h1 h2 h' hu a (ix2 p k) = a (ix2 p k) - rowTop (fun k : Fin 64 => a (ix2 p k)) := by
  unfold shifted
  rw [subf_apply, column_across_apply, maxima_apply]

theorem result_apply (p : Fin 50000) (q : Fin 64) :
    result h0 h1 h2 h' hu a (ix2 p q)
      = (a (ix2 p q) - rowTop (fun k : Fin 64 => a (ix2 p k)))
        - Ideal.log (∑ k : Fin 64, Ideal.exp (a (ix2 p k) - rowTop (fun k : Fin 64 => a (ix2 p k)))) := by
  unfold result
  rw [subf_apply, shifted_apply, across_apply, hostLog_apply, column_apply, hostRowSum_apply]
  refine congrArg (fun s => (a (ix2 p q) - rowTop (fun k : Fin 64 => a (ix2 p k))) - Ideal.log s) ?_
  refine Finset.sum_congr rfl fun k _ => ?_
  rw [hostExp_apply, shifted_apply]

end Steps

/-! ## The reference's function -/

/-- The reference's function is this composition at the program's own witnesses of its shape facts: the same
    operations in the same order. -/
theorem logSoftmax64_eq_result (a : (⟨S50000x64, .f32⟩ : BufTy).Contents (Elt Ideal)) :
    logSoftmax64 (F := Ideal) a
      = result bcast_S_S50000 bcast_S50000_S50000x1_0 bcast_S50000x1_S50000x64_0_1 reducesTo_S50000x64_S50000_d1 h_S_ a := by
  unfold logSoftmax64 result shifted maxima
  rfl

/-- THE READ: the reference's log-softmax at entry (p, q). -/
theorem logSoftmax64_apply (a : (⟨S50000x64, .f32⟩ : BufTy).Contents (Elt Ideal)) (p : Fin 50000) (q : Fin 64) :
    logSoftmax64 (F := Ideal) a (ix2 p q)
      = (a (ix2 p q) - rowTop (fun k : Fin 64 => a (ix2 p k)))
        - Ideal.log (∑ k : Fin 64, Ideal.exp (a (ix2 p k) - rowTop (fun k : Fin 64 => a (ix2 p k)))) := by
  rw [logSoftmax64_eq_result, result_apply]

/-- The same for the whole array: every index is (its row, its column). -/
theorem logSoftmax64_eq (a : (⟨S50000x64, .f32⟩ : BufTy).Contents (Elt Ideal)) :
    logSoftmax64 (F := Ideal) a = fun i =>
      (a i - rowTop (fun k : Fin 64 => a (ix2 (n0 := 50000) (n1 := 64) (i 0) k)))
        - Ideal.log (∑ k : Fin 64, Ideal.exp (a (ix2 (n0 := 50000) (n1 := 64) (i 0) k)
            - rowTop (fun k : Fin 64 => a (ix2 (n0 := 50000) (n1 := 64) (i 0) k)))) := by
  funext i
  obtain ⟨p, q, rfl⟩ : ∃ (p : Fin 50000) (q : Fin 64), i = ix2 p q := ⟨i 0, i 1, eq_ix2 i⟩
  exact logSoftmax64_apply a p q

end Cert.ReferenceIdeal.LsmRead
-- ==== Proof.Claims.lean ====
/-
  The five claims. The kernel's two frames are the generated frames; the reference's frame is its run with the
  result dropped (every buffer ends at the fold of its operations over the launch memory, and no operation writes
  an argument). The idealization rewrote nothing, so there is nothing to preserve. At the ideal instance both
  programs end with the row-wise log-softmax of the network's third-layer aggregate of the arguments: the kernel's
  run leaves it by the chain of its boundaries, the reference's run by the composition of its stages; the two
  statements of the network agree because every float argument is real (the precondition), and the host's
  log-softmax is the region's, entry by entry.
-/
import proofs.«118705_j84670985273387_1_alg».proof.Defs
import proofs.«118705_j84670985273387_1_alg».proof.Proof.Gen.Kernel.Frame
import proofs.«118705_j84670985273387_1_alg».proof.Proof.Gen.KernelIdeal.Frame
import proofs.«118705_j84670985273387_1_alg».proof.Proof.KernelRun
import proofs.«118705_j84670985273387_1_alg».proof.Proof.KernelValue
import proofs.«118705_j84670985273387_1_alg».proof.Proof.RefValue
import proofs.«118705_j84670985273387_1_alg».proof.Proof.GcnBridge
import proofs.«118705_j84670985273387_1_alg».proof.Proof.FiniteInputs
import proofs.«118705_j84670985273387_1_alg».proof.Proof.LogSoftmaxRead

set_option maxRecDepth 16384

noncomputable section

namespace Cert.Proof.Claims

open Idealize.ShloMosaic Idealize.ShloMosaic.TcCoe Idealize.SL.Sem Idealize.ShloMosaic.StableHlo

theorem frame_p : Cert.frame_Kernel := fun m ρ _ => Cert.Kernel.Gen.frame m ρ
theorem frame_pi : Cert.frame_KernelIdeal := fun m ρ _ => Cert.KernelIdeal.Gen.frame m ρ

/-- The reference terminates without a fault and leaves its arguments as launched. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.kept_arg0 _),
     (h c Cert.ReferenceIdeal.main_arg1).trans (Cert.ReferenceIdeal.RefRun.kept_arg1 _),
     (h c Cert.ReferenceIdeal.main_arg2).trans (Cert.ReferenceIdeal.RefRun.kept_arg2 _),
     (h c Cert.ReferenceIdeal.main_arg3).trans (Cert.ReferenceIdeal.RefRun.kept_arg3 _),
     (h c Cert.ReferenceIdeal.main_arg4).trans (Cert.ReferenceIdeal.RefRun.kept_arg4 _),
     (h c Cert.ReferenceIdeal.main_arg5).trans (Cert.ReferenceIdeal.RefRun.kept_arg5 _),
     (h c Cert.ReferenceIdeal.main_arg6).trans (Cert.ReferenceIdeal.RefRun.kept_arg6 _),
     (h c Cert.ReferenceIdeal.main_arg7).trans (Cert.ReferenceIdeal.RefRun.kept_arg7 _),
     (h c Cert.ReferenceIdeal.main_arg8).trans (Cert.ReferenceIdeal.RefRun.kept_arg8 _),
     (h c Cert.ReferenceIdeal.main_arg9).trans (Cert.ReferenceIdeal.RefRun.kept_arg9 _),
     (h c Cert.ReferenceIdeal.main_arg10).trans (Cert.ReferenceIdeal.RefRun.kept_arg10 _),
     (h c Cert.ReferenceIdeal.main_arg11).trans (Cert.ReferenceIdeal.RefRun.kept_arg11 _)⟩)
    (Cert.ReferenceIdeal.RefRun.run_main (F := Ideal) m ρ)

/-- The idealization pass rewrote no operation. -/
theorem preserves : Cert.preserves_Kernel_KernelIdeal := trivial

/-- The host's log-softmax is the region's, as whole-array functions. -/
theorem logSoftmax_eq (a : Cert.KernelIdeal.S50000x64.Idx → EReal) :
    Cert.ReferenceIdeal.HostVal.logSoftmax64 (F := Ideal) a = Cert.KernelIdeal.RegVal.logSoftmaxRows a :=
  Cert.ReferenceIdeal.LsmRead.logSoftmax64_eq a

/-- Both programs, at the ideal instance, from memories agreeing on the arguments, end with equal results. -/
theorem algebraic : Cert.algebraic_KernelIdeal_ReferenceIdeal := by
  intro m g m' g' hpre hagree
  refine ⟨fun c => Cert.KernelIdeal.RegVal.logSoftmaxRows (Cert.GcnSpec.kernelLogits
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))), ?_, ?_⟩
  · exact (θ_run Cert.KernelIdeal.defs _ _).mono
      (fun r h c => ⟨(h c).1.trans (Cert.KernelIdeal.Final.result m g c), (h c).2⟩)
      (Cert.KernelIdeal.RunNamed.run_named m g)
  · refine (θ_run Cert.ReferenceIdeal.defs _ _).mono (fun r h c =>
      ⟨(h c Cert.ReferenceIdeal.main_v176).trans ?_,
       (h c Cert.ReferenceIdeal.main_arg0).trans (Cert.ReferenceIdeal.RefRun.kept_arg0 _),
       (h c Cert.ReferenceIdeal.main_arg1).trans (Cert.ReferenceIdeal.RefRun.kept_arg1 _),
       (h c Cert.ReferenceIdeal.main_arg2).trans (Cert.ReferenceIdeal.RefRun.kept_arg2 _),
       (h c Cert.ReferenceIdeal.main_arg3).trans (Cert.ReferenceIdeal.RefRun.kept_arg3 _),
       (h c Cert.ReferenceIdeal.main_arg4).trans (Cert.ReferenceIdeal.RefRun.kept_arg4 _),
       (h c Cert.ReferenceIdeal.main_arg5).trans (Cert.ReferenceIdeal.RefRun.kept_arg5 _),
       (h c Cert.ReferenceIdeal.main_arg6).trans (Cert.ReferenceIdeal.RefRun.kept_arg6 _),
       (h c Cert.ReferenceIdeal.main_arg7).trans (Cert.ReferenceIdeal.RefRun.kept_arg7 _),
       (h c Cert.ReferenceIdeal.main_arg8).trans (Cert.ReferenceIdeal.RefRun.kept_arg8 _),
       (h c Cert.ReferenceIdeal.main_arg9).trans (Cert.ReferenceIdeal.RefRun.kept_arg9 _),
       (h c Cert.ReferenceIdeal.main_arg10).trans (Cert.ReferenceIdeal.RefRun.kept_arg10 _),
       (h c Cert.ReferenceIdeal.main_arg11).trans (Cert.ReferenceIdeal.RefRun.kept_arg11 _)⟩)
      (Cert.ReferenceIdeal.RefRun.run_main (F := Ideal) m' g')
    rw [Cert.ReferenceIdeal.RefRun.ref_value]
    show Cert.ReferenceIdeal.HostVal.logSoftmax64 (F := Ideal) (Cert.RefSpec.refLogits
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    rw [Cert.GcnBridge.logits_eq _ _ _
      (Cert.GcnFinite.real_arg0 m hpre c)
      (Cert.GcnFinite.real_arg2 m hpre c)
      (Cert.GcnFinite.real_arg3 m hpre c)
      (Cert.GcnFinite.real_arg4 m hpre c)
      (Cert.GcnFinite.real_arg5 m hpre c)
      (Cert.GcnFinite.real_arg8 m hpre c)
      (Cert.GcnFinite.real_arg9 m hpre c)
      (Cert.GcnFinite.real_arg10 m hpre c)
      (Cert.GcnFinite.real_arg11 m hpre c)]
    exact logSoftmax_eq _

end Cert.Proof.Claims

end
-- ==== Proof.lean ====
/-
  The certificate of a three-layer graph convolution network computed with six kernels — three matrix products
  (each layer's projection x @ W, in row blocks of 2000 nodes), two fused batch-norm-and-positive-part kernels and a
  row-wise log-softmax kernel — among host arithmetic (degree weights, edge coefficients, gather and scatter-add
  aggregation, column statistics), against the same network written with plain array operations.
  Frames: the kernel's program, read at words and at extended reals, and the reference all terminate without a
  fault and leave their arguments as launched. The idealization rewrote nothing. At the ideal instance the two
  programs' results are equal: both are the row-wise log-softmax of the third layer's aggregate, where the kernel's
  fused batch norm h·(gamma·s) + (beta − (mean·gamma)·s) and the reference's plain ((h − mean)·s)·gamma + beta agree
  because every quantity in them is a real number when the float inputs are finite (Proof/Claims.lean).
-/
import proofs.«118705_j84670985273387_1_alg».proof.Defs
import proofs.«118705_j84670985273387_1_alg».proof.Proof.Gen.Kernel
import proofs.«118705_j84670985273387_1_alg».proof.Proof.Gen.KernelIdeal
import proofs.«118705_j84670985273387_1_alg».proof.Proof.Gen.ReferenceIdeal
import proofs.«118705_j84670985273387_1_alg».proof.Proof.Gen.Pre_finite_inputs
import proofs.«118705_j84670985273387_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
